-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S25000 : Shape := ⟨1, ![25000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x40 .f32) (main_arg12 : FVec F S40 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg11
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x40 .f32) (main_arg12 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x600000 32) (main_arg2 : IVec S25000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x40 .f32) (main_arg12 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S25000 : Shape := ⟨1, ![25000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S2000x128 : Shape := ⟨2, ![2000, 128]⟩
abbrev S50000x1x128 : Shape := ⟨3, ![50000, 1, 128]⟩
abbrev S600000x1x128 : Shape := ⟨3, ![600000, 1, 128]⟩
abbrev S600000x1x1 : Shape := ⟨3, ![600000, 1, 1]⟩
abbrev S600000x128 : Shape := ⟨2, ![600000, 128]⟩
abbrev S1x128 : Shape := ⟨2, ![1, 128]⟩
abbrev S2000x1 : Shape := ⟨2, ![2000, 1]⟩
abbrev S50000x2x128 : Shape := ⟨3, ![50000, 2, 128]⟩
abbrev S600000x2x128 : Shape := ⟨3, ![600000, 2, 128]⟩
abbrev S600000x256 : Shape := ⟨2, ![600000, 256]⟩
abbrev S50000x256 : Shape := ⟨2, ![50000, 256]⟩
abbrev S50000x3x128 : Shape := ⟨3, ![50000, 3, 128]⟩
abbrev S600000x3x128 : Shape := ⟨3, ![600000, 3, 128]⟩
abbrev S600000x384 : Shape := ⟨2, ![600000, 384]⟩
abbrev S50000x384 : Shape := ⟨2, ![50000, 384]⟩
abbrev S2000 : Shape := ⟨1, ![2000]⟩
abbrev S25000x1 : Shape := ⟨2, ![25000, 1]⟩
abbrev S25000x128 : Shape := ⟨2, ![25000, 128]⟩
abbrev S25000x40 : Shape := ⟨2, ![25000, 40]⟩

abbrev nBuf : Space → Nat
  | .hbm => 163
  | .vmem => 89
  | .smem => 0
  | _ => 0

abbrev hbmTy0_0 (i : Nat) : BufTy := match i % 128 with
  | 0 => ⟨S50000x128, .f32⟩
  | 1 => ⟨S2x600000, .i32⟩
  | 2 => ⟨S25000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x40, .f32⟩
  | 12 => ⟨S40, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000, .f32⟩
  | 28 => ⟨S50000x1, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S50000x128, .f32⟩
  | 49 => ⟨S50000x1x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x1x128, .f32⟩
  | 59 => ⟨S600000x1x1, .f32⟩
  | 60 => ⟨S600000x1x128, .f32⟩
  | 61 => ⟨S600000x1x128, .f32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S1x128, .f32⟩
  | 68 => ⟨S50000x128, .f32⟩
  | 69 => ⟨S50000x128, .f32⟩
  | 70 => ⟨S50000x1x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x1x128, .f32⟩
  | 80 => ⟨S600000x1x1, .f32⟩
  | 81 => ⟨S600000x1x128, .f32⟩
  | 82 => ⟨S600000x1x128, .f32⟩
  | 83 => ⟨S600000x128, .f32⟩
  | 84 => ⟨S_, .f32⟩
  | 85 => ⟨S50000x128, .f32⟩
  | 86 => ⟨S600000x1, .i32⟩
  | 87 => ⟨S50000x128, .f32⟩
  | 88 => ⟨S1x128, .f32⟩
  | 89 => ⟨S50000x128, .f32⟩
  | 90 => ⟨S50000x128, .f32⟩
  | 91 => ⟨S50000x128, .f32⟩
  | 92 => ⟨S50000x1x128, .f32⟩
  | 93 => ⟨S50000x1x128, .f32⟩
  | 94 => ⟨S50000x2x128, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x2x128, .f32⟩
  | 104 => ⟨S600000x1x1, .f32⟩
  | 105 => ⟨S600000x2x128, .f32⟩
  | 106 => ⟨S600000x2x128, .f32⟩
  | 107 => ⟨S600000x256, .f32⟩
  | 108 => ⟨S_, .f32⟩
  | 109 => ⟨S50000x256, .f32⟩
  | 110 => ⟨S600000x1, .i32⟩
  | 111 => ⟨S50000x256, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S50000x128, .f32⟩
  | 119 => ⟨S50000x1x128, .f32⟩
  | 120 => ⟨S50000x1x128, .f32⟩
  | 121 => ⟨S50000x1x128, .f32⟩
  | 122 => ⟨S50000x3x128, .f32⟩
  | 123 => ⟨S_, .i32⟩
  | 124 => ⟨S600000, .i32⟩
  | 125 => ⟨S600000, .i1⟩
  | 126 => ⟨S_, .i32⟩
  | 127 => ⟨S600000, .i32⟩
  | _ => ⟨S50000x128, .f32⟩

abbrev hbmTy0_1 (i : Nat) : BufTy := match i % 128 with
  | 0 => ⟨S600000, .i32⟩
  | 1 => ⟨S600000, .i32⟩
  | 2 => ⟨S600000x1, .i32⟩
  | 3 => ⟨S600000x3x128, .f32⟩
  | 4 => ⟨S600000x1x1, .f32⟩
  | 5 => ⟨S600000x3x128, .f32⟩
  | 6 => ⟨S600000x3x128, .f32⟩
  | 7 => ⟨S600000x384, .f32⟩
  | 8 => ⟨S_, .f32⟩
  | 9 => ⟨S50000x384, .f32⟩
  | 10 => ⟨S600000x1, .i32⟩
  | 11 => ⟨S50000x384, .f32⟩
  | 12 => ⟨S50000x128, .f32⟩
  | 13 => ⟨S50000x128, .f32⟩
  | 14 => ⟨S50000x128, .f32⟩
  | 15 => ⟨S1x128, .f32⟩
  | 16 => ⟨S50000x128, .f32⟩
  | 17 => ⟨S_, .i32⟩
  | 18 => ⟨S_, .f32⟩
  | 19 => ⟨S128x128, .f32⟩
  | 20 => ⟨S_, .i32⟩
  | 21 => ⟨S_, .f32⟩
  | 22 => ⟨S128, .f32⟩
  | 23 => ⟨S1x128, .f32⟩
  | 24 => ⟨S50000x128, .f32⟩
  | 25 => ⟨S_, .i32⟩
  | 26 => ⟨S25000, .i32⟩
  | 27 => ⟨S25000, .i1⟩
  | 28 => ⟨S_, .i32⟩
  | 29 => ⟨S25000, .i32⟩
  | 30 => ⟨S25000, .i32⟩
  | 31 => ⟨S25000, .i32⟩
  | 32 => ⟨S25000x1, .i32⟩
  | 33 => ⟨S25000x128, .f32⟩
  | 34 => ⟨S25000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S128x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x1, .f32⟩
  | .local _ .vmem, ⟨47, _⟩ => ⟨S2000x1, .f32⟩
  | .local _ .vmem, ⟨48, _⟩ => ⟨S1x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S128x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S128x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S128x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S2000x1, .f32⟩
  | .local _ .vmem, ⟨79, _⟩ => ⟨S2000x1, .f32⟩
  | .local _ .vmem, ⟨80, _⟩ => ⟨S1x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S128x128, .f32⟩
  | .local _ .vmem, ⟨86, _⟩ => ⟨S1x128, .f32⟩
  | .local _ .vmem, ⟨87, _⟩ => ⟨S2000x128, .f32⟩
  | .local _ .vmem, ⟨88, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_11 : Ref sig .tc := ⟨.hbm, 95, rfl⟩
abbrev main_v69 : Ref sig .tc := ⟨.hbm, 96, rfl⟩
abbrev main_v70 : Ref sig .tc := ⟨.hbm, 97, rfl⟩
abbrev main_c_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_14 : Ref sig .tc := ⟨.hbm, 123, rfl⟩
abbrev main_v94 : Ref sig .tc := ⟨.hbm, 124, rfl⟩
abbrev main_v95 : Ref sig .tc := ⟨.hbm, 125, rfl⟩
abbrev main_c_15 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_16 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_c_17 : Ref sig .tc := ⟨.hbm, 145, rfl⟩
abbrev main_call0_v0 : Ref sig .tc := ⟨.hbm, 146, rfl⟩
abbrev main_v113 : Ref sig .tc := ⟨.hbm, 147, rfl⟩
abbrev main_c_18 : Ref sig .tc := ⟨.hbm, 148, rfl⟩
abbrev main_call1_v0 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_19 : Ref sig .tc := ⟨.hbm, 153, rfl⟩
abbrev main_v117 : Ref sig .tc := ⟨.hbm, 154, rfl⟩
abbrev main_v118 : Ref sig .tc := ⟨.hbm, 155, rfl⟩
abbrev main_c_20 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg6_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg2_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg1_1 : Ref sig .tc := ⟨.vmem, 69, rfl⟩
abbrev cc10_stg2_0 : Ref sig .tc := ⟨.vmem, 70, rfl⟩
abbrev cc10_stg2_1 : Ref sig .tc := ⟨.vmem, 71, rfl⟩
abbrev cc10_stg3_0 : Ref sig .tc := ⟨.vmem, 72, rfl⟩
abbrev cc10_stg3_1 : Ref sig .tc := ⟨.vmem, 73, rfl⟩
abbrev cc10_stg4_0 : Ref sig .tc := ⟨.vmem, 74, rfl⟩
abbrev cc10_stg4_1 : Ref sig .tc := ⟨.vmem, 75, rfl⟩
abbrev cc10_stg5_0 : Ref sig .tc := ⟨.vmem, 76, rfl⟩
abbrev cc10_stg5_1 : Ref sig .tc := ⟨.vmem, 77, rfl⟩
abbrev cc10_stg6_0 : Ref sig .tc := ⟨.vmem, 78, rfl⟩
abbrev cc10_stg6_1 : Ref sig .tc := ⟨.vmem, 79, rfl⟩
abbrev cc10_stg7_0 : Ref sig .tc := ⟨.vmem, 80, rfl⟩
abbrev cc10_stg8_0 : Ref sig .tc := ⟨.vmem, 81, rfl⟩
abbrev cc10_stg8_1 : Ref sig .tc := ⟨.vmem, 82, rfl⟩
abbrev cc11_stg0_0 : Ref sig .tc := ⟨.vmem, 83, rfl⟩
abbrev cc11_stg0_1 : Ref sig .tc := ⟨.vmem, 84, rfl⟩
abbrev cc11_stg1_0 : Ref sig .tc := ⟨.vmem, 85, rfl⟩
abbrev cc11_stg2_0 : Ref sig .tc := ⟨.vmem, 86, rfl⟩
abbrev cc11_stg3_0 : Ref sig .tc := ⟨.vmem, 87, rfl⟩
abbrev cc11_stg3_1 : Ref sig .tc := ⟨.vmem, 88, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc6_sem4_0 : DmaSem sig := 46
abbrev cc6_sem4_1 : DmaSem sig := 47
abbrev cc6_sem5_0 : DmaSem sig := 48
abbrev cc6_sem6_0 : DmaSem sig := 49
abbrev cc6_sem6_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem2_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem2_0 : DmaSem sig := 64
abbrev cc9_sem2_1 : DmaSem sig := 65
abbrev cc10_sem0_0 : DmaSem sig := 66
abbrev cc10_sem0_1 : DmaSem sig := 67
abbrev cc10_sem1_0 : DmaSem sig := 68
abbrev cc10_sem1_1 : DmaSem sig := 69
abbrev cc10_sem2_0 : DmaSem sig := 70
abbrev cc10_sem2_1 : DmaSem sig := 71
abbrev cc10_sem3_0 : DmaSem sig := 72
abbrev cc10_sem3_1 : DmaSem sig := 73
abbrev cc10_sem4_0 : DmaSem sig := 74
abbrev cc10_sem4_1 : DmaSem sig := 75
abbrev cc10_sem5_0 : DmaSem sig := 76
abbrev cc10_sem5_1 : DmaSem sig := 77
abbrev cc10_sem6_0 : DmaSem sig := 78
abbrev cc10_sem6_1 : DmaSem sig := 79
abbrev cc10_sem7_0 : DmaSem sig := 80
abbrev cc10_sem8_0 : DmaSem sig := 81
abbrev cc10_sem8_1 : DmaSem sig := 82
abbrev cc11_sem0_0 : DmaSem sig := 83
abbrev cc11_sem0_1 : DmaSem sig := 84
abbrev cc11_sem1_0 : DmaSem sig := 85
abbrev cc11_sem2_0 : DmaSem sig := 86
abbrev cc11_sem3_0 : DmaSem sig := 87
abbrev cc11_sem3_1 : DmaSem sig := 88

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S2000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S2000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S2000x1 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 2 → Memref sig .tc .vmem S2000x128 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S50000x128_S50000x1x128_0_2 : S50000x128.BroadcastsInDim S50000x1x128 (![0, 2] : Fin 2 → Fin S50000x1x128.rank)
  bcast_S600000_S600000x1x1_0 : S600000.BroadcastsInDim S600000x1x1 (![0] : Fin 1 → Fin S600000x1x1.rank)
  bcast_S600000x1x1_S600000x1x128_0_1_2 : S600000x1x1.BroadcastsInDim S600000x1x128 (![0, 1, 2] : Fin 3 → Fin S600000x1x128.rank)
  shapeCasts_S600000x1x128_S600000x128 : S600000x1x128.ShapeCasts S600000x128
  bcast_S_S50000x128 : S_.BroadcastsInDim S50000x128 (![] : Fin 0 → Fin S50000x128.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S2000x1_S2000x128 : S2000x1.Broadcasts S2000x128
  broadcasts_S1x128_S2000x128 : S1x128.Broadcasts S2000x128
  concatenates_S50000x1x128_S50000x1x128_S50000x2x128_d1 : Shape.Concatenates [S50000x1x128, S50000x1x128] S50000x2x128 1
  bcast_S600000x1x1_S600000x2x128_0_1_2 : S600000x1x1.BroadcastsInDim S600000x2x128 (![0, 1, 2] : Fin 3 → Fin S600000x2x128.rank)
  shapeCasts_S600000x2x128_S600000x256 : S600000x2x128.ShapeCasts S600000x256
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  concatenates_S50000x1x128_S50000x1x128_S50000x1x128_S50000x3x128_d1 : Shape.Concatenates [S50000x1x128, S50000x1x128, S50000x1x128] S50000x3x128 1
  bcast_S600000x1x1_S600000x3x128_0_1_2 : S600000x1x1.BroadcastsInDim S600000x3x128 (![0, 1, 2] : Fin 3 → Fin S600000x3x128.rank)
  shapeCasts_S600000x3x128_S600000x384 : S600000x3x128.ShapeCasts S600000x384
  bcast_S_S50000x384 : S_.BroadcastsInDim S50000x384 (![] : Fin 0 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  reduces_S2000x128_S2000 : S2000x128.Reduces [1] S2000
  shapeCasts_S2000_S2000x1 : S2000.ShapeCasts S2000x1
  shapeCasts_S128x128_S128x128 : S128x128.ShapeCasts S128x128
  bcast_S_S25000 : S_.BroadcastsInDim S25000 (![] : Fin 0 → Fin S25000.rank)
  bcast_S25000_S25000x1_0 : S25000.BroadcastsInDim S25000x1 (![0] : Fin 1 → Fin S25000x1.rank)
  slices_S25000x128_S25000x40_0_0 : S25000x128.Slices ![0, 0] S25000x40
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S2000x128_S128x128_S2000x128_1_0_0_1_n_n_wf : DotDims.WF S2000x128 S128x128 S2000x128 [1] [0] [0] [1] [] []
  gather_S50000x1x128_S600000x1_S600000x1x128_12_0_n_n_0_1_11128_wf : GatherDims.WF S50000x1x128 S600000x1 S600000x1x128 [1, 2] [0] [] [0] [] 1 ![1, 1, 128]
  scatter_S50000x128_S600000x1_S600000x128_1_0_0_1_wf : ScatterDims.WF S50000x128 S600000x1 S600000x128 [1] [0] [0] 1
  gather_S50000x2x128_S600000x1_S600000x2x128_12_0_n_n_0_1_12128_wf : GatherDims.WF S50000x2x128 S600000x1 S600000x2x128 [1, 2] [0] [] [0] [] 1 ![1, 2, 128]
  scatter_S50000x256_S600000x1_S600000x256_1_0_0_1_wf : ScatterDims.WF S50000x256 S600000x1 S600000x256 [1] [0] [0] 1
  gather_S50000x3x128_S600000x1_S600000x3x128_12_0_n_n_0_1_13128_wf : GatherDims.WF S50000x3x128 S600000x1 S600000x3x128 [1, 2] [0] [] [0] [] 1 ![1, 3, 128]
  scatter_S50000x384_S600000x1_S600000x384_1_0_0_1_wf : ScatterDims.WF S50000x384 S600000x1 S600000x384 [1] [0] [0] 1
  gather_S50000x128_S25000x1_S25000x128_1_0_n_n_0_1_1128_wf : GatherDims.WF S50000x128 S25000x1 S25000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x1.size a ≤ S50000x1.size a
  hwx6_4 : ∀ i : grid6.Coords, EltTy.bits .f32 = 32 ∨ (Rect.block (s := S50000x1) S2000x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S50000x128.size a
  hwx6_6 : ∀ i : grid6.Coords, EltTy.bits .f32 = 32 ∨ (Rect.block (s := S50000x128) S2000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S50000x128.size a
  hwx9_2 : ∀ i : grid9.Coords, EltTy.bits .f32 = 32 ∨ (Rect.block (s := S50000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S50000x128.size a
  hwx10_1 : ∀ i : grid10.Coords, EltTy.bits .f32 = 32 ∨ (Rect.block (s := S50000x128) S2000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S50000x128.size a
  hwx10_2 : ∀ i : grid10.Coords, EltTy.bits .f32 = 32 ∨ (Rect.block (s := S50000x128) S2000x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S50000x128.size a
  hwx10_3 : ∀ i : grid10.Coords, EltTy.bits .f32 = 32 ∨ (Rect.block (s := S50000x128) S2000x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x128.size a ≤ S50000x128.size a
  hwx10_4 : ∀ i : grid10.Coords, EltTy.bits .f32 = 32 ∨ (Rect.block (s := S50000x128) S2000x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x128.size a ≤ S50000x128.size a
  hwx10_5 : ∀ i : grid10.Coords, EltTy.bits .f32 = 32 ∨ (Rect.block (s := S50000x128) S2000x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S2000x1.size a ≤ S50000x1.size a
  hwx10_6 : ∀ i : grid10.Coords, EltTy.bits .f32 = 32 ∨ (Rect.block (s := S50000x1) S2000x1.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S2000x128.size a ≤ S50000x128.size a
  hwx10_8 : ∀ i : grid10.Coords, EltTy.bits .f32 = 32 ∨ (Rect.block (s := S50000x128) S2000x128.size (cc10_transform_8 i) (hinb10_8 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x128.size a ≤ S50000x128.size a
  hwx11_3 : ∀ i : grid11.Coords, EltTy.bits .f32 = 32 ∨ (Rect.block (s := S50000x128) S2000x128.size (cc11_transform_3 i) (hinb11_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x1x128_S600000x1_S600000x1x128_12_0_n_n_0_1_11128 : GatherDims S50000x1x128 S600000x1 S600000x1x128 where
  offsetDims := [1, 2]
  collapsedSliceDims := [0]
  operandBatchingDims := []
  startIndicesBatchingDims := []
  startIndexMap := [0]
  indexVectorDim := 1
  sliceSizes := ![1, 1, 128]
  wf := gather_S50000x1x128_S600000x1_S600000x1x128_12_0_n_n_0_1_11128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x2x128_S600000x1_S600000x2x128_12_0_n_n_0_1_12128 : GatherDims S50000x2x128 S600000x1 S600000x2x128 where
  offsetDims := [1, 2]
  collapsedSliceDims := [0]
  operandBatchingDims := []
  startIndicesBatchingDims := []
  startIndexMap := [0]
  indexVectorDim := 1
  sliceSizes := ![1, 2, 128]
  wf := gather_S50000x2x128_S600000x1_S600000x2x128_12_0_n_n_0_1_12128_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def gather_S50000x3x128_S600000x1_S600000x3x128_12_0_n_n_0_1_13128 : GatherDims S50000x3x128 S600000x1 S600000x3x128 where
  offsetDims := [1, 2]
  collapsedSliceDims := [0]
  operandBatchingDims := []
  startIndicesBatchingDims := []
  startIndexMap := [0]
  indexVectorDim := 1
  sliceSizes := ![1, 3, 128]
  wf := gather_S50000x3x128_S600000x1_S600000x3x128_12_0_n_n_0_1_13128_wf
def scatter_S50000x384_S600000x1_S600000x384_1_0_0_1 : ScatterDims S50000x384 S600000x1 S600000x384 where
  updateWindowDims := [1]
  insertedWindowDims := [0]
  scatterDimsToOperandDims := [0]
  indexVectorDim := 1
  wf := scatter_S50000x384_S600000x1_S600000x384_1_0_0_1_wf
def gather_S50000x128_S25000x1_S25000x128_1_0_n_n_0_1_1128 : GatherDims S50000x128 S25000x1 S25000x128 where
  offsetDims := [1]
  collapsedSliceDims := [0]
  operandBatchingDims := []
  startIndicesBatchingDims := []
  startIndexMap := [0]
  indexVectorDim := 1
  sliceSizes := ![1, 128]
  wf := gather_S50000x128_S25000x1_S25000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v45) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v83) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v64) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v65) S2000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v12) S2000x1.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v85) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v86) S2000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v45) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v87) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v63) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg9) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v88) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v86) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v89) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v108) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v109) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v110) S2000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v87) S2000x128.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v88) S2000x128.size cc10_transform_4 reads10_4 false false 2 stage10_4 sem10_4
    hrank10 hreads10_4 hinb10_4 nbuf10_4 (Memref.isWhole_whole _) hwx10_4 hstage10_4

abbrev win10_5 : Pipeline.Window sig grid10 :=
  Pipeline.Window.ofSpec (Memref.whole main_v89) S2000x128.size cc10_transform_5 reads10_5 false false 2 stage10_5 sem10_5
    hrank10 hreads10_5 hinb10_5 nbuf10_5 (Memref.isWhole_whole _) hwx10_5 hstage10_5

abbrev win10_6 : Pipeline.Window sig grid10 :=
  Pipeline.Window.ofSpec (Memref.whole main_v12) S2000x1.size cc10_transform_6 reads10_6 false false 2 stage10_6 sem10_6
    hrank10 hreads10_6 hinb10_6 nbuf10_6 (Memref.isWhole_whole _) hwx10_6 hstage10_6

abbrev win10_7 : Pipeline.Window sig grid10 :=
  Pipeline.Window.ofSpec (Memref.whole main_v111) S1x128.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v112) S2000x128.size cc10_transform_8 reads10_8 true false 2 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev win11_0 : Pipeline.Window sig grid11 :=
  Pipeline.Window.ofSpec (Memref.whole main_v112) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v113) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v115) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v116) S2000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S25000 : Shape := ⟨1, ![25000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩
abbrev S25000x1 : Shape := ⟨2, ![25000, 1]⟩
abbrev S25000x40 : Shape := ⟨2, ![25000, 40]⟩

abbrev nBuf : Space → Nat
  | .hbm => 384
  | .vmem => 0
  | .smem => 0
  | _ => 0

abbrev hbmTy0_0 (i : Nat) : BufTy := match i % 128 with
  | 0 => ⟨S50000x128, .f32⟩
  | 1 => ⟨S2x600000, .i32⟩
  | 2 => ⟨S25000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x40, .f32⟩
  | 12 => ⟨S40, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000x128, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S600000x1, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000, .f32⟩
  | 93 => ⟨S600000, .f32⟩
  | 94 => ⟨S600000x1, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S600000x128, .f32⟩
  | 105 => ⟨S600000x128, .f32⟩
  | 106 => ⟨S_, .f32⟩
  | 107 => ⟨S50000x128, .f32⟩
  | 108 => ⟨S600000x1, .i32⟩
  | 109 => ⟨S50000x128, .f32⟩
  | 110 => ⟨S50000, .f32⟩
  | 111 => ⟨S50000x1, .f32⟩
  | 112 => ⟨S50000x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S_, .i32⟩
  | 123 => ⟨S600000, .i32⟩
  | 124 => ⟨S600000, .i1⟩
  | 125 => ⟨S_, .i32⟩
  | 126 => ⟨S600000, .i32⟩
  | 127 => ⟨S600000, .i32⟩
  | _ => ⟨S50000x128, .f32⟩

abbrev hbmTy0_1 (i : Nat) : BufTy := match i % 128 with
  | 0 => ⟨S600000, .i32⟩
  | 1 => ⟨S600000x1, .i32⟩
  | 2 => ⟨S600000, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000, .f32⟩
  | 12 => ⟨S600000, .f32⟩
  | 13 => ⟨S600000x1, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S600000x128, .f32⟩
  | 24 => ⟨S600000x128, .f32⟩
  | 25 => ⟨S_, .f32⟩
  | 26 => ⟨S50000x128, .f32⟩
  | 27 => ⟨S600000x1, .i32⟩
  | 28 => ⟨S50000x128, .f32⟩
  | 29 => ⟨S50000, .f32⟩
  | 30 => ⟨S50000x1, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000, .f32⟩
  | 59 => ⟨S600000, .f32⟩
  | 60 => ⟨S600000x1, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S600000x128, .f32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S50000, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000, .f32⟩
  | 107 => ⟨S600000, .f32⟩
  | 108 => ⟨S600000x1, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S600000x128, .f32⟩
  | 119 => ⟨S600000x128, .f32⟩
  | 120 => ⟨S_, .f32⟩
  | 121 => ⟨S50000x128, .f32⟩
  | 122 => ⟨S600000x1, .i32⟩
  | 123 => ⟨S50000x128, .f32⟩
  | 124 => ⟨S50000, .f32⟩
  | 125 => ⟨S50000x1, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000, .f32⟩
  | 26 => ⟨S600000, .f32⟩
  | 27 => ⟨S600000x1, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S600000x128, .f32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000, .f32⟩
  | 74 => ⟨S600000, .f32⟩
  | 75 => ⟨S600000x1, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S50000, .f32⟩
  | 92 => ⟨S50000x1, .f32⟩
  | 93 => ⟨S50000x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x128, .f32⟩
  | 107 => ⟨S50000x128, .f32⟩
  | 108 => ⟨S50000x128, .f32⟩
  | 109 => ⟨S_, .f32⟩
  | 110 => ⟨S50000, .f32⟩
  | 111 => ⟨S50000x1, .f32⟩
  | 112 => ⟨S50000x1, .f32⟩
  | 113 => ⟨S50000x128, .f32⟩
  | 114 => ⟨S50000x128, .f32⟩
  | 115 => ⟨S50000x40, .f32⟩
  | 116 => ⟨S1x40, .f32⟩
  | 117 => ⟨S50000x40, .f32⟩
  | 118 => ⟨S50000x40, .f32⟩
  | 119 => ⟨S_, .i32⟩
  | 120 => ⟨S25000, .i32⟩
  | 121 => ⟨S25000, .i1⟩
  | 122 => ⟨S_, .i32⟩
  | 123 => ⟨S25000, .i32⟩
  | 124 => ⟨S25000, .i32⟩
  | 125 => ⟨S25000, .i32⟩
  | 126 => ⟨S25000x1, .i32⟩
  | 127 => ⟨S25000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_19 : Ref sig .tc := ⟨.hbm, 142, rfl⟩
abbrev main_v104 : Ref sig .tc := ⟨.hbm, 143, rfl⟩
abbrev main_v105 : Ref sig .tc := ⟨.hbm, 144, rfl⟩
abbrev main_c_20 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call2_cst : Ref sig .tc := ⟨.hbm, 165, rfl⟩
abbrev main_call2_v0 : Ref sig .tc := ⟨.hbm, 166, rfl⟩
abbrev main_v124 : Ref sig .tc := ⟨.hbm, 167, rfl⟩
abbrev main_v125 : Ref sig .tc := ⟨.hbm, 168, rfl⟩
abbrev main_c_22 : Ref sig .tc := ⟨.hbm, 169, rfl⟩
abbrev main_v126 : Ref sig .tc := ⟨.hbm, 170, rfl⟩
abbrev main_v127 : Ref sig .tc := ⟨.hbm, 171, rfl⟩
abbrev main_c_23 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_24 : Ref sig .tc := ⟨.hbm, 178, rfl⟩
abbrev main_v133 : Ref sig .tc := ⟨.hbm, 179, rfl⟩
abbrev main_v134 : Ref sig .tc := ⟨.hbm, 180, rfl⟩
abbrev main_c_25 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_26 : Ref sig .tc := ⟨.hbm, 189, rfl⟩
abbrev main_v142 : Ref sig .tc := ⟨.hbm, 190, rfl⟩
abbrev main_v143 : Ref sig .tc := ⟨.hbm, 191, rfl⟩
abbrev main_c_27 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_28 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_call3_cst : Ref sig .tc := ⟨.hbm, 213, rfl⟩
abbrev main_call3_v0 : Ref sig .tc := ⟨.hbm, 214, rfl⟩
abbrev main_v163 : Ref sig .tc := ⟨.hbm, 215, rfl⟩
abbrev main_v164 : Ref sig .tc := ⟨.hbm, 216, rfl⟩
abbrev main_c_29 : Ref sig .tc := ⟨.hbm, 217, rfl⟩
abbrev main_v165 : Ref sig .tc := ⟨.hbm, 218, rfl⟩
abbrev main_v166 : Ref sig .tc := ⟨.hbm, 219, rfl⟩
abbrev main_c_30 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_c_31 : Ref sig .tc := ⟨.hbm, 226, rfl⟩
abbrev main_v172 : Ref sig .tc := ⟨.hbm, 227, rfl⟩
abbrev main_v173 : Ref sig .tc := ⟨.hbm, 228, rfl⟩
abbrev main_c_32 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_c_33 : Ref sig .tc := ⟨.hbm, 237, rfl⟩
abbrev main_v181 : Ref sig .tc := ⟨.hbm, 238, rfl⟩
abbrev main_v182 : Ref sig .tc := ⟨.hbm, 239, rfl⟩
abbrev main_c_34 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_cst_35 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_call4_cst : Ref sig .tc := ⟨.hbm, 260, rfl⟩
abbrev main_call4_v0 : Ref sig .tc := ⟨.hbm, 261, rfl⟩
abbrev main_v201 : Ref sig .tc := ⟨.hbm, 262, rfl⟩
abbrev main_v202 : Ref sig .tc := ⟨.hbm, 263, rfl⟩
abbrev main_c_36 : Ref sig .tc := ⟨.hbm, 264, rfl⟩
abbrev main_v203 : Ref sig .tc := ⟨.hbm, 265, rfl⟩
abbrev main_v204 : Ref sig .tc := ⟨.hbm, 266, rfl⟩
abbrev main_c_37 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_c_38 : Ref sig .tc := ⟨.hbm, 273, rfl⟩
abbrev main_v210 : Ref sig .tc := ⟨.hbm, 274, rfl⟩
abbrev main_v211 : Ref sig .tc := ⟨.hbm, 275, rfl⟩
abbrev main_c_39 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_c_40 : Ref sig .tc := ⟨.hbm, 284, rfl⟩
abbrev main_v219 : Ref sig .tc := ⟨.hbm, 285, rfl⟩
abbrev main_v220 : Ref sig .tc := ⟨.hbm, 286, rfl⟩
abbrev main_c_41 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_cst_42 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_call5_cst : Ref sig .tc := ⟨.hbm, 308, rfl⟩
abbrev main_call5_v0 : Ref sig .tc := ⟨.hbm, 309, rfl⟩
abbrev main_v240 : Ref sig .tc := ⟨.hbm, 310, rfl⟩
abbrev main_v241 : Ref sig .tc := ⟨.hbm, 311, rfl⟩
abbrev main_c_43 : Ref sig .tc := ⟨.hbm, 312, rfl⟩
abbrev main_v242 : Ref sig .tc := ⟨.hbm, 313, rfl⟩
abbrev main_v243 : Ref sig .tc := ⟨.hbm, 314, rfl⟩
abbrev main_c_44 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_c_45 : Ref sig .tc := ⟨.hbm, 321, rfl⟩
abbrev main_v249 : Ref sig .tc := ⟨.hbm, 322, rfl⟩
abbrev main_v250 : Ref sig .tc := ⟨.hbm, 323, rfl⟩
abbrev main_c_46 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_c_47 : Ref sig .tc := ⟨.hbm, 332, rfl⟩
abbrev main_v258 : Ref sig .tc := ⟨.hbm, 333, rfl⟩
abbrev main_v259 : Ref sig .tc := ⟨.hbm, 334, rfl⟩
abbrev main_c_48 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_cst_49 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_call6_cst : Ref sig .tc := ⟨.hbm, 356, rfl⟩
abbrev main_call6_v0 : Ref sig .tc := ⟨.hbm, 357, rfl⟩
abbrev main_call6_cst_0 : Ref sig .tc := ⟨.hbm, 358, rfl⟩
abbrev main_call6_v1 : Ref sig .tc := ⟨.hbm, 359, rfl⟩
abbrev main_call6_v2 : Ref sig .tc := ⟨.hbm, 360, rfl⟩
abbrev main_call6_v3 : Ref sig .tc := ⟨.hbm, 361, rfl⟩
abbrev main_call6_v4 : Ref sig .tc := ⟨.hbm, 362, rfl⟩
abbrev main_call6_v5 : Ref sig .tc := ⟨.hbm, 363, rfl⟩
abbrev main_call6_v6 : Ref sig .tc := ⟨.hbm, 364, rfl⟩
abbrev main_call6_cst_1 : Ref sig .tc := ⟨.hbm, 365, rfl⟩
abbrev main_call6_v7 : Ref sig .tc := ⟨.hbm, 366, rfl⟩
abbrev main_call6_v8 : Ref sig .tc := ⟨.hbm, 367, rfl⟩
abbrev main_call6_v9 : Ref sig .tc := ⟨.hbm, 368, rfl⟩
abbrev main_call6_v10 : Ref sig .tc := ⟨.hbm, 369, rfl⟩
abbrev main_v279 : Ref sig .tc := ⟨.hbm, 370, rfl⟩
abbrev main_v280 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_c_50 : Ref sig .tc := ⟨.hbm, 375, rfl⟩
abbrev main_v284 : Ref sig .tc := ⟨.hbm, 376, rfl⟩
abbrev main_v285 : Ref sig .tc := ⟨.hbm, 377, rfl⟩
abbrev main_c_51 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S25000 : S_.BroadcastsInDim S25000 (![] : Fin 0 → Fin S25000.rank)
  bcast_S25000_S25000x1_0 : S25000.BroadcastsInDim S25000x1 (![0] : Fin 1 → Fin S25000x1.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x40_S50000x40_1_0_0_1_n_n_wf : DotDims.WF S50000x128 S128x40 S50000x40 [1] [0] [0] [1] [] []
  gather_S50000x40_S25000x1_S25000x40_1_0_n_n_0_1_140_wf : GatherDims.WF S50000x40 S25000x1 S25000x40 [1] [0] [] [0] [] 1 ![1, 40]

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S25000x1_S25000x40_1_0_n_n_0_1_140 : GatherDims S50000x40 S25000x1 S25000x40 where
  offsetDims := [1]
  collapsedSliceDims := [0]
  operandBatchingDims := []
  startIndicesBatchingDims := []
  startIndexMap := [0]
  indexVectorDim := 1
  sliceSizes := ![1, 40]
  wf := gather_S50000x40_S25000x1_S25000x40_1_0_n_n_0_1_140_wf

class Facts : Prop extends Facts₀ where

variable [Facts]
-- ==== Proof.K.R0.lean ====
/- Region 0 of the program: the first linear layer: at each grid point the body loads one block of 2000 rows of the node features and the whole 128 x 128 weight, multiplies them into a zero accumulator and stores the 2000 x 128 product block.
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (an unfetched window's block
    index has not moved since the point that fetched it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! The whole-block rectangles the body loads and stores through. -/
abbrev r0_S2000x128 : Rect S2000x128 := Rect.unit (s := S2000x128) ![0, 0] S2000x128.size inb_S2000x128_S2000x128_0_0
abbrev r0_S128x128 : Rect S128x128 := Rect.unit (s := S128x128) ![0, 0] S128x128.size inb_S128x128_S128x128_0_0

/-- The output block after the body: its one whole-block store, of the body's arithmetic on the loaded input blocks. -/
def out0_2 (x0 : Vec F S2000x128 .f32) (x1 : Vec F S128x128 .f32) : Vec F S2000x128 .f32 :=
  View.canon [⟨r0_S2000x128, k0_pay1 (View.ld x0 r0_S2000x128) (View.ld x1 r0_S128x128)⟩]

/-- The one store covers the block. -/
theorem cover0_2 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

set_option maxHeartbeats 4000000 in
/-- The body on whole staging buffers: every input keeps its contents, the output ends at `out0_2` of them. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body at point
    `t` each input buffer at its block, the output buffer at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- Region 1 of the program: the first cell's combine: at each grid point, for a block of 2000 rows, the aggregated neighbour sum plus the row's own product scaled by its squared inverse root degree, plus once the bias row.
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (an unfetched window's block
    index has not moved since the point that fetched it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The whole-block rectangles the body loads and stores through. -/
abbrev r1_S2000x128 : Rect S2000x128 := Rect.unit (s := S2000x128) ![0, 0] S2000x128.size inb_S2000x128_S2000x128_0_0
abbrev r1_S2000x1 : Rect S2000x1 := Rect.unit (s := S2000x1) ![0, 0] S2000x1.size inb_S2000x1_S2000x1_0_0
abbrev r1_S1x128 : Rect S1x128 := Rect.unit (s := S1x128) ![0, 0] S1x128.size inb_S1x128_S1x128_0_0

/-- The output block after the body: its one whole-block store, of the body's arithmetic on the loaded input blocks. -/
def out1_4 (x0 : Vec F S2000x128 .f32) (x1 : Vec F S2000x128 .f32) (x2 : Vec F S2000x1 .f32) (x3 : Vec F S1x128 .f32) : Vec F S2000x128 .f32 :=
  View.canon [⟨r1_S2000x128, k1_pay1 (View.ld x2 r1_S2000x1) (View.ld x3 r1_S1x128) (View.ld x0 r1_S2000x128) (View.ld x1 r1_S2000x128)⟩]

/-- The one store covers the block. -/
theorem cover1_4 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

set_option maxHeartbeats 4000000 in
/-- The body on whole staging buffers: every input keeps its contents, the output ends at `out1_4` of them. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the region's pipeline on core `c`: the arrays as the region finds them; after the body at point
    `t` each input buffer at its block, the output buffer at `out1_4` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- Region 2 of the program: a linear layer: at each grid point the body loads one block of 2000 rows of a cell and the whole 128 x 128 weight, takes the maximum of the rows with zero, multiplies into a zero accumulator and stores the 2000 x 128 product block (second stage, on the first cell).
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not (an unfetched window's block
    index has not moved since the point that fetched it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! The whole-block rectangles the body loads and stores through. -/
abbrev r2_S2000x128 : Rect S2000x128 := Rect.unit (s := S2000x128) ![0, 0] S2000x128.size inb_S2000x128_S2000x128_0_0
abbrev r2_S128x128 : Rect S128x128 := Rect.unit (s := S128x128) ![0, 0] S128x128.size inb_S128x128_S128x128_0_0

/-- The output block after the body: its one whole-block store, of the body's arithmetic on the loaded input blocks. -/
def out2_2 (x0 : Vec F S2000x128 .f32) (x1 : Vec F S128x128 .f32) : Vec F S2000x128 .f32 :=
  View.canon [⟨r2_S2000x128, k2_pay1 (View.ld x0 r2_S2000x128) (View.ld x1 r2_S128x128)⟩]

/-- The one store covers the block. -/
theorem cover2_2 (p0 : Vec F S2000x128 .f32) (y : S2000x128.Idx) :
    ∃ pc ∈ ([⟨r2_S2000x128, p0⟩] : List (View.Piece (Elt F) S2000x128 .f32)), y ∈ pc.1.set :=
  View.cover_of_tiled [⟨r2_S2000x128, p0⟩] S2000x128.size (by rfl) y

set_option maxHeartbeats 4000000 in
/-- The body on whole staging buffers: every input keeps its contents, the output ends at `out2_2` of them. -/
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`: the arrays as the region finds them; after the body at point
    `t` each input buffer at its block, the output buffer at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/- Region 3 of the program: the second cell's combine: at each grid point, for a block of 2000 rows, the aggregated neighbour sum plus the row's own product scaled by its squared inverse root degree, plus once the bias row.
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, fetched there or not (an unfetched window's block
    index has not moved since the point that fetched it). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! The whole-block rectangles the body loads and stores through. -/
abbrev r3_S2000x128 : Rect S2000x128 := Rect.unit (s := S2000x128) ![0, 0] S2000x128.size inb_S2000x128_S2000x128_0_0
abbrev r3_S2000x1 : Rect S2000x1 := Rect.unit (s := S2000x1) ![0, 0] S2000x1.size inb_S2000x1_S2000x1_0_0
abbrev r3_S1x128 : Rect S1x128 := Rect.unit (s := S1x128) ![0, 0] S1x128.size inb_S1x128_S1x128_0_0

/-- The output block after the body: its one whole-block store, of the body's arithmetic on the loaded input blocks. -/
def out3_4 (x0 : Vec F S2000x128 .f32) (x1 : Vec F S2000x128 .f32) (x2 : Vec F S2000x1 .f32) (x3 : Vec F S1x128 .f32) : Vec F S2000x128 .f32 :=
  View.canon [⟨r3_S2000x128, k3_pay1 (View.ld x2 r3_S2000x1) (View.ld x3 r3_S1x128) (View.ld x0 r3_S2000x128) (View.ld x1 r3_S2000x128)⟩]

/-- The one store covers the block. -/
theorem cover3_4 (p0 : Vec F S2000x128 .f32) (y : S2000x128.Idx) :
    ∃ pc ∈ ([⟨r3_S2000x128, p0⟩] : List (View.Piece (Elt F) S2000x128 .f32)), y ∈ pc.1.set :=
  View.cover_of_tiled [⟨r3_S2000x128, p0⟩] S2000x128.size (by rfl) y

set_option maxHeartbeats 4000000 in
/-- The body on whole staging buffers: every input keeps its contents, the output ends at `out3_4` of them. -/
theorem sound_kernel3 (c : Dev nD) (E : Set ℕ) (i : grid3.Coords)
    (arg1 : Memref sig .tc .vmem S2000x128 .f32) (harg1 : arg1.IsWhole)
    (arg2 : Memref sig .tc .vmem S2000x128 .f32) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of the region's pipeline on core `c`: the arrays as the region finds them; after the body at point
    `t` each input buffer at its block, the output buffer at `out3_4` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/- Region 4 of the program: a linear layer: at each grid point the body loads one block of 2000 rows of a cell and the whole 128 x 128 weight, takes the maximum of the rows with zero, multiplies into a zero accumulator and stores the 2000 x 128 product block (third stage, on the first cell).
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every point, fetched there or not (an unfetched window's block
    index has not moved since the point that fetched it). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! The whole-block rectangles the body loads and stores through. -/
abbrev r4_S2000x128 : Rect S2000x128 := Rect.unit (s := S2000x128) ![0, 0] S2000x128.size inb_S2000x128_S2000x128_0_0
abbrev r4_S128x128 : Rect S128x128 := Rect.unit (s := S128x128) ![0, 0] S128x128.size inb_S128x128_S128x128_0_0

/-- The output block after the body: its one whole-block store, of the body's arithmetic on the loaded input blocks. -/
def out4_2 (x0 : Vec F S2000x128 .f32) (x1 : Vec F S128x128 .f32) : Vec F S2000x128 .f32 :=
  View.canon [⟨r4_S2000x128, k4_pay1 (View.ld x0 r4_S2000x128) (View.ld x1 r4_S128x128)⟩]

/-- The one store covers the block. -/
theorem cover4_2 (p0 : Vec F S2000x128 .f32) (y : S2000x128.Idx) :
    ∃ pc ∈ ([⟨r4_S2000x128, p0⟩] : List (View.Piece (Elt F) S2000x128 .f32)), y ∈ pc.1.set :=
  View.cover_of_tiled [⟨r4_S2000x128, p0⟩] S2000x128.size (by rfl) y

set_option maxHeartbeats 4000000 in
/-- The body on whole staging buffers: every input keeps its contents, the output ends at `out4_2` of them. -/
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region's pipeline on core `c`: the arrays as the region finds them; after the body at point
    `t` each input buffer at its block, the output buffer at `out4_2` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/- Region 5 of the program: a linear layer: at each grid point the body loads one block of 2000 rows of a cell and the whole 128 x 128 weight, takes the maximum of the rows with zero, multiplies into a zero accumulator and stores the 2000 x 128 product block (third stage, on the second cell).
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds its block at every point, fetched there or not (an unfetched window's block
    index has not moved since the point that fetched it). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! The whole-block rectangles the body loads and stores through. -/
abbrev r5_S2000x128 : Rect S2000x128 := Rect.unit (s := S2000x128) ![0, 0] S2000x128.size inb_S2000x128_S2000x128_0_0
abbrev r5_S128x128 : Rect S128x128 := Rect.unit (s := S128x128) ![0, 0] S128x128.size inb_S128x128_S128x128_0_0

/-- The output block after the body: its one whole-block store, of the body's arithmetic on the loaded input blocks. -/
def out5_2 (x0 : Vec F S2000x128 .f32) (x1 : Vec F S128x128 .f32) : Vec F S2000x128 .f32 :=
  View.canon [⟨r5_S2000x128, k5_pay1 (View.ld x0 r5_S2000x128) (View.ld x1 r5_S128x128)⟩]

/-- The one store covers the block. -/
theorem cover5_2 (p0 : Vec F S2000x128 .f32) (y : S2000x128.Idx) :
    ∃ pc ∈ ([⟨r5_S2000x128, p0⟩] : List (View.Piece (Elt F) S2000x128 .f32)), y ∈ pc.1.set :=
  View.cover_of_tiled [⟨r5_S2000x128, p0⟩] S2000x128.size (by rfl) y

set_option maxHeartbeats 4000000 in
/-- The body on whole staging buffers: every input keeps its contents, the output ends at `out5_2` of them. -/
theorem sound_kernel5 (c : Dev nD) (E : Set ℕ) (i : grid5.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the region's pipeline on core `c`: the arrays as the region finds them; after the body at point
    `t` each input buffer at its block, the output buffer at `out5_2` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the input buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
/- Region 6 of the program: the third cell's combine over its two terms: at each grid point, for a block of 2000 rows, the two aggregated neighbour sums and the two own products each scaled by the squared inverse root degree, added up, plus twice the bias row.
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds its block at every point, fetched there or not (an unfetched window's block
    index has not moved since the point that fetched it). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! The whole-block rectangles the body loads and stores through. -/
abbrev r6_S2000x128 : Rect S2000x128 := Rect.unit (s := S2000x128) ![0, 0] S2000x128.size inb_S2000x128_S2000x128_0_0
abbrev r6_S2000x1 : Rect S2000x1 := Rect.unit (s := S2000x1) ![0, 0] S2000x1.size inb_S2000x1_S2000x1_0_0
abbrev r6_S1x128 : Rect S1x128 := Rect.unit (s := S1x128) ![0, 0] S1x128.size inb_S1x128_S1x128_0_0

/-- The output block after the body: its one whole-block store, of the body's arithmetic on the loaded input blocks. -/
def out6_6 (x0 : Vec F S2000x128 .f32) (x1 : Vec F S2000x128 .f32) (x2 : Vec F S2000x128 .f32) (x3 : Vec F S2000x128 .f32) (x4 : Vec F S2000x1 .f32) (x5 : Vec F S1x128 .f32) : Vec F S2000x128 .f32 :=
  View.canon [⟨r6_S2000x128, k6_pay1 (View.ld x4 r6_S2000x1) (View.ld x5 r6_S1x128) (View.ld x0 r6_S2000x128) (View.ld x2 r6_S2000x128) (View.ld x1 r6_S2000x128) (View.ld x3 r6_S2000x128)⟩]

/-- The one store covers the block. -/
theorem cover6_6 (p0 : Vec F S2000x128 .f32) (y : S2000x128.Idx) :
    ∃ pc ∈ ([⟨r6_S2000x128, p0⟩] : List (View.Piece (Elt F) S2000x128 .f32)), y ∈ pc.1.set :=
  View.cover_of_tiled [⟨r6_S2000x128, p0⟩] S2000x128.size (by rfl) y

set_option maxHeartbeats 4000000 in
/-- The body on whole staging buffers: every input keeps its contents, the output ends at `out6_6` of them. -/
theorem sound_kernel6 (c : Dev nD) (E : Set ℕ) (i : grid6.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S2000x128 .f32) (harg4 : arg4.IsWhole)
    (arg5 : Memref sig .tc .vmem S2000x1 .f32) (harg5 : arg5.IsWhole)
    (arg6 : Memref sig .tc .vmem S1x128 .f32) (harg6 : arg6.IsWhole)
    (arg7 : Memref sig .tc .vmem S2000x128 .f32) (harg7 : arg7.IsWhole)
    (x0 : Vec F S2000x128 .f32) (x1 : Vec F S2000x128 .f32) (x2 : Vec F S2000x128 .f32) (x3 : Vec F S2000x128 .f32) (x4 : Vec F S2000x1 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-- The proof data of the region's pipeline on core `c`: the arrays as the region finds them; after the body at point
    `t` each input buffer at its block, the output buffer at `out6_6` of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the input buffers hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
/- Region 7 of the program: a linear layer: at each grid point the body loads one block of 2000 rows of a cell and the whole 128 x 128 weight, takes the maximum of the rows with zero, multiplies into a zero accumulator and stores the 2000 x 128 product block (fourth stage, on the first cell).
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's staging buffer holds its block at every point, fetched there or not (an unfetched window's block
    index has not moved since the point that fetched it). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! The whole-block rectangles the body loads and stores through. -/
abbrev r7_S2000x128 : Rect S2000x128 := Rect.unit (s := S2000x128) ![0, 0] S2000x128.size inb_S2000x128_S2000x128_0_0
abbrev r7_S128x128 : Rect S128x128 := Rect.unit (s := S128x128) ![0, 0] S128x128.size inb_S128x128_S128x128_0_0

/-- The output block after the body: its one whole-block store, of the body's arithmetic on the loaded input blocks. -/
def out7_2 (x0 : Vec F S2000x128 .f32) (x1 : Vec F S128x128 .f32) : Vec F S2000x128 .f32 :=
  View.canon [⟨r7_S2000x128, k7_pay1 (View.ld x0 r7_S2000x128) (View.ld x1 r7_S128x128)⟩]

/-- The one store covers the block. -/
theorem cover7_2 (p0 : Vec F S2000x128 .f32) (y : S2000x128.Idx) :
    ∃ pc ∈ ([⟨r7_S2000x128, p0⟩] : List (View.Piece (Elt F) S2000x128 .f32)), y ∈ pc.1.set :=
  View.cover_of_tiled [⟨r7_S2000x128, p0⟩] S2000x128.size (by rfl) y

set_option maxHeartbeats 4000000 in
/-- The body on whole staging buffers: every input keeps its contents, the output ends at `out7_2` of them. -/
theorem sound_kernel7 (c : Dev nD) (E : Set ℕ) (i : grid7.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__matmul_kernel i arg1 harg1 arg2 harg2 arg3 harg3) K := by
  simp only [cc7__matmul_kernel_eq_skeleton]; unfold cc7__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The proof data of the region's pipeline on core `c`: the arrays as the region finds them; after the body at point
    `t` each input buffer at its block, the output buffer at `out7_2` of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the input buffers hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
/- Region 8 of the program: a linear layer: at each grid point the body loads one block of 2000 rows of a cell and the whole 128 x 128 weight, takes the maximum of the rows with zero, multiplies into a zero accumulator and stores the 2000 x 128 product block (fourth stage, on the second cell).
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's staging buffer holds its block at every point, fetched there or not (an unfetched window's block
    index has not moved since the point that fetched it). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! The whole-block rectangles the body loads and stores through. -/
abbrev r8_S2000x128 : Rect S2000x128 := Rect.unit (s := S2000x128) ![0, 0] S2000x128.size inb_S2000x128_S2000x128_0_0
abbrev r8_S128x128 : Rect S128x128 := Rect.unit (s := S128x128) ![0, 0] S128x128.size inb_S128x128_S128x128_0_0

/-- The output block after the body: its one whole-block store, of the body's arithmetic on the loaded input blocks. -/
def out8_2 (x0 : Vec F S2000x128 .f32) (x1 : Vec F S128x128 .f32) : Vec F S2000x128 .f32 :=
  View.canon [⟨r8_S2000x128, k8_pay1 (View.ld x0 r8_S2000x128) (View.ld x1 r8_S128x128)⟩]

/-- The one store covers the block. -/
theorem cover8_2 (p0 : Vec F S2000x128 .f32) (y : S2000x128.Idx) :
    ∃ pc ∈ ([⟨r8_S2000x128, p0⟩] : List (View.Piece (Elt F) S2000x128 .f32)), y ∈ pc.1.set :=
  View.cover_of_tiled [⟨r8_S2000x128, p0⟩] S2000x128.size (by rfl) y

set_option maxHeartbeats 4000000 in
/-- The body on whole staging buffers: every input keeps its contents, the output ends at `out8_2` of them. -/
theorem sound_kernel8 (c : Dev nD) (E : Set ℕ) (i : grid8.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The proof data of the region's pipeline on core `c`: the arrays as the region finds them; after the body at point
    `t` each input buffer at its block, the output buffer at `out8_2` of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the input buffers hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
/- Region 9 of the program: a linear layer: at each grid point the body loads one block of 2000 rows of a cell and the whole 128 x 128 weight, takes the maximum of the rows with zero, multiplies into a zero accumulator and stores the 2000 x 128 product block (fourth stage, on the third cell).
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's staging buffer holds its block at every point, fetched there or not (an unfetched window's block
    index has not moved since the point that fetched it). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! The whole-block rectangles the body loads and stores through. -/
abbrev r9_S2000x128 : Rect S2000x128 := Rect.unit (s := S2000x128) ![0, 0] S2000x128.size inb_S2000x128_S2000x128_0_0
abbrev r9_S128x128 : Rect S128x128 := Rect.unit (s := S128x128) ![0, 0] S128x128.size inb_S128x128_S128x128_0_0

/-- The output block after the body: its one whole-block store, of the body's arithmetic on the loaded input blocks. -/
def out9_2 (x0 : Vec F S2000x128 .f32) (x1 : Vec F S128x128 .f32) : Vec F S2000x128 .f32 :=
  View.canon [⟨r9_S2000x128, k9_pay1 (View.ld x0 r9_S2000x128) (View.ld x1 r9_S128x128)⟩]

/-- The one store covers the block. -/
theorem cover9_2 (p0 : Vec F S2000x128 .f32) (y : S2000x128.Idx) :
    ∃ pc ∈ ([⟨r9_S2000x128, p0⟩] : List (View.Piece (Elt F) S2000x128 .f32)), y ∈ pc.1.set :=
  View.cover_of_tiled [⟨r9_S2000x128, p0⟩] S2000x128.size (by rfl) y

set_option maxHeartbeats 4000000 in
/-- The body on whole staging buffers: every input keeps its contents, the output ends at `out9_2` of them. -/
theorem sound_kernel9 (c : Dev nD) (E : Set ℕ) (i : grid9.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The proof data of the region's pipeline on core `c`: the arrays as the region finds them; after the body at point
    `t` each input buffer at its block, the output buffer at `out9_2` of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the input buffers hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10.lean ====
/- Region 10 of the program: the fourth cell's combine over its three terms: at each grid point, for a block of 2000 rows, the three aggregated neighbour sums and the three own products each scaled by the squared inverse root degree, added up, plus three times the bias row.
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! An input window's staging buffer holds its block at every point, fetched there or not (an unfetched window's block
    index has not moved since the point that fetched it). -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-! The whole-block rectangles the body loads and stores through. -/
abbrev r10_S2000x128 : Rect S2000x128 := Rect.unit (s := S2000x128) ![0, 0] S2000x128.size inb_S2000x128_S2000x128_0_0
abbrev r10_S2000x1 : Rect S2000x1 := Rect.unit (s := S2000x1) ![0, 0] S2000x1.size inb_S2000x1_S2000x1_0_0
abbrev r10_S1x128 : Rect S1x128 := Rect.unit (s := S1x128) ![0, 0] S1x128.size inb_S1x128_S1x128_0_0

/-- The output block after the body: its one whole-block store, of the body's arithmetic on the loaded input blocks. -/
def out10_8 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x1 .f32) (x7 : Vec F S1x128 .f32) : Vec F S2000x128 .f32 :=
  View.canon [⟨r10_S2000x128, k10_pay1 (View.ld x6 r10_S2000x1) (View.ld x7 r10_S1x128) (View.ld x0 r10_S2000x128) (View.ld x3 r10_S2000x128) (View.ld x1 r10_S2000x128) (View.ld x4 r10_S2000x128) (View.ld x2 r10_S2000x128) (View.ld x5 r10_S2000x128)⟩]

/-- The one store covers the block. -/
theorem cover10_8 (p0 : Vec F S2000x128 .f32) (y : S2000x128.Idx) :
    ∃ pc ∈ ([⟨r10_S2000x128, p0⟩] : List (View.Piece (Elt F) S2000x128 .f32)), y ∈ pc.1.set :=
  View.cover_of_tiled [⟨r10_S2000x128, p0⟩] S2000x128.size (by rfl) y

set_option maxHeartbeats 4000000 in
/-- The body on whole staging buffers: every input keeps its contents, the output ends at `out10_8` of them. -/
theorem sound_kernel10 (c : Dev nD) (E : Set ℕ) (i : grid10.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S2000x128 .f32) (harg4 : arg4.IsWhole)
    (arg5 : Memref sig .tc .vmem S2000x128 .f32) (harg5 : arg5.IsWhole)
    (arg6 : Memref sig .tc .vmem S2000x128 .f32) (harg6 : arg6.IsWhole)
    (arg7 : Memref sig .tc .vmem S2000x1 .f32) (harg7 : arg7.IsWhole)
    (arg8 : Memref sig .tc .vmem S1x128 .f32) (harg8 : arg8.IsWhole)
    (arg9 : Memref sig .tc .vmem S2000x128 .f32) (harg9 : arg9.IsWhole)
    (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x1 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out10_8 x0 x1 x2 x3 x4 x5 x6 x7)) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover10_8 _)

/-- The proof data of the region's pipeline on core `c`: the arrays as the region finds them; after the body at point
    `t` each input buffer at its block, the output buffer at `out10_8` of the input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => out10_8 (iblk10 V c 0 t) (iblk10 V c 1 t) (iblk10 V c 2 t) (iblk10 V c 3 t) (iblk10 V c 4 t) (iblk10 V c 5 t) (iblk10 V c 6 t) (iblk10 V c 7 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = out10_8 (iblk10 V c 0 t) (iblk10 V c 1 t) (iblk10 V c 2 t) (iblk10 V c 3 t) (iblk10 V c 4 t) (iblk10 V c 5 t) (iblk10 V c 6 t) (iblk10 V c 7 t) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t))

/-- The body at any point: the input buffers hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel10 c Set.univ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.R11.lean ====
/- Region 11 of the program: the classifier: at each grid point, for a block of 2000 rows of the fourth cell, the row-wise log-softmax (maximum, shifted exponentials, their sum's logarithm), its product with the zero-padded 128 x 128 head weight, plus the padded bias row.
   This module states what the body leaves in its output block as a function of the input blocks, the proof data of the
   region's pipeline at arbitrary entry contents `V`, and the body obligation at every one of the 25 grid points. -/
import proofs.«135915_j24266565222462_2_alg».proof.Proof.Gen.Kernel.Launch
import proofs.«135915_j24266565222462_2_alg».proof.Proof.Gen.Kernel.Skeleton
import proofs.«135915_j24266565222462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! An input window's staging buffer holds its block at every point, fetched there or not (an unfetched window's block
    index has not moved since the point that fetched it). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! The whole-block rectangles the body loads and stores through. -/
abbrev r11_S2000x128 : Rect S2000x128 := Rect.unit (s := S2000x128) ![0, 0] S2000x128.size inb_S2000x128_S2000x128_0_0
abbrev r11_S128x128 : Rect S128x128 := Rect.unit (s := S128x128) ![0, 0] S128x128.size inb_S128x128_S128x128_0_0
abbrev r11_S1x128 : Rect S1x128 := Rect.unit (s := S1x128) ![0, 0] S1x128.size inb_S1x128_S1x128_0_0

/-- The output block after the body: its one whole-block store, of the body's arithmetic on the loaded input blocks. -/
def out11_3 (x0 : Vec F S2000x128 .f32) (x1 : Vec F S128x128 .f32) (x2 : Vec F S1x128 .f32) : Vec F S2000x128 .f32 :=
  View.canon [⟨r11_S2000x128, k11_pay1 (View.ld x0 r11_S2000x128) (View.ld x1 r11_S128x128) (View.ld x2 r11_S1x128)⟩]

/-- The one store covers the block. -/
theorem cover11_3 (p0 : Vec F S2000x128 .f32) (y : S2000x128.Idx) :
    ∃ pc ∈ ([⟨r11_S2000x128, p0⟩] : List (View.Piece (Elt F) S2000x128 .f32)), y ∈ pc.1.set :=
  View.cover_of_tiled [⟨r11_S2000x128, p0⟩] S2000x128.size (by rfl) y

set_option maxHeartbeats 4000000 in
/-- The body on whole staging buffers: every input keeps its contents, the output ends at `out11_3` of them. -/
theorem sound_kernel11 (c : Dev nD) (E : Set ℕ) (i : grid11.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__project_kernel i arg1 harg1 arg2 harg2 arg3 harg3 arg4 harg4) K := by
  simp only [cc11__project_kernel_eq_skeleton]; unfold cc11__project_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of the region's pipeline on core `c`: the arrays as the region finds them; after the body at point
    `t` each input buffer at its block, the output buffer at `out11_3` of the input blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the input buffers hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Chain.lean ====
/- The contents of the TensorCore's buffers at every boundary between two items of the program's main function:
   the launch memory, then each stretch of host operations applied, then — after a kernel region — the region's output
   array replaced by what its pipeline has written back over the whole grid, every other buffer as the region found it.
   The regions' proof data are taken at these entry contents. -/
import proofs.«135915_j24266565222462_2_alg».proof.Proof.Gen.Kernel.Regions
import proofs.«135915_j24266565222462_2_alg».proof.Proof.K.R0
import proofs.«135915_j24266565222462_2_alg».proof.Proof.K.R1
import proofs.«135915_j24266565222462_2_alg».proof.Proof.K.R2
import proofs.«135915_j24266565222462_2_alg».proof.Proof.K.R3
import proofs.«135915_j24266565222462_2_alg».proof.Proof.K.R4
import proofs.«135915_j24266565222462_2_alg».proof.Proof.K.R5
import proofs.«135915_j24266565222462_2_alg».proof.Proof.K.R6
import proofs.«135915_j24266565222462_2_alg».proof.Proof.K.R7
import proofs.«135915_j24266565222462_2_alg».proof.Proof.K.R8
import proofs.«135915_j24266565222462_2_alg».proof.Proof.K.R9
import proofs.«135915_j24266565222462_2_alg».proof.Proof.K.R10
import proofs.«135915_j24266565222462_2_alg».proof.Proof.K.R11

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

/-- No core owes another anything: no level is assigned. -/
abbrev Lz : GSem nD τ sig → Finset Unit := fun _ => ∅
abbrev lvz : GSem nD τ sig → Unit → ℕ := fun _ _ => 0
/-- What rides beside the buffers through every item of the main function: the core's generator register at some
    state, and its dues, at nothing. -/
abbrev rest (c : Dev nD) : sProp 𝕄 := iprop((∃ r, prngReg c r) ∗ ∃ W, owes (c : Thread nD τ) (0 : CellTallies nD τ sig Unit) W)

/-- A boundary's contents read at the TensorCore's references: the form a region's proof data take. -/
abbrev atRefs (W : Dev nD → Valuation τ sig (Elt F)) : (c : Dev nD) → (b : Ref sig .tc) → Buf (Elt F) ((c : Thread nD τ).loc b) :=
  fun c b => W c b

/-- At launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- What region 0's pipeline leaves in its output array `main_v28`: the write-backs of all 25 grid points. -/
def arr0 (c : Dev nD) : Buf (Elt F) ((c : Thread nD τ).loc main_v28) := (dat0 (atRefs (W1 m)) c).arrAt 2 cfg0.N
/-- After region 0. -/
def W2 (c : Dev nD) : Valuation τ sig (Elt F) := Function.update (W1 m c) main_v28 (arr0 m c)
/-- After the host stretch `hostOps1`. -/
abbrev W3 (c : Dev nD) : Valuation τ sig (Elt F) := StableHlo.after hostOps1 (W2 m c)
/-- What region 1's pipeline leaves in its output array `main_v45`: the write-backs of all 25 grid points. -/
def arr1 (c : Dev nD) : Buf (Elt F) ((c : Thread nD τ).loc main_v45) := (dat1 (atRefs (W3 m)) c).arrAt 4 cfg1.N
/-- After region 1. -/
def W4 (c : Dev nD) : Valuation τ sig (Elt F) := Function.update (W3 m c) main_v45 (arr1 m c)
/-- What region 2's pipeline leaves in its output array `main_v46`: the write-backs of all 25 grid points. -/
def arr2 (c : Dev nD) : Buf (Elt F) ((c : Thread nD τ).loc main_v46) := (dat2 (atRefs (W4 m)) c).arrAt 2 cfg2.N
/-- After region 2. -/
def W5 (c : Dev nD) : Valuation τ sig (Elt F) := Function.update (W4 m c) main_v46 (arr2 m c)
/-- After the host stretch `hostOps3`. -/
abbrev W6 (c : Dev nD) : Valuation τ sig (Elt F) := StableHlo.after hostOps3 (W5 m c)
/-- What region 3's pipeline leaves in its output array `main_v63`: the write-backs of all 25 grid points. -/
def arr3 (c : Dev nD) : Buf (Elt F) ((c : Thread nD τ).loc main_v63) := (dat3 (atRefs (W6 m)) c).arrAt 4 cfg3.N
/-- After region 3. -/
def W7 (c : Dev nD) : Valuation τ sig (Elt F) := Function.update (W6 m c) main_v63 (arr3 m c)
/-- What region 4's pipeline leaves in its output array `main_v64`: the write-backs of all 25 grid points. -/
def arr4 (c : Dev nD) : Buf (Elt F) ((c : Thread nD τ).loc main_v64) := (dat4 (atRefs (W7 m)) c).arrAt 2 cfg4.N
/-- After region 4. -/
def W8 (c : Dev nD) : Valuation τ sig (Elt F) := Function.update (W7 m c) main_v64 (arr4 m c)
/-- What region 5's pipeline leaves in its output array `main_v65`: the write-backs of all 25 grid points. -/
def arr5 (c : Dev nD) : Buf (Elt F) ((c : Thread nD τ).loc main_v65) := (dat5 (atRefs (W8 m)) c).arrAt 2 cfg5.N
/-- After region 5. -/
def W9 (c : Dev nD) : Valuation τ sig (Elt F) := Function.update (W8 m c) main_v65 (arr5 m c)
/-- After the host stretch `hostOps6`. -/
abbrev W10 (c : Dev nD) : Valuation τ sig (Elt F) := StableHlo.after hostOps6 (W9 m c)
/-- What region 6's pipeline leaves in its output array `main_v86`: the write-backs of all 25 grid points. -/
def arr6 (c : Dev nD) : Buf (Elt F) ((c : Thread nD τ).loc main_v86) := (dat6 (atRefs (W10 m)) c).arrAt 6 cfg6.N
/-- After region 6. -/
def W11 (c : Dev nD) : Valuation τ sig (Elt F) := Function.update (W10 m c) main_v86 (arr6 m c)
/-- What region 7's pipeline leaves in its output array `main_v87`: the write-backs of all 25 grid points. -/
def arr7 (c : Dev nD) : Buf (Elt F) ((c : Thread nD τ).loc main_v87) := (dat7 (atRefs (W11 m)) c).arrAt 2 cfg7.N
/-- After region 7. -/
def W12 (c : Dev nD) : Valuation τ sig (Elt F) := Function.update (W11 m c) main_v87 (arr7 m c)
/-- What region 8's pipeline leaves in its output array `main_v88`: the write-backs of all 25 grid points. -/
def arr8 (c : Dev nD) : Buf (Elt F) ((c : Thread nD τ).loc main_v88) := (dat8 (atRefs (W12 m)) c).arrAt 2 cfg8.N
/-- After region 8. -/
def W13 (c : Dev nD) : Valuation τ sig (Elt F) := Function.update (W12 m c) main_v88 (arr8 m c)
/-- What region 9's pipeline leaves in its output array `main_v89`: the write-backs of all 25 grid points. -/
def arr9 (c : Dev nD) : Buf (Elt F) ((c : Thread nD τ).loc main_v89) := (dat9 (atRefs (W13 m)) c).arrAt 2 cfg9.N
/-- After region 9. -/
def W14 (c : Dev nD) : Valuation τ sig (Elt F) := Function.update (W13 m c) main_v89 (arr9 m c)
/-- After the host stretch `hostOps10`. -/
abbrev W15 (c : Dev nD) : Valuation τ sig (Elt F) := StableHlo.after hostOps10 (W14 m c)
/-- What region 10's pipeline leaves in its output array `main_v112`: the write-backs of all 25 grid points. -/
def arr10 (c : Dev nD) : Buf (Elt F) ((c : Thread nD τ).loc main_v112) := (dat10 (atRefs (W15 m)) c).arrAt 8 cfg10.N
/-- After region 10. -/
def W16 (c : Dev nD) : Valuation τ sig (Elt F) := Function.update (W15 m c) main_v112 (arr10 m c)
/-- After the host stretch `hostOps11`. -/
abbrev W17 (c : Dev nD) : Valuation τ sig (Elt F) := StableHlo.after hostOps11 (W16 m c)
/-- After the host stretch `hostOps11_1`. -/
abbrev W18 (c : Dev nD) : Valuation τ sig (Elt F) := StableHlo.after hostOps11_1 (W17 m c)
/-- After the host stretch `hostOps11_2`. -/
abbrev W19 (c : Dev nD) : Valuation τ sig (Elt F) := StableHlo.after hostOps11_2 (W18 m c)
/-- After the host stretch `hostOps11_3`. -/
abbrev W20 (c : Dev nD) : Valuation τ sig (Elt F) := StableHlo.after hostOps11_3 (W19 m c)
/-- After the host stretch `hostOps11_4`. -/
abbrev W21 (c : Dev nD) : Valuation τ sig (Elt F) := StableHlo.after hostOps11_4 (W20 m c)
/-- What region 11's pipeline leaves in its output array `main_v116`: the write-backs of all 25 grid points. -/
def arr11 (c : Dev nD) : Buf (Elt F) ((c : Thread nD τ).loc main_v116) := (dat11 (atRefs (W21 m)) c).arrAt 3 cfg11.N
/-- After region 11. -/
def W22 (c : Dev nD) : Valuation τ sig (Elt F) := Function.update (W21 m c) main_v116 (arr11 m c)
/-- After the host stretch `hostOps12`. -/
abbrev W23 (c : Dev nD) : Valuation τ sig (Elt F) := StableHlo.after hostOps12 (W22 m c)

/-- What the regions leave, in the form the conditional frame's boundary contents are written over. -/
def outs : Outs (F := F) := fun J r c => match J with
  | 2 => W2 m c r
  | 4 => W4 m c r
  | 5 => W5 m c r
  | 7 => W7 m c r
  | 8 => W8 m c r
  | 9 => W9 m c r
  | 11 => W11 m c r
  | 12 => W12 m c r
  | 13 => W13 m c r
  | 14 => W14 m c r
  | 16 => W16 m c r
  | 22 => W22 m c r
  | _ => W0 m c r

/-! The conditional frame's boundary contents at these `outs` are the contents above. -/
theorem V1_eq (c : Dev nD) : V1 m c = W1 m c := rfl
theorem V2_eq (c : Dev nD) : V2 m (outs m) c = W2 m c := by
  show Function.update (V1 m c) main_v28 (W2 m c main_v28) = _
  rw [V1_eq]; unfold W2; rw [Function.update_self]
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v45 (W4 m c main_v45) = _
  rw [V3_eq]; unfold W4; rw [Function.update_self]
theorem V5_eq (c : Dev nD) : V5 m (outs m) c = W5 m c := by
  show Function.update (V4 m (outs m) c) main_v46 (W5 m c main_v46) = _
  rw [V4_eq]; unfold W5; rw [Function.update_self]
theorem V6_eq (c : Dev nD) : V6 m (outs m) c = W6 m c := by
  show StableHlo.after hostOps3 (V5 m (outs m) c) = _
  rw [V5_eq]
theorem V7_eq (c : Dev nD) : V7 m (outs m) c = W7 m c := by
  show Function.update (V6 m (outs m) c) main_v63 (W7 m c main_v63) = _
  rw [V6_eq]; unfold W7; rw [Function.update_self]
theorem V8_eq (c : Dev nD) : V8 m (outs m) c = W8 m c := by
  show Function.update (V7 m (outs m) c) main_v64 (W8 m c main_v64) = _
  rw [V7_eq]; unfold W8; rw [Function.update_self]
theorem V9_eq (c : Dev nD) : V9 m (outs m) c = W9 m c := by
  show Function.update (V8 m (outs m) c) main_v65 (W9 m c main_v65) = _
  rw [V8_eq]; unfold W9; rw [Function.update_self]
theorem V10_eq (c : Dev nD) : V10 m (outs m) c = W10 m c := by
  show StableHlo.after hostOps6 (V9 m (outs m) c) = _
  rw [V9_eq]
theorem V11_eq (c : Dev nD) : V11 m (outs m) c = W11 m c := by
  show Function.update (V10 m (outs m) c) main_v86 (W11 m c main_v86) = _
  rw [V10_eq]; unfold W11; rw [Function.update_self]
theorem V12_eq (c : Dev nD) : V12 m (outs m) c = W12 m c := by
  show Function.update (V11 m (outs m) c) main_v87 (W12 m c main_v87) = _
  rw [V11_eq]; unfold W12; rw [Function.update_self]
theorem V13_eq (c : Dev nD) : V13 m (outs m) c = W13 m c := by
  show Function.update (V12 m (outs m) c) main_v88 (W13 m c main_v88) = _
  rw [V12_eq]; unfold W13; rw [Function.update_self]
theorem V14_eq (c : Dev nD) : V14 m (outs m) c = W14 m c := by
  show Function.update (V13 m (outs m) c) main_v89 (W14 m c main_v89) = _
  rw [V13_eq]; unfold W14; rw [Function.update_self]
theorem V15_eq (c : Dev nD) : V15 m (outs m) c = W15 m c := by
  show StableHlo.after hostOps10 (V14 m (outs m) c) = _
  rw [V14_eq]
theorem V16_eq (c : Dev nD) : V16 m (outs m) c = W16 m c := by
  show Function.update (V15 m (outs m) c) main_v112 (W16 m c main_v112) = _
  rw [V15_eq]; unfold W16; rw [Function.update_self]
theorem V17_eq (c : Dev nD) : V17 m (outs m) c = W17 m c := by
  show StableHlo.after hostOps11 (V16 m (outs m) c) = _
  rw [V16_eq]
theorem V18_eq (c : Dev nD) : V18 m (outs m) c = W18 m c := by
  show StableHlo.after hostOps11_1 (V17 m (outs m) c) = _
  rw [V17_eq]
theorem V19_eq (c : Dev nD) : V19 m (outs m) c = W19 m c := by
  show StableHlo.after hostOps11_2 (V18 m (outs m) c) = _
  rw [V18_eq]
theorem V20_eq (c : Dev nD) : V20 m (outs m) c = W20 m c := by
  show StableHlo.after hostOps11_3 (V19 m (outs m) c) = _
  rw [V19_eq]
theorem V21_eq (c : Dev nD) : V21 m (outs m) c = W21 m c := by
  show StableHlo.after hostOps11_4 (V20 m (outs m) c) = _
  rw [V20_eq]
theorem V22_eq (c : Dev nD) : V22 m (outs m) c = W22 m c := by
  show Function.update (V21 m (outs m) c) main_v116 (W22 m c main_v116) = _
  rw [V21_eq]; unfold W22; rw [Function.update_self]
theorem V23_eq (c : Dev nD) : V23 m (outs m) c = W23 m c := by
  show StableHlo.after hostOps12 (V22 m (outs m) c) = _
  rw [V22_eq]

/-- Every pipeline's proof data, each at its region's entry contents. -/
def pdats : (p : Fin 12) → (c : Dev nD) → Dat τ (Elt F) Unit ℕ (UR sig nD τ) ℕ (cfgs p) c
  | ⟨0, _⟩ => fun c => dat0 (atRefs (W1 m)) c
  | ⟨1, _⟩ => fun c => dat1 (atRefs (W3 m)) c
  | ⟨2, _⟩ => fun c => dat2 (atRefs (W4 m)) c
  | ⟨3, _⟩ => fun c => dat3 (atRefs (W6 m)) c
  | ⟨4, _⟩ => fun c => dat4 (atRefs (W7 m)) c
  | ⟨5, _⟩ => fun c => dat5 (atRefs (W8 m)) c
  | ⟨6, _⟩ => fun c => dat6 (atRefs (W10 m)) c
  | ⟨7, _⟩ => fun c => dat7 (atRefs (W11 m)) c
  | ⟨8, _⟩ => fun c => dat8 (atRefs (W12 m)) c
  | ⟨9, _⟩ => fun c => dat9 (atRefs (W13 m)) c
  | ⟨10, _⟩ => fun c => dat10 (atRefs (W15 m)) c
  | ⟨11, _⟩ => fun c => dat11 (atRefs (W21 m)) c

end Cert.Kernel.Hand

end
-- ==== Proof.K.Reg0.lean ====
/- Region 0 as an item of the main function: entered with every unscoped buffer at the contents before it, left with its
   output array `main_v28` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF0 (c : Dev nD) (w : Fin cfg0.W) : (dat0 (atRefs (W1 m)) c).arrAt w cfg0.N = (atRefs (W2 m)) c (Pipeline.arrRef spec0 w) :=
  match w with
  | ⟨0, _⟩ => ((dat0 (atRefs (W1 m)) c).arrAt_in 0 rfl _).trans ((A_eq0 (atRefs (W1 m)) c 0).trans (by
      unfold atRefs W2; exact (Function.update_of_ne (StableHlo.devRef_ne_of_ne (by decide)) _ _).symm))
  | ⟨1, _⟩ => ((dat0 (atRefs (W1 m)) c).arrAt_in 1 rfl _).trans ((A_eq0 (atRefs (W1 m)) c 1).trans (by
      unfold atRefs W2; exact (Function.update_of_ne (StableHlo.devRef_ne_of_ne (by decide)) _ _).symm))
  | ⟨2, _⟩ => by
      show _ = Function.update (W1 m c) (Proc.devRef .tc main_v28 : DevRef τ sig) (arr0 m c) (Proc.devRef .tc main_v28 : DevRef τ sig)
      rw [Function.update_self]; rfl

set_option maxHeartbeats 8000000 in
/-- Every other buffer is as the region found it. -/
theorem hrest0 (c : Dev nD) : ∀ b, b ∉ Finset.univ.image (Pipeline.arrRef spec0) → (atRefs (W2 m)) c b = (atRefs (W1 m)) c b :=
  fun b hb => by
    unfold atRefs W2
    exact Function.update_of_ne (StableHlo.devRef_ne_of_ne fun e =>
      hb (Finset.mem_image.mpr ⟨(2 : Fin cfg0.W), Finset.mem_univ _, (show Pipeline.arrRef spec0 (2 : Fin cfg0.W) = b from e.symm)⟩)) _ _

set_option maxHeartbeats 8000000 in
set_option backward.isDefEq.respectTransparency.types false in
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atRefs (W1 m)) c).loose
  hwaits := Pipeline.hwaits_of_owed_zero _ _ _ _ Lz lvz 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c ((atRefs (W1 m)) c)
  hentry c := by
    rw [Pipeline.ownSems0_none]
    have hsplit := Pipeline.arrays_of_unscopedBufs (p := 0) (pcfgs (F := F)) adm (pdats m) launch0.win launch0.arr_whole c
      ((pdats m 0 c).share_full fun _ => rfl) ((atRefs (W1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      ((atRefs (W1 m)) c) ((atRefs (W2 m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/- Region 1 as an item of the main function: entered with every unscoped buffer at the contents before it, left with its
   output array `main_v45` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF1 (c : Dev nD) (w : Fin cfg1.W) : (dat1 (atRefs (W3 m)) c).arrAt w cfg1.N = (atRefs (W4 m)) c (Pipeline.arrRef spec1 w) :=
  match w with
  | ⟨0, _⟩ => ((dat1 (atRefs (W3 m)) c).arrAt_in 0 rfl _).trans ((A_eq1 (atRefs (W3 m)) c 0).trans (by
      unfold atRefs W4; exact (Function.update_of_ne (StableHlo.devRef_ne_of_ne (by decide)) _ _).symm))
  | ⟨1, _⟩ => ((dat1 (atRefs (W3 m)) c).arrAt_in 1 rfl _).trans ((A_eq1 (atRefs (W3 m)) c 1).trans (by
      unfold atRefs W4; exact (Function.update_of_ne (StableHlo.devRef_ne_of_ne (by decide)) _ _).symm))
  | ⟨2, _⟩ => ((dat1 (atRefs (W3 m)) c).arrAt_in 2 rfl _).trans ((A_eq1 (atRefs (W3 m)) c 2).trans (by
      unfold atRefs W4; exact (Function.update_of_ne (StableHlo.devRef_ne_of_ne (by decide)) _ _).symm))
  | ⟨3, _⟩ => ((dat1 (atRefs (W3 m)) c).arrAt_in 3 rfl _).trans ((A_eq1 (atRefs (W3 m)) c 3).trans (by
      unfold atRefs W4; exact (Function.update_of_ne (StableHlo.devRef_ne_of_ne (by decide)) _ _).symm))
  | ⟨4, _⟩ => by
      show _ = Function.update (W3 m c) (Proc.devRef .tc main_v45 : DevRef τ sig) (arr1 m c) (Proc.devRef .tc main_v45 : DevRef τ sig)
      rw [Function.update_self]; rfl

set_option maxHeartbeats 8000000 in
/-- Every other buffer is as the region found it. -/
theorem hrest1 (c : Dev nD) : ∀ b, b ∉ Finset.univ.image (Pipeline.arrRef spec1) → (atRefs (W4 m)) c b = (atRefs (W3 m)) c b :=
  fun b hb => by
    unfold atRefs W4
    exact Function.update_of_ne (StableHlo.devRef_ne_of_ne fun e =>
      hb (Finset.mem_image.mpr ⟨(4 : Fin cfg1.W), Finset.mem_univ _, (show Pipeline.arrRef spec1 (4 : Fin cfg1.W) = b from e.symm)⟩)) _ _

set_option maxHeartbeats 8000000 in
set_option backward.isDefEq.respectTransparency.types false in
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atRefs (W3 m)) c).loose
  hwaits := Pipeline.hwaits_of_owed_zero _ _ _ _ Lz lvz 1 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec1 c ((atRefs (W3 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) ((atRefs (W3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      ((atRefs (W3 m)) c) ((atRefs (W4 m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/- Region 2 as an item of the main function: entered with every unscoped buffer at the contents before it, left with its
   output array `main_v46` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF2 (c : Dev nD) (w : Fin cfg2.W) : (dat2 (atRefs (W4 m)) c).arrAt w cfg2.N = (atRefs (W5 m)) c (Pipeline.arrRef spec2 w) :=
  match w with
  | ⟨0, _⟩ => ((dat2 (atRefs (W4 m)) c).arrAt_in 0 rfl _).trans ((A_eq2 (atRefs (W4 m)) c 0).trans (by
      unfold atRefs W5; exact (Function.update_of_ne (StableHlo.devRef_ne_of_ne (by decide)) _ _).symm))
  | ⟨1, _⟩ => ((dat2 (atRefs (W4 m)) c).arrAt_in 1 rfl _).trans ((A_eq2 (atRefs (W4 m)) c 1).trans (by
      unfold atRefs W5; exact (Function.update_of_ne (StableHlo.devRef_ne_of_ne (by decide)) _ _).symm))
  | ⟨2, _⟩ => by
      show _ = Function.update (W4 m c) (Proc.devRef .tc main_v46 : DevRef τ sig) (arr2 m c) (Proc.devRef .tc main_v46 : DevRef τ sig)
      rw [Function.update_self]; rfl

set_option maxHeartbeats 8000000 in
/-- Every other buffer is as the region found it. -/
theorem hrest2 (c : Dev nD) : ∀ b, b ∉ Finset.univ.image (Pipeline.arrRef spec2) → (atRefs (W5 m)) c b = (atRefs (W4 m)) c b :=
  fun b hb => by
    unfold atRefs W5
    exact Function.update_of_ne (StableHlo.devRef_ne_of_ne fun e =>
      hb (Finset.mem_image.mpr ⟨(2 : Fin cfg2.W), Finset.mem_univ _, (show Pipeline.arrRef spec2 (2 : Fin cfg2.W) = b from e.symm)⟩)) _ _

set_option maxHeartbeats 8000000 in
set_option backward.isDefEq.respectTransparency.types false in
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atRefs (W4 m)) c).loose
  hwaits := Pipeline.hwaits_of_owed_zero _ _ _ _ Lz lvz 2 fun _ _ => rfl
  pre c := iprop(StableHlo.held (c : Thread nD τ) (Pipeline.ucRefs τ sig) (W4 m c) ∗ rest c)
  post c := iprop(StableHlo.held (c : Thread nD τ) (Pipeline.ucRefs τ sig) (W5 m c) ∗ rest c)
  X c := iprop(∃ r, prngReg c r)
  Y c := iprop(∃ r, prngReg c r)
  Z c := Pipeline.unscopedRest (Ix := Unit) (Name := ℕ) (U := UR sig nD τ) (Lvl := ℕ) spec2 c ((atRefs (W4 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) ((atRefs (W4 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      ((atRefs (W4 m)) c) ((atRefs (W5 m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/- Region 3 as an item of the main function: entered with every unscoped buffer at the contents before it, left with its
   output array `main_v63` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF3 (c : Dev nD) (w : Fin cfg3.W) : (dat3 (atRefs (W6 m)) c).arrAt w cfg3.N = (atRefs (W7 m)) c (Pipeline.arrRef spec3 w) :=
  match w with
  | ⟨0, _⟩ => ((dat3 (atRefs (W6 m)) c).arrAt_in 0 rfl _).trans ((A_eq3 (atRefs (W6 m)) c 0).trans (by
      unfold atRefs W7; exact (Function.update_of_ne (StableHlo.devRef_ne_of_ne (by decide)) _ _).symm))
  | ⟨1, _⟩ => ((dat3 (atRefs (W6 m)) c).arrAt_in 1 rfl _).trans ((A_eq3 (atRefs (W6 m)) c 1).trans (by
      unfold atRefs W7; exact (Function.update_of_ne (StableHlo.devRef_ne_of_ne (by decide)) _ _).symm))
  | ⟨2, _⟩ => ((dat3 (atRefs (W6 m)) c).arrAt_in 2 rfl _).trans ((A_eq3 (atRefs (W6 m)) c 2).trans (by
      unfold atRefs W7; exact (Function.update_of_ne (StableHlo.devRef_ne_of_ne (by decide)) _ _).symm))
  | ⟨3, _⟩ => ((dat3 (atRefs (W6 m)) c).arrAt_in 3 rfl _).trans ((A_eq3 (atRefs (W6 m)) c 3).trans (by
      unfold atRefs W7; exact (Function.update_of_ne (StableHlo.devRef_ne_of_ne (by decide)) _ _).symm))
  | ⟨4, _⟩ => by
      show _ = Function.update (W6 m c) (Proc.devRef .tc main_v63 : DevRef τ sig) (arr3 m c) (Proc.devRef .tc main_v63 : DevRef τ sig)
      rw [Function.update_self]; rfl

set_option maxHeartbeats 8000000 in
/-- Every other buffer is as the region found it. -/
theorem hrest3 (c : Dev nD) : ∀ b, b ∉ Finset.univ.image (Pipeline.arrRef spec3) → (atRefs (W7 m)) c b = (atRefs (W6 m)) c b :=
  fun b hb => by
    unfold atRefs W7
    exact Function.update_of_ne (StableHlo.devRef_ne_of_ne fun e =>
      hb (Finset.mem_image.mpr ⟨(4 : Fin cfg3.W), Finset.mem_univ _, (show Pipeline.arrRef spec3 (4 : Fin cfg3.W) = b from e.symm)⟩)) _ _

set_option maxHeartbeats 8000000 in
set_option backward.isDefEq.respectTransparency.types false in
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (atRefs (W6 m)) c).loose
  hwaits := Pipeline.hwaits_of_owed_zero _ _ _ _ Lz lvz 3 fun _ _ => rfl
  pre c := iprop(StableHlo.held (c : Thread nD τ) (Pipeline.ucRefs τ sig) (W6 m c) ∗ rest c)
  post c := iprop(StableHlo.held (c : Thread nD τ) (Pipeline.ucRefs τ sig) (W7 m c) ∗ rest c)
  X c := iprop(∃ r, prngReg c r)
  Y c := iprop(∃ r, prngReg c r)
  Z c := Pipeline.unscopedRest (Ix := Unit) (Name := ℕ) (U := UR sig nD τ) (Lvl := ℕ) spec3 c ((atRefs (W6 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) ((atRefs (W6 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      ((atRefs (W6 m)) c) ((atRefs (W7 m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
/- Region 4 as an item of the main function: entered with every unscoped buffer at the contents before it, left with its
   output array `main_v64` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF4 (c : Dev nD) (w : Fin cfg4.W) : (dat4 (atRefs (W7 m)) c).arrAt w cfg4.N = (atRefs (W8 m)) c (Pipeline.arrRef spec4 w) :=
  match w with
  | ⟨0, _⟩ => ((dat4 (atRefs (W7 m)) c).arrAt_in 0 rfl _).trans ((A_eq4 (atRefs (W7 m)) c 0).trans (by
      unfold atRefs W8; exact (Function.update_of_ne (StableHlo.devRef_ne_of_ne (by decide)) _ _).symm))
  | ⟨1, _⟩ => ((dat4 (atRefs (W7 m)) c).arrAt_in 1 rfl _).trans ((A_eq4 (atRefs (W7 m)) c 1).trans (by
      unfold atRefs W8; exact (Function.update_of_ne (StableHlo.devRef_ne_of_ne (by decide)) _ _).symm))
  | ⟨2, _⟩ => by
      show _ = Function.update (W7 m c) (Proc.devRef .tc main_v64 : DevRef τ sig) (arr4 m c) (Proc.devRef .tc main_v64 : DevRef τ sig)
      rw [Function.update_self]; rfl

set_option maxHeartbeats 8000000 in
/-- Every other buffer is as the region found it. -/
theorem hrest4 (c : Dev nD) : ∀ b, b ∉ Finset.univ.image (Pipeline.arrRef spec4) → (atRefs (W8 m)) c b = (atRefs (W7 m)) c b :=
  fun b hb => by
    unfold atRefs W8
    exact Function.update_of_ne (StableHlo.devRef_ne_of_ne fun e =>
      hb (Finset.mem_image.mpr ⟨(2 : Fin cfg4.W), Finset.mem_univ _, (show Pipeline.arrRef spec4 (2 : Fin cfg4.W) = b from e.symm)⟩)) _ _

set_option maxHeartbeats 8000000 in
set_option backward.isDefEq.respectTransparency.types false in
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (atRefs (W7 m)) c).loose
  hwaits := Pipeline.hwaits_of_owed_zero _ _ _ _ Lz lvz 4 fun _ _ => rfl
  pre c := iprop(StableHlo.held (c : Thread nD τ) (Pipeline.ucRefs τ sig) (W7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := UR sig nD τ) (Lvl := ℕ) spec4 c ((atRefs (W7 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) ((atRefs (W7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      ((atRefs (W7 m)) c) ((atRefs (W8 m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
/- Region 5 as an item of the main function: entered with every unscoped buffer at the contents before it, left with its
   output array `main_v65` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF5 (c : Dev nD) (w : Fin cfg5.W) : (dat5 (atRefs (W8 m)) c).arrAt w cfg5.N = (atRefs (W9 m)) c (Pipeline.arrRef spec5 w) :=
  match w with
  | ⟨0, _⟩ => ((dat5 (atRefs (W8 m)) c).arrAt_in 0 rfl _).trans ((A_eq5 (atRefs (W8 m)) c 0).trans (by
      unfold atRefs W9; exact (Function.update_of_ne (StableHlo.devRef_ne_of_ne (by decide)) _ _).symm))
  | ⟨1, _⟩ => ((dat5 (atRefs (W8 m)) c).arrAt_in 1 rfl _).trans ((A_eq5 (atRefs (W8 m)) c 1).trans (by
      unfold atRefs W9; exact (Function.update_of_ne (StableHlo.devRef_ne_of_ne (by decide)) _ _).symm))
  | ⟨2, _⟩ => by
      show _ = Function.update (W8 m c) (Proc.devRef .tc main_v65 : DevRef τ sig) (arr5 m c) (Proc.devRef .tc main_v65 : DevRef τ sig)
      rw [Function.update_self]; rfl

set_option maxHeartbeats 8000000 in
/-- Every other buffer is as the region found it. -/
theorem hrest5 (c : Dev nD) : ∀ b, b ∉ Finset.univ.image (Pipeline.arrRef spec5) → (atRefs (W9 m)) c b = (atRefs (W8 m)) c b :=
  fun b hb => by
    unfold atRefs W9
    exact Function.update_of_ne (StableHlo.devRef_ne_of_ne fun e =>
      hb (Finset.mem_image.mpr ⟨(2 : Fin cfg5.W), Finset.mem_univ _, (show Pipeline.arrRef spec5 (2 : Fin cfg5.W) = b from e.symm)⟩)) _ _

set_option maxHeartbeats 8000000 in
set_option backward.isDefEq.respectTransparency.types false in
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (atRefs (W8 m)) c).loose
  hwaits := Pipeline.hwaits_of_owed_zero _ _ _ _ Lz lvz 5 fun _ _ => rfl
  pre c := iprop(StableHlo.held (c : Thread nD τ) (Pipeline.ucRefs τ sig) (W8 m c) ∗ rest c)
  post c := iprop(StableHlo.held (c : Thread nD τ) (Pipeline.ucRefs τ sig) (W9 m c) ∗ rest c)
  X c := iprop(∃ r, prngReg c r)
  Y c := iprop(∃ r, prngReg c r)
  Z c := Pipeline.unscopedRest (Ix := Unit) (Name := ℕ) (U := UR sig nD τ) (Lvl := ℕ) spec5 c ((atRefs (W8 m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) ((atRefs (W8 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      ((atRefs (W8 m)) c) ((atRefs (W9 m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6.lean ====
/- Region 6 as an item of the main function: entered with every unscoped buffer at the contents before it, left with its
   output array `main_v86` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF6 (c : Dev nD) (w : Fin cfg6.W) : (dat6 (atRefs (W10 m)) c).arrAt w cfg6.N = (atRefs (W11 m)) c (Pipeline.arrRef spec6 w) :=
  match w with
  | ⟨0, _⟩ => ((dat6 (atRefs (W10 m)) c).arrAt_in 0 rfl _).trans ((A_eq6 (atRefs (W10 m)) c 0).trans (by
      unfold atRefs W11; exact (Function.update_of_ne (StableHlo.devRef_ne_of_ne (by decide)) _ _).symm))
  | ⟨1, _⟩ => ((dat6 (atRefs (W10 m)) c).arrAt_in 1 rfl _).trans ((A_eq6 (atRefs (W10 m)) c 1).trans (by
      unfold atRefs W11; exact (Function.update_of_ne (StableHlo.devRef_ne_of_ne (by decide)) _ _).symm))
  | ⟨2, _⟩ => ((dat6 (atRefs (W10 m)) c).arrAt_in 2 rfl _).trans ((A_eq6 (atRefs (W10 m)) c 2).trans (by
      unfold atRefs W11; exact (Function.update_of_ne (StableHlo.devRef_ne_of_ne (by decide)) _ _).symm))
  | ⟨3, _⟩ => ((dat6 (atRefs (W10 m)) c).arrAt_in 3 rfl _).trans ((A_eq6 (atRefs (W10 m)) c 3).trans (by
      unfold atRefs W11; exact (Function.update_of_ne (StableHlo.devRef_ne_of_ne (by decide)) _ _).symm))
  | ⟨4, _⟩ => ((dat6 (atRefs (W10 m)) c).arrAt_in 4 rfl _).trans ((A_eq6 (atRefs (W10 m)) c 4).trans (by
      unfold atRefs W11; exact (Function.update_of_ne (StableHlo.devRef_ne_of_ne (by decide)) _ _).symm))
  | ⟨5, _⟩ => ((dat6 (atRefs (W10 m)) c).arrAt_in 5 rfl _).trans ((A_eq6 (atRefs (W10 m)) c 5).trans (by
      unfold atRefs W11; exact (Function.update_of_ne (StableHlo.devRef_ne_of_ne (by decide)) _ _).symm))
  | ⟨6, _⟩ => by
      show _ = Function.update (W10 m c) (Proc.devRef .tc main_v86 : DevRef τ sig) (arr6 m c) (Proc.devRef .tc main_v86 : DevRef τ sig)
      rw [Function.update_self]; rfl

set_option maxHeartbeats 8000000 in
/-- Every other buffer is as the region found it. -/
theorem hrest6 (c : Dev nD) : ∀ b, b ∉ Finset.univ.image (Pipeline.arrRef spec6) → (atRefs (W11 m)) c b = (atRefs (W10 m)) c b :=
  fun b hb => by
    unfold atRefs W11
    exact Function.update_of_ne (StableHlo.devRef_ne_of_ne fun e =>
      hb (Finset.mem_image.mpr ⟨(6 : Fin cfg6.W), Finset.mem_univ _, (show Pipeline.arrRef spec6 (6 : Fin cfg6.W) = b from e.symm)⟩)) _ _

set_option maxHeartbeats 8000000 in
set_option backward.isDefEq.respectTransparency.types false in
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (atRefs (W10 m)) c).loose
  hwaits := Pipeline.hwaits_of_owed_zero _ _ _ _ Lz lvz 6 fun _ _ => rfl
  pre c := iprop(StableHlo.held (c : Thread nD τ) (Pipeline.ucRefs τ sig) (W10 m c) ∗ rest c)
  post c := iprop(StableHlo.held (c : Thread nD τ) (Pipeline.ucRefs τ sig) (W11 m c) ∗ rest c)
  X c := iprop(∃ r, prngReg c r)
  Y c := iprop(∃ r, prngReg c r)
  Z c := Pipeline.unscopedRest (Ix := Unit) (Name := ℕ) (U := UR sig nD τ) (Lvl := ℕ) spec6 c ((atRefs (W10 m)) c)
  hentry c := by
    rw [Pipeline.ownSems0_none]
    have hsplit := Pipeline.arrays_of_unscopedBufs (p := 6) (pcfgs (F := F)) adm (pdats m) launch6.win launch6.arr_whole c
      ((pdats m 6 c).share_full fun _ => rfl) ((atRefs (W10 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      ((atRefs (W10 m)) c) ((atRefs (W11 m)) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7.lean ====
/- Region 7 as an item of the main function: entered with every unscoped buffer at the contents before it, left with its
   output array `main_v87` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF7 (c : Dev nD) (w : Fin cfg7.W) : (dat7 (atRefs (W11 m)) c).arrAt w cfg7.N = (atRefs (W12 m)) c (Pipeline.arrRef spec7 w) :=
  match w with
  | ⟨0, _⟩ => ((dat7 (atRefs (W11 m)) c).arrAt_in 0 rfl _).trans ((A_eq7 (atRefs (W11 m)) c 0).trans (by
      unfold atRefs W12; exact (Function.update_of_ne (StableHlo.devRef_ne_of_ne (by decide)) _ _).symm))
  | ⟨1, _⟩ => ((dat7 (atRefs (W11 m)) c).arrAt_in 1 rfl _).trans ((A_eq7 (atRefs (W11 m)) c 1).trans (by
      unfold atRefs W12; exact (Function.update_of_ne (StableHlo.devRef_ne_of_ne (by decide)) _ _).symm))
  | ⟨2, _⟩ => by
      show _ = Function.update (W11 m c) (Proc.devRef .tc main_v87 : DevRef τ sig) (arr7 m c) (Proc.devRef .tc main_v87 : DevRef τ sig)
      rw [Function.update_self]; rfl

set_option maxHeartbeats 8000000 in
/-- Every other buffer is as the region found it. -/
theorem hrest7 (c : Dev nD) : ∀ b, b ∉ Finset.univ.image (Pipeline.arrRef spec7) → (atRefs (W12 m)) c b = (atRefs (W11 m)) c b :=
  fun b hb => by
    unfold atRefs W12
    exact Function.update_of_ne (StableHlo.devRef_ne_of_ne fun e =>
      hb (Finset.mem_image.mpr ⟨(2 : Fin cfg7.W), Finset.mem_univ _, (show Pipeline.arrRef spec7 (2 : Fin cfg7.W) = b from e.symm)⟩)) _ _

set_option maxHeartbeats 8000000 in
set_option backward.isDefEq.respectTransparency.types false in
def reg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (atRefs (W11 m)) c).loose
  hwaits := Pipeline.hwaits_of_owed_zero _ _ _ _ Lz lvz 7 fun _ _ => rfl
  pre c := iprop(StableHlo.held (c : Thread nD τ) (Pipeline.ucRefs τ sig) (W11 m c) ∗ rest c)
  post c := iprop(StableHlo.held (c : Thread nD τ) (Pipeline.ucRefs τ sig) (W12 m c) ∗ rest c)
  X c := iprop(∃ r, prngReg c r)
  Y c := iprop(∃ r, prngReg c r)
  Z c := Pipeline.unscopedRest (Ix := Unit) (Name := ℕ) (U := UR sig nD τ) (Lvl := ℕ) spec7 c ((atRefs (W11 m)) c)
  hentry c := by
    rw [Pipeline.ownSems0_none]
    have hsplit := Pipeline.arrays_of_unscopedBufs (p := 7) (pcfgs (F := F)) adm (pdats m) launch7.win launch7.arr_whole c
      ((pdats m 7 c).share_full fun _ => rfl) ((atRefs (W11 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      ((atRefs (W11 m)) c) ((atRefs (W12 m)) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg8.lean ====
/- Region 8 as an item of the main function: entered with every unscoped buffer at the contents before it, left with its
   output array `main_v88` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF8 (c : Dev nD) (w : Fin cfg8.W) : (dat8 (atRefs (W12 m)) c).arrAt w cfg8.N = (atRefs (W13 m)) c (Pipeline.arrRef spec8 w) :=
  match w with
  | ⟨0, _⟩ => ((dat8 (atRefs (W12 m)) c).arrAt_in 0 rfl _).trans ((A_eq8 (atRefs (W12 m)) c 0).trans (by
      unfold atRefs W13; exact (Function.update_of_ne (StableHlo.devRef_ne_of_ne (by decide)) _ _).symm))
  | ⟨1, _⟩ => ((dat8 (atRefs (W12 m)) c).arrAt_in 1 rfl _).trans ((A_eq8 (atRefs (W12 m)) c 1).trans (by
      unfold atRefs W13; exact (Function.update_of_ne (StableHlo.devRef_ne_of_ne (by decide)) _ _).symm))
  | ⟨2, _⟩ => by
      show _ = Function.update (W12 m c) (Proc.devRef .tc main_v88 : DevRef τ sig) (arr8 m c) (Proc.devRef .tc main_v88 : DevRef τ sig)
      rw [Function.update_self]; rfl

set_option maxHeartbeats 8000000 in
/-- Every other buffer is as the region found it. -/
theorem hrest8 (c : Dev nD) : ∀ b, b ∉ Finset.univ.image (Pipeline.arrRef spec8) → (atRefs (W13 m)) c b = (atRefs (W12 m)) c b :=
  fun b hb => by
    unfold atRefs W13
    exact Function.update_of_ne (StableHlo.devRef_ne_of_ne fun e =>
      hb (Finset.mem_image.mpr ⟨(2 : Fin cfg8.W), Finset.mem_univ _, (show Pipeline.arrRef spec8 (2 : Fin cfg8.W) = b from e.symm)⟩)) _ _

set_option maxHeartbeats 8000000 in
set_option backward.isDefEq.respectTransparency.types false in
def reg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (atRefs (W12 m)) c).loose
  hwaits := Pipeline.hwaits_of_owed_zero _ _ _ _ Lz lvz 8 fun _ _ => rfl
  pre c := iprop(StableHlo.held (c : Thread nD τ) (Pipeline.ucRefs τ sig) (W12 m c) ∗ rest c)
  post c := iprop(StableHlo.held (c : Thread nD τ) (Pipeline.ucRefs τ sig) (W13 m c) ∗ rest c)
  X c := iprop(∃ r, prngReg c r)
  Y c := iprop(∃ r, prngReg c r)
  Z c := Pipeline.unscopedRest (Ix := Unit) (Name := ℕ) (U := UR sig nD τ) (Lvl := ℕ) spec8 c ((atRefs (W12 m)) c)
  hentry c := by
    rw [Pipeline.ownSems0_none]
    have hsplit := Pipeline.arrays_of_unscopedBufs (p := 8) (pcfgs (F := F)) adm (pdats m) launch8.win launch8.arr_whole c
      ((pdats m 8 c).share_full fun _ => rfl) ((atRefs (W12 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      ((atRefs (W12 m)) c) ((atRefs (W13 m)) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg9.lean ====
/- Region 9 as an item of the main function: entered with every unscoped buffer at the contents before it, left with its
   output array `main_v89` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF9 (c : Dev nD) (w : Fin cfg9.W) : (dat9 (atRefs (W13 m)) c).arrAt w cfg9.N = (atRefs (W14 m)) c (Pipeline.arrRef spec9 w) :=
  match w with
  | ⟨0, _⟩ => ((dat9 (atRefs (W13 m)) c).arrAt_in 0 rfl _).trans ((A_eq9 (atRefs (W13 m)) c 0).trans (by
      unfold atRefs W14; exact (Function.update_of_ne (StableHlo.devRef_ne_of_ne (by decide)) _ _).symm))
  | ⟨1, _⟩ => ((dat9 (atRefs (W13 m)) c).arrAt_in 1 rfl _).trans ((A_eq9 (atRefs (W13 m)) c 1).trans (by
      unfold atRefs W14; exact (Function.update_of_ne (StableHlo.devRef_ne_of_ne (by decide)) _ _).symm))
  | ⟨2, _⟩ => by
      show _ = Function.update (W13 m c) (Proc.devRef .tc main_v89 : DevRef τ sig) (arr9 m c) (Proc.devRef .tc main_v89 : DevRef τ sig)
      rw [Function.update_self]; rfl

set_option maxHeartbeats 8000000 in
/-- Every other buffer is as the region found it. -/
theorem hrest9 (c : Dev nD) : ∀ b, b ∉ Finset.univ.image (Pipeline.arrRef spec9) → (atRefs (W14 m)) c b = (atRefs (W13 m)) c b :=
  fun b hb => by
    unfold atRefs W14
    exact Function.update_of_ne (StableHlo.devRef_ne_of_ne fun e =>
      hb (Finset.mem_image.mpr ⟨(2 : Fin cfg9.W), Finset.mem_univ _, (show Pipeline.arrRef spec9 (2 : Fin cfg9.W) = b from e.symm)⟩)) _ _

set_option maxHeartbeats 8000000 in
set_option backward.isDefEq.respectTransparency.types false in
def reg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (atRefs (W13 m)) c).loose
  hwaits := Pipeline.hwaits_of_owed_zero _ _ _ _ Lz lvz 9 fun _ _ => rfl
  pre c := iprop(StableHlo.held (c : Thread nD τ) (Pipeline.ucRefs τ sig) (W13 m c) ∗ rest c)
  post c := iprop(StableHlo.held (c : Thread nD τ) (Pipeline.ucRefs τ sig) (W14 m c) ∗ rest c)
  X c := iprop(∃ r, prngReg c r)
  Y c := iprop(∃ r, prngReg c r)
  Z c := Pipeline.unscopedRest (Ix := Unit) (Name := ℕ) (U := UR sig nD τ) (Lvl := ℕ) spec9 c ((atRefs (W13 m)) c)
  hentry c := by
    rw [Pipeline.ownSems0_none]
    have hsplit := Pipeline.arrays_of_unscopedBufs (p := 9) (pcfgs (F := F)) adm (pdats m) launch9.win launch9.arr_whole c
      ((pdats m 9 c).share_full fun _ => rfl) ((atRefs (W13 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      ((atRefs (W13 m)) c) ((atRefs (W14 m)) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg10.lean ====
/- Region 10 as an item of the main function: entered with every unscoped buffer at the contents before it, left with its
   output array `main_v112` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF10 (c : Dev nD) (w : Fin cfg10.W) : (dat10 (atRefs (W15 m)) c).arrAt w cfg10.N = (atRefs (W16 m)) c (Pipeline.arrRef spec10 w) :=
  match w with
  | ⟨0, _⟩ => ((dat10 (atRefs (W15 m)) c).arrAt_in 0 rfl _).trans ((A_eq10 (atRefs (W15 m)) c 0).trans (by
      unfold atRefs W16; exact (Function.update_of_ne (StableHlo.devRef_ne_of_ne (by decide)) _ _).symm))
  | ⟨1, _⟩ => ((dat10 (atRefs (W15 m)) c).arrAt_in 1 rfl _).trans ((A_eq10 (atRefs (W15 m)) c 1).trans (by
      unfold atRefs W16; exact (Function.update_of_ne (StableHlo.devRef_ne_of_ne (by decide)) _ _).symm))
  | ⟨2, _⟩ => ((dat10 (atRefs (W15 m)) c).arrAt_in 2 rfl _).trans ((A_eq10 (atRefs (W15 m)) c 2).trans (by
      unfold atRefs W16; exact (Function.update_of_ne (StableHlo.devRef_ne_of_ne (by decide)) _ _).symm))
  | ⟨3, _⟩ => ((dat10 (atRefs (W15 m)) c).arrAt_in 3 rfl _).trans ((A_eq10 (atRefs (W15 m)) c 3).trans (by
      unfold atRefs W16; exact (Function.update_of_ne (StableHlo.devRef_ne_of_ne (by decide)) _ _).symm))
  | ⟨4, _⟩ => ((dat10 (atRefs (W15 m)) c).arrAt_in 4 rfl _).trans ((A_eq10 (atRefs (W15 m)) c 4).trans (by
      unfold atRefs W16; exact (Function.update_of_ne (StableHlo.devRef_ne_of_ne (by decide)) _ _).symm))
  | ⟨5, _⟩ => ((dat10 (atRefs (W15 m)) c).arrAt_in 5 rfl _).trans ((A_eq10 (atRefs (W15 m)) c 5).trans (by
      unfold atRefs W16; exact (Function.update_of_ne (StableHlo.devRef_ne_of_ne (by decide)) _ _).symm))
  | ⟨6, _⟩ => ((dat10 (atRefs (W15 m)) c).arrAt_in 6 rfl _).trans ((A_eq10 (atRefs (W15 m)) c 6).trans (by
      unfold atRefs W16; exact (Function.update_of_ne (StableHlo.devRef_ne_of_ne (by decide)) _ _).symm))
  | ⟨7, _⟩ => ((dat10 (atRefs (W15 m)) c).arrAt_in 7 rfl _).trans ((A_eq10 (atRefs (W15 m)) c 7).trans (by
      unfold atRefs W16; exact (Function.update_of_ne (StableHlo.devRef_ne_of_ne (by decide)) _ _).symm))
  | ⟨8, _⟩ => by
      show _ = Function.update (W15 m c) (Proc.devRef .tc main_v112 : DevRef τ sig) (arr10 m c) (Proc.devRef .tc main_v112 : DevRef τ sig)
      rw [Function.update_self]; rfl

set_option maxHeartbeats 8000000 in
/-- Every other buffer is as the region found it. -/
theorem hrest10 (c : Dev nD) : ∀ b, b ∉ Finset.univ.image (Pipeline.arrRef spec10) → (atRefs (W16 m)) c b = (atRefs (W15 m)) c b :=
  fun b hb => by
    unfold atRefs W16
    exact Function.update_of_ne (StableHlo.devRef_ne_of_ne fun e =>
      hb (Finset.mem_image.mpr ⟨(8 : Fin cfg10.W), Finset.mem_univ _, (show Pipeline.arrRef spec10 (8 : Fin cfg10.W) = b from e.symm)⟩)) _ _

set_option maxHeartbeats 8000000 in
set_option backward.isDefEq.respectTransparency.types false in
def reg10 : Pipeline.RegionSeg (pcfgs (F := F)) adm (pdats m) () defs₀ Variants.none Lz lvz 10 where
  win := launch10.win.to₀
  block_pos := launch10.block_pos
  stage_whole := launch10.stage_whole
  K := PEmpty
  osem k := k.elim
  ho := Pipeline.OwnSemFacts.none _
  hbody c := (body_obligation10 (atRefs (W15 m)) c).loose
  hwaits := Pipeline.hwaits_of_owed_zero _ _ _ _ Lz lvz 10 fun _ _ => rfl
  pre c := iprop(StableHlo.held (c : Thread nD τ) (Pipeline.ucRefs τ sig) (W15 m c) ∗ rest c)
  post c := iprop(StableHlo.held (c : Thread nD τ) (Pipeline.ucRefs τ sig) (W16 m c) ∗ rest c)
  X c := iprop(∃ r, prngReg c r)
  Y c := iprop(∃ r, prngReg c r)
  Z c := Pipeline.unscopedRest (Ix := Unit) (Name := ℕ) (U := UR sig nD τ) (Lvl := ℕ) spec10 c ((atRefs (W15 m)) c)
  hentry c := by
    rw [Pipeline.ownSems0_none]
    have hsplit := Pipeline.arrays_of_unscopedBufs (p := 10) (pcfgs (F := F)) adm (pdats m) launch10.win launch10.arr_whole c
      ((pdats m 10 c).share_full fun _ => rfl) ((atRefs (W15 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      ((atRefs (W15 m)) c) ((atRefs (W16 m)) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg11.lean ====
/- Region 11 as an item of the main function: entered with every unscoped buffer at the contents before it, left with its
   output array `main_v116` at what the pipeline wrote back and every other buffer as found. The region's arrays are split
   out of the unscoped buffers at entry and put back at exit; the generator register passes through the pipeline's
   invariant; nothing is owed; the kernel has no semaphore of its own. -/
import proofs.«135915_j24266565222462_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF11 (c : Dev nD) (w : Fin cfg11.W) : (dat11 (atRefs (W21 m)) c).arrAt w cfg11.N = (atRefs (W22 m)) c (Pipeline.arrRef spec11 w) :=
  match w with
  | ⟨0, _⟩ => ((dat11 (atRefs (W21 m)) c).arrAt_in 0 rfl _).trans ((A_eq11 (atRefs (W21 m)) c 0).trans (by
      unfold atRefs W22; exact (Function.update_of_ne (StableHlo.devRef_ne_of_ne (by decide)) _ _).symm))
  | ⟨1, _⟩ => ((dat11 (atRefs (W21 m)) c).arrAt_in 1 rfl _).trans ((A_eq11 (atRefs (W21 m)) c 1).trans (by
      unfold atRefs W22; exact (Function.update_of_ne (StableHlo.devRef_ne_of_ne (by decide)) _ _).symm))
  | ⟨2, _⟩ => ((dat11 (atRefs (W21 m)) c).arrAt_in 2 rfl _).trans ((A_eq11 (atRefs (W21 m)) c 2).trans (by
      unfold atRefs W22; exact (Function.update_of_ne (StableHlo.devRef_ne_of_ne (by decide)) _ _).symm))
  | ⟨3, _⟩ => by
      show _ = Function.update (W21 m c) (Proc.devRef .tc main_v116 : DevRef τ sig) (arr11 m c) (Proc.devRef .tc main_v116 : DevRef τ sig)
      rw [Function.update_self]; rfl

set_option maxHeartbeats 8000000 in
/-- Every other buffer is as the region found it. -/
theorem hrest11 (c : Dev nD) : ∀ b, b ∉ Finset.univ.image (Pipeline.arrRef spec11) → (atRefs (W22 m)) c b = (atRefs (W21 m)) c b :=
  fun b hb => by
    unfold atRefs W22
    exact Function.update_of_ne (StableHlo.devRef_ne_of_ne fun e =>
      hb (Finset.mem_image.mpr ⟨(3 : Fin cfg11.W), Finset.mem_univ _, (show Pipeline.arrRef spec11 (3 : Fin cfg11.W) = b from e.symm)⟩)) _ _

set_option maxHeartbeats 8000000 in
set_option backward.isDefEq.respectTransparency.types false in
def reg11 : Pipeline.RegionSeg (pcfgs (F := F)) adm (pdats m) () defs₀ Variants.none Lz lvz 11 where
  win := launch11.win.to₀
  block_pos := launch11.block_pos
  stage_whole := launch11.stage_whole
  K := PEmpty
  osem k := k.elim
  ho := Pipeline.OwnSemFacts.none _
  hbody c := (body_obligation11 (atRefs (W21 m)) c).loose
  hwaits := Pipeline.hwaits_of_owed_zero _ _ _ _ Lz lvz 11 fun _ _ => rfl
  pre c := iprop(StableHlo.held (c : Thread nD τ) (Pipeline.ucRefs τ sig) (W21 m c) ∗ rest c)
  post c := iprop(StableHlo.held (c : Thread nD τ) (Pipeline.ucRefs τ sig) (W22 m c) ∗ rest c)
  X c := iprop(∃ r, prngReg c r)
  Y c := iprop(∃ r, prngReg c r)
  Z c := Pipeline.unscopedRest (Ix := Unit) (Name := ℕ) (U := UR sig nD τ) (Lvl := ℕ) spec11 c ((atRefs (W21 m)) c)
  hentry c := by
    rw [Pipeline.ownSems0_none]
    have hsplit := Pipeline.arrays_of_unscopedBufs (p := 11) (pcfgs (F := F)) adm (pdats m) launch11.win launch11.arr_whole c
      ((pdats m 11 c).share_full fun _ => rfl) ((atRefs (W21 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      ((atRefs (W21 m)) c) ((atRefs (W22 m)) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
/- The frame of the whole program: its main function is the twelve kernel regions among stretches of host operations;
   with each region's record at the boundary contents of the chain, every weakly fair execution from any memory with zero
   counters terminates without a fault and leaves every argument array as launched. -/
import proofs.«135915_j24266565222462_2_alg».proof.Proof.K.Reg0
import proofs.«135915_j24266565222462_2_alg».proof.Proof.K.Reg1
import proofs.«135915_j24266565222462_2_alg».proof.Proof.K.Reg2
import proofs.«135915_j24266565222462_2_alg».proof.Proof.K.Reg3
import proofs.«135915_j24266565222462_2_alg».proof.Proof.K.Reg4
import proofs.«135915_j24266565222462_2_alg».proof.Proof.K.Reg5
import proofs.«135915_j24266565222462_2_alg».proof.Proof.K.Reg6
import proofs.«135915_j24266565222462_2_alg».proof.Proof.K.Reg7
import proofs.«135915_j24266565222462_2_alg».proof.Proof.K.Reg8
import proofs.«135915_j24266565222462_2_alg».proof.Proof.K.Reg9
import proofs.«135915_j24266565222462_2_alg».proof.Proof.K.Reg10
import proofs.«135915_j24266565222462_2_alg».proof.Proof.K.Reg11

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rest c)
    (Pipeline.initEach Lz lvz fun c => by
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V8_eq]; exact .rfl) (fun c => by rw [V9_eq]; exact .rfl)
    (reg6 m) (fun c => by rw [V10_eq]; exact .rfl) (fun c => by rw [V11_eq]; exact .rfl)
    (reg7 m) (fun c => by rw [V11_eq]; exact .rfl) (fun c => by rw [V12_eq]; exact .rfl)
    (reg8 m) (fun c => by rw [V12_eq]; exact .rfl) (fun c => by rw [V13_eq]; exact .rfl)
    (reg9 m) (fun c => by rw [V13_eq]; exact .rfl) (fun c => by rw [V14_eq]; exact .rfl)
    (reg10 m) (fun c => by rw [V15_eq]; exact .rfl) (fun c => by rw [V16_eq]; exact .rfl)
    (reg11 m) (fun c => by rw [V21_eq]; exact .rfl) (fun c => by rw [V22_eq]; exact .rfl)

end Cert.Kernel.Hand

end
-- ==== Proof.KI.R0.lean ====
/- Region 0 of the program: the first linear layer: at each grid point the body loads one block of 2000 rows of the node features and the whole 128 x 128 weight, multiplies them into a zero accumulator and stores the 2000 x 128 product block.
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (an unfetched window's block
    index has not moved since the point that fetched it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! The whole-block rectangles the body loads and stores through. -/
abbrev r0_S2000x128 : Rect S2000x128 := Rect.unit (s := S2000x128) ![0, 0] S2000x128.size inb_S2000x128_S2000x128_0_0
abbrev r0_S128x128 : Rect S128x128 := Rect.unit (s := S128x128) ![0, 0] S128x128.size inb_S128x128_S128x128_0_0

/-- The output block after the body: its one whole-block store, of the body's arithmetic on the loaded input blocks. -/
def out0_2 (x0 : Vec F S2000x128 .f32) (x1 : Vec F S128x128 .f32) : Vec F S2000x128 .f32 :=
  View.canon [⟨r0_S2000x128, k0_pay1 (View.ld x0 r0_S2000x128) (View.ld x1 r0_S128x128)⟩]

/-- The one store covers the block. -/
theorem cover0_2 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

set_option maxHeartbeats 4000000 in
/-- The body on whole staging buffers: every input keeps its contents, the output ends at `out0_2` of them. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body at point
    `t` each input buffer at its block, the output buffer at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of the program: the first cell's combine: at each grid point, for a block of 2000 rows, the aggregated neighbour sum plus the row's own product scaled by its squared inverse root degree, plus once the bias row.
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (an unfetched window's block
    index has not moved since the point that fetched it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The whole-block rectangles the body loads and stores through. -/
abbrev r1_S2000x128 : Rect S2000x128 := Rect.unit (s := S2000x128) ![0, 0] S2000x128.size inb_S2000x128_S2000x128_0_0
abbrev r1_S2000x1 : Rect S2000x1 := Rect.unit (s := S2000x1) ![0, 0] S2000x1.size inb_S2000x1_S2000x1_0_0
abbrev r1_S1x128 : Rect S1x128 := Rect.unit (s := S1x128) ![0, 0] S1x128.size inb_S1x128_S1x128_0_0

/-- The output block after the body: its one whole-block store, of the body's arithmetic on the loaded input blocks. -/
def out1_4 (x0 : Vec F S2000x128 .f32) (x1 : Vec F S2000x128 .f32) (x2 : Vec F S2000x1 .f32) (x3 : Vec F S1x128 .f32) : Vec F S2000x128 .f32 :=
  View.canon [⟨r1_S2000x128, k1_pay1 (View.ld x2 r1_S2000x1) (View.ld x3 r1_S1x128) (View.ld x0 r1_S2000x128) (View.ld x1 r1_S2000x128)⟩]

/-- The one store covers the block. -/
theorem cover1_4 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

set_option maxHeartbeats 4000000 in
/-- The body on whole staging buffers: every input keeps its contents, the output ends at `out1_4` of them. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the region's pipeline on core `c`: the arrays as the region finds them; after the body at point
    `t` each input buffer at its block, the output buffer at `out1_4` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of the program: a linear layer: at each grid point the body loads one block of 2000 rows of a cell and the whole 128 x 128 weight, takes the maximum of the rows with zero, multiplies into a zero accumulator and stores the 2000 x 128 product block (second stage, on the first cell).
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not (an unfetched window's block
    index has not moved since the point that fetched it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! The whole-block rectangles the body loads and stores through. -/
abbrev r2_S2000x128 : Rect S2000x128 := Rect.unit (s := S2000x128) ![0, 0] S2000x128.size inb_S2000x128_S2000x128_0_0
abbrev r2_S128x128 : Rect S128x128 := Rect.unit (s := S128x128) ![0, 0] S128x128.size inb_S128x128_S128x128_0_0

/-- The output block after the body: its one whole-block store, of the body's arithmetic on the loaded input blocks. -/
def out2_2 (x0 : Vec F S2000x128 .f32) (x1 : Vec F S128x128 .f32) : Vec F S2000x128 .f32 :=
  View.canon [⟨r2_S2000x128, k2_pay1 (View.ld x0 r2_S2000x128) (View.ld x1 r2_S128x128)⟩]

/-- The one store covers the block. -/
theorem cover2_2 (p0 : Vec F S2000x128 .f32) (y : S2000x128.Idx) :
    ∃ pc ∈ ([⟨r2_S2000x128, p0⟩] : List (View.Piece (Elt F) S2000x128 .f32)), y ∈ pc.1.set :=
  View.cover_of_tiled [⟨r2_S2000x128, p0⟩] S2000x128.size (by rfl) y

set_option maxHeartbeats 4000000 in
/-- The body on whole staging buffers: every input keeps its contents, the output ends at `out2_2` of them. -/
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`: the arrays as the region finds them; after the body at point
    `t` each input buffer at its block, the output buffer at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/- Region 3 of the program: the second cell's combine: at each grid point, for a block of 2000 rows, the aggregated neighbour sum plus the row's own product scaled by its squared inverse root degree, plus once the bias row.
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, fetched there or not (an unfetched window's block
    index has not moved since the point that fetched it). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! The whole-block rectangles the body loads and stores through. -/
abbrev r3_S2000x128 : Rect S2000x128 := Rect.unit (s := S2000x128) ![0, 0] S2000x128.size inb_S2000x128_S2000x128_0_0
abbrev r3_S2000x1 : Rect S2000x1 := Rect.unit (s := S2000x1) ![0, 0] S2000x1.size inb_S2000x1_S2000x1_0_0
abbrev r3_S1x128 : Rect S1x128 := Rect.unit (s := S1x128) ![0, 0] S1x128.size inb_S1x128_S1x128_0_0

/-- The output block after the body: its one whole-block store, of the body's arithmetic on the loaded input blocks. -/
def out3_4 (x0 : Vec F S2000x128 .f32) (x1 : Vec F S2000x128 .f32) (x2 : Vec F S2000x1 .f32) (x3 : Vec F S1x128 .f32) : Vec F S2000x128 .f32 :=
  View.canon [⟨r3_S2000x128, k3_pay1 (View.ld x2 r3_S2000x1) (View.ld x3 r3_S1x128) (View.ld x0 r3_S2000x128) (View.ld x1 r3_S2000x128)⟩]

/-- The one store covers the block. -/
theorem cover3_4 (p0 : Vec F S2000x128 .f32) (y : S2000x128.Idx) :
    ∃ pc ∈ ([⟨r3_S2000x128, p0⟩] : List (View.Piece (Elt F) S2000x128 .f32)), y ∈ pc.1.set :=
  View.cover_of_tiled [⟨r3_S2000x128, p0⟩] S2000x128.size (by rfl) y

set_option maxHeartbeats 4000000 in
/-- The body on whole staging buffers: every input keeps its contents, the output ends at `out3_4` of them. -/
theorem sound_kernel3 (c : Dev nD) (E : Set ℕ) (i : grid3.Coords)
    (arg1 : Memref sig .tc .vmem S2000x128 .f32) (harg1 : arg1.IsWhole)
    (arg2 : Memref sig .tc .vmem S2000x128 .f32) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of the region's pipeline on core `c`: the arrays as the region finds them; after the body at point
    `t` each input buffer at its block, the output buffer at `out3_4` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/- Region 4 of the program: a linear layer: at each grid point the body loads one block of 2000 rows of a cell and the whole 128 x 128 weight, takes the maximum of the rows with zero, multiplies into a zero accumulator and stores the 2000 x 128 product block (third stage, on the first cell).
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every point, fetched there or not (an unfetched window's block
    index has not moved since the point that fetched it). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! The whole-block rectangles the body loads and stores through. -/
abbrev r4_S2000x128 : Rect S2000x128 := Rect.unit (s := S2000x128) ![0, 0] S2000x128.size inb_S2000x128_S2000x128_0_0
abbrev r4_S128x128 : Rect S128x128 := Rect.unit (s := S128x128) ![0, 0] S128x128.size inb_S128x128_S128x128_0_0

/-- The output block after the body: its one whole-block store, of the body's arithmetic on the loaded input blocks. -/
def out4_2 (x0 : Vec F S2000x128 .f32) (x1 : Vec F S128x128 .f32) : Vec F S2000x128 .f32 :=
  View.canon [⟨r4_S2000x128, k4_pay1 (View.ld x0 r4_S2000x128) (View.ld x1 r4_S128x128)⟩]

/-- The one store covers the block. -/
theorem cover4_2 (p0 : Vec F S2000x128 .f32) (y : S2000x128.Idx) :
    ∃ pc ∈ ([⟨r4_S2000x128, p0⟩] : List (View.Piece (Elt F) S2000x128 .f32)), y ∈ pc.1.set :=
  View.cover_of_tiled [⟨r4_S2000x128, p0⟩] S2000x128.size (by rfl) y

set_option maxHeartbeats 4000000 in
/-- The body on whole staging buffers: every input keeps its contents, the output ends at `out4_2` of them. -/
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region's pipeline on core `c`: the arrays as the region finds them; after the body at point
    `t` each input buffer at its block, the output buffer at `out4_2` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/- Region 5 of the program: a linear layer: at each grid point the body loads one block of 2000 rows of a cell and the whole 128 x 128 weight, takes the maximum of the rows with zero, multiplies into a zero accumulator and stores the 2000 x 128 product block (third stage, on the second cell).
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds its block at every point, fetched there or not (an unfetched window's block
    index has not moved since the point that fetched it). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! The whole-block rectangles the body loads and stores through. -/
abbrev r5_S2000x128 : Rect S2000x128 := Rect.unit (s := S2000x128) ![0, 0] S2000x128.size inb_S2000x128_S2000x128_0_0
abbrev r5_S128x128 : Rect S128x128 := Rect.unit (s := S128x128) ![0, 0] S128x128.size inb_S128x128_S128x128_0_0

/-- The output block after the body: its one whole-block store, of the body's arithmetic on the loaded input blocks. -/
def out5_2 (x0 : Vec F S2000x128 .f32) (x1 : Vec F S128x128 .f32) : Vec F S2000x128 .f32 :=
  View.canon [⟨r5_S2000x128, k5_pay1 (View.ld x0 r5_S2000x128) (View.ld x1 r5_S128x128)⟩]

/-- The one store covers the block. -/
theorem cover5_2 (p0 : Vec F S2000x128 .f32) (y : S2000x128.Idx) :
    ∃ pc ∈ ([⟨r5_S2000x128, p0⟩] : List (View.Piece (Elt F) S2000x128 .f32)), y ∈ pc.1.set :=
  View.cover_of_tiled [⟨r5_S2000x128, p0⟩] S2000x128.size (by rfl) y

set_option maxHeartbeats 4000000 in
/-- The body on whole staging buffers: every input keeps its contents, the output ends at `out5_2` of them. -/
theorem sound_kernel5 (c : Dev nD) (E : Set ℕ) (i : grid5.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the region's pipeline on core `c`: the arrays as the region finds them; after the body at point
    `t` each input buffer at its block, the output buffer at `out5_2` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the input buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/- Region 6 of the program: the third cell's combine over its two terms: at each grid point, for a block of 2000 rows, the two aggregated neighbour sums and the two own products each scaled by the squared inverse root degree, added up, plus twice the bias row.
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds its block at every point, fetched there or not (an unfetched window's block
    index has not moved since the point that fetched it). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! The whole-block rectangles the body loads and stores through. -/
abbrev r6_S2000x128 : Rect S2000x128 := Rect.unit (s := S2000x128) ![0, 0] S2000x128.size inb_S2000x128_S2000x128_0_0
abbrev r6_S2000x1 : Rect S2000x1 := Rect.unit (s := S2000x1) ![0, 0] S2000x1.size inb_S2000x1_S2000x1_0_0
abbrev r6_S1x128 : Rect S1x128 := Rect.unit (s := S1x128) ![0, 0] S1x128.size inb_S1x128_S1x128_0_0

/-- The output block after the body: its one whole-block store, of the body's arithmetic on the loaded input blocks. -/
def out6_6 (x0 : Vec F S2000x128 .f32) (x1 : Vec F S2000x128 .f32) (x2 : Vec F S2000x128 .f32) (x3 : Vec F S2000x128 .f32) (x4 : Vec F S2000x1 .f32) (x5 : Vec F S1x128 .f32) : Vec F S2000x128 .f32 :=
  View.canon [⟨r6_S2000x128, k6_pay1 (View.ld x4 r6_S2000x1) (View.ld x5 r6_S1x128) (View.ld x0 r6_S2000x128) (View.ld x2 r6_S2000x128) (View.ld x1 r6_S2000x128) (View.ld x3 r6_S2000x128)⟩]

/-- The one store covers the block. -/
theorem cover6_6 (p0 : Vec F S2000x128 .f32) (y : S2000x128.Idx) :
    ∃ pc ∈ ([⟨r6_S2000x128, p0⟩] : List (View.Piece (Elt F) S2000x128 .f32)), y ∈ pc.1.set :=
  View.cover_of_tiled [⟨r6_S2000x128, p0⟩] S2000x128.size (by rfl) y

set_option maxHeartbeats 4000000 in
/-- The body on whole staging buffers: every input keeps its contents, the output ends at `out6_6` of them. -/
theorem sound_kernel6 (c : Dev nD) (E : Set ℕ) (i : grid6.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S2000x128 .f32) (harg4 : arg4.IsWhole)
    (arg5 : Memref sig .tc .vmem S2000x1 .f32) (harg5 : arg5.IsWhole)
    (arg6 : Memref sig .tc .vmem S1x128 .f32) (harg6 : arg6.IsWhole)
    (arg7 : Memref sig .tc .vmem S2000x128 .f32) (harg7 : arg7.IsWhole)
    (x0 : Vec F S2000x128 .f32) (x1 : Vec F S2000x128 .f32) (x2 : Vec F S2000x128 .f32) (x3 : Vec F S2000x128 .f32) (x4 : Vec F S2000x1 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-- The proof data of the region's pipeline on core `c`: the arrays as the region finds them; after the body at point
    `t` each input buffer at its block, the output buffer at `out6_6` of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the input buffers hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/- Region 7 of the program: a linear layer: at each grid point the body loads one block of 2000 rows of a cell and the whole 128 x 128 weight, takes the maximum of the rows with zero, multiplies into a zero accumulator and stores the 2000 x 128 product block (fourth stage, on the first cell).
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's staging buffer holds its block at every point, fetched there or not (an unfetched window's block
    index has not moved since the point that fetched it). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! The whole-block rectangles the body loads and stores through. -/
abbrev r7_S2000x128 : Rect S2000x128 := Rect.unit (s := S2000x128) ![0, 0] S2000x128.size inb_S2000x128_S2000x128_0_0
abbrev r7_S128x128 : Rect S128x128 := Rect.unit (s := S128x128) ![0, 0] S128x128.size inb_S128x128_S128x128_0_0

/-- The output block after the body: its one whole-block store, of the body's arithmetic on the loaded input blocks. -/
def out7_2 (x0 : Vec F S2000x128 .f32) (x1 : Vec F S128x128 .f32) : Vec F S2000x128 .f32 :=
  View.canon [⟨r7_S2000x128, k7_pay1 (View.ld x0 r7_S2000x128) (View.ld x1 r7_S128x128)⟩]

/-- The one store covers the block. -/
theorem cover7_2 (p0 : Vec F S2000x128 .f32) (y : S2000x128.Idx) :
    ∃ pc ∈ ([⟨r7_S2000x128, p0⟩] : List (View.Piece (Elt F) S2000x128 .f32)), y ∈ pc.1.set :=
  View.cover_of_tiled [⟨r7_S2000x128, p0⟩] S2000x128.size (by rfl) y

set_option maxHeartbeats 4000000 in
/-- The body on whole staging buffers: every input keeps its contents, the output ends at `out7_2` of them. -/
theorem sound_kernel7 (c : Dev nD) (E : Set ℕ) (i : grid7.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__matmul_kernel i arg1 harg1 arg2 harg2 arg3 harg3) K := by
  simp only [cc7__matmul_kernel_eq_skeleton]; unfold cc7__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The proof data of the region's pipeline on core `c`: the arrays as the region finds them; after the body at point
    `t` each input buffer at its block, the output buffer at `out7_2` of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the input buffers hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
/- Region 8 of the program: a linear layer: at each grid point the body loads one block of 2000 rows of a cell and the whole 128 x 128 weight, takes the maximum of the rows with zero, multiplies into a zero accumulator and stores the 2000 x 128 product block (fourth stage, on the second cell).
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's staging buffer holds its block at every point, fetched there or not (an unfetched window's block
    index has not moved since the point that fetched it). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! The whole-block rectangles the body loads and stores through. -/
abbrev r8_S2000x128 : Rect S2000x128 := Rect.unit (s := S2000x128) ![0, 0] S2000x128.size inb_S2000x128_S2000x128_0_0
abbrev r8_S128x128 : Rect S128x128 := Rect.unit (s := S128x128) ![0, 0] S128x128.size inb_S128x128_S128x128_0_0

/-- The output block after the body: its one whole-block store, of the body's arithmetic on the loaded input blocks. -/
def out8_2 (x0 : Vec F S2000x128 .f32) (x1 : Vec F S128x128 .f32) : Vec F S2000x128 .f32 :=
  View.canon [⟨r8_S2000x128, k8_pay1 (View.ld x0 r8_S2000x128) (View.ld x1 r8_S128x128)⟩]

/-- The one store covers the block. -/
theorem cover8_2 (p0 : Vec F S2000x128 .f32) (y : S2000x128.Idx) :
    ∃ pc ∈ ([⟨r8_S2000x128, p0⟩] : List (View.Piece (Elt F) S2000x128 .f32)), y ∈ pc.1.set :=
  View.cover_of_tiled [⟨r8_S2000x128, p0⟩] S2000x128.size (by rfl) y

set_option maxHeartbeats 4000000 in
/-- The body on whole staging buffers: every input keeps its contents, the output ends at `out8_2` of them. -/
theorem sound_kernel8 (c : Dev nD) (E : Set ℕ) (i : grid8.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The proof data of the region's pipeline on core `c`: the arrays as the region finds them; after the body at point
    `t` each input buffer at its block, the output buffer at `out8_2` of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the input buffers hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
/- Region 9 of the program: a linear layer: at each grid point the body loads one block of 2000 rows of a cell and the whole 128 x 128 weight, takes the maximum of the rows with zero, multiplies into a zero accumulator and stores the 2000 x 128 product block (fourth stage, on the third cell).
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's staging buffer holds its block at every point, fetched there or not (an unfetched window's block
    index has not moved since the point that fetched it). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! The whole-block rectangles the body loads and stores through. -/
abbrev r9_S2000x128 : Rect S2000x128 := Rect.unit (s := S2000x128) ![0, 0] S2000x128.size inb_S2000x128_S2000x128_0_0
abbrev r9_S128x128 : Rect S128x128 := Rect.unit (s := S128x128) ![0, 0] S128x128.size inb_S128x128_S128x128_0_0

/-- The output block after the body: its one whole-block store, of the body's arithmetic on the loaded input blocks. -/
def out9_2 (x0 : Vec F S2000x128 .f32) (x1 : Vec F S128x128 .f32) : Vec F S2000x128 .f32 :=
  View.canon [⟨r9_S2000x128, k9_pay1 (View.ld x0 r9_S2000x128) (View.ld x1 r9_S128x128)⟩]

/-- The one store covers the block. -/
theorem cover9_2 (p0 : Vec F S2000x128 .f32) (y : S2000x128.Idx) :
    ∃ pc ∈ ([⟨r9_S2000x128, p0⟩] : List (View.Piece (Elt F) S2000x128 .f32)), y ∈ pc.1.set :=
  View.cover_of_tiled [⟨r9_S2000x128, p0⟩] S2000x128.size (by rfl) y

set_option maxHeartbeats 4000000 in
/-- The body on whole staging buffers: every input keeps its contents, the output ends at `out9_2` of them. -/
theorem sound_kernel9 (c : Dev nD) (E : Set ℕ) (i : grid9.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The proof data of the region's pipeline on core `c`: the arrays as the region finds them; after the body at point
    `t` each input buffer at its block, the output buffer at `out9_2` of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the input buffers hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10.lean ====
/- Region 10 of the program: the fourth cell's combine over its three terms: at each grid point, for a block of 2000 rows, the three aggregated neighbour sums and the three own products each scaled by the squared inverse root degree, added up, plus three times the bias row.
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! An input window's staging buffer holds its block at every point, fetched there or not (an unfetched window's block
    index has not moved since the point that fetched it). -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-! The whole-block rectangles the body loads and stores through. -/
abbrev r10_S2000x128 : Rect S2000x128 := Rect.unit (s := S2000x128) ![0, 0] S2000x128.size inb_S2000x128_S2000x128_0_0
abbrev r10_S2000x1 : Rect S2000x1 := Rect.unit (s := S2000x1) ![0, 0] S2000x1.size inb_S2000x1_S2000x1_0_0
abbrev r10_S1x128 : Rect S1x128 := Rect.unit (s := S1x128) ![0, 0] S1x128.size inb_S1x128_S1x128_0_0

/-- The output block after the body: its one whole-block store, of the body's arithmetic on the loaded input blocks. -/
def out10_8 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x1 .f32) (x7 : Vec F S1x128 .f32) : Vec F S2000x128 .f32 :=
  View.canon [⟨r10_S2000x128, k10_pay1 (View.ld x6 r10_S2000x1) (View.ld x7 r10_S1x128) (View.ld x0 r10_S2000x128) (View.ld x3 r10_S2000x128) (View.ld x1 r10_S2000x128) (View.ld x4 r10_S2000x128) (View.ld x2 r10_S2000x128) (View.ld x5 r10_S2000x128)⟩]

/-- The one store covers the block. -/
theorem cover10_8 (p0 : Vec F S2000x128 .f32) (y : S2000x128.Idx) :
    ∃ pc ∈ ([⟨r10_S2000x128, p0⟩] : List (View.Piece (Elt F) S2000x128 .f32)), y ∈ pc.1.set :=
  View.cover_of_tiled [⟨r10_S2000x128, p0⟩] S2000x128.size (by rfl) y

set_option maxHeartbeats 4000000 in
/-- The body on whole staging buffers: every input keeps its contents, the output ends at `out10_8` of them. -/
theorem sound_kernel10 (c : Dev nD) (E : Set ℕ) (i : grid10.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S2000x128 .f32) (harg4 : arg4.IsWhole)
    (arg5 : Memref sig .tc .vmem S2000x128 .f32) (harg5 : arg5.IsWhole)
    (arg6 : Memref sig .tc .vmem S2000x128 .f32) (harg6 : arg6.IsWhole)
    (arg7 : Memref sig .tc .vmem S2000x1 .f32) (harg7 : arg7.IsWhole)
    (arg8 : Memref sig .tc .vmem S1x128 .f32) (harg8 : arg8.IsWhole)
    (arg9 : Memref sig .tc .vmem S2000x128 .f32) (harg9 : arg9.IsWhole)
    (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x1 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out10_8 x0 x1 x2 x3 x4 x5 x6 x7)) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover10_8 _)

/-- The proof data of the region's pipeline on core `c`: the arrays as the region finds them; after the body at point
    `t` each input buffer at its block, the output buffer at `out10_8` of the input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => out10_8 (iblk10 V c 0 t) (iblk10 V c 1 t) (iblk10 V c 2 t) (iblk10 V c 3 t) (iblk10 V c 4 t) (iblk10 V c 5 t) (iblk10 V c 6 t) (iblk10 V c 7 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = out10_8 (iblk10 V c 0 t) (iblk10 V c 1 t) (iblk10 V c 2 t) (iblk10 V c 3 t) (iblk10 V c 4 t) (iblk10 V c 5 t) (iblk10 V c 6 t) (iblk10 V c 7 t) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t))

/-- The body at any point: the input buffers hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel10 c Set.univ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11.lean ====
/- Region 11 of the program: the classifier: at each grid point, for a block of 2000 rows of the fourth cell, the row-wise log-softmax (maximum, shifted exponentials, their sum's logarithm), its product with the zero-padded 128 x 128 head weight, plus the padded bias row.
   This module states what the body leaves in its output block as a function of the input blocks, the proof data of the
   region's pipeline at arbitrary entry contents `V`, and the body obligation at every one of the 25 grid points. -/
import proofs.«135915_j24266565222462_2_alg».proof.Proof.Gen.KernelIdeal.Launch
import proofs.«135915_j24266565222462_2_alg».proof.Proof.Gen.KernelIdeal.Skeleton
import proofs.«135915_j24266565222462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! An input window's staging buffer holds its block at every point, fetched there or not (an unfetched window's block
    index has not moved since the point that fetched it). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! The whole-block rectangles the body loads and stores through. -/
abbrev r11_S2000x128 : Rect S2000x128 := Rect.unit (s := S2000x128) ![0, 0] S2000x128.size inb_S2000x128_S2000x128_0_0
abbrev r11_S128x128 : Rect S128x128 := Rect.unit (s := S128x128) ![0, 0] S128x128.size inb_S128x128_S128x128_0_0
abbrev r11_S1x128 : Rect S1x128 := Rect.unit (s := S1x128) ![0, 0] S1x128.size inb_S1x128_S1x128_0_0

/-- The output block after the body: its one whole-block store, of the body's arithmetic on the loaded input blocks. -/
def out11_3 (x0 : Vec F S2000x128 .f32) (x1 : Vec F S128x128 .f32) (x2 : Vec F S1x128 .f32) : Vec F S2000x128 .f32 :=
  View.canon [⟨r11_S2000x128, k11_pay1 (View.ld x0 r11_S2000x128) (View.ld x1 r11_S128x128) (View.ld x2 r11_S1x128)⟩]

/-- The one store covers the block. -/
theorem cover11_3 (p0 : Vec F S2000x128 .f32) (y : S2000x128.Idx) :
    ∃ pc ∈ ([⟨r11_S2000x128, p0⟩] : List (View.Piece (Elt F) S2000x128 .f32)), y ∈ pc.1.set :=
  View.cover_of_tiled [⟨r11_S2000x128, p0⟩] S2000x128.size (by rfl) y

set_option maxHeartbeats 4000000 in
/-- The body on whole staging buffers: every input keeps its contents, the output ends at `out11_3` of them. -/
theorem sound_kernel11 (c : Dev nD) (E : Set ℕ) (i : grid11.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__project_kernel i arg1 harg1 arg2 harg2 arg3 harg3 arg4 harg4) K := by
  simp only [cc11__project_kernel_eq_skeleton]; unfold cc11__project_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of the region's pipeline on core `c`: the arrays as the region finds them; after the body at point
    `t` each input buffer at its block, the output buffer at `out11_3` of the input blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the input buffers hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Chain.lean ====
/- The contents of the TensorCore's buffers at every boundary between two items of the program's main function:
   the launch memory, then each stretch of host operations applied, then — after a kernel region — the region's output
   array replaced by what its pipeline has written back over the whole grid, every other buffer as the region found it.
   The regions' proof data are taken at these entry contents. -/
import proofs.«135915_j24266565222462_2_alg».proof.Proof.Gen.KernelIdeal.Regions
import proofs.«135915_j24266565222462_2_alg».proof.Proof.KI.R0
import proofs.«135915_j24266565222462_2_alg».proof.Proof.KI.R1
import proofs.«135915_j24266565222462_2_alg».proof.Proof.KI.R2
import proofs.«135915_j24266565222462_2_alg».proof.Proof.KI.R3
import proofs.«135915_j24266565222462_2_alg».proof.Proof.KI.R4
import proofs.«135915_j24266565222462_2_alg».proof.Proof.KI.R5
import proofs.«135915_j24266565222462_2_alg».proof.Proof.KI.R6
import proofs.«135915_j24266565222462_2_alg».proof.Proof.KI.R7
import proofs.«135915_j24266565222462_2_alg».proof.Proof.KI.R8
import proofs.«135915_j24266565222462_2_alg».proof.Proof.KI.R9
import proofs.«135915_j24266565222462_2_alg».proof.Proof.KI.R10
import proofs.«135915_j24266565222462_2_alg».proof.Proof.KI.R11

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

/-- No core owes another anything: no level is assigned. -/
abbrev Lz : GSem nD τ sig → Finset Unit := fun _ => ∅
abbrev lvz : GSem nD τ sig → Unit → ℕ := fun _ _ => 0
/-- What rides beside the buffers through every item of the main function: the core's generator register at some
    state, and its dues, at nothing. -/
abbrev rest (c : Dev nD) : sProp 𝕄 := iprop((∃ r, prngReg c r) ∗ ∃ W, owes (c : Thread nD τ) (0 : CellTallies nD τ sig Unit) W)

/-- A boundary's contents read at the TensorCore's references: the form a region's proof data take. -/
abbrev atRefs (W : Dev nD → Valuation τ sig (Elt F)) : (c : Dev nD) → (b : Ref sig .tc) → Buf (Elt F) ((c : Thread nD τ).loc b) :=
  fun c b => W c b

/-- At launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- What region 0's pipeline leaves in its output array `main_v28`: the write-backs of all 25 grid points. -/
def arr0 (c : Dev nD) : Buf (Elt F) ((c : Thread nD τ).loc main_v28) := (dat0 (atRefs (W1 m)) c).arrAt 2 cfg0.N
/-- After region 0. -/
def W2 (c : Dev nD) : Valuation τ sig (Elt F) := Function.update (W1 m c) main_v28 (arr0 m c)
/-- After the host stretch `hostOps1`. -/
abbrev W3 (c : Dev nD) : Valuation τ sig (Elt F) := StableHlo.after hostOps1 (W2 m c)
/-- What region 1's pipeline leaves in its output array `main_v45`: the write-backs of all 25 grid points. -/
def arr1 (c : Dev nD) : Buf (Elt F) ((c : Thread nD τ).loc main_v45) := (dat1 (atRefs (W3 m)) c).arrAt 4 cfg1.N
/-- After region 1. -/
def W4 (c : Dev nD) : Valuation τ sig (Elt F) := Function.update (W3 m c) main_v45 (arr1 m c)
/-- What region 2's pipeline leaves in its output array `main_v46`: the write-backs of all 25 grid points. -/
def arr2 (c : Dev nD) : Buf (Elt F) ((c : Thread nD τ).loc main_v46) := (dat2 (atRefs (W4 m)) c).arrAt 2 cfg2.N
/-- After region 2. -/
def W5 (c : Dev nD) : Valuation τ sig (Elt F) := Function.update (W4 m c) main_v46 (arr2 m c)
/-- After the host stretch `hostOps3`. -/
abbrev W6 (c : Dev nD) : Valuation τ sig (Elt F) := StableHlo.after hostOps3 (W5 m c)
/-- What region 3's pipeline leaves in its output array `main_v63`: the write-backs of all 25 grid points. -/
def arr3 (c : Dev nD) : Buf (Elt F) ((c : Thread nD τ).loc main_v63) := (dat3 (atRefs (W6 m)) c).arrAt 4 cfg3.N
/-- After region 3. -/
def W7 (c : Dev nD) : Valuation τ sig (Elt F) := Function.update (W6 m c) main_v63 (arr3 m c)
/-- What region 4's pipeline leaves in its output array `main_v64`: the write-backs of all 25 grid points. -/
def arr4 (c : Dev nD) : Buf (Elt F) ((c : Thread nD τ).loc main_v64) := (dat4 (atRefs (W7 m)) c).arrAt 2 cfg4.N
/-- After region 4. -/
def W8 (c : Dev nD) : Valuation τ sig (Elt F) := Function.update (W7 m c) main_v64 (arr4 m c)
/-- What region 5's pipeline leaves in its output array `main_v65`: the write-backs of all 25 grid points. -/
def arr5 (c : Dev nD) : Buf (Elt F) ((c : Thread nD τ).loc main_v65) := (dat5 (atRefs (W8 m)) c).arrAt 2 cfg5.N
/-- After region 5. -/
def W9 (c : Dev nD) : Valuation τ sig (Elt F) := Function.update (W8 m c) main_v65 (arr5 m c)
/-- After the host stretch `hostOps6`. -/
abbrev W10 (c : Dev nD) : Valuation τ sig (Elt F) := StableHlo.after hostOps6 (W9 m c)
/-- What region 6's pipeline leaves in its output array `main_v86`: the write-backs of all 25 grid points. -/
def arr6 (c : Dev nD) : Buf (Elt F) ((c : Thread nD τ).loc main_v86) := (dat6 (atRefs (W10 m)) c).arrAt 6 cfg6.N
/-- After region 6. -/
def W11 (c : Dev nD) : Valuation τ sig (Elt F) := Function.update (W10 m c) main_v86 (arr6 m c)
/-- What region 7's pipeline leaves in its output array `main_v87`: the write-backs of all 25 grid points. -/
def arr7 (c : Dev nD) : Buf (Elt F) ((c : Thread nD τ).loc main_v87) := (dat7 (atRefs (W11 m)) c).arrAt 2 cfg7.N
/-- After region 7. -/
def W12 (c : Dev nD) : Valuation τ sig (Elt F) := Function.update (W11 m c) main_v87 (arr7 m c)
/-- What region 8's pipeline leaves in its output array `main_v88`: the write-backs of all 25 grid points. -/
def arr8 (c : Dev nD) : Buf (Elt F) ((c : Thread nD τ).loc main_v88) := (dat8 (atRefs (W12 m)) c).arrAt 2 cfg8.N
/-- After region 8. -/
def W13 (c : Dev nD) : Valuation τ sig (Elt F) := Function.update (W12 m c) main_v88 (arr8 m c)
/-- What region 9's pipeline leaves in its output array `main_v89`: the write-backs of all 25 grid points. -/
def arr9 (c : Dev nD) : Buf (Elt F) ((c : Thread nD τ).loc main_v89) := (dat9 (atRefs (W13 m)) c).arrAt 2 cfg9.N
/-- After region 9. -/
def W14 (c : Dev nD) : Valuation τ sig (Elt F) := Function.update (W13 m c) main_v89 (arr9 m c)
/-- After the host stretch `hostOps10`. -/
abbrev W15 (c : Dev nD) : Valuation τ sig (Elt F) := StableHlo.after hostOps10 (W14 m c)
/-- What region 10's pipeline leaves in its output array `main_v112`: the write-backs of all 25 grid points. -/
def arr10 (c : Dev nD) : Buf (Elt F) ((c : Thread nD τ).loc main_v112) := (dat10 (atRefs (W15 m)) c).arrAt 8 cfg10.N
/-- After region 10. -/
def W16 (c : Dev nD) : Valuation τ sig (Elt F) := Function.update (W15 m c) main_v112 (arr10 m c)
/-- After the host stretch `hostOps11`. -/
abbrev W17 (c : Dev nD) : Valuation τ sig (Elt F) := StableHlo.after hostOps11 (W16 m c)
/-- After the host stretch `hostOps11_1`. -/
abbrev W18 (c : Dev nD) : Valuation τ sig (Elt F) := StableHlo.after hostOps11_1 (W17 m c)
/-- After the host stretch `hostOps11_2`. -/
abbrev W19 (c : Dev nD) : Valuation τ sig (Elt F) := StableHlo.after hostOps11_2 (W18 m c)
/-- After the host stretch `hostOps11_3`. -/
abbrev W20 (c : Dev nD) : Valuation τ sig (Elt F) := StableHlo.after hostOps11_3 (W19 m c)
/-- After the host stretch `hostOps11_4`. -/
abbrev W21 (c : Dev nD) : Valuation τ sig (Elt F) := StableHlo.after hostOps11_4 (W20 m c)
/-- What region 11's pipeline leaves in its output array `main_v116`: the write-backs of all 25 grid points. -/
def arr11 (c : Dev nD) : Buf (Elt F) ((c : Thread nD τ).loc main_v116) := (dat11 (atRefs (W21 m)) c).arrAt 3 cfg11.N
/-- After region 11. -/
def W22 (c : Dev nD) : Valuation τ sig (Elt F) := Function.update (W21 m c) main_v116 (arr11 m c)
/-- After the host stretch `hostOps12`. -/
abbrev W23 (c : Dev nD) : Valuation τ sig (Elt F) := StableHlo.after hostOps12 (W22 m c)

/-- What the regions leave, in the form the conditional frame's boundary contents are written over. -/
def outs : Outs (F := F) := fun J r c => match J with
  | 2 => W2 m c r
  | 4 => W4 m c r
  | 5 => W5 m c r
  | 7 => W7 m c r
  | 8 => W8 m c r
  | 9 => W9 m c r
  | 11 => W11 m c r
  | 12 => W12 m c r
  | 13 => W13 m c r
  | 14 => W14 m c r
  | 16 => W16 m c r
  | 22 => W22 m c r
  | _ => W0 m c r

/-! The conditional frame's boundary contents at these `outs` are the contents above. -/
theorem V1_eq (c : Dev nD) : V1 m c = W1 m c := rfl
theorem V2_eq (c : Dev nD) : V2 m (outs m) c = W2 m c := by
  show Function.update (V1 m c) main_v28 (W2 m c main_v28) = _
  rw [V1_eq]; unfold W2; rw [Function.update_self]
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v45 (W4 m c main_v45) = _
  rw [V3_eq]; unfold W4; rw [Function.update_self]
theorem V5_eq (c : Dev nD) : V5 m (outs m) c = W5 m c := by
  show Function.update (V4 m (outs m) c) main_v46 (W5 m c main_v46) = _
  rw [V4_eq]; unfold W5; rw [Function.update_self]
theorem V6_eq (c : Dev nD) : V6 m (outs m) c = W6 m c := by
  show StableHlo.after hostOps3 (V5 m (outs m) c) = _
  rw [V5_eq]
theorem V7_eq (c : Dev nD) : V7 m (outs m) c = W7 m c := by
  show Function.update (V6 m (outs m) c) main_v63 (W7 m c main_v63) = _
  rw [V6_eq]; unfold W7; rw [Function.update_self]
theorem V8_eq (c : Dev nD) : V8 m (outs m) c = W8 m c := by
  show Function.update (V7 m (outs m) c) main_v64 (W8 m c main_v64) = _
  rw [V7_eq]; unfold W8; rw [Function.update_self]
theorem V9_eq (c : Dev nD) : V9 m (outs m) c = W9 m c := by
  show Function.update (V8 m (outs m) c) main_v65 (W9 m c main_v65) = _
  rw [V8_eq]; unfold W9; rw [Function.update_self]
theorem V10_eq (c : Dev nD) : V10 m (outs m) c = W10 m c := by
  show StableHlo.after hostOps6 (V9 m (outs m) c) = _
  rw [V9_eq]
theorem V11_eq (c : Dev nD) : V11 m (outs m) c = W11 m c := by
  show Function.update (V10 m (outs m) c) main_v86 (W11 m c main_v86) = _
  rw [V10_eq]; unfold W11; rw [Function.update_self]
theorem V12_eq (c : Dev nD) : V12 m (outs m) c = W12 m c := by
  show Function.update (V11 m (outs m) c) main_v87 (W12 m c main_v87) = _
  rw [V11_eq]; unfold W12; rw [Function.update_self]
theorem V13_eq (c : Dev nD) : V13 m (outs m) c = W13 m c := by
  show Function.update (V12 m (outs m) c) main_v88 (W13 m c main_v88) = _
  rw [V12_eq]; unfold W13; rw [Function.update_self]
theorem V14_eq (c : Dev nD) : V14 m (outs m) c = W14 m c := by
  show Function.update (V13 m (outs m) c) main_v89 (W14 m c main_v89) = _
  rw [V13_eq]; unfold W14; rw [Function.update_self]
theorem V15_eq (c : Dev nD) : V15 m (outs m) c = W15 m c := by
  show StableHlo.after hostOps10 (V14 m (outs m) c) = _
  rw [V14_eq]
theorem V16_eq (c : Dev nD) : V16 m (outs m) c = W16 m c := by
  show Function.update (V15 m (outs m) c) main_v112 (W16 m c main_v112) = _
  rw [V15_eq]; unfold W16; rw [Function.update_self]
theorem V17_eq (c : Dev nD) : V17 m (outs m) c = W17 m c := by
  show StableHlo.after hostOps11 (V16 m (outs m) c) = _
  rw [V16_eq]
theorem V18_eq (c : Dev nD) : V18 m (outs m) c = W18 m c := by
  show StableHlo.after hostOps11_1 (V17 m (outs m) c) = _
  rw [V17_eq]
theorem V19_eq (c : Dev nD) : V19 m (outs m) c = W19 m c := by
  show StableHlo.after hostOps11_2 (V18 m (outs m) c) = _
  rw [V18_eq]
theorem V20_eq (c : Dev nD) : V20 m (outs m) c = W20 m c := by
  show StableHlo.after hostOps11_3 (V19 m (outs m) c) = _
  rw [V19_eq]
theorem V21_eq (c : Dev nD) : V21 m (outs m) c = W21 m c := by
  show StableHlo.after hostOps11_4 (V20 m (outs m) c) = _
  rw [V20_eq]
theorem V22_eq (c : Dev nD) : V22 m (outs m) c = W22 m c := by
  show Function.update (V21 m (outs m) c) main_v116 (W22 m c main_v116) = _
  rw [V21_eq]; unfold W22; rw [Function.update_self]
theorem V23_eq (c : Dev nD) : V23 m (outs m) c = W23 m c := by
  show StableHlo.after hostOps12 (V22 m (outs m) c) = _
  rw [V22_eq]

/-- Every pipeline's proof data, each at its region's entry contents. -/
def pdats : (p : Fin 12) → (c : Dev nD) → Dat τ (Elt F) Unit ℕ (UR sig nD τ) ℕ (cfgs p) c
  | ⟨0, _⟩ => fun c => dat0 (atRefs (W1 m)) c
  | ⟨1, _⟩ => fun c => dat1 (atRefs (W3 m)) c
  | ⟨2, _⟩ => fun c => dat2 (atRefs (W4 m)) c
  | ⟨3, _⟩ => fun c => dat3 (atRefs (W6 m)) c
  | ⟨4, _⟩ => fun c => dat4 (atRefs (W7 m)) c
  | ⟨5, _⟩ => fun c => dat5 (atRefs (W8 m)) c
  | ⟨6, _⟩ => fun c => dat6 (atRefs (W10 m)) c
  | ⟨7, _⟩ => fun c => dat7 (atRefs (W11 m)) c
  | ⟨8, _⟩ => fun c => dat8 (atRefs (W12 m)) c
  | ⟨9, _⟩ => fun c => dat9 (atRefs (W13 m)) c
  | ⟨10, _⟩ => fun c => dat10 (atRefs (W15 m)) c
  | ⟨11, _⟩ => fun c => dat11 (atRefs (W21 m)) c

end Cert.KernelIdeal.Hand

end
-- ==== Proof.KI.Reg0.lean ====
/- Region 0 as an item of the main function: entered with every unscoped buffer at the contents before it, left with its
   output array `main_v28` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF0 (c : Dev nD) (w : Fin cfg0.W) : (dat0 (atRefs (W1 m)) c).arrAt w cfg0.N = (atRefs (W2 m)) c (Pipeline.arrRef spec0 w) :=
  match w with
  | ⟨0, _⟩ => ((dat0 (atRefs (W1 m)) c).arrAt_in 0 rfl _).trans ((A_eq0 (atRefs (W1 m)) c 0).trans (by
      unfold atRefs W2; exact (Function.update_of_ne (StableHlo.devRef_ne_of_ne (by decide)) _ _).symm))
  | ⟨1, _⟩ => ((dat0 (atRefs (W1 m)) c).arrAt_in 1 rfl _).trans ((A_eq0 (atRefs (W1 m)) c 1).trans (by
      unfold atRefs W2; exact (Function.update_of_ne (StableHlo.devRef_ne_of_ne (by decide)) _ _).symm))
  | ⟨2, _⟩ => by
      show _ = Function.update (W1 m c) (Proc.devRef .tc main_v28 : DevRef τ sig) (arr0 m c) (Proc.devRef .tc main_v28 : DevRef τ sig)
      rw [Function.update_self]; rfl

set_option maxHeartbeats 8000000 in
/-- Every other buffer is as the region found it. -/
theorem hrest0 (c : Dev nD) : ∀ b, b ∉ Finset.univ.image (Pipeline.arrRef spec0) → (atRefs (W2 m)) c b = (atRefs (W1 m)) c b :=
  fun b hb => by
    unfold atRefs W2
    exact Function.update_of_ne (StableHlo.devRef_ne_of_ne fun e =>
      hb (Finset.mem_image.mpr ⟨(2 : Fin cfg0.W), Finset.mem_univ _, (show Pipeline.arrRef spec0 (2 : Fin cfg0.W) = b from e.symm)⟩)) _ _

set_option maxHeartbeats 8000000 in
set_option backward.isDefEq.respectTransparency.types false in
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atRefs (W1 m)) c).loose
  hwaits := Pipeline.hwaits_of_owed_zero _ _ _ _ Lz lvz 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c ((atRefs (W1 m)) c)
  hentry c := by
    rw [Pipeline.ownSems0_none]
    have hsplit := Pipeline.arrays_of_unscopedBufs (p := 0) (pcfgs (F := F)) adm (pdats m) launch0.win launch0.arr_whole c
      ((pdats m 0 c).share_full fun _ => rfl) ((atRefs (W1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      ((atRefs (W1 m)) c) ((atRefs (W2 m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/- Region 1 as an item of the main function: entered with every unscoped buffer at the contents before it, left with its
   output array `main_v45` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF1 (c : Dev nD) (w : Fin cfg1.W) : (dat1 (atRefs (W3 m)) c).arrAt w cfg1.N = (atRefs (W4 m)) c (Pipeline.arrRef spec1 w) :=
  match w with
  | ⟨0, _⟩ => ((dat1 (atRefs (W3 m)) c).arrAt_in 0 rfl _).trans ((A_eq1 (atRefs (W3 m)) c 0).trans (by
      unfold atRefs W4; exact (Function.update_of_ne (StableHlo.devRef_ne_of_ne (by decide)) _ _).symm))
  | ⟨1, _⟩ => ((dat1 (atRefs (W3 m)) c).arrAt_in 1 rfl _).trans ((A_eq1 (atRefs (W3 m)) c 1).trans (by
      unfold atRefs W4; exact (Function.update_of_ne (StableHlo.devRef_ne_of_ne (by decide)) _ _).symm))
  | ⟨2, _⟩ => ((dat1 (atRefs (W3 m)) c).arrAt_in 2 rfl _).trans ((A_eq1 (atRefs (W3 m)) c 2).trans (by
      unfold atRefs W4; exact (Function.update_of_ne (StableHlo.devRef_ne_of_ne (by decide)) _ _).symm))
  | ⟨3, _⟩ => ((dat1 (atRefs (W3 m)) c).arrAt_in 3 rfl _).trans ((A_eq1 (atRefs (W3 m)) c 3).trans (by
      unfold atRefs W4; exact (Function.update_of_ne (StableHlo.devRef_ne_of_ne (by decide)) _ _).symm))
  | ⟨4, _⟩ => by
      show _ = Function.update (W3 m c) (Proc.devRef .tc main_v45 : DevRef τ sig) (arr1 m c) (Proc.devRef .tc main_v45 : DevRef τ sig)
      rw [Function.update_self]; rfl

set_option maxHeartbeats 8000000 in
/-- Every other buffer is as the region found it. -/
theorem hrest1 (c : Dev nD) : ∀ b, b ∉ Finset.univ.image (Pipeline.arrRef spec1) → (atRefs (W4 m)) c b = (atRefs (W3 m)) c b :=
  fun b hb => by
    unfold atRefs W4
    exact Function.update_of_ne (StableHlo.devRef_ne_of_ne fun e =>
      hb (Finset.mem_image.mpr ⟨(4 : Fin cfg1.W), Finset.mem_univ _, (show Pipeline.arrRef spec1 (4 : Fin cfg1.W) = b from e.symm)⟩)) _ _

set_option maxHeartbeats 8000000 in
set_option backward.isDefEq.respectTransparency.types false in
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atRefs (W3 m)) c).loose
  hwaits := Pipeline.hwaits_of_owed_zero _ _ _ _ Lz lvz 1 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec1 c ((atRefs (W3 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) ((atRefs (W3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      ((atRefs (W3 m)) c) ((atRefs (W4 m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/- Region 2 as an item of the main function: entered with every unscoped buffer at the contents before it, left with its
   output array `main_v46` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF2 (c : Dev nD) (w : Fin cfg2.W) : (dat2 (atRefs (W4 m)) c).arrAt w cfg2.N = (atRefs (W5 m)) c (Pipeline.arrRef spec2 w) :=
  match w with
  | ⟨0, _⟩ => ((dat2 (atRefs (W4 m)) c).arrAt_in 0 rfl _).trans ((A_eq2 (atRefs (W4 m)) c 0).trans (by
      unfold atRefs W5; exact (Function.update_of_ne (StableHlo.devRef_ne_of_ne (by decide)) _ _).symm))
  | ⟨1, _⟩ => ((dat2 (atRefs (W4 m)) c).arrAt_in 1 rfl _).trans ((A_eq2 (atRefs (W4 m)) c 1).trans (by
      unfold atRefs W5; exact (Function.update_of_ne (StableHlo.devRef_ne_of_ne (by decide)) _ _).symm))
  | ⟨2, _⟩ => by
      show _ = Function.update (W4 m c) (Proc.devRef .tc main_v46 : DevRef τ sig) (arr2 m c) (Proc.devRef .tc main_v46 : DevRef τ sig)
      rw [Function.update_self]; rfl

set_option maxHeartbeats 8000000 in
/-- Every other buffer is as the region found it. -/
theorem hrest2 (c : Dev nD) : ∀ b, b ∉ Finset.univ.image (Pipeline.arrRef spec2) → (atRefs (W5 m)) c b = (atRefs (W4 m)) c b :=
  fun b hb => by
    unfold atRefs W5
    exact Function.update_of_ne (StableHlo.devRef_ne_of_ne fun e =>
      hb (Finset.mem_image.mpr ⟨(2 : Fin cfg2.W), Finset.mem_univ _, (show Pipeline.arrRef spec2 (2 : Fin cfg2.W) = b from e.symm)⟩)) _ _

set_option maxHeartbeats 8000000 in
set_option backward.isDefEq.respectTransparency.types false in
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atRefs (W4 m)) c).loose
  hwaits := Pipeline.hwaits_of_owed_zero _ _ _ _ Lz lvz 2 fun _ _ => rfl
  pre c := iprop(StableHlo.held (c : Thread nD τ) (Pipeline.ucRefs τ sig) (W4 m c) ∗ rest c)
  post c := iprop(StableHlo.held (c : Thread nD τ) (Pipeline.ucRefs τ sig) (W5 m c) ∗ rest c)
  X c := iprop(∃ r, prngReg c r)
  Y c := iprop(∃ r, prngReg c r)
  Z c := Pipeline.unscopedRest (Ix := Unit) (Name := ℕ) (U := UR sig nD τ) (Lvl := ℕ) spec2 c ((atRefs (W4 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) ((atRefs (W4 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      ((atRefs (W4 m)) c) ((atRefs (W5 m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/- Region 3 as an item of the main function: entered with every unscoped buffer at the contents before it, left with its
   output array `main_v63` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF3 (c : Dev nD) (w : Fin cfg3.W) : (dat3 (atRefs (W6 m)) c).arrAt w cfg3.N = (atRefs (W7 m)) c (Pipeline.arrRef spec3 w) :=
  match w with
  | ⟨0, _⟩ => ((dat3 (atRefs (W6 m)) c).arrAt_in 0 rfl _).trans ((A_eq3 (atRefs (W6 m)) c 0).trans (by
      unfold atRefs W7; exact (Function.update_of_ne (StableHlo.devRef_ne_of_ne (by decide)) _ _).symm))
  | ⟨1, _⟩ => ((dat3 (atRefs (W6 m)) c).arrAt_in 1 rfl _).trans ((A_eq3 (atRefs (W6 m)) c 1).trans (by
      unfold atRefs W7; exact (Function.update_of_ne (StableHlo.devRef_ne_of_ne (by decide)) _ _).symm))
  | ⟨2, _⟩ => ((dat3 (atRefs (W6 m)) c).arrAt_in 2 rfl _).trans ((A_eq3 (atRefs (W6 m)) c 2).trans (by
      unfold atRefs W7; exact (Function.update_of_ne (StableHlo.devRef_ne_of_ne (by decide)) _ _).symm))
  | ⟨3, _⟩ => ((dat3 (atRefs (W6 m)) c).arrAt_in 3 rfl _).trans ((A_eq3 (atRefs (W6 m)) c 3).trans (by
      unfold atRefs W7; exact (Function.update_of_ne (StableHlo.devRef_ne_of_ne (by decide)) _ _).symm))
  | ⟨4, _⟩ => by
      show _ = Function.update (W6 m c) (Proc.devRef .tc main_v63 : DevRef τ sig) (arr3 m c) (Proc.devRef .tc main_v63 : DevRef τ sig)
      rw [Function.update_self]; rfl

set_option maxHeartbeats 8000000 in
/-- Every other buffer is as the region found it. -/
theorem hrest3 (c : Dev nD) : ∀ b, b ∉ Finset.univ.image (Pipeline.arrRef spec3) → (atRefs (W7 m)) c b = (atRefs (W6 m)) c b :=
  fun b hb => by
    unfold atRefs W7
    exact Function.update_of_ne (StableHlo.devRef_ne_of_ne fun e =>
      hb (Finset.mem_image.mpr ⟨(4 : Fin cfg3.W), Finset.mem_univ _, (show Pipeline.arrRef spec3 (4 : Fin cfg3.W) = b from e.symm)⟩)) _ _

set_option maxHeartbeats 8000000 in
set_option backward.isDefEq.respectTransparency.types false in
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (atRefs (W6 m)) c).loose
  hwaits := Pipeline.hwaits_of_owed_zero _ _ _ _ Lz lvz 3 fun _ _ => rfl
  pre c := iprop(StableHlo.held (c : Thread nD τ) (Pipeline.ucRefs τ sig) (W6 m c) ∗ rest c)
  post c := iprop(StableHlo.held (c : Thread nD τ) (Pipeline.ucRefs τ sig) (W7 m c) ∗ rest c)
  X c := iprop(∃ r, prngReg c r)
  Y c := iprop(∃ r, prngReg c r)
  Z c := Pipeline.unscopedRest (Ix := Unit) (Name := ℕ) (U := UR sig nD τ) (Lvl := ℕ) spec3 c ((atRefs (W6 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) ((atRefs (W6 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      ((atRefs (W6 m)) c) ((atRefs (W7 m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/- Region 4 as an item of the main function: entered with every unscoped buffer at the contents before it, left with its
   output array `main_v64` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF4 (c : Dev nD) (w : Fin cfg4.W) : (dat4 (atRefs (W7 m)) c).arrAt w cfg4.N = (atRefs (W8 m)) c (Pipeline.arrRef spec4 w) :=
  match w with
  | ⟨0, _⟩ => ((dat4 (atRefs (W7 m)) c).arrAt_in 0 rfl _).trans ((A_eq4 (atRefs (W7 m)) c 0).trans (by
      unfold atRefs W8; exact (Function.update_of_ne (StableHlo.devRef_ne_of_ne (by decide)) _ _).symm))
  | ⟨1, _⟩ => ((dat4 (atRefs (W7 m)) c).arrAt_in 1 rfl _).trans ((A_eq4 (atRefs (W7 m)) c 1).trans (by
      unfold atRefs W8; exact (Function.update_of_ne (StableHlo.devRef_ne_of_ne (by decide)) _ _).symm))
  | ⟨2, _⟩ => by
      show _ = Function.update (W7 m c) (Proc.devRef .tc main_v64 : DevRef τ sig) (arr4 m c) (Proc.devRef .tc main_v64 : DevRef τ sig)
      rw [Function.update_self]; rfl

set_option maxHeartbeats 8000000 in
/-- Every other buffer is as the region found it. -/
theorem hrest4 (c : Dev nD) : ∀ b, b ∉ Finset.univ.image (Pipeline.arrRef spec4) → (atRefs (W8 m)) c b = (atRefs (W7 m)) c b :=
  fun b hb => by
    unfold atRefs W8
    exact Function.update_of_ne (StableHlo.devRef_ne_of_ne fun e =>
      hb (Finset.mem_image.mpr ⟨(2 : Fin cfg4.W), Finset.mem_univ _, (show Pipeline.arrRef spec4 (2 : Fin cfg4.W) = b from e.symm)⟩)) _ _

set_option maxHeartbeats 8000000 in
set_option backward.isDefEq.respectTransparency.types false in
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (atRefs (W7 m)) c).loose
  hwaits := Pipeline.hwaits_of_owed_zero _ _ _ _ Lz lvz 4 fun _ _ => rfl
  pre c := iprop(StableHlo.held (c : Thread nD τ) (Pipeline.ucRefs τ sig) (W7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := UR sig nD τ) (Lvl := ℕ) spec4 c ((atRefs (W7 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) ((atRefs (W7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      ((atRefs (W7 m)) c) ((atRefs (W8 m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
/- Region 5 as an item of the main function: entered with every unscoped buffer at the contents before it, left with its
   output array `main_v65` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF5 (c : Dev nD) (w : Fin cfg5.W) : (dat5 (atRefs (W8 m)) c).arrAt w cfg5.N = (atRefs (W9 m)) c (Pipeline.arrRef spec5 w) :=
  match w with
  | ⟨0, _⟩ => ((dat5 (atRefs (W8 m)) c).arrAt_in 0 rfl _).trans ((A_eq5 (atRefs (W8 m)) c 0).trans (by
      unfold atRefs W9; exact (Function.update_of_ne (StableHlo.devRef_ne_of_ne (by decide)) _ _).symm))
  | ⟨1, _⟩ => ((dat5 (atRefs (W8 m)) c).arrAt_in 1 rfl _).trans ((A_eq5 (atRefs (W8 m)) c 1).trans (by
      unfold atRefs W9; exact (Function.update_of_ne (StableHlo.devRef_ne_of_ne (by decide)) _ _).symm))
  | ⟨2, _⟩ => by
      show _ = Function.update (W8 m c) (Proc.devRef .tc main_v65 : DevRef τ sig) (arr5 m c) (Proc.devRef .tc main_v65 : DevRef τ sig)
      rw [Function.update_self]; rfl

set_option maxHeartbeats 8000000 in
/-- Every other buffer is as the region found it. -/
theorem hrest5 (c : Dev nD) : ∀ b, b ∉ Finset.univ.image (Pipeline.arrRef spec5) → (atRefs (W9 m)) c b = (atRefs (W8 m)) c b :=
  fun b hb => by
    unfold atRefs W9
    exact Function.update_of_ne (StableHlo.devRef_ne_of_ne fun e =>
      hb (Finset.mem_image.mpr ⟨(2 : Fin cfg5.W), Finset.mem_univ _, (show Pipeline.arrRef spec5 (2 : Fin cfg5.W) = b from e.symm)⟩)) _ _

set_option maxHeartbeats 8000000 in
set_option backward.isDefEq.respectTransparency.types false in
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (atRefs (W8 m)) c).loose
  hwaits := Pipeline.hwaits_of_owed_zero _ _ _ _ Lz lvz 5 fun _ _ => rfl
  pre c := iprop(StableHlo.held (c : Thread nD τ) (Pipeline.ucRefs τ sig) (W8 m c) ∗ rest c)
  post c := iprop(StableHlo.held (c : Thread nD τ) (Pipeline.ucRefs τ sig) (W9 m c) ∗ rest c)
  X c := iprop(∃ r, prngReg c r)
  Y c := iprop(∃ r, prngReg c r)
  Z c := Pipeline.unscopedRest (Ix := Unit) (Name := ℕ) (U := UR sig nD τ) (Lvl := ℕ) spec5 c ((atRefs (W8 m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) ((atRefs (W8 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      ((atRefs (W8 m)) c) ((atRefs (W9 m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
/- Region 6 as an item of the main function: entered with every unscoped buffer at the contents before it, left with its
   output array `main_v86` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF6 (c : Dev nD) (w : Fin cfg6.W) : (dat6 (atRefs (W10 m)) c).arrAt w cfg6.N = (atRefs (W11 m)) c (Pipeline.arrRef spec6 w) :=
  match w with
  | ⟨0, _⟩ => ((dat6 (atRefs (W10 m)) c).arrAt_in 0 rfl _).trans ((A_eq6 (atRefs (W10 m)) c 0).trans (by
      unfold atRefs W11; exact (Function.update_of_ne (StableHlo.devRef_ne_of_ne (by decide)) _ _).symm))
  | ⟨1, _⟩ => ((dat6 (atRefs (W10 m)) c).arrAt_in 1 rfl _).trans ((A_eq6 (atRefs (W10 m)) c 1).trans (by
      unfold atRefs W11; exact (Function.update_of_ne (StableHlo.devRef_ne_of_ne (by decide)) _ _).symm))
  | ⟨2, _⟩ => ((dat6 (atRefs (W10 m)) c).arrAt_in 2 rfl _).trans ((A_eq6 (atRefs (W10 m)) c 2).trans (by
      unfold atRefs W11; exact (Function.update_of_ne (StableHlo.devRef_ne_of_ne (by decide)) _ _).symm))
  | ⟨3, _⟩ => ((dat6 (atRefs (W10 m)) c).arrAt_in 3 rfl _).trans ((A_eq6 (atRefs (W10 m)) c 3).trans (by
      unfold atRefs W11; exact (Function.update_of_ne (StableHlo.devRef_ne_of_ne (by decide)) _ _).symm))
  | ⟨4, _⟩ => ((dat6 (atRefs (W10 m)) c).arrAt_in 4 rfl _).trans ((A_eq6 (atRefs (W10 m)) c 4).trans (by
      unfold atRefs W11; exact (Function.update_of_ne (StableHlo.devRef_ne_of_ne (by decide)) _ _).symm))
  | ⟨5, _⟩ => ((dat6 (atRefs (W10 m)) c).arrAt_in 5 rfl _).trans ((A_eq6 (atRefs (W10 m)) c 5).trans (by
      unfold atRefs W11; exact (Function.update_of_ne (StableHlo.devRef_ne_of_ne (by decide)) _ _).symm))
  | ⟨6, _⟩ => by
      show _ = Function.update (W10 m c) (Proc.devRef .tc main_v86 : DevRef τ sig) (arr6 m c) (Proc.devRef .tc main_v86 : DevRef τ sig)
      rw [Function.update_self]; rfl

set_option maxHeartbeats 8000000 in
/-- Every other buffer is as the region found it. -/
theorem hrest6 (c : Dev nD) : ∀ b, b ∉ Finset.univ.image (Pipeline.arrRef spec6) → (atRefs (W11 m)) c b = (atRefs (W10 m)) c b :=
  fun b hb => by
    unfold atRefs W11
    exact Function.update_of_ne (StableHlo.devRef_ne_of_ne fun e =>
      hb (Finset.mem_image.mpr ⟨(6 : Fin cfg6.W), Finset.mem_univ _, (show Pipeline.arrRef spec6 (6 : Fin cfg6.W) = b from e.symm)⟩)) _ _

set_option maxHeartbeats 8000000 in
set_option backward.isDefEq.respectTransparency.types false in
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (atRefs (W10 m)) c).loose
  hwaits := Pipeline.hwaits_of_owed_zero _ _ _ _ Lz lvz 6 fun _ _ => rfl
  pre c := iprop(StableHlo.held (c : Thread nD τ) (Pipeline.ucRefs τ sig) (W10 m c) ∗ rest c)
  post c := iprop(StableHlo.held (c : Thread nD τ) (Pipeline.ucRefs τ sig) (W11 m c) ∗ rest c)
  X c := iprop(∃ r, prngReg c r)
  Y c := iprop(∃ r, prngReg c r)
  Z c := Pipeline.unscopedRest (Ix := Unit) (Name := ℕ) (U := UR sig nD τ) (Lvl := ℕ) spec6 c ((atRefs (W10 m)) c)
  hentry c := by
    rw [Pipeline.ownSems0_none]
    have hsplit := Pipeline.arrays_of_unscopedBufs (p := 6) (pcfgs (F := F)) adm (pdats m) launch6.win launch6.arr_whole c
      ((pdats m 6 c).share_full fun _ => rfl) ((atRefs (W10 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      ((atRefs (W10 m)) c) ((atRefs (W11 m)) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
/- Region 7 as an item of the main function: entered with every unscoped buffer at the contents before it, left with its
   output array `main_v87` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF7 (c : Dev nD) (w : Fin cfg7.W) : (dat7 (atRefs (W11 m)) c).arrAt w cfg7.N = (atRefs (W12 m)) c (Pipeline.arrRef spec7 w) :=
  match w with
  | ⟨0, _⟩ => ((dat7 (atRefs (W11 m)) c).arrAt_in 0 rfl _).trans ((A_eq7 (atRefs (W11 m)) c 0).trans (by
      unfold atRefs W12; exact (Function.update_of_ne (StableHlo.devRef_ne_of_ne (by decide)) _ _).symm))
  | ⟨1, _⟩ => ((dat7 (atRefs (W11 m)) c).arrAt_in 1 rfl _).trans ((A_eq7 (atRefs (W11 m)) c 1).trans (by
      unfold atRefs W12; exact (Function.update_of_ne (StableHlo.devRef_ne_of_ne (by decide)) _ _).symm))
  | ⟨2, _⟩ => by
      show _ = Function.update (W11 m c) (Proc.devRef .tc main_v87 : DevRef τ sig) (arr7 m c) (Proc.devRef .tc main_v87 : DevRef τ sig)
      rw [Function.update_self]; rfl

set_option maxHeartbeats 8000000 in
/-- Every other buffer is as the region found it. -/
theorem hrest7 (c : Dev nD) : ∀ b, b ∉ Finset.univ.image (Pipeline.arrRef spec7) → (atRefs (W12 m)) c b = (atRefs (W11 m)) c b :=
  fun b hb => by
    unfold atRefs W12
    exact Function.update_of_ne (StableHlo.devRef_ne_of_ne fun e =>
      hb (Finset.mem_image.mpr ⟨(2 : Fin cfg7.W), Finset.mem_univ _, (show Pipeline.arrRef spec7 (2 : Fin cfg7.W) = b from e.symm)⟩)) _ _

set_option maxHeartbeats 8000000 in
set_option backward.isDefEq.respectTransparency.types false in
def reg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (atRefs (W11 m)) c).loose
  hwaits := Pipeline.hwaits_of_owed_zero _ _ _ _ Lz lvz 7 fun _ _ => rfl
  pre c := iprop(StableHlo.held (c : Thread nD τ) (Pipeline.ucRefs τ sig) (W11 m c) ∗ rest c)
  post c := iprop(StableHlo.held (c : Thread nD τ) (Pipeline.ucRefs τ sig) (W12 m c) ∗ rest c)
  X c := iprop(∃ r, prngReg c r)
  Y c := iprop(∃ r, prngReg c r)
  Z c := Pipeline.unscopedRest (Ix := Unit) (Name := ℕ) (U := UR sig nD τ) (Lvl := ℕ) spec7 c ((atRefs (W11 m)) c)
  hentry c := by
    rw [Pipeline.ownSems0_none]
    have hsplit := Pipeline.arrays_of_unscopedBufs (p := 7) (pcfgs (F := F)) adm (pdats m) launch7.win launch7.arr_whole c
      ((pdats m 7 c).share_full fun _ => rfl) ((atRefs (W11 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      ((atRefs (W11 m)) c) ((atRefs (W12 m)) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8.lean ====
/- Region 8 as an item of the main function: entered with every unscoped buffer at the contents before it, left with its
   output array `main_v88` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF8 (c : Dev nD) (w : Fin cfg8.W) : (dat8 (atRefs (W12 m)) c).arrAt w cfg8.N = (atRefs (W13 m)) c (Pipeline.arrRef spec8 w) :=
  match w with
  | ⟨0, _⟩ => ((dat8 (atRefs (W12 m)) c).arrAt_in 0 rfl _).trans ((A_eq8 (atRefs (W12 m)) c 0).trans (by
      unfold atRefs W13; exact (Function.update_of_ne (StableHlo.devRef_ne_of_ne (by decide)) _ _).symm))
  | ⟨1, _⟩ => ((dat8 (atRefs (W12 m)) c).arrAt_in 1 rfl _).trans ((A_eq8 (atRefs (W12 m)) c 1).trans (by
      unfold atRefs W13; exact (Function.update_of_ne (StableHlo.devRef_ne_of_ne (by decide)) _ _).symm))
  | ⟨2, _⟩ => by
      show _ = Function.update (W12 m c) (Proc.devRef .tc main_v88 : DevRef τ sig) (arr8 m c) (Proc.devRef .tc main_v88 : DevRef τ sig)
      rw [Function.update_self]; rfl

set_option maxHeartbeats 8000000 in
/-- Every other buffer is as the region found it. -/
theorem hrest8 (c : Dev nD) : ∀ b, b ∉ Finset.univ.image (Pipeline.arrRef spec8) → (atRefs (W13 m)) c b = (atRefs (W12 m)) c b :=
  fun b hb => by
    unfold atRefs W13
    exact Function.update_of_ne (StableHlo.devRef_ne_of_ne fun e =>
      hb (Finset.mem_image.mpr ⟨(2 : Fin cfg8.W), Finset.mem_univ _, (show Pipeline.arrRef spec8 (2 : Fin cfg8.W) = b from e.symm)⟩)) _ _

set_option maxHeartbeats 8000000 in
set_option backward.isDefEq.respectTransparency.types false in
def reg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (atRefs (W12 m)) c).loose
  hwaits := Pipeline.hwaits_of_owed_zero _ _ _ _ Lz lvz 8 fun _ _ => rfl
  pre c := iprop(StableHlo.held (c : Thread nD τ) (Pipeline.ucRefs τ sig) (W12 m c) ∗ rest c)
  post c := iprop(StableHlo.held (c : Thread nD τ) (Pipeline.ucRefs τ sig) (W13 m c) ∗ rest c)
  X c := iprop(∃ r, prngReg c r)
  Y c := iprop(∃ r, prngReg c r)
  Z c := Pipeline.unscopedRest (Ix := Unit) (Name := ℕ) (U := UR sig nD τ) (Lvl := ℕ) spec8 c ((atRefs (W12 m)) c)
  hentry c := by
    rw [Pipeline.ownSems0_none]
    have hsplit := Pipeline.arrays_of_unscopedBufs (p := 8) (pcfgs (F := F)) adm (pdats m) launch8.win launch8.arr_whole c
      ((pdats m 8 c).share_full fun _ => rfl) ((atRefs (W12 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      ((atRefs (W12 m)) c) ((atRefs (W13 m)) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg9.lean ====
/- Region 9 as an item of the main function: entered with every unscoped buffer at the contents before it, left with its
   output array `main_v89` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF9 (c : Dev nD) (w : Fin cfg9.W) : (dat9 (atRefs (W13 m)) c).arrAt w cfg9.N = (atRefs (W14 m)) c (Pipeline.arrRef spec9 w) :=
  match w with
  | ⟨0, _⟩ => ((dat9 (atRefs (W13 m)) c).arrAt_in 0 rfl _).trans ((A_eq9 (atRefs (W13 m)) c 0).trans (by
      unfold atRefs W14; exact (Function.update_of_ne (StableHlo.devRef_ne_of_ne (by decide)) _ _).symm))
  | ⟨1, _⟩ => ((dat9 (atRefs (W13 m)) c).arrAt_in 1 rfl _).trans ((A_eq9 (atRefs (W13 m)) c 1).trans (by
      unfold atRefs W14; exact (Function.update_of_ne (StableHlo.devRef_ne_of_ne (by decide)) _ _).symm))
  | ⟨2, _⟩ => by
      show _ = Function.update (W13 m c) (Proc.devRef .tc main_v89 : DevRef τ sig) (arr9 m c) (Proc.devRef .tc main_v89 : DevRef τ sig)
      rw [Function.update_self]; rfl

set_option maxHeartbeats 8000000 in
/-- Every other buffer is as the region found it. -/
theorem hrest9 (c : Dev nD) : ∀ b, b ∉ Finset.univ.image (Pipeline.arrRef spec9) → (atRefs (W14 m)) c b = (atRefs (W13 m)) c b :=
  fun b hb => by
    unfold atRefs W14
    exact Function.update_of_ne (StableHlo.devRef_ne_of_ne fun e =>
      hb (Finset.mem_image.mpr ⟨(2 : Fin cfg9.W), Finset.mem_univ _, (show Pipeline.arrRef spec9 (2 : Fin cfg9.W) = b from e.symm)⟩)) _ _

set_option maxHeartbeats 8000000 in
set_option backward.isDefEq.respectTransparency.types false in
def reg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (atRefs (W13 m)) c).loose
  hwaits := Pipeline.hwaits_of_owed_zero _ _ _ _ Lz lvz 9 fun _ _ => rfl
  pre c := iprop(StableHlo.held (c : Thread nD τ) (Pipeline.ucRefs τ sig) (W13 m c) ∗ rest c)
  post c := iprop(StableHlo.held (c : Thread nD τ) (Pipeline.ucRefs τ sig) (W14 m c) ∗ rest c)
  X c := iprop(∃ r, prngReg c r)
  Y c := iprop(∃ r, prngReg c r)
  Z c := Pipeline.unscopedRest (Ix := Unit) (Name := ℕ) (U := UR sig nD τ) (Lvl := ℕ) spec9 c ((atRefs (W13 m)) c)
  hentry c := by
    rw [Pipeline.ownSems0_none]
    have hsplit := Pipeline.arrays_of_unscopedBufs (p := 9) (pcfgs (F := F)) adm (pdats m) launch9.win launch9.arr_whole c
      ((pdats m 9 c).share_full fun _ => rfl) ((atRefs (W13 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      ((atRefs (W13 m)) c) ((atRefs (W14 m)) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg10.lean ====
/- Region 10 as an item of the main function: entered with every unscoped buffer at the contents before it, left with its
   output array `main_v112` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF10 (c : Dev nD) (w : Fin cfg10.W) : (dat10 (atRefs (W15 m)) c).arrAt w cfg10.N = (atRefs (W16 m)) c (Pipeline.arrRef spec10 w) :=
  match w with
  | ⟨0, _⟩ => ((dat10 (atRefs (W15 m)) c).arrAt_in 0 rfl _).trans ((A_eq10 (atRefs (W15 m)) c 0).trans (by
      unfold atRefs W16; exact (Function.update_of_ne (StableHlo.devRef_ne_of_ne (by decide)) _ _).symm))
  | ⟨1, _⟩ => ((dat10 (atRefs (W15 m)) c).arrAt_in 1 rfl _).trans ((A_eq10 (atRefs (W15 m)) c 1).trans (by
      unfold atRefs W16; exact (Function.update_of_ne (StableHlo.devRef_ne_of_ne (by decide)) _ _).symm))
  | ⟨2, _⟩ => ((dat10 (atRefs (W15 m)) c).arrAt_in 2 rfl _).trans ((A_eq10 (atRefs (W15 m)) c 2).trans (by
      unfold atRefs W16; exact (Function.update_of_ne (StableHlo.devRef_ne_of_ne (by decide)) _ _).symm))
  | ⟨3, _⟩ => ((dat10 (atRefs (W15 m)) c).arrAt_in 3 rfl _).trans ((A_eq10 (atRefs (W15 m)) c 3).trans (by
      unfold atRefs W16; exact (Function.update_of_ne (StableHlo.devRef_ne_of_ne (by decide)) _ _).symm))
  | ⟨4, _⟩ => ((dat10 (atRefs (W15 m)) c).arrAt_in 4 rfl _).trans ((A_eq10 (atRefs (W15 m)) c 4).trans (by
      unfold atRefs W16; exact (Function.update_of_ne (StableHlo.devRef_ne_of_ne (by decide)) _ _).symm))
  | ⟨5, _⟩ => ((dat10 (atRefs (W15 m)) c).arrAt_in 5 rfl _).trans ((A_eq10 (atRefs (W15 m)) c 5).trans (by
      unfold atRefs W16; exact (Function.update_of_ne (StableHlo.devRef_ne_of_ne (by decide)) _ _).symm))
  | ⟨6, _⟩ => ((dat10 (atRefs (W15 m)) c).arrAt_in 6 rfl _).trans ((A_eq10 (atRefs (W15 m)) c 6).trans (by
      unfold atRefs W16; exact (Function.update_of_ne (StableHlo.devRef_ne_of_ne (by decide)) _ _).symm))
  | ⟨7, _⟩ => ((dat10 (atRefs (W15 m)) c).arrAt_in 7 rfl _).trans ((A_eq10 (atRefs (W15 m)) c 7).trans (by
      unfold atRefs W16; exact (Function.update_of_ne (StableHlo.devRef_ne_of_ne (by decide)) _ _).symm))
  | ⟨8, _⟩ => by
      show _ = Function.update (W15 m c) (Proc.devRef .tc main_v112 : DevRef τ sig) (arr10 m c) (Proc.devRef .tc main_v112 : DevRef τ sig)
      rw [Function.update_self]; rfl

set_option maxHeartbeats 8000000 in
/-- Every other buffer is as the region found it. -/
theorem hrest10 (c : Dev nD) : ∀ b, b ∉ Finset.univ.image (Pipeline.arrRef spec10) → (atRefs (W16 m)) c b = (atRefs (W15 m)) c b :=
  fun b hb => by
    unfold atRefs W16
    exact Function.update_of_ne (StableHlo.devRef_ne_of_ne fun e =>
      hb (Finset.mem_image.mpr ⟨(8 : Fin cfg10.W), Finset.mem_univ _, (show Pipeline.arrRef spec10 (8 : Fin cfg10.W) = b from e.symm)⟩)) _ _

set_option maxHeartbeats 8000000 in
set_option backward.isDefEq.respectTransparency.types false in
def reg10 : Pipeline.RegionSeg (pcfgs (F := F)) adm (pdats m) () defs₀ Variants.none Lz lvz 10 where
  win := launch10.win.to₀
  block_pos := launch10.block_pos
  stage_whole := launch10.stage_whole
  K := PEmpty
  osem k := k.elim
  ho := Pipeline.OwnSemFacts.none _
  hbody c := (body_obligation10 (atRefs (W15 m)) c).loose
  hwaits := Pipeline.hwaits_of_owed_zero _ _ _ _ Lz lvz 10 fun _ _ => rfl
  pre c := iprop(StableHlo.held (c : Thread nD τ) (Pipeline.ucRefs τ sig) (W15 m c) ∗ rest c)
  post c := iprop(StableHlo.held (c : Thread nD τ) (Pipeline.ucRefs τ sig) (W16 m c) ∗ rest c)
  X c := iprop(∃ r, prngReg c r)
  Y c := iprop(∃ r, prngReg c r)
  Z c := Pipeline.unscopedRest (Ix := Unit) (Name := ℕ) (U := UR sig nD τ) (Lvl := ℕ) spec10 c ((atRefs (W15 m)) c)
  hentry c := by
    rw [Pipeline.ownSems0_none]
    have hsplit := Pipeline.arrays_of_unscopedBufs (p := 10) (pcfgs (F := F)) adm (pdats m) launch10.win launch10.arr_whole c
      ((pdats m 10 c).share_full fun _ => rfl) ((atRefs (W15 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      ((atRefs (W15 m)) c) ((atRefs (W16 m)) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg11.lean ====
/- Region 11 as an item of the main function: entered with every unscoped buffer at the contents before it, left with its
   output array `main_v116` at what the pipeline wrote back and every other buffer as found. The region's arrays are split
   out of the unscoped buffers at entry and put back at exit; the generator register passes through the pipeline's
   invariant; nothing is owed; the kernel has no semaphore of its own. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
/-- At the region's exit each of its arrays holds what the pipeline leaves: an input array is never written back, the
    output array is the one reference the boundary's contents change. -/
theorem hF11 (c : Dev nD) (w : Fin cfg11.W) : (dat11 (atRefs (W21 m)) c).arrAt w cfg11.N = (atRefs (W22 m)) c (Pipeline.arrRef spec11 w) :=
  match w with
  | ⟨0, _⟩ => ((dat11 (atRefs (W21 m)) c).arrAt_in 0 rfl _).trans ((A_eq11 (atRefs (W21 m)) c 0).trans (by
      unfold atRefs W22; exact (Function.update_of_ne (StableHlo.devRef_ne_of_ne (by decide)) _ _).symm))
  | ⟨1, _⟩ => ((dat11 (atRefs (W21 m)) c).arrAt_in 1 rfl _).trans ((A_eq11 (atRefs (W21 m)) c 1).trans (by
      unfold atRefs W22; exact (Function.update_of_ne (StableHlo.devRef_ne_of_ne (by decide)) _ _).symm))
  | ⟨2, _⟩ => ((dat11 (atRefs (W21 m)) c).arrAt_in 2 rfl _).trans ((A_eq11 (atRefs (W21 m)) c 2).trans (by
      unfold atRefs W22; exact (Function.update_of_ne (StableHlo.devRef_ne_of_ne (by decide)) _ _).symm))
  | ⟨3, _⟩ => by
      show _ = Function.update (W21 m c) (Proc.devRef .tc main_v116 : DevRef τ sig) (arr11 m c) (Proc.devRef .tc main_v116 : DevRef τ sig)
      rw [Function.update_self]; rfl

set_option maxHeartbeats 8000000 in
/-- Every other buffer is as the region found it. -/
theorem hrest11 (c : Dev nD) : ∀ b, b ∉ Finset.univ.image (Pipeline.arrRef spec11) → (atRefs (W22 m)) c b = (atRefs (W21 m)) c b :=
  fun b hb => by
    unfold atRefs W22
    exact Function.update_of_ne (StableHlo.devRef_ne_of_ne fun e =>
      hb (Finset.mem_image.mpr ⟨(3 : Fin cfg11.W), Finset.mem_univ _, (show Pipeline.arrRef spec11 (3 : Fin cfg11.W) = b from e.symm)⟩)) _ _

set_option maxHeartbeats 8000000 in
set_option backward.isDefEq.respectTransparency.types false in
def reg11 : Pipeline.RegionSeg (pcfgs (F := F)) adm (pdats m) () defs₀ Variants.none Lz lvz 11 where
  win := launch11.win.to₀
  block_pos := launch11.block_pos
  stage_whole := launch11.stage_whole
  K := PEmpty
  osem k := k.elim
  ho := Pipeline.OwnSemFacts.none _
  hbody c := (body_obligation11 (atRefs (W21 m)) c).loose
  hwaits := Pipeline.hwaits_of_owed_zero _ _ _ _ Lz lvz 11 fun _ _ => rfl
  pre c := iprop(StableHlo.held (c : Thread nD τ) (Pipeline.ucRefs τ sig) (W21 m c) ∗ rest c)
  post c := iprop(StableHlo.held (c : Thread nD τ) (Pipeline.ucRefs τ sig) (W22 m c) ∗ rest c)
  X c := iprop(∃ r, prngReg c r)
  Y c := iprop(∃ r, prngReg c r)
  Z c := Pipeline.unscopedRest (Ix := Unit) (Name := ℕ) (U := UR sig nD τ) (Lvl := ℕ) spec11 c ((atRefs (W21 m)) c)
  hentry c := by
    rw [Pipeline.ownSems0_none]
    have hsplit := Pipeline.arrays_of_unscopedBufs (p := 11) (pcfgs (F := F)) adm (pdats m) launch11.win launch11.arr_whole c
      ((pdats m 11 c).share_full fun _ => rfl) ((atRefs (W21 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      ((atRefs (W21 m)) c) ((atRefs (W22 m)) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/- The frame of the whole program: its main function is the twelve kernel regions among stretches of host operations;
   with each region's record at the boundary contents of the chain, every weakly fair execution from any memory with zero
   counters terminates without a fault and leaves every argument array as launched. -/
import proofs.«135915_j24266565222462_2_alg».proof.Proof.KI.Reg0
import proofs.«135915_j24266565222462_2_alg».proof.Proof.KI.Reg1
import proofs.«135915_j24266565222462_2_alg».proof.Proof.KI.Reg2
import proofs.«135915_j24266565222462_2_alg».proof.Proof.KI.Reg3
import proofs.«135915_j24266565222462_2_alg».proof.Proof.KI.Reg4
import proofs.«135915_j24266565222462_2_alg».proof.Proof.KI.Reg5
import proofs.«135915_j24266565222462_2_alg».proof.Proof.KI.Reg6
import proofs.«135915_j24266565222462_2_alg».proof.Proof.KI.Reg7
import proofs.«135915_j24266565222462_2_alg».proof.Proof.KI.Reg8
import proofs.«135915_j24266565222462_2_alg».proof.Proof.KI.Reg9
import proofs.«135915_j24266565222462_2_alg».proof.Proof.KI.Reg10
import proofs.«135915_j24266565222462_2_alg».proof.Proof.KI.Reg11

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rest c)
    (Pipeline.initEach Lz lvz fun c => by
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V8_eq]; exact .rfl) (fun c => by rw [V9_eq]; exact .rfl)
    (reg6 m) (fun c => by rw [V10_eq]; exact .rfl) (fun c => by rw [V11_eq]; exact .rfl)
    (reg7 m) (fun c => by rw [V11_eq]; exact .rfl) (fun c => by rw [V12_eq]; exact .rfl)
    (reg8 m) (fun c => by rw [V12_eq]; exact .rfl) (fun c => by rw [V13_eq]; exact .rfl)
    (reg9 m) (fun c => by rw [V13_eq]; exact .rfl) (fun c => by rw [V14_eq]; exact .rfl)
    (reg10 m) (fun c => by rw [V15_eq]; exact .rfl) (fun c => by rw [V16_eq]; exact .rfl)
    (reg11 m) (fun c => by rw [V21_eq]; exact .rfl) (fun c => by rw [V22_eq]; exact .rfl)

end Cert.KernelIdeal.Hand

end
-- ==== Proof.KI.RunValue.lean ====
/- The program's run with its result read back: every weakly fair execution terminates without a fault, the result array
   ends at what the last boundary's contents hold for it, and every argument array is as launched. -/
import proofs.«135915_j24266565222462_2_alg».proof.Proof.KI.RunCond
import proofs.«135915_j24266565222462_2_alg».proof.Proof.KI.Reg0
import proofs.«135915_j24266565222462_2_alg».proof.Proof.KI.Reg1
import proofs.«135915_j24266565222462_2_alg».proof.Proof.KI.Reg2
import proofs.«135915_j24266565222462_2_alg».proof.Proof.KI.Reg3
import proofs.«135915_j24266565222462_2_alg».proof.Proof.KI.Reg4
import proofs.«135915_j24266565222462_2_alg».proof.Proof.KI.Reg5
import proofs.«135915_j24266565222462_2_alg».proof.Proof.KI.Reg6
import proofs.«135915_j24266565222462_2_alg».proof.Proof.KI.Reg7
import proofs.«135915_j24266565222462_2_alg».proof.Proof.KI.Reg8
import proofs.«135915_j24266565222462_2_alg».proof.Proof.KI.Reg9
import proofs.«135915_j24266565222462_2_alg».proof.Proof.KI.Reg10
import proofs.«135915_j24266565222462_2_alg».proof.Proof.KI.Reg11

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_raw : θ_run defs (onTc (τ := τ) (main (F := F))) ⟨m, fun _ => 0, ρ⟩ (fun r => ∀ c : Dev nD,
      r.2.mem ((c.tc : Thread nD τ).loc main_v124) = V23 m (outs m) c main_v124
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Cert.KernelIdeal.GenP.run_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rest c)
    (Pipeline.initEach Lz lvz fun c => by
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V8_eq]; exact .rfl) (fun c => by rw [V9_eq]; exact .rfl)
    (reg6 m) (fun c => by rw [V10_eq]; exact .rfl) (fun c => by rw [V11_eq]; exact .rfl)
    (reg7 m) (fun c => by rw [V11_eq]; exact .rfl) (fun c => by rw [V12_eq]; exact .rfl)
    (reg8 m) (fun c => by rw [V12_eq]; exact .rfl) (fun c => by rw [V13_eq]; exact .rfl)
    (reg9 m) (fun c => by rw [V13_eq]; exact .rfl) (fun c => by rw [V14_eq]; exact .rfl)
    (reg10 m) (fun c => by rw [V15_eq]; exact .rfl) (fun c => by rw [V16_eq]; exact .rfl)
    (reg11 m) (fun c => by rw [V21_eq]; exact .rfl) (fun c => by rw [V22_eq]; exact .rfl)

/-- The same with the result at the chain's last contents. -/
theorem run_value : θ_run defs (onTc (τ := τ) (main (F := F))) ⟨m, fun _ => 0, ρ⟩ (fun r => ∀ c : Dev nD,
      r.2.mem ((c.tc : Thread nD τ).loc main_v124) = W23 m c main_v124
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨by rw [(h c).1, V23_eq], (h c).2⟩) (run_raw m ρ)

end Cert.KernelIdeal.Hand

end
-- ==== Proof.KI.Carry.lean ====
/- Reading the chain of boundary contents: after a region its output reference holds the array the pipeline wrote back;
   a reference that an item does not write keeps what it held before the item. -/
import proofs.«135915_j24266565222462_2_alg».proof.Proof.KI.Chain

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- After region 0 its output reference holds the pipeline's array. -/
theorem W2_out (c : Dev nD) : W2 m c main_v28 = arr0 m c := by
  unfold W2; exact Function.update_self (Proc.devRef .tc main_v28 : DevRef τ sig) (arr0 m c) (W1 m c)
/-- Region 0 changes no other reference. -/
theorem W2_keep (c : Dev nD) (r : Ref sig .tc) (h : r ∉ ([main_v28] : List (Ref sig .tc))) : W2 m c r = W1 m c r := by
  have e := V2_of m (outs m) c r h
  rwa [V2_eq, V1_eq] at e
/-- After region 1 its output reference holds the pipeline's array. -/
theorem W4_out (c : Dev nD) : W4 m c main_v45 = arr1 m c := by
  unfold W4; exact Function.update_self (Proc.devRef .tc main_v45 : DevRef τ sig) (arr1 m c) (W3 m c)
/-- Region 1 changes no other reference. -/
theorem W4_keep (c : Dev nD) (r : Ref sig .tc) (h : r ∉ ([main_v45] : List (Ref sig .tc))) : W4 m c r = W3 m c r := by
  have e := V4_of m (outs m) c r h
  rwa [V4_eq, V3_eq] at e
/-- After region 2 its output reference holds the pipeline's array. -/
theorem W5_out (c : Dev nD) : W5 m c main_v46 = arr2 m c := by
  unfold W5; exact Function.update_self (Proc.devRef .tc main_v46 : DevRef τ sig) (arr2 m c) (W4 m c)
/-- Region 2 changes no other reference. -/
theorem W5_keep (c : Dev nD) (r : Ref sig .tc) (h : r ∉ ([main_v46] : List (Ref sig .tc))) : W5 m c r = W4 m c r := by
  have e := V5_of m (outs m) c r h
  rwa [V5_eq, V4_eq] at e
/-- After region 3 its output reference holds the pipeline's array. -/
theorem W7_out (c : Dev nD) : W7 m c main_v63 = arr3 m c := by
  unfold W7; exact Function.update_self (Proc.devRef .tc main_v63 : DevRef τ sig) (arr3 m c) (W6 m c)
/-- Region 3 changes no other reference. -/
theorem W7_keep (c : Dev nD) (r : Ref sig .tc) (h : r ∉ ([main_v63] : List (Ref sig .tc))) : W7 m c r = W6 m c r := by
  have e := V7_of m (outs m) c r h
  rwa [V7_eq, V6_eq] at e
/-- After region 4 its output reference holds the pipeline's array. -/
theorem W8_out (c : Dev nD) : W8 m c main_v64 = arr4 m c := by
  unfold W8; exact Function.update_self (Proc.devRef .tc main_v64 : DevRef τ sig) (arr4 m c) (W7 m c)
/-- Region 4 changes no other reference. -/
theorem W8_keep (c : Dev nD) (r : Ref sig .tc) (h : r ∉ ([main_v64] : List (Ref sig .tc))) : W8 m c r = W7 m c r := by
  have e := V8_of m (outs m) c r h
  rwa [V8_eq, V7_eq] at e
/-- After region 5 its output reference holds the pipeline's array. -/
theorem W9_out (c : Dev nD) : W9 m c main_v65 = arr5 m c := by
  unfold W9; exact Function.update_self (Proc.devRef .tc main_v65 : DevRef τ sig) (arr5 m c) (W8 m c)
/-- Region 5 changes no other reference. -/
theorem W9_keep (c : Dev nD) (r : Ref sig .tc) (h : r ∉ ([main_v65] : List (Ref sig .tc))) : W9 m c r = W8 m c r := by
  have e := V9_of m (outs m) c r h
  rwa [V9_eq, V8_eq] at e
/-- After region 6 its output reference holds the pipeline's array. -/
theorem W11_out (c : Dev nD) : W11 m c main_v86 = arr6 m c := by
  unfold W11; exact Function.update_self (Proc.devRef .tc main_v86 : DevRef τ sig) (arr6 m c) (W10 m c)
/-- Region 6 changes no other reference. -/
theorem W11_keep (c : Dev nD) (r : Ref sig .tc) (h : r ∉ ([main_v86] : List (Ref sig .tc))) : W11 m c r = W10 m c r := by
  have e := V11_of m (outs m) c r h
  rwa [V11_eq, V10_eq] at e
/-- After region 7 its output reference holds the pipeline's array. -/
theorem W12_out (c : Dev nD) : W12 m c main_v87 = arr7 m c := by
  unfold W12; exact Function.update_self (Proc.devRef .tc main_v87 : DevRef τ sig) (arr7 m c) (W11 m c)
/-- Region 7 changes no other reference. -/
theorem W12_keep (c : Dev nD) (r : Ref sig .tc) (h : r ∉ ([main_v87] : List (Ref sig .tc))) : W12 m c r = W11 m c r := by
  have e := V12_of m (outs m) c r h
  rwa [V12_eq, V11_eq] at e
/-- After region 8 its output reference holds the pipeline's array. -/
theorem W13_out (c : Dev nD) : W13 m c main_v88 = arr8 m c := by
  unfold W13; exact Function.update_self (Proc.devRef .tc main_v88 : DevRef τ sig) (arr8 m c) (W12 m c)
/-- Region 8 changes no other reference. -/
theorem W13_keep (c : Dev nD) (r : Ref sig .tc) (h : r ∉ ([main_v88] : List (Ref sig .tc))) : W13 m c r = W12 m c r := by
  have e := V13_of m (outs m) c r h
  rwa [V13_eq, V12_eq] at e
/-- After region 9 its output reference holds the pipeline's array. -/
theorem W14_out (c : Dev nD) : W14 m c main_v89 = arr9 m c := by
  unfold W14; exact Function.update_self (Proc.devRef .tc main_v89 : DevRef τ sig) (arr9 m c) (W13 m c)
/-- Region 9 changes no other reference. -/
theorem W14_keep (c : Dev nD) (r : Ref sig .tc) (h : r ∉ ([main_v89] : List (Ref sig .tc))) : W14 m c r = W13 m c r := by
  have e := V14_of m (outs m) c r h
  rwa [V14_eq, V13_eq] at e
/-- After region 10 its output reference holds the pipeline's array. -/
theorem W16_out (c : Dev nD) : W16 m c main_v112 = arr10 m c := by
  unfold W16; exact Function.update_self (Proc.devRef .tc main_v112 : DevRef τ sig) (arr10 m c) (W15 m c)
/-- Region 10 changes no other reference. -/
theorem W16_keep (c : Dev nD) (r : Ref sig .tc) (h : r ∉ ([main_v112] : List (Ref sig .tc))) : W16 m c r = W15 m c r := by
  have e := V16_of m (outs m) c r h
  rwa [V16_eq, V15_eq] at e
/-- After region 11 its output reference holds the pipeline's array. -/
theorem W22_out (c : Dev nD) : W22 m c main_v116 = arr11 m c := by
  unfold W22; exact Function.update_self (Proc.devRef .tc main_v116 : DevRef τ sig) (arr11 m c) (W21 m c)
/-- Region 11 changes no other reference. -/
theorem W22_keep (c : Dev nD) (r : Ref sig .tc) (h : r ∉ ([main_v116] : List (Ref sig .tc))) : W22 m c r = W21 m c r := by
  have e := V22_of m (outs m) c r h
  rwa [V22_eq, V21_eq] at e
/-- The host stretch `hostOps0` writes only its own results. -/
theorem W1_keep (c : Dev nD) (r : Ref sig .tc) (h : r ∉ hostOps0_W) : W1 m c r = W0 m c r := V1_of m c r h
/-- The host stretch `hostOps1` writes only its own results. -/
theorem W3_keep (c : Dev nD) (r : Ref sig .tc) (h : r ∉ hostOps1_W) : W3 m c r = W2 m c r := by
  have e := V3_of m (outs m) c r h
  rwa [V3_eq, V2_eq] at e
/-- The host stretch `hostOps3` writes only its own results. -/
theorem W6_keep (c : Dev nD) (r : Ref sig .tc) (h : r ∉ hostOps3_W) : W6 m c r = W5 m c r := by
  have e := V6_of m (outs m) c r h
  rwa [V6_eq, V5_eq] at e
/-- The host stretch `hostOps6` writes only its own results. -/
theorem W10_keep (c : Dev nD) (r : Ref sig .tc) (h : r ∉ hostOps6_W) : W10 m c r = W9 m c r := by
  have e := V10_of m (outs m) c r h
  rwa [V10_eq, V9_eq] at e
/-- The host stretch `hostOps10` writes only its own results. -/
theorem W15_keep (c : Dev nD) (r : Ref sig .tc) (h : r ∉ hostOps10_W) : W15 m c r = W14 m c r := by
  have e := V15_of m (outs m) c r h
  rwa [V15_eq, V14_eq] at e
/-- The host stretch `hostOps11` writes only its own results. -/
theorem W17_keep (c : Dev nD) (r : Ref sig .tc) (h : r ∉ hostOps11_W) : W17 m c r = W16 m c r := by
  have e := V17_of m (outs m) c r h
  rwa [V17_eq, V16_eq] at e
/-- The host stretch `hostOps11_1` writes only its own results. -/
theorem W18_keep (c : Dev nD) (r : Ref sig .tc) (h : r ∉ hostOps11_1_W) : W18 m c r = W17 m c r := by
  have e := V18_of m (outs m) c r h
  rwa [V18_eq, V17_eq] at e
/-- The host stretch `hostOps11_2` writes only its own results. -/
theorem W19_keep (c : Dev nD) (r : Ref sig .tc) (h : r ∉ hostOps11_2_W) : W19 m c r = W18 m c r := by
  have e := V19_of m (outs m) c r h
  rwa [V19_eq, V18_eq] at e
/-- The host stretch `hostOps11_3` writes only its own results. -/
theorem W20_keep (c : Dev nD) (r : Ref sig .tc) (h : r ∉ hostOps11_3_W) : W20 m c r = W19 m c r := by
  have e := V20_of m (outs m) c r h
  rwa [V20_eq, V19_eq] at e
/-- The host stretch `hostOps11_4` writes only its own results. -/
theorem W21_keep (c : Dev nD) (r : Ref sig .tc) (h : r ∉ hostOps11_4_W) : W21 m c r = W20 m c r := by
  have e := V21_of m (outs m) c r h
  rwa [V21_eq, V20_eq] at e
/-- The host stretch `hostOps12` writes only its own results. -/
theorem W23_keep (c : Dev nD) (r : Ref sig .tc) (h : r ∉ hostOps12_W) : W23 m c r = W22 m c r := by
  have e := V23_of m (outs m) c r h
  rwa [V23_eq, V22_eq] at e

end Cert.KernelIdeal.Hand

end
-- ==== Proof.KI.Carry2.lean ====
/- References carried unchanged across several items of the main function. -/
import proofs.«135915_j24266565222462_2_alg».proof.Proof.KI.Carry

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem carry_main_arg0_0_1 (c : Dev nD) : W1 m c main_arg0 = W0 m c main_arg0 :=
  (W1_keep m c main_arg0 (by decide))
theorem carry_main_arg3_0_1 (c : Dev nD) : W1 m c main_arg3 = W0 m c main_arg3 :=
  (W1_keep m c main_arg3 (by decide))
theorem carry_main_v28_2_3 (c : Dev nD) : W3 m c main_v28 = W2 m c main_v28 :=
  (W3_keep m c main_v28 (by decide))
theorem carry_main_v12_1_3 (c : Dev nD) : W3 m c main_v12 = W1 m c main_v12 :=
  ((W3_keep m c main_v12 (by decide)).trans (W2_keep m c main_v12 (by decide)))
theorem carry_main_arg5_0_4 (c : Dev nD) : W4 m c main_arg5 = W0 m c main_arg5 :=
  ((W4_keep m c main_arg5 (by decide)).trans ((W3_keep m c main_arg5 (by decide)).trans ((W2_keep m c main_arg5 (by decide)).trans (W1_keep m c main_arg5 (by decide)))))
theorem carry_main_v46_5_6 (c : Dev nD) : W6 m c main_v46 = W5 m c main_v46 :=
  (W6_keep m c main_v46 (by decide))
theorem carry_main_v12_1_6 (c : Dev nD) : W6 m c main_v12 = W1 m c main_v12 :=
  ((W6_keep m c main_v12 (by decide)).trans ((W5_keep m c main_v12 (by decide)).trans ((W4_keep m c main_v12 (by decide)).trans ((W3_keep m c main_v12 (by decide)).trans (W2_keep m c main_v12 (by decide))))))
theorem carry_main_v45_4_7 (c : Dev nD) : W7 m c main_v45 = W4 m c main_v45 :=
  ((W7_keep m c main_v45 (by decide)).trans ((W6_keep m c main_v45 (by decide)).trans (W5_keep m c main_v45 (by decide))))
theorem carry_main_arg7_0_7 (c : Dev nD) : W7 m c main_arg7 = W0 m c main_arg7 :=
  ((W7_keep m c main_arg7 (by decide)).trans ((W6_keep m c main_arg7 (by decide)).trans ((W5_keep m c main_arg7 (by decide)).trans ((W4_keep m c main_arg7 (by decide)).trans ((W3_keep m c main_arg7 (by decide)).trans ((W2_keep m c main_arg7 (by decide)).trans (W1_keep m c main_arg7 (by decide))))))))
theorem carry_main_v63_7_8 (c : Dev nD) : W8 m c main_v63 = W7 m c main_v63 :=
  (W8_keep m c main_v63 (by decide))
theorem carry_main_arg7_0_8 (c : Dev nD) : W8 m c main_arg7 = W0 m c main_arg7 :=
  ((W8_keep m c main_arg7 (by decide)).trans ((W7_keep m c main_arg7 (by decide)).trans ((W6_keep m c main_arg7 (by decide)).trans ((W5_keep m c main_arg7 (by decide)).trans ((W4_keep m c main_arg7 (by decide)).trans ((W3_keep m c main_arg7 (by decide)).trans ((W2_keep m c main_arg7 (by decide)).trans (W1_keep m c main_arg7 (by decide)))))))))
theorem carry_main_v64_8_10 (c : Dev nD) : W10 m c main_v64 = W8 m c main_v64 :=
  ((W10_keep m c main_v64 (by decide)).trans (W9_keep m c main_v64 (by decide)))
theorem carry_main_v65_9_10 (c : Dev nD) : W10 m c main_v65 = W9 m c main_v65 :=
  (W10_keep m c main_v65 (by decide))
theorem carry_main_v12_1_10 (c : Dev nD) : W10 m c main_v12 = W1 m c main_v12 :=
  ((W10_keep m c main_v12 (by decide)).trans ((W9_keep m c main_v12 (by decide)).trans ((W8_keep m c main_v12 (by decide)).trans ((W7_keep m c main_v12 (by decide)).trans ((W6_keep m c main_v12 (by decide)).trans ((W5_keep m c main_v12 (by decide)).trans ((W4_keep m c main_v12 (by decide)).trans ((W3_keep m c main_v12 (by decide)).trans (W2_keep m c main_v12 (by decide))))))))))
theorem carry_main_v45_4_11 (c : Dev nD) : W11 m c main_v45 = W4 m c main_v45 :=
  ((W11_keep m c main_v45 (by decide)).trans ((W10_keep m c main_v45 (by decide)).trans ((W9_keep m c main_v45 (by decide)).trans ((W8_keep m c main_v45 (by decide)).trans ((W7_keep m c main_v45 (by decide)).trans ((W6_keep m c main_v45 (by decide)).trans (W5_keep m c main_v45 (by decide))))))))
theorem carry_main_arg9_0_11 (c : Dev nD) : W11 m c main_arg9 = W0 m c main_arg9 :=
  ((W11_keep m c main_arg9 (by decide)).trans ((W10_keep m c main_arg9 (by decide)).trans ((W9_keep m c main_arg9 (by decide)).trans ((W8_keep m c main_arg9 (by decide)).trans ((W7_keep m c main_arg9 (by decide)).trans ((W6_keep m c main_arg9 (by decide)).trans ((W5_keep m c main_arg9 (by decide)).trans ((W4_keep m c main_arg9 (by decide)).trans ((W3_keep m c main_arg9 (by decide)).trans ((W2_keep m c main_arg9 (by decide)).trans (W1_keep m c main_arg9 (by decide))))))))))))
theorem carry_main_v63_7_12 (c : Dev nD) : W12 m c main_v63 = W7 m c main_v63 :=
  ((W12_keep m c main_v63 (by decide)).trans ((W11_keep m c main_v63 (by decide)).trans ((W10_keep m c main_v63 (by decide)).trans ((W9_keep m c main_v63 (by decide)).trans (W8_keep m c main_v63 (by decide))))))
theorem carry_main_arg9_0_12 (c : Dev nD) : W12 m c main_arg9 = W0 m c main_arg9 :=
  ((W12_keep m c main_arg9 (by decide)).trans ((W11_keep m c main_arg9 (by decide)).trans ((W10_keep m c main_arg9 (by decide)).trans ((W9_keep m c main_arg9 (by decide)).trans ((W8_keep m c main_arg9 (by decide)).trans ((W7_keep m c main_arg9 (by decide)).trans ((W6_keep m c main_arg9 (by decide)).trans ((W5_keep m c main_arg9 (by decide)).trans ((W4_keep m c main_arg9 (by decide)).trans ((W3_keep m c main_arg9 (by decide)).trans ((W2_keep m c main_arg9 (by decide)).trans (W1_keep m c main_arg9 (by decide)))))))))))))
theorem carry_main_v86_11_13 (c : Dev nD) : W13 m c main_v86 = W11 m c main_v86 :=
  ((W13_keep m c main_v86 (by decide)).trans (W12_keep m c main_v86 (by decide)))
theorem carry_main_arg9_0_13 (c : Dev nD) : W13 m c main_arg9 = W0 m c main_arg9 :=
  ((W13_keep m c main_arg9 (by decide)).trans ((W12_keep m c main_arg9 (by decide)).trans ((W11_keep m c main_arg9 (by decide)).trans ((W10_keep m c main_arg9 (by decide)).trans ((W9_keep m c main_arg9 (by decide)).trans ((W8_keep m c main_arg9 (by decide)).trans ((W7_keep m c main_arg9 (by decide)).trans ((W6_keep m c main_arg9 (by decide)).trans ((W5_keep m c main_arg9 (by decide)).trans ((W4_keep m c main_arg9 (by decide)).trans ((W3_keep m c main_arg9 (by decide)).trans ((W2_keep m c main_arg9 (by decide)).trans (W1_keep m c main_arg9 (by decide))))))))))))))
theorem carry_main_v87_12_15 (c : Dev nD) : W15 m c main_v87 = W12 m c main_v87 :=
  ((W15_keep m c main_v87 (by decide)).trans ((W14_keep m c main_v87 (by decide)).trans (W13_keep m c main_v87 (by decide))))
theorem carry_main_v88_13_15 (c : Dev nD) : W15 m c main_v88 = W13 m c main_v88 :=
  ((W15_keep m c main_v88 (by decide)).trans (W14_keep m c main_v88 (by decide)))
theorem carry_main_v89_14_15 (c : Dev nD) : W15 m c main_v89 = W14 m c main_v89 :=
  (W15_keep m c main_v89 (by decide))
theorem carry_main_v12_1_15 (c : Dev nD) : W15 m c main_v12 = W1 m c main_v12 :=
  ((W15_keep m c main_v12 (by decide)).trans ((W14_keep m c main_v12 (by decide)).trans ((W13_keep m c main_v12 (by decide)).trans ((W12_keep m c main_v12 (by decide)).trans ((W11_keep m c main_v12 (by decide)).trans ((W10_keep m c main_v12 (by decide)).trans ((W9_keep m c main_v12 (by decide)).trans ((W8_keep m c main_v12 (by decide)).trans ((W7_keep m c main_v12 (by decide)).trans ((W6_keep m c main_v12 (by decide)).trans ((W5_keep m c main_v12 (by decide)).trans ((W4_keep m c main_v12 (by decide)).trans ((W3_keep m c main_v12 (by decide)).trans (W2_keep m c main_v12 (by decide)))))))))))))))
theorem carry_main_v112_16_21 (c : Dev nD) : W21 m c main_v112 = W16 m c main_v112 :=
  ((W21_keep m c main_v112 (by decide)).trans ((W20_keep m c main_v112 (by decide)).trans ((W19_keep m c main_v112 (by decide)).trans ((W18_keep m c main_v112 (by decide)).trans (W17_keep m c main_v112 (by decide))))))
theorem carry_main_v113_18_21 (c : Dev nD) : W21 m c main_v113 = W18 m c main_v113 :=
  ((W21_keep m c main_v113 (by decide)).trans ((W20_keep m c main_v113 (by decide)).trans (W19_keep m c main_v113 (by decide))))
theorem carry_main_v1_1_2 (c : Dev nD) : W2 m c main_v1 = W1 m c main_v1 :=
  (W2_keep m c main_v1 (by decide))
theorem carry_main_v3_1_2 (c : Dev nD) : W2 m c main_v3 = W1 m c main_v3 :=
  (W2_keep m c main_v3 (by decide))
theorem carry_main_v27_1_2 (c : Dev nD) : W2 m c main_v27 = W1 m c main_v27 :=
  (W2_keep m c main_v27 (by decide))
theorem carry_main_arg4_0_2 (c : Dev nD) : W2 m c main_arg4 = W0 m c main_arg4 :=
  ((W2_keep m c main_arg4 (by decide)).trans (W1_keep m c main_arg4 (by decide)))
theorem carry_main_v1_1_5 (c : Dev nD) : W5 m c main_v1 = W1 m c main_v1 :=
  ((W5_keep m c main_v1 (by decide)).trans ((W4_keep m c main_v1 (by decide)).trans ((W3_keep m c main_v1 (by decide)).trans (W2_keep m c main_v1 (by decide)))))
theorem carry_main_v3_1_5 (c : Dev nD) : W5 m c main_v3 = W1 m c main_v3 :=
  ((W5_keep m c main_v3 (by decide)).trans ((W4_keep m c main_v3 (by decide)).trans ((W3_keep m c main_v3 (by decide)).trans (W2_keep m c main_v3 (by decide)))))
theorem carry_main_v27_1_5 (c : Dev nD) : W5 m c main_v27 = W1 m c main_v27 :=
  ((W5_keep m c main_v27 (by decide)).trans ((W4_keep m c main_v27 (by decide)).trans ((W3_keep m c main_v27 (by decide)).trans (W2_keep m c main_v27 (by decide)))))
theorem carry_main_arg6_0_5 (c : Dev nD) : W5 m c main_arg6 = W0 m c main_arg6 :=
  ((W5_keep m c main_arg6 (by decide)).trans ((W4_keep m c main_arg6 (by decide)).trans ((W3_keep m c main_arg6 (by decide)).trans ((W2_keep m c main_arg6 (by decide)).trans (W1_keep m c main_arg6 (by decide))))))
theorem carry_main_v64_8_9 (c : Dev nD) : W9 m c main_v64 = W8 m c main_v64 :=
  (W9_keep m c main_v64 (by decide))
theorem carry_main_v1_1_9 (c : Dev nD) : W9 m c main_v1 = W1 m c main_v1 :=
  ((W9_keep m c main_v1 (by decide)).trans ((W8_keep m c main_v1 (by decide)).trans ((W7_keep m c main_v1 (by decide)).trans ((W6_keep m c main_v1 (by decide)).trans ((W5_keep m c main_v1 (by decide)).trans ((W4_keep m c main_v1 (by decide)).trans ((W3_keep m c main_v1 (by decide)).trans (W2_keep m c main_v1 (by decide)))))))))
theorem carry_main_v3_1_9 (c : Dev nD) : W9 m c main_v3 = W1 m c main_v3 :=
  ((W9_keep m c main_v3 (by decide)).trans ((W8_keep m c main_v3 (by decide)).trans ((W7_keep m c main_v3 (by decide)).trans ((W6_keep m c main_v3 (by decide)).trans ((W5_keep m c main_v3 (by decide)).trans ((W4_keep m c main_v3 (by decide)).trans ((W3_keep m c main_v3 (by decide)).trans (W2_keep m c main_v3 (by decide)))))))))
theorem carry_main_v27_1_9 (c : Dev nD) : W9 m c main_v27 = W1 m c main_v27 :=
  ((W9_keep m c main_v27 (by decide)).trans ((W8_keep m c main_v27 (by decide)).trans ((W7_keep m c main_v27 (by decide)).trans ((W6_keep m c main_v27 (by decide)).trans ((W5_keep m c main_v27 (by decide)).trans ((W4_keep m c main_v27 (by decide)).trans ((W3_keep m c main_v27 (by decide)).trans (W2_keep m c main_v27 (by decide)))))))))
theorem carry_main_arg8_0_9 (c : Dev nD) : W9 m c main_arg8 = W0 m c main_arg8 :=
  ((W9_keep m c main_arg8 (by decide)).trans ((W8_keep m c main_arg8 (by decide)).trans ((W7_keep m c main_arg8 (by decide)).trans ((W6_keep m c main_arg8 (by decide)).trans ((W5_keep m c main_arg8 (by decide)).trans ((W4_keep m c main_arg8 (by decide)).trans ((W3_keep m c main_arg8 (by decide)).trans ((W2_keep m c main_arg8 (by decide)).trans (W1_keep m c main_arg8 (by decide))))))))))
theorem carry_main_v87_12_14 (c : Dev nD) : W14 m c main_v87 = W12 m c main_v87 :=
  ((W14_keep m c main_v87 (by decide)).trans (W13_keep m c main_v87 (by decide)))
theorem carry_main_v88_13_14 (c : Dev nD) : W14 m c main_v88 = W13 m c main_v88 :=
  (W14_keep m c main_v88 (by decide))
theorem carry_main_v1_1_14 (c : Dev nD) : W14 m c main_v1 = W1 m c main_v1 :=
  ((W14_keep m c main_v1 (by decide)).trans ((W13_keep m c main_v1 (by decide)).trans ((W12_keep m c main_v1 (by decide)).trans ((W11_keep m c main_v1 (by decide)).trans ((W10_keep m c main_v1 (by decide)).trans ((W9_keep m c main_v1 (by decide)).trans ((W8_keep m c main_v1 (by decide)).trans ((W7_keep m c main_v1 (by decide)).trans ((W6_keep m c main_v1 (by decide)).trans ((W5_keep m c main_v1 (by decide)).trans ((W4_keep m c main_v1 (by decide)).trans ((W3_keep m c main_v1 (by decide)).trans (W2_keep m c main_v1 (by decide))))))))))))))
theorem carry_main_v3_1_14 (c : Dev nD) : W14 m c main_v3 = W1 m c main_v3 :=
  ((W14_keep m c main_v3 (by decide)).trans ((W13_keep m c main_v3 (by decide)).trans ((W12_keep m c main_v3 (by decide)).trans ((W11_keep m c main_v3 (by decide)).trans ((W10_keep m c main_v3 (by decide)).trans ((W9_keep m c main_v3 (by decide)).trans ((W8_keep m c main_v3 (by decide)).trans ((W7_keep m c main_v3 (by decide)).trans ((W6_keep m c main_v3 (by decide)).trans ((W5_keep m c main_v3 (by decide)).trans ((W4_keep m c main_v3 (by decide)).trans ((W3_keep m c main_v3 (by decide)).trans (W2_keep m c main_v3 (by decide))))))))))))))
theorem carry_main_v27_1_14 (c : Dev nD) : W14 m c main_v27 = W1 m c main_v27 :=
  ((W14_keep m c main_v27 (by decide)).trans ((W13_keep m c main_v27 (by decide)).trans ((W12_keep m c main_v27 (by decide)).trans ((W11_keep m c main_v27 (by decide)).trans ((W10_keep m c main_v27 (by decide)).trans ((W9_keep m c main_v27 (by decide)).trans ((W8_keep m c main_v27 (by decide)).trans ((W7_keep m c main_v27 (by decide)).trans ((W6_keep m c main_v27 (by decide)).trans ((W5_keep m c main_v27 (by decide)).trans ((W4_keep m c main_v27 (by decide)).trans ((W3_keep m c main_v27 (by decide)).trans (W2_keep m c main_v27 (by decide))))))))))))))
theorem carry_main_arg10_0_14 (c : Dev nD) : W14 m c main_arg10 = W0 m c main_arg10 :=
  ((W14_keep m c main_arg10 (by decide)).trans ((W13_keep m c main_arg10 (by decide)).trans ((W12_keep m c main_arg10 (by decide)).trans ((W11_keep m c main_arg10 (by decide)).trans ((W10_keep m c main_arg10 (by decide)).trans ((W9_keep m c main_arg10 (by decide)).trans ((W8_keep m c main_arg10 (by decide)).trans ((W7_keep m c main_arg10 (by decide)).trans ((W6_keep m c main_arg10 (by decide)).trans ((W5_keep m c main_arg10 (by decide)).trans ((W4_keep m c main_arg10 (by decide)).trans ((W3_keep m c main_arg10 (by decide)).trans ((W2_keep m c main_arg10 (by decide)).trans (W1_keep m c main_arg10 (by decide)))))))))))))))
theorem carry_main_arg11_0_17 (c : Dev nD) : W17 m c main_arg11 = W0 m c main_arg11 :=
  ((W17_keep m c main_arg11 (by decide)).trans ((W16_keep m c main_arg11 (by decide)).trans ((W15_keep m c main_arg11 (by decide)).trans ((W14_keep m c main_arg11 (by decide)).trans ((W13_keep m c main_arg11 (by decide)).trans ((W12_keep m c main_arg11 (by decide)).trans ((W11_keep m c main_arg11 (by decide)).trans ((W10_keep m c main_arg11 (by decide)).trans ((W9_keep m c main_arg11 (by decide)).trans ((W8_keep m c main_arg11 (by decide)).trans ((W7_keep m c main_arg11 (by decide)).trans ((W6_keep m c main_arg11 (by decide)).trans ((W5_keep m c main_arg11 (by decide)).trans ((W4_keep m c main_arg11 (by decide)).trans ((W3_keep m c main_arg11 (by decide)).trans ((W2_keep m c main_arg11 (by decide)).trans (W1_keep m c main_arg11 (by decide))))))))))))))))))
theorem carry_main_arg12_0_19 (c : Dev nD) : W19 m c main_arg12 = W0 m c main_arg12 :=
  ((W19_keep m c main_arg12 (by decide)).trans ((W18_keep m c main_arg12 (by decide)).trans ((W17_keep m c main_arg12 (by decide)).trans ((W16_keep m c main_arg12 (by decide)).trans ((W15_keep m c main_arg12 (by decide)).trans ((W14_keep m c main_arg12 (by decide)).trans ((W13_keep m c main_arg12 (by decide)).trans ((W12_keep m c main_arg12 (by decide)).trans ((W11_keep m c main_arg12 (by decide)).trans ((W10_keep m c main_arg12 (by decide)).trans ((W9_keep m c main_arg12 (by decide)).trans ((W8_keep m c main_arg12 (by decide)).trans ((W7_keep m c main_arg12 (by decide)).trans ((W6_keep m c main_arg12 (by decide)).trans ((W5_keep m c main_arg12 (by decide)).trans ((W4_keep m c main_arg12 (by decide)).trans ((W3_keep m c main_arg12 (by decide)).trans ((W2_keep m c main_arg12 (by decide)).trans (W1_keep m c main_arg12 (by decide))))))))))))))))))))
theorem carry_main_arg2_0_22 (c : Dev nD) : W22 m c main_arg2 = W0 m c main_arg2 :=
  ((W22_keep m c main_arg2 (by decide)).trans ((W21_keep m c main_arg2 (by decide)).trans ((W20_keep m c main_arg2 (by decide)).trans ((W19_keep m c main_arg2 (by decide)).trans ((W18_keep m c main_arg2 (by decide)).trans ((W17_keep m c main_arg2 (by decide)).trans ((W16_keep m c main_arg2 (by decide)).trans ((W15_keep m c main_arg2 (by decide)).trans ((W14_keep m c main_arg2 (by decide)).trans ((W13_keep m c main_arg2 (by decide)).trans ((W12_keep m c main_arg2 (by decide)).trans ((W11_keep m c main_arg2 (by decide)).trans ((W10_keep m c main_arg2 (by decide)).trans ((W9_keep m c main_arg2 (by decide)).trans ((W8_keep m c main_arg2 (by decide)).trans ((W7_keep m c main_arg2 (by decide)).trans ((W6_keep m c main_arg2 (by decide)).trans ((W5_keep m c main_arg2 (by decide)).trans ((W4_keep m c main_arg2 (by decide)).trans ((W3_keep m c main_arg2 (by decide)).trans ((W2_keep m c main_arg2 (by decide)).trans (W1_keep m c main_arg2 (by decide)))))))))))))))))))))))

end Cert.KernelIdeal.Hand

end
-- ==== Proof.V.RefStages.lean ====
/-
  The reference program, stage by stage.

  The reference is a four-cell graph convolution followed by a log-softmax, a dense head and a row gather. With
  `deg = 1 + (number of edges that END at a node)`, `dinv = 1/√deg` and, per edge, `norm = dinv[src] * dinv[dst]`,
  one graph-convolution term of a node matrix `h` and a bias `b` is

      gcnTerm h b  =  (scatter-add over edges of h[src] * norm, into row dst)  +  h * dinv²  +  b ,

  and the program is

      cell0 = gcnTerm (x · W0) b0
      cell1 = gcnTerm (relu cell0 · W1) b1
      cell2 = gcnTerm (relu cell0 · W2) b2 + gcnTerm (relu cell1 · W2) b2
      cell3 = (gcnTerm (relu cell0 · W3) b3 + gcnTerm (relu cell1 · W3) b3) + gcnTerm (relu cell2 · W3) b3
      result = rows `labels` of  (logSoftmax cell3 · Wh + bh).

  Every definition below is spelt with the reference's own operators, applied exactly as the reference applies them, at
  the ideal instance (a float is an extended real); nothing here is proved, the definitions only give the stages names.
-/
import proofs.«135915_j24266565222462_2_alg».proof.Proof.Gen.ReferenceIdeal
import Idealize.ShloMosaic.PureOps.Ideal

noncomputable section

namespace Cert.RefStages

open Cert.ReferenceIdeal Cert.ReferenceIdeal.Gen Idealize.ShloMosaic

/-! ## The edge list -/

/-- Row 0 of the edge list: where each edge starts. -/
def src (ei : IVec S2x600000 32) : IVec S600000 32 :=
  shapeCast _ (extractStridedSlice S1x600000 ![0, 0] ei slices_S2x600000_S1x600000_0_0) shapeCasts_S1x600000_S600000

/-- Row 1 of the edge list: where each edge ends. -/
def dst (ei : IVec S2x600000 32) : IVec S600000 32 :=
  shapeCast _ (extractStridedSlice S1x600000 ![1, 0] ei slices_S2x600000_S1x600000_1_0) shapeCasts_S1x600000_S600000

/-- A vector of edge ends as a column of start indices. -/
def col (r : IVec S600000 32) : IVec S600000x1 32 :=
  broadcastInDim S600000x1 ![0] bcast_S600000_S600000x1_0 r

/-- An index into an axis of 50000 entries, a negative one counted from the end: `r + 50000` where `r < 0`, else `r`. -/
def wrap (r : IVec S600000 32) : IVec S600000 32 :=
  select (cmpi .slt r (broadcastInDim S600000 ![] bcast_S_S600000 (constantI S_ 32 0#32)))
    (addi r (broadcastInDim S600000 ![] bcast_S_S600000 (constantI S_ 32 50000#32))) r

/-! ## Degrees and the edge weights -/

/-- One plus the number of edges that end at the node (a scatter-add of ones by `dst` into zeros). -/
def deg (ei : IVec S2x600000 32) : FVec Ideal S50000 .f32 :=
  addf (broadcastInDim S50000 ![] bcast_S_S50000 (constant (F := Ideal) S_ .f32 0x3F800000#32))
    (Host.scatterAdd scatter_S50000_S600000x1_S600000_n_0_0_1
      (broadcastInDim S50000 ![] bcast_S_S50000 (constant (F := Ideal) S_ .f32 0x00000000#32))
      (col (dst ei))
      (broadcastInDim S600000 ![] bcast_S_S600000 (constant (F := Ideal) S_ .f32 0x3F800000#32)))

/-- The inverse square root of the degree. -/
def dinv (ei : IVec S2x600000 32) : FVec Ideal S50000 .f32 :=
  Host.rsqrt (deg ei)

/-- A node vector read at the (wrapped) ends `r` of the edges. -/
def atEdges (d : FVec Ideal S50000 .f32) (r : IVec S600000 32) : FVec Ideal S600000 .f32 :=
  Host.gather gather_S50000_S600000x1_S600000_n_0_n_n_0_1_1 d (col (wrap r))

/-- The weight of an edge: `dinv` at its start times `dinv` at its end. -/
def norm (ei : IVec S2x600000 32) : FVec Ideal S600000 .f32 :=
  mulf (atEdges (dinv ei) (src ei)) (atEdges (dinv ei) (dst ei))

/-- The edge weights repeated along the 128 features. -/
def normWide (ei : IVec S2x600000 32) : FVec Ideal S600000x128 .f32 :=
  broadcastInDim S600000x128 ![0, 1] bcast_S600000x1_S600000x128_0_1
    (broadcastInDim S600000x1 ![0] bcast_S600000_S600000x1_0 (norm ei))

/-- `dinv²` repeated along the 128 features: the weight of a node's own row. -/
def selfWide (ei : IVec S2x600000 32) : FVec Ideal S50000x128 .f32 :=
  broadcastInDim S50000x128 ![0, 1] bcast_S50000x1_S50000x128_0_1
    (broadcastInDim S50000x1 ![0] bcast_S50000_S50000x1_0 (mulf (dinv ei) (dinv ei)))

/-! ## One graph-convolution term -/

/-- The rows of `h` at the edges' starts, weighted, summed into the rows at the edges' ends. -/
def agg (h : FVec Ideal S50000x128 .f32) (ei : IVec S2x600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (col (dst ei))
    (mulf (Host.gather gather_S50000x128_S600000x1_S600000x128_1_0_n_n_0_1_1128 h (col (wrap (src ei)))) (normWide ei))

/-- A bias repeated along the 50000 nodes. -/
def biasWide (b : FVec Ideal S128 .f32) : FVec Ideal S50000x128 .f32 :=
  broadcastInDim S50000x128 ![0, 1] bcast_S1x128_S50000x128_0_1 (broadcastInDim S1x128 ![1] bcast_S128_S1x128_1 b)

/-- One graph-convolution term of the node matrix `h` with bias `b`. -/
def gcnTerm (h : FVec Ideal S50000x128 .f32) (ei : IVec S2x600000 32) (b : FVec Ideal S128 .f32) :
    FVec Ideal S50000x128 .f32 :=
  addf (addf (agg h ei) (mulf h (selfWide ei))) (biasWide b)

/-- The positive part. -/
def relu (x : FVec Ideal S50000x128 .f32) : FVec Ideal S50000x128 .f32 :=
  maximumf x (broadcastInDim S50000x128 ![] bcast_S_S50000x128 (constant (F := Ideal) S_ .f32 0x00000000#32))

/-- A node matrix times a 128 × 128 weight matrix. -/
def lin (x : FVec Ideal S50000x128 .f32) (W : FVec Ideal S128x128 .f32) : FVec Ideal S50000x128 .f32 :=
  Host.dotGeneral dot_S50000x128_S128x128_S50000x128_1_0_0_1_n_n none x W

/-! ## The seven products and terms, and the four cells -/

section
variable (x : FVec Ideal S50000x128 .f32) (ei : IVec S2x600000 32)
  (W0 : FVec Ideal S128x128 .f32) (b0 : FVec Ideal S128 .f32) (W1 : FVec Ideal S128x128 .f32) (b1 : FVec Ideal S128 .f32)
  (W2 : FVec Ideal S128x128 .f32) (b2 : FVec Ideal S128 .f32) (W3 : FVec Ideal S128x128 .f32) (b3 : FVec Ideal S128 .f32)

def h0 : FVec Ideal S50000x128 .f32 := lin x W0
def cell0 : FVec Ideal S50000x128 .f32 := gcnTerm (h0 x W0) ei b0

def h1 : FVec Ideal S50000x128 .f32 := lin (relu (cell0 x ei W0 b0)) W1
def cell1 : FVec Ideal S50000x128 .f32 := gcnTerm (h1 x ei W0 b0 W1) ei b1

def h20 : FVec Ideal S50000x128 .f32 := lin (relu (cell0 x ei W0 b0)) W2
def h21 : FVec Ideal S50000x128 .f32 := lin (relu (cell1 x ei W0 b0 W1 b1)) W2
def cell2 : FVec Ideal S50000x128 .f32 :=
  addf (gcnTerm (h20 x ei W0 b0 W2) ei b2) (gcnTerm (h21 x ei W0 b0 W1 b1 W2) ei b2)

def h30 : FVec Ideal S50000x128 .f32 := lin (relu (cell0 x ei W0 b0)) W3
def h31 : FVec Ideal S50000x128 .f32 := lin (relu (cell1 x ei W0 b0 W1 b1)) W3
def h32 : FVec Ideal S50000x128 .f32 := lin (relu (cell2 x ei W0 b0 W1 b1 W2 b2)) W3
def cell3 : FVec Ideal S50000x128 .f32 :=
  addf (addf (gcnTerm (h30 x ei W0 b0 W3) ei b3) (gcnTerm (h31 x ei W0 b0 W1 b1 W3) ei b3))
    (gcnTerm (h32 x ei W0 b0 W1 b1 W2 b2 W3) ei b3)
end

/-! ## The log-softmax, the head and the rows asked for -/

/-- A node vector repeated along the 128 features. -/
def rowWide (v : FVec Ideal S50000 .f32) : FVec Ideal S50000x128 .f32 :=
  broadcastInDim S50000x128 ![0, 1] bcast_S50000x1_S50000x128_0_1 (broadcastInDim S50000x1 ![0] bcast_S50000_S50000x1_0 v)

/-- Each entry less its row's maximum. -/
def shifted (c : FVec Ideal S50000x128 .f32) : FVec Ideal S50000x128 .f32 :=
  subf c (rowWide
    (maximumf (broadcastInDim S50000 ![] bcast_S_S50000 (constant (F := Ideal) S_ .f32 0xFF800000#32))
      (Host.reduce FloatOps.maximumf c (constant (F := Ideal) S_ .f32 0xFF800000#32) reducesTo_S50000x128_S50000_d1 h_S_)))

/-- The row-wise log-softmax: the shifted entry less the logarithm of the row's sum of exponentials of shifted entries. -/
def logSoftmax (c : FVec Ideal S50000x128 .f32) : FVec Ideal S50000x128 .f32 :=
  subf (shifted c)
    (broadcastInDim S50000x128 ![0, 1] bcast_S50000x1_S50000x128_0_1
      (Host.log (broadcastInDim S50000x1 ![0] bcast_S50000_S50000x1_0
        (Host.reduceAdd (Host.exp (shifted c)) (constant (F := Ideal) S_ .f32 0x00000000#32) reducesTo_S50000x128_S50000_d1 h_S_))))

/-- The dense head: a node matrix times `Wh` plus `bh`. -/
def head (f : FVec Ideal S50000x128 .f32) (Wh : FVec Ideal S128x40 .f32) (bh : FVec Ideal S40 .f32) : FVec Ideal S50000x40 .f32 :=
  addf (Host.dotGeneral dot_S50000x128_S128x40_S50000x40_1_0_0_1_n_n none f Wh)
    (broadcastInDim S50000x40 ![0, 1] bcast_S1x40_S50000x40_0_1 (broadcastInDim S1x40 ![1] bcast_S40_S1x40_1 bh))

/-- The rows of a node matrix at the (wrapped) labels. -/
def rowGather (p : FVec Ideal S50000x40 .f32) (lab : IVec S25000 32) : FVec Ideal S25000x40 .f32 :=
  Host.gather gather_S50000x40_S25000x1_S25000x40_1_0_n_n_0_1_140 p
    (broadcastInDim S25000x1 ![0] bcast_S25000_S25000x1_0
      (select (cmpi .slt lab (broadcastInDim S25000 ![] bcast_S_S25000 (constantI S_ 32 0#32)))
        (addi lab (broadcastInDim S25000 ![] bcast_S_S25000 (constantI S_ 32 50000#32))) lab))

/-- The reference's result as a function of its thirteen arguments, in the order the program takes them. -/
def result (x : FVec Ideal S50000x128 .f32) (ei : IVec S2x600000 32) (lab : IVec S25000 32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (Wh : FVec Ideal S128x40 .f32) (bh : FVec Ideal S40 .f32) : FVec Ideal S25000x40 .f32 :=
  rowGather (head (logSoftmax (cell3 x ei W0 b0 W1 b1 W2 b2 W3 b3)) Wh bh) lab

end Cert.RefStages

end
-- ==== Proof.KI.Host0.lean ====
/- What the first stretch of host operations leaves, at the ideal instance: the two rows of the edge list, the
   symmetric edge weights dinv[src] * dinv[dst] with dinv = rsqrt (1 + in-degree), and the column of squared inverse root
   degrees — the reference's own stages, the two programs spelling these operations alike. -/
import proofs.«135915_j24266565222462_2_alg».proof.Proof.KI.Chain
import proofs.«135915_j24266565222462_2_alg».proof.Proof.V.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The edge list as launched on core `c`. -/
abbrev edges (c : Dev nD) := m ((c.tc : Thread nD τ).loc main_arg1)

/-- The column of squared inverse root degrees, as the combine kernels' third operand holds it. -/
def dsqCol (ei : IVec S2x600000 32) : FVec Ideal S50000x1 .f32 :=
  shapeCast S50000x1 (mulf (Cert.RefStages.dinv ei) (Cert.RefStages.dinv ei)) shapeCasts_S50000_S50000x1

set_option maxHeartbeats 8000000 in
theorem W1_src (c : Dev nD) : W1 m c main_v1 = Cert.RefStages.src (edges m c) := by
  show StableHlo.after hostOps0 (fun b => m (c, b)) (Proc.devRef .tc main_v1) = _
  after_results_simp
  rfl
set_option maxHeartbeats 8000000 in
theorem W1_dst (c : Dev nD) : W1 m c main_v3 = Cert.RefStages.dst (edges m c) := by
  show StableHlo.after hostOps0 (fun b => m (c, b)) (Proc.devRef .tc main_v3) = _
  after_results_simp
  rfl
set_option maxHeartbeats 8000000 in
theorem W1_norm (c : Dev nD) : W1 m c main_v27 = Cert.RefStages.norm (edges m c) := by
  show StableHlo.after hostOps0 (fun b => m (c, b)) (Proc.devRef .tc main_v27) = _
  after_results_simp
  rfl
set_option maxHeartbeats 8000000 in
theorem W1_dsq (c : Dev nD) : W1 m c main_v12 = dsqCol (edges m c) := by
  show StableHlo.after hostOps0 (fun b => m (c, b)) (Proc.devRef .tc main_v12) = _
  after_results_simp
  rfl

end Cert.KernelIdeal.Hand

end
-- ==== Proof.KI.Val0.lean ====
/- Region 0's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf0 (i : S50000x128.Idx) : Fin cfg0.N :=
  ⟨(i 0).val / 2000, by have h : (i 0).val < 50000 := (i 0).isLt; show (i 0).val / 2000 < 25; omega⟩
/-- The index inside that block. -/
def locOf0 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 0's output array as one function of the arrays the region finds. -/
def G0 (c : Dev nD) : Vec F S50000x128 .f32 := fun i => out0_2 (iblk0 V c 0 (ptOf0 i)) (iblk0 V c 1 (ptOf0 i)) (locOf0 i)

theorem G0_at (c : Dev nD) (t : Fin cfg0.N) (y : S2000x128.Idx) (i : S50000x128.Idx) (h1 : ptOf0 i = t) (h2 : locOf0 i = y) :
    G0 V c i = out0_2 (iblk0 V c 0 t) (iblk0 V c 1 t) y := by
  unfold G0; rw [h1, h2]

/-- The output window's block index at grid point t is (t, 0). -/
theorem idx_facts0 : ∀ t : Fin cfg0.N, win0_2.index t (0 : Fin 2) = t.val ∧ win0_2.index t (1 : Fin 2) = 0 :=
  (by decide +kernel : ∀ t : Fin grid0.N, _)

set_option maxHeartbeats 4000000 in
/-- What grid point t writes back is block t of `G0`. -/
theorem flushed0_eq (c : Dev nD) (t : Fin cfg0.N) :
    (dat0 V c).flushed 2 t = ((cfg0.win 2).blk t).view.read (Elt F) (G0 V c) := by
  show (cfg0.win 2).cut (grid0.coords t) ((dat0 V c).after 2 t) = _
  rw [after0_2]
  funext y
  rw [View.read_apply]
  obtain ⟨e0, e1⟩ := idx_facts0 t
  have hy0 : (y 0).val < 2000 := (y 0).isLt
  have hp : ptOf0 (((cfg0.win 2).blk t).view.emb y) = t := Fin.ext (by
    show (win0_2.index t (0 : Fin 2) * 2000 + 1 * (y 0).val) / 2000 = t.val
    rw [e0]; omega)
  have hl : locOf0 (((cfg0.win 2).blk t).view.emb y) = y := funext fun a => Fin.ext (by
    match a with
    | ⟨0, _⟩ => show (win0_2.index t (0 : Fin 2) * 2000 + 1 * (y 0).val) % 2000 = (y 0).val; rw [e0]; omega
    | ⟨1, _⟩ => show win0_2.index t (1 : Fin 2) * 128 + 1 * (y 1).val = (y 1).val; rw [e1]; omega)
  exact (G0_at V c t y _ hp hl).symm

/-- An index of the array is in grid point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- Every index is in the block of the grid point of its row's quotient, which writes its block back. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨ptOf0 i, flush0_2 _, ?_⟩
  rw [mem_blk0]
  obtain ⟨e0, e1⟩ := idx_facts0 (ptOf0 i)
  intro a
  match a with
  | ⟨0, _⟩ => show win0_2.index (ptOf0 i) (0 : Fin 2) * 2000 ≤ (i 0).val ∧ (i 0).val < win0_2.index (ptOf0 i) (0 : Fin 2) * 2000 + 2000; rw [e0]; show (i 0).val / 2000 * 2000 ≤ _ ∧ _ < (i 0).val / 2000 * 2000 + 2000; omega
  | ⟨1, _⟩ => show win0_2.index (ptOf0 i) (1 : Fin 2) * 128 ≤ (i 1).val ∧ (i 1).val < win0_2.index (ptOf0 i) (1 : Fin 2) * 128 + 128; rw [e1]; omega

/-- The output array after the region's whole grid. -/
theorem final0 (c : Dev nD) : (dat0 V c).arrAt 2 cfg0.N = G0 V c :=
  (dat0 V c).arrAt_eq_of_cover 2 (G0 V c) (fun t _ => flushed0_eq V c t) cover0

end Cert.KernelIdeal.Hand

end
-- ==== Proof.V.PayDot.lean ====
/-
  The product of a [2000, 128] block with a [128, 128] block into the zero accumulator, read at an index.

  The dimension numbers contract the left operand's second axis with the right operand's first; the contraction
  index is its one coordinate `k`; the left operand is read at `(r, k)` and the right one at `(k, j)`. At the
  exact values the product at `(r, j)` is therefore the sum over `k` of the products of those entries.
-/
import proofs.«135915_j24266565222462_2_alg».proof.KernelIdeal
import Idealize.ShloMosaic.Lib.ValueIdx
import Idealize.ShloMosaic.PureOps.Ideal.Laws

noncomputable section

namespace Cert.KernelIdeal.Pay

open Cert.KernelIdeal Idealize.ShloMosaic Idealize.ShloMosaic.ValueIdx

variable [Facts₀]

/-- The left operand's row is the output's row. -/
theorem dot_lhs_0 (i : S2000x128.Idx) (q : dot_S2000x128_S128x128_S2000x128_1_0_0_1_n_n.contr.Idx) :
    (dot_S2000x128_S128x128_S2000x128_1_0_0_1_n_n.lhsIdx i q 0).val = (i 0).val := by
  have hb : ¬(0 : Fin S2000x128.rank) ∈ dot_S2000x128_S128x128_S2000x128_1_0_0_1_n_n.lhsBatch := List.not_mem_nil
  have hn : (0 : Fin S2000x128.rank) ∈ dot_S2000x128_S128x128_S2000x128_1_0_0_1_n_n.lhsNonContracting :=
    List.mem_singleton.mpr rfl
  unfold DotDims.lhsIdx
  rw [dif_neg hb, dif_pos hn]
  rfl
/-- The right operand's column is the output's column. -/
theorem dot_rhs_1 (i : S2000x128.Idx) (q : dot_S2000x128_S128x128_S2000x128_1_0_0_1_n_n.contr.Idx) :
    (dot_S2000x128_S128x128_S2000x128_1_0_0_1_n_n.rhsIdx i q 1).val = (i 1).val := by
  have hb : ¬(1 : Fin S128x128.rank) ∈ dot_S2000x128_S128x128_S2000x128_1_0_0_1_n_n.rhsBatch := List.not_mem_nil
  have hn : (1 : Fin S128x128.rank) ∈ dot_S2000x128_S128x128_S2000x128_1_0_0_1_n_n.rhsNonContracting :=
    List.mem_singleton.mpr rfl
  unfold DotDims.rhsIdx
  rw [dif_neg hb, dif_pos hn]
  rfl

/-- The product of two blocks into the zero accumulator, read at `(r, j)`: the sum over the contracted
    coordinate. -/
theorem matmul_zero_apply {φ₁ φ₂ : FTy} (L : FVec Ideal S2000x128 φ₁) (R : FVec Ideal S128x128 φ₂) (r : Fin 2000) (j : Fin 128) :
    matmul dot_S2000x128_S128x128_S2000x128_1_0_0_1_n_n none L R (constant (F := Ideal) S2000x128 .f32 0x00000000#32) (ix2 r j)
      = ∑ k : Fin 128, L (ix2 r k) * R (ix2 k j) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j)
      ((contrEquiv1 dot_S2000x128_S128x128_S2000x128_1_0_0_1_n_n 128 rfl rfl).symm k) = ix2 r k :=
    funext fun a => Fin.ext (by
      match a with
      | ⟨0, _⟩ => exact dot_lhs_0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 r j)
      ((contrEquiv1 dot_S2000x128_S128x128_S2000x128_1_0_0_1_n_n 128 rfl rfl).symm k) = ix2 k j :=
    funext fun a => Fin.ext (by
      match a with
      | ⟨0, _⟩ => exact (dot_S2000x128_S128x128_S2000x128_1_0_0_1_n_n.rhsIdx_val_of_single rfl _ _).trans hk
      | ⟨1, _⟩ => exact dot_rhs_1 _ _)
  rw [el, er]

end Cert.KernelIdeal.Pay

end
-- ==== Proof.V.PayMatmul.lean ====
/-
  The matrix-product bodies read at an index.

  At the exact values a narrowing format change is the identity, the accumulator is the zero array, and the
  product of a [2000, 128] block with a [128, 128] block, read at row `r` and column `j`, is the sum over the
  contracted coordinate `k` of the left block at `(r, k)` times the right block at `(k, j)`. The bodies that
  first clamp the left block below at zero read the same sum with `max (x (r, k)) 0` in place of `x (r, k)`.
-/
import proofs.«135915_j24266565222462_2_alg».proof.Proof.Gen.KernelIdeal.Skeleton
import proofs.«135915_j24266565222462_2_alg».proof.Proof.V.PayDot
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx

/-- The plain product body at `(r, j)`. -/
theorem k0_pay1_apply (v0 : Vec Ideal S2000x128 .f32) (v2 : Vec Ideal S128x128 .f32) (r : Fin 2000) (j : Fin 128) :
    k0_pay1 (F := Ideal) v0 v2 (ix2 r j) = ∑ k : Fin 128, v0 (ix2 r k) * v2 (ix2 k j) := by
  unfold k0_pay1
  exact matmul_zero_apply _ _ r j

/-- The product body that first clamps the left block below at zero, at `(r, j)`. -/
theorem k2_pay1_apply (v0 : Vec Ideal S2000x128 .f32) (v5 : Vec Ideal S128x128 .f32) (r : Fin 2000) (j : Fin 128) :
    k2_pay1 (F := Ideal) v0 v5 (ix2 r j) = ∑ k : Fin 128, max (v0 (ix2 r k)) 0 * v5 (ix2 k j) := by
  unfold k2_pay1
  refine (matmul_zero_apply _ _ r j).trans (Finset.sum_congr rfl fun k _ => ?_)
  rw [truncf_apply, truncf_apply, maximumf_apply, shapeCast_self, broadcast_apply]
  show max (v0 (ix2 r k)) (Ideal.ofBits .f32 0x00000000#32) * v5 (ix2 k j) = _
  rw [Ideal.ofBits_zero_f32]

/-- The other five clamped product bodies are the same term. -/
theorem k4_pay1_apply (v0 : Vec Ideal S2000x128 .f32) (v5 : Vec Ideal S128x128 .f32) (r : Fin 2000) (j : Fin 128) :
    k4_pay1 (F := Ideal) v0 v5 (ix2 r j) = ∑ k : Fin 128, max (v0 (ix2 r k)) 0 * v5 (ix2 k j) :=
  k2_pay1_apply v0 v5 r j
theorem k5_pay1_apply (v0 : Vec Ideal S2000x128 .f32) (v5 : Vec Ideal S128x128 .f32) (r : Fin 2000) (j : Fin 128) :
    k5_pay1 (F := Ideal) v0 v5 (ix2 r j) = ∑ k : Fin 128, max (v0 (ix2 r k)) 0 * v5 (ix2 k j) :=
  k2_pay1_apply v0 v5 r j
theorem k7_pay1_apply (v0 : Vec Ideal S2000x128 .f32) (v5 : Vec Ideal S128x128 .f32) (r : Fin 2000) (j : Fin 128) :
    k7_pay1 (F := Ideal) v0 v5 (ix2 r j) = ∑ k : Fin 128, max (v0 (ix2 r k)) 0 * v5 (ix2 k j) :=
  k2_pay1_apply v0 v5 r j
theorem k8_pay1_apply (v0 : Vec Ideal S2000x128 .f32) (v5 : Vec Ideal S128x128 .f32) (r : Fin 2000) (j : Fin 128) :
    k8_pay1 (F := Ideal) v0 v5 (ix2 r j) = ∑ k : Fin 128, max (v0 (ix2 r k)) 0 * v5 (ix2 k j) :=
  k2_pay1_apply v0 v5 r j
theorem k9_pay1_apply (v0 : Vec Ideal S2000x128 .f32) (v5 : Vec Ideal S128x128 .f32) (r : Fin 2000) (j : Fin 128) :
    k9_pay1 (F := Ideal) v0 v5 (ix2 r j) = ∑ k : Fin 128, max (v0 (ix2 r k)) 0 * v5 (ix2 k j) :=
  k2_pay1_apply v0 v5 r j

end Cert.KernelIdeal.Pay

end
-- ==== Proof.V.RegAt0.lean ====
/-
  Region 0's output array at an index, over the arrays the region finds.

  The region multiplies the [50000, 128] operand by the [128, 128] weight, 2000 rows at a time. Row `n` lies in
  block `n / 2000` at row `n % 2000`, the weight is staged whole, and the body's product at that row is the sum
  over the contracted coordinate; so the output at `(n, j)` is  ∑ q, A₀ (n, q) · A₁ (q, j).
-/
import proofs.«135915_j24266565222462_2_alg».proof.Proof.KI.Val0
import proofs.«135915_j24266565222462_2_alg».proof.Proof.V.PayMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The [50000, 128] operand region 0 finds. -/
abbrev A0_0 (c : Dev nD) : S50000x128.Idx → EReal := V c (Pipeline.arrRef spec0 0)
/-- The [128, 128] weight region 0 finds. -/
abbrev A0_1 (c : Dev nD) : S128x128.Idx → EReal := V c (Pipeline.arrRef spec0 1)

theorem idx_facts0_0 : ∀ t : Fin cfg0.N, win0_0.index t (0 : Fin 2) = t.val ∧ win0_0.index t (1 : Fin 2) = 0 :=
  (by decide +kernel : ∀ t : Fin grid0.N, _)
theorem idx_facts0_1 : ∀ t : Fin cfg0.N, win0_1.index t (0 : Fin 2) = 0 ∧ win0_1.index t (1 : Fin 2) = 0 :=
  (by decide +kernel : ∀ t : Fin grid0.N, _)

/-- Inside its block, row `n` is row `n % 2000`. -/
theorem locOf0_ix2 (n : Fin 50000) (j : Fin 128) :
    locOf0 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk0_0_apply (c : Dev nD) (t : Fin cfg0.N) (r : Fin 2000) (q : Fin 128) (n : Fin 50000)
    (hn : n.val = t.val * 2000 + r.val) :
    (iblk0 V c 0 t : S2000x128.Idx → EReal) (ix2 r q) = A0_0 V c (ix2 n q) := by
  unfold iblk0
  rw [View.read_apply]
  show A0_0 V c (((cfg0.win 0).blk t).view.emb (ix2 r q)) = _
  refine congrArg _ (funext fun a => Fin.ext ?_)
  obtain ⟨e0, e1⟩ := idx_facts0_0 t
  match a with
  | ⟨0, _⟩ => show win0_0.index t (0 : Fin 2) * 2000 + 1 * r.val = n.val; rw [e0]; omega
  | ⟨1, _⟩ => show win0_0.index t (1 : Fin 2) * 128 + 1 * q.val = q.val; rw [e1]; omega

/-- Window 1 is staged whole: its block at every grid point is the array. -/
theorem iblk0_1_apply (c : Dev nD) (t : Fin cfg0.N) (p : Fin 128) (q : Fin 128) :
    (iblk0 V c 1 t : S128x128.Idx → EReal) (ix2 p q) = A0_1 V c (ix2 p q) := by
  unfold iblk0
  rw [View.read_apply]
  show A0_1 V c (((cfg0.win 1).blk t).view.emb (ix2 p q)) = _
  refine congrArg _ (funext fun a => Fin.ext ?_)
  obtain ⟨e0, e1⟩ := idx_facts0_1 t
  match a with
  | ⟨0, _⟩ => show win0_1.index t (0 : Fin 2) * 128 + 1 * p.val = p.val; rw [e0]; omega
  | ⟨1, _⟩ => show win0_1.index t (1 : Fin 2) * 128 + 1 * q.val = q.val; rw [e1]; omega

/-- Region 0's output at `(n, j)`. -/
theorem G0_apply (c : Dev nD) (n : Fin 50000) (j : Fin 128) :
    G0 V c (ix2 n j) = ∑ q : Fin 128, A0_0 V c (ix2 n q) * A0_1 V c (ix2 q j) := by
  have hz : (![0, 0] : Fin 2 → Nat) = fun _ => 0 := funext fun a => by
    match a with
    | ⟨0, _⟩ => rfl
    | ⟨1, _⟩ => rfl
  unfold G0 out0_2
  rw [View.canon_unit_zero hz, View.ld_unit_zero hz, View.ld_unit_zero hz, locOf0_ix2, Pay.k0_pay1_apply]
  refine Finset.sum_congr rfl fun q _ => ?_
  rw [iblk0_0_apply V c _ _ q n (by show n.val = n.val / 2000 * 2000 + n.val % 2000; omega), iblk0_1_apply]

end Cert.KernelIdeal.Hand

end
-- ==== Proof.V.AggScatterRows.lean ====
/-
  A scatter-add of ROWS, read at an index.

  What segment_sum(u, idx) of a matrix u : [E, C] at an integer vector idx : [E] into N rows lowers to is a
  scatter with scatter indices [E, 1], update window axis 1, inserted window axis 0, scatter-dims-to-operand-dims [0]
  and index vector axis 1. The update entry (e, c') lands on the operand entry (r, c') where r is the scatter index
  idx[e, 0] read as a signed integer, and is dropped when r is outside [0, N − 1]. So the result's entry (n, c) is the
  operand's entry plus the sum, over the edges e whose index is n, of u[e, c]: a sum over edges only, the column fixed.
-/
import Idealize.ShloMosaic.Lib.ValueIdx
import Idealize.ShloMosaic.PureOps.Ideal

noncomputable section

namespace Idealize.ShloMosaic.AggRows

open Idealize.ShloMosaic Idealize.ShloMosaic.ValueIdx

/-- The dimension numbers of a row scatter of [E, C] updates at [E, 1] indices into [N, C]. -/
abbrev rowScatter (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window starts at the scatter index of the update's edge, read signed. -/
theorem start_row (idx : IVec ⟨2, ![E, 1]⟩ w) (e : Fin E) (c' : Fin C) :
    (rowScatter N C E wf).start (ix2 e c') idx (0 : Fin 2) = (idx (ix2 e (0 : Fin 1))).toInt := by
  unfold ScatterDims.start
  rw [dif_pos (show (0 : Fin 2) ∈ (rowScatter N C E wf).scatterDimsToOperandDims from List.mem_singleton.mpr rfl)]
  have hsi : (rowScatter N C E wf).siIdx (ix2 e c') ⟨List.idxOf (0 : Fin 2) (rowScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: the map does not name it. -/
theorem start_col (idx : IVec ⟨2, ![E, 1]⟩ w) (e : Fin E) (c' : Fin C) :
    (rowScatter N C E wf).start (ix2 e c') idx (1 : Fin 2) = 0 := by
  unfold ScatterDims.start
  rw [dif_neg (show (1 : Fin 2) ∉ (rowScatter N C E wf).scatterDimsToOperandDims from
    fun h => absurd (congrArg Fin.val (List.mem_singleton.mp h)) Nat.one_ne_zero)]

/-- The row axis is inserted: no window coordinate. -/
theorem window_row (e : Fin E) (c' : Fin C) : (rowScatter N C E wf).window (ix2 e c') (0 : Fin 2) = 0 := by
  unfold ScatterDims.window
  rw [dif_neg (show (0 : Fin 2) ∉ (rowScatter N C E wf).sKept by simp [ScatterDims.sKept, Shape.kept])]

/-- The column axis carries the update's own column. -/
theorem window_col (e : Fin E) (c' : Fin C) : (rowScatter N C E wf).window (ix2 e c') (1 : Fin 2) = c'.val := by
  unfold ScatterDims.window
  rw [dif_pos (show (1 : Fin 2) ∈ (rowScatter N C E wf).sKept by simp [ScatterDims.sKept, Shape.kept])]
  rfl

/-- Every coordinate of the landing index is inside the operand exactly when the scatter index is a row number: the
    column never leaves, the update's columns being the operand's. -/
theorem inRange_iff (idx : IVec ⟨2, ![E, 1]⟩ w) (e : Fin E) (c' : Fin C) :
    (∀ a : Fin 2, 0 ≤ (rowScatter N C E wf).start (ix2 e c') idx a + ((rowScatter N C E wf).window (ix2 e c') a : Int)
        ∧ (rowScatter N C E wf).start (ix2 e c') idx a + ((rowScatter N C E wf).window (ix2 e c') a : Int)
            < (((![N, C] : Fin 2 → Nat) a : Nat) : Int))
      ↔ 0 ≤ (idx (ix2 e (0 : Fin 1))).toInt ∧ (idx (ix2 e (0 : Fin 1))).toInt < (N : Int) := by
  rw [Fin.forall_fin_two, start_row, window_row, start_col, window_col]
  simp only [Matrix.cons_val_zero, Matrix.cons_val_one]
  have := c'.isLt
  constructor
  · rintro ⟨⟨h1, h2⟩, _⟩; omega
  · rintro ⟨h1, h2⟩; omega

/-- Where an update lands: on the row its edge's scatter index names, in its own column; nowhere when the index is no row. -/
theorem resultIdx?_rows (idx : IVec ⟨2, ![E, 1]⟩ w) (e : Fin E) (c' : Fin C) :
    (rowScatter N C E wf).resultIdx? (ix2 e c') idx
      = if h : 0 ≤ (idx (ix2 e (0 : Fin 1))).toInt ∧ (idx (ix2 e (0 : Fin 1))).toInt < (N : Int) then
          some (ix2 (⟨(idx (ix2 e (0 : Fin 1))).toInt.toNat, by omega⟩ : Fin N) c')
        else none := by
  unfold ScatterDims.resultIdx?
  by_cases h : 0 ≤ (idx (ix2 e (0 : Fin 1))).toInt ∧ (idx (ix2 e (0 : Fin 1))).toInt < (N : Int)
  · rw [dif_pos ((inRange_iff wf idx e c').mpr h), dif_pos h]
    refine congrArg some (funext fun a => Fin.ext ?_)
    match a with
    | ⟨0, _⟩ =>
      show ((rowScatter N C E wf).start (ix2 e c') idx (0 : Fin 2) + ((rowScatter N C E wf).window (ix2 e c') (0 : Fin 2) : Int)).toNat = _
      rw [start_row, window_row]; simp
    | ⟨1, _⟩ =>
      show ((rowScatter N C E wf).start (ix2 e c') idx (1 : Fin 2) + ((rowScatter N C E wf).window (ix2 e c') (1 : Fin 2) : Int)).toNat = _
      rw [start_col, window_col]; simp
  · rw [dif_neg (fun hall => h ((inRange_iff wf idx e c').mp hall)), dif_neg h]

/-- An update lands on (n, c) exactly when its edge's scatter index is n and its column is c. -/
theorem resultIdx?_eq_some_iff (idx : IVec ⟨2, ![E, 1]⟩ w) (e : Fin E) (c' : Fin C) (n : Fin N) (c : Fin C) :
    (rowScatter N C E wf).resultIdx? (ix2 e c') idx = some (ix2 n c)
      ↔ (idx (ix2 e (0 : Fin 1))).toInt = (n.val : Int) ∧ c' = c := by
  rw [resultIdx?_rows]
  have hn := n.isLt
  constructor
  · intro h
    split at h
    · rename_i hr
      have hf := Option.some.inj h
      have h0 : (idx (ix2 e (0 : Fin 1))).toInt.toNat = n.val := congrArg (fun f => (f (0 : Fin 2)).val) hf
      have h1 : c'.val = c.val := congrArg (fun f => (f (1 : Fin 2)).val) hf
      exact ⟨by omega, Fin.ext h1⟩
    · exact absurd h (by simp)
  · rintro ⟨h0, rfl⟩
    rw [dif_pos ⟨by omega, by omega⟩]
    refine congrArg some (funext fun a => Fin.ext ?_)
    match a with
    | ⟨0, _⟩ => show (idx (ix2 e (0 : Fin 1))).toInt.toNat = n.val; omega
    | ⟨1, _⟩ => rfl

/-- **A row scatter-add read at (n, c)**: the operand's entry plus the sum, over the edges whose scatter index is n, of
    the update's entry in column c. -/
theorem hostScatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N C E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  refine Finset.sum_bij' (fun j _ => ((j 0 : Fin E))) (fun e _ => ix2 e c) ?_ ?_ ?_ ?_ ?_
  · intro j hj
    obtain ⟨e', c', rfl⟩ : ∃ (e' : Fin E) (c' : Fin C), j = ix2 e' c' := ⟨j 0, j 1, eq_ix2 j⟩
    exact Finset.mem_filter.mpr ⟨Finset.mem_univ _,
      ((resultIdx?_eq_some_iff wf idx e' c' n c).mp (Finset.mem_filter.mp hj).2).1⟩
  · intro e he
    exact Finset.mem_filter.mpr ⟨Finset.mem_univ _,
      (resultIdx?_eq_some_iff wf idx e c n c).mpr ⟨(Finset.mem_filter.mp he).2, rfl⟩⟩
  · intro j hj
    obtain ⟨e', c', rfl⟩ : ∃ (e' : Fin E) (c' : Fin C), j = ix2 e' c' := ⟨j 0, j 1, eq_ix2 j⟩
    have hc := ((resultIdx?_eq_some_iff wf idx e' c' n c).mp (Finset.mem_filter.mp hj).2).2
    subst hc
    rfl
  · intro e _
    rfl
  · intro j hj
    obtain ⟨e', c', rfl⟩ : ∃ (e' : Fin E) (c' : Fin C), j = ix2 e' c' := ⟨j 0, j 1, eq_ix2 j⟩
    have hc := ((resultIdx?_eq_some_iff wf idx e' c' n c).mp (Finset.mem_filter.mp hj).2).2
    subst hc
    rfl

end Idealize.ShloMosaic.AggRows

end
-- ==== Proof.V.AggGatherStack.lean ====
/-
  A gather of ROWS OF A STACK, read at an index.

  What x[idx] of a stack x : [N, K, D] at an integer vector idx : [E] lowers to is a gather with start indices [E, 1],
  offset axes 1 and 2, collapsed axis 0, start index map [0], index vector axis 1 and slices [1, K, D]. Its entry
  (e, k, d) is the operand's entry (r, k, d), where the row r is the start index idx[e, 0] read as a signed integer and
  clamped into [0, N − 1]: on the collapsed axis the operand index is the clamped start, on the two offset axes it is
  the result's own coordinate.
-/
import Idealize.ShloMosaic.Lib.ValueIdx

noncomputable section

namespace Idealize.ShloMosaic.AggRows

open Idealize.ShloMosaic Idealize.ShloMosaic.ValueIdx

variable {α : Type}

/-- The dimension numbers of a row gather from a stack [N, K, D] at [E, 1] into [E, K, D]. -/
abbrev stackGather (N K D E : Nat)
    (wf : GatherDims.WF ⟨3, ![N, K, D]⟩ ⟨2, ![E, 1]⟩ ⟨3, ![E, K, D]⟩ [1, 2] [0] [] [0] [] 1 ![1, K, D]) :
    GatherDims ⟨3, ![N, K, D]⟩ ⟨2, ![E, 1]⟩ ⟨3, ![E, K, D]⟩ where
  offsetDims := [1, 2]
  collapsedSliceDims := [0]
  operandBatchingDims := []
  startIndicesBatchingDims := []
  startIndexMap := [0]
  indexVectorDim := 1
  sliceSizes := ![1, K, D]
  wf := wf

/-- The stack gather at (e, k, d): row min idx[e,0] (N − 1) of the operand, member k, column d. -/
theorem gather_stack_apply {N K D E w : Nat} (hN : 0 < N)
    (wf : GatherDims.WF ⟨3, ![N, K, D]⟩ ⟨2, ![E, 1]⟩ ⟨3, ![E, K, D]⟩ [1, 2] [0] [] [0] [] 1 ![1, K, D])
    (x : (⟨3, ![N, K, D]⟩ : Shape).Idx → α) (idx : IVec ⟨2, ![E, 1]⟩ w) (e : Fin E) (k : Fin K) (d : Fin D) :
    Host.gather (stackGather N K D E wf) x idx (ix3 e k d)
      = x (ix3 (⟨min (idx (ix2 e (0 : Fin 1))).toInt.toNat (N - 1), by omega⟩ : Fin N) k d) := by
  unfold Host.gather
  refine congrArg x (funext fun a => Fin.ext ?_)
  show (stackGather N K D E wf).start (ix3 e k d) idx a + (stackGather N K D E wf).batchCoord (ix3 e k d) a
      + (stackGather N K D E wf).offCoord (ix3 e k d) a = _
  rw [GatherDims.batchCoord_eq_zero _ _ _ List.not_mem_nil, Nat.add_zero]
  have ha : a = 0 ∨ a = 1 ∨ a = 2 := by
    have h3 : a.val < 3 := a.isLt
    rcases Nat.lt_succ_iff_lt_or_eq.mp h3 with h | h
    · rcases Nat.lt_succ_iff_lt_or_eq.mp h with h' | h'
      · exact Or.inl (Fin.ext (show a.val = 0 from Nat.lt_one_iff.mp h'))
      · exact Or.inr (Or.inl (Fin.ext (show a.val = 1 from h')))
    · exact Or.inr (Or.inr (Fin.ext (show a.val = 2 from h)))
  obtain rfl | rfl | rfl := ha
  · -- the collapsed axis: no offset coordinate, the start is the clamped start index
    rw [GatherDims.offCoord_eq_zero _ _ _
      (fun h => ((GatherDims.mem_sKept _ _).mp h).1 (List.mem_singleton.mpr rfl)), Nat.add_zero]
    unfold GatherDims.start
    rw [dif_pos (show (0 : Fin 3) ∈ (stackGather N K D E wf).startIndexMap from List.mem_singleton.mpr rfl)]
    have hsi : (stackGather N K D E wf).siIdx (ix3 e k d) ⟨List.idxOf (0 : Fin 3) (stackGather N K D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · -- the first offset axis: the start index map does not name it, the coordinate is the result's member coordinate
    unfold GatherDims.start
    rw [dif_neg (show (1 : Fin 3) ∉ (stackGather N K D E wf).startIndexMap from
      fun h => absurd (congrArg Fin.val (List.mem_singleton.mp h)) Nat.one_ne_zero), Nat.zero_add]
    rfl
  · -- the second offset axis: likewise, the result's column coordinate
    unfold GatherDims.start
    rw [dif_neg (show (2 : Fin 3) ∉ (stackGather N K D E wf).startIndexMap from
      fun h => absurd (congrArg Fin.val (List.mem_singleton.mp h)) (show (2 : Nat) ≠ 0 by omega)), Nat.zero_add]
    rfl

/-! ## The same gather of a single matrix

What x[idx] of a matrix x : [N, D] at idx : [E] lowers to: start indices [E, 1], offset axis 1, collapsed axis 0, start
index map [0], index vector axis 1, slices [1, D]. Entry (e, d) is the operand's entry (r, d) with r the start index
idx[e, 0] read signed and clamped into [0, N − 1]. -/

/-- The dimension numbers of a row gather from [N, D] at [E, 1] into [E, D]. -/
abbrev rowGather (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, d): row min idx[e,0] (N − 1) of the operand, column d. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowGather N D E wf) x idx (ix2 e d)
      = x (ix2 (⟨min (idx (ix2 e (0 : Fin 1))).toInt.toNat (N - 1), by omega⟩ : Fin N) d) := by
  unfold Host.gather
  refine congrArg x (funext fun a => Fin.ext ?_)
  show (rowGather N D E wf).start (ix2 e d) idx a + (rowGather N D E wf).batchCoord (ix2 e d) a
      + (rowGather N D E wf).offCoord (ix2 e d) a = _
  rw [GatherDims.batchCoord_eq_zero _ _ _ List.not_mem_nil, Nat.add_zero]
  have ha : a = 0 ∨ a = 1 := by
    have h2 : a.val < 2 := a.isLt
    rcases Nat.lt_succ_iff_lt_or_eq.mp h2 with h | h
    · exact Or.inl (Fin.ext (show a.val = 0 from Nat.lt_one_iff.mp h))
    · exact Or.inr (Fin.ext (show a.val = 1 from h))
  obtain rfl | rfl := ha
  · -- the collapsed axis: the clamped start index
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowGather N D E wf).startIndexMap from List.mem_singleton.mpr rfl)]
    have hsi : (rowGather N D E wf).siIdx (ix2 e d) ⟨List.idxOf (0 : Fin 2) (rowGather N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · -- the offset axis: the result's own column
    unfold GatherDims.start
    rw [dif_neg (show (1 : Fin 2) ∉ (rowGather N D E wf).startIndexMap from
      fun h => absurd (congrArg Fin.val (List.mem_singleton.mp h)) Nat.one_ne_zero), Nat.zero_add]
    rfl

end Idealize.ShloMosaic.AggRows

end
-- ==== Proof.V.AggPipeline.lean ====
/-
  The edge aggregation of a graph convolution, read at an index, in its two arrangements.

  STACKED. K matrices h_0 … h_{K-1} : [N, D] stacked to x : [N, K, D]; one gather of the rows x[src[e]] : [E, K, D]; every
  gathered row times the edge's weight nrm[e]; the result laid out as [E, K·D] (row-major: member k, column d sits in
  column k·D + d); one scatter-add by dst into zeros [N, K·D]. Its entry (n, k·D + d) is the sum, over the edges e with
  dst[e] = n, of x[src[e], k, d] · nrm[e].

  PER TERM. One matrix h : [N, D]; the gather h[src[e]] : [E, D]; times nrm[e]; one scatter-add by dst into zeros [N, D].
  Its entry (n, d) is the sum, over the edges e with dst[e] = n, of h[src[e], d] · nrm[e].

  Both read the source row signed and clamped into [0, N − 1] and drop an edge whose target is no row; both start from
  the same scalar broadcast. So column k·D + d of the stacked result is column d of the per-term result of member k.
-/
import proofs.«135915_j24266565222462_2_alg».proof.Proof.V.AggScatterRows
import proofs.«135915_j24266565222462_2_alg».proof.Proof.V.AggGatherStack
import Idealize.ShloMosaic.Lib.Pipeline.Value

noncomputable section

namespace Idealize.ShloMosaic.AggRows

open Idealize.ShloMosaic Idealize.ShloMosaic.ValueIdx

variable {α : Type}

/-! ## The broadcasts, read at an index -/

/-- A matrix [N, D] as a one-member stack [N, 1, D] (its axes sent to axes 0 and 2), at (r, 0, d). -/
theorem bcast_nd_n1d_apply {N D : ℕ} (x : (⟨2, ![N, D]⟩ : Shape).Idx → α)
    (h : (⟨2, ![N, D]⟩ : Shape).BroadcastsInDim ⟨3, ![N, 1, D]⟩ ![0, 2]) (r : Fin N) (u : Fin 1) (d : Fin D) :
    broadcastInDim ⟨3, ![N, 1, D]⟩ ![0, 2] h x (ix3 r u d) = x (ix2 r d) := by
  refine broadcastInDim_apply _ h x _ (ix2 r d) fun a => ?_
  match a with
  | ⟨0, _⟩ =>
    show r.val = if N = 1 then 0 else r.val
    split
    · have := r.isLt; omega
    · rfl
  | ⟨1, _⟩ =>
    show d.val = if D = 1 then 0 else d.val
    split
    · have := d.isLt; omega
    · rfl

/-- A vector [E] as [E, 1, 1] (its axis sent to axis 0), at (e, 0, 0). -/
theorem bcast_e_e11_apply {E : ℕ} (x : (⟨1, ![E]⟩ : Shape).Idx → α)
    (h : (⟨1, ![E]⟩ : Shape).BroadcastsInDim ⟨3, ![E, 1, 1]⟩ ![0]) (e : Fin E) (u v : Fin 1) :
    broadcastInDim ⟨3, ![E, 1, 1]⟩ ![0] h x (ix3 e u v) = x (ix1 e) := by
  refine broadcastInDim_apply _ h x _ (ix1 e) fun a => ?_
  match a with
  | ⟨0, _⟩ =>
    show e.val = if E = 1 then 0 else e.val
    split
    · have := e.isLt; omega
    · rfl

/-- An array [E, 1, 1] broadcast to [E, K, D], at (e, k, d): the entry (e, 0, 0). -/
theorem bcast_e11_ekd_apply {E K D : ℕ} (x : (⟨3, ![E, 1, 1]⟩ : Shape).Idx → α)
    (h : (⟨3, ![E, 1, 1]⟩ : Shape).BroadcastsInDim ⟨3, ![E, K, D]⟩ ![0, 1, 2]) (e : Fin E) (k : Fin K) (d : Fin D) :
    broadcastInDim ⟨3, ![E, K, D]⟩ ![0, 1, 2] h x (ix3 e k d) = x (ix3 e (0 : Fin 1) (0 : Fin 1)) := by
  refine broadcastInDim_apply _ h x _ (ix3 e (0 : Fin 1) (0 : Fin 1)) fun a => ?_
  match a with
  | ⟨0, _⟩ =>
    show e.val = if E = 1 then 0 else e.val
    split
    · have := e.isLt; omega
    · rfl
  | ⟨1, _⟩ => rfl
  | ⟨2, _⟩ => rfl

/-- A vector [E] as a column [E, 1] (its axis sent to axis 0), at (e, 0). -/
theorem bcast_e_e1_apply {E : ℕ} (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) := by
  refine broadcastInDim_apply _ h x _ (ix1 e) fun a => ?_
  match a with
  | ⟨0, _⟩ =>
    show e.val = if E = 1 then 0 else e.val
    split
    · have := e.isLt; omega
    · rfl

/-- A column [E, 1] broadcast to [E, D], at (e, d): the entry (e, 0). -/
theorem bcast_e1_ed_apply {E D : ℕ} (x : (⟨2, ![E, 1]⟩ : Shape).Idx → α)
    (h : (⟨2, ![E, 1]⟩ : Shape).BroadcastsInDim ⟨2, ![E, D]⟩ ![0, 1]) (e : Fin E) (d : Fin D) :
    broadcastInDim ⟨2, ![E, D]⟩ ![0, 1] h x (ix2 e d) = x (ix2 e (0 : Fin 1)) := by
  refine broadcastInDim_apply _ h x _ (ix2 e (0 : Fin 1)) fun a => ?_
  match a with
  | ⟨0, _⟩ =>
    show e.val = if E = 1 then 0 else e.val
    split
    · have := e.isLt; omega
    · rfl
  | ⟨1, _⟩ => rfl

/-! ## The two arrangements -/

/-- **The stacked aggregation at (n, k·D + d).** -/
theorem stack_agg_apply {N K D E C w : ℕ} {φ : FTy} (hN : 0 < N) (hC : C = K * D)
    (gwf : GatherDims.WF ⟨3, ![N, K, D]⟩ ⟨2, ![E, 1]⟩ ⟨3, ![E, K, D]⟩ [1, 2] [0] [] [0] [] 1 ![1, K, D])
    (swf : ScatterDims.WF ⟨2, ![N, C]⟩ ⟨2, ![E, 1]⟩ ⟨2, ![E, C]⟩ [1] [0] [0] 1)
    (hb1 : (⟨1, ![E]⟩ : Shape).BroadcastsInDim ⟨3, ![E, 1, 1]⟩ ![0])
    (hb2 : (⟨3, ![E, 1, 1]⟩ : Shape).BroadcastsInDim ⟨3, ![E, K, D]⟩ ![0, 1, 2])
    (hsc : (⟨3, ![E, K, D]⟩ : Shape).ShapeCasts ⟨2, ![E, C]⟩)
    (hz : (⟨0, ![]⟩ : Shape).BroadcastsInDim ⟨2, ![N, C]⟩ ![])
    (x : FVec Ideal ⟨3, ![N, K, D]⟩ φ) (srcN dstI : IVec ⟨2, ![E, 1]⟩ w) (nrm : FVec Ideal ⟨1, ![E]⟩ φ)
    (zc : FVec Ideal ⟨0, ![]⟩ φ) (n : Fin N) (k : Fin K) (d : Fin D) (c : Fin C) (hc : c.val = k.val * D + d.val) :
    Host.scatterAdd (F := Ideal) (φ := φ) (rowScatter N C E swf) (broadcastInDim ⟨2, ![N, C]⟩ ![] hz zc) dstI
        (shapeCast ⟨2, ![E, C]⟩
          (mulf (Host.gather (stackGather N K D E gwf) x srcN)
            (broadcastInDim ⟨3, ![E, K, D]⟩ ![0, 1, 2] hb2 (broadcastInDim ⟨3, ![E, 1, 1]⟩ ![0] hb1 nrm))) hsc) (ix2 n c)
      = zc ix0 + ∑ e ∈ Finset.univ.filter (fun e : Fin E => (dstI (ix2 e (0 : Fin 1))).toInt = (n.val : Int)),
          x (ix3 (⟨min (srcN (ix2 e (0 : Fin 1))).toInt.toNat (N - 1), by omega⟩ : Fin N) k d) * nrm (ix1 e) := by
  refine (hostScatterAdd_rows_apply swf _ dstI _ n c).trans ?_
  refine congrArg₂ (· + ·) (broadcastInDim_apply _ hz zc _ ix0 (fun a => a.elim0)) ?_
  refine Finset.sum_congr rfl fun e _ => ?_
  rw [shapeCast_apply _ hsc (ix2 e c) (ix3 e k d) (by
    rw [Shape.rowMajor_val_three, Shape.rowMajor_val_two]
    show (e.val * K + k.val) * D + d.val = e.val * C + c.val
    rw [hc, Nat.add_mul, Nat.mul_assoc, Nat.add_assoc, ← hC])]
  rw [mulf_apply, gather_stack_apply hN, bcast_e11_ekd_apply, bcast_e_e11_apply]

/-- **The per-term aggregation at (n, d).** -/
theorem row_agg_apply {N D E w : ℕ} {φ : FTy} (hN : 0 < N)
    (gwf : GatherDims.WF ⟨2, ![N, D]⟩ ⟨2, ![E, 1]⟩ ⟨2, ![E, D]⟩ [1] [0] [] [0] [] 1 ![1, D])
    (swf : ScatterDims.WF ⟨2, ![N, D]⟩ ⟨2, ![E, 1]⟩ ⟨2, ![E, D]⟩ [1] [0] [0] 1)
    (hb1 : (⟨1, ![E]⟩ : Shape).BroadcastsInDim ⟨2, ![E, 1]⟩ ![0])
    (hb2 : (⟨2, ![E, 1]⟩ : Shape).BroadcastsInDim ⟨2, ![E, D]⟩ ![0, 1])
    (hz : (⟨0, ![]⟩ : Shape).BroadcastsInDim ⟨2, ![N, D]⟩ ![])
    (h : FVec Ideal ⟨2, ![N, D]⟩ φ) (srcN dstI : IVec ⟨2, ![E, 1]⟩ w) (nrm : FVec Ideal ⟨1, ![E]⟩ φ)
    (zc : FVec Ideal ⟨0, ![]⟩ φ) (n : Fin N) (d : Fin D) :
    Host.scatterAdd (F := Ideal) (φ := φ) (rowScatter N D E swf) (broadcastInDim ⟨2, ![N, D]⟩ ![] hz zc) dstI
        (mulf (Host.gather (rowGather N D E gwf) h srcN)
          (broadcastInDim ⟨2, ![E, D]⟩ ![0, 1] hb2 (broadcastInDim ⟨2, ![E, 1]⟩ ![0] hb1 nrm))) (ix2 n d)
      = zc ix0 + ∑ e ∈ Finset.univ.filter (fun e : Fin E => (dstI (ix2 e (0 : Fin 1))).toInt = (n.val : Int)),
          h (ix2 (⟨min (srcN (ix2 e (0 : Fin 1))).toInt.toNat (N - 1), by omega⟩ : Fin N) d) * nrm (ix1 e) := by
  refine (hostScatterAdd_rows_apply swf _ dstI _ n d).trans ?_
  refine congrArg₂ (· + ·) (broadcastInDim_apply _ hz zc _ ix0 (fun a => a.elim0)) ?_
  refine Finset.sum_congr rfl fun e _ => ?_
  rw [mulf_apply, gather_rows_apply hN, bcast_e1_ed_apply, bcast_e_e1_apply]

end Idealize.ShloMosaic.AggRows

end
-- ==== Proof.V.StageAt.lean ====
/-
  The reference's stages, read at an index.

  A product of a node matrix with a weight matrix at (n, j) is the sum over the contracted coordinate q of the products of
  the entries (n, q) and (q, j). The positive part at an entry is the maximum of the entry and 0. The weight of a node's
  own row, repeated along the features, is the squared inverse root degree of the node; the bias repeated along the nodes
  is the bias at the feature. So one graph-convolution term at (n, j) is the aggregated entry plus the node's own entry
  times its squared inverse root degree plus the bias at j. The same two operands written as a column [50000, 1] and a row
  [1, 128] by a change of shape read the same values.
-/
import proofs.«135915_j24266565222462_2_alg».proof.Proof.V.RefStages
import proofs.«135915_j24266565222462_2_alg».proof.Proof.V.AggPipeline
import proofs.«135915_j24266565222462_2_alg».proof.Proof.Gen.KernelIdeal
import Idealize.ShloMosaic.Lib.ValueIdx
import Idealize.ShloMosaic.Lib.Pipeline.Value
import Idealize.ShloMosaic.PureOps.Ideal.Laws
import Idealize.ShloMosaic.Lib.IdealHost

noncomputable section

namespace Cert.StageAt

open Cert.ReferenceIdeal Cert.ReferenceIdeal.Gen Idealize.ShloMosaic Idealize.ShloMosaic.ValueIdx
open Idealize.ShloMosaic.AggRows

/-! ## The product with a weight matrix -/

/-- The left operand's row is the output's row. -/
theorem lin_lhs_0 (i : S50000x128.Idx) (q : dot_S50000x128_S128x128_S50000x128_1_0_0_1_n_n.contr.Idx) : (dot_S50000x128_S128x128_S50000x128_1_0_0_1_n_n.lhsIdx i q 0).val = (i 0).val := by
  have hb : ¬(0 : Fin S50000x128.rank) ∈ dot_S50000x128_S128x128_S50000x128_1_0_0_1_n_n.lhsBatch := List.not_mem_nil
  have hn : (0 : Fin S50000x128.rank) ∈ dot_S50000x128_S128x128_S50000x128_1_0_0_1_n_n.lhsNonContracting := List.mem_singleton.mpr rfl
  unfold DotDims.lhsIdx
  rw [dif_neg hb, dif_pos hn]
  rfl

/-- The right operand's column is the output's column. -/
theorem lin_rhs_1 (i : S50000x128.Idx) (q : dot_S50000x128_S128x128_S50000x128_1_0_0_1_n_n.contr.Idx) : (dot_S50000x128_S128x128_S50000x128_1_0_0_1_n_n.rhsIdx i q 1).val = (i 1).val := by
  have hb : ¬(1 : Fin S128x128.rank) ∈ dot_S50000x128_S128x128_S50000x128_1_0_0_1_n_n.rhsBatch := List.not_mem_nil
  have hn : (1 : Fin S128x128.rank) ∈ dot_S50000x128_S128x128_S50000x128_1_0_0_1_n_n.rhsNonContracting := List.mem_singleton.mpr rfl
  unfold DotDims.rhsIdx
  rw [dif_neg hb, dif_pos hn]
  rfl

/-- A node matrix times a 128 × 128 weight matrix at (n, j): the sum over the contracted coordinate. -/
theorem lin_apply (x : FVec Ideal S50000x128 .f32) (W : FVec Ideal S128x128 .f32) (n : Fin 50000) (j : Fin 128) :
    Cert.RefStages.lin x W (ix2 n j) = ∑ q : Fin 128, x (ix2 n q) * W (ix2 q j) := by
  unfold Cert.RefStages.lin
  show FloatOps.dotGeneral dot_S50000x128_S128x128_S50000x128_1_0_0_1_n_n none .single x W (ix2 n j) = _
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n j) ((contrEquiv1 dot_S50000x128_S128x128_S50000x128_1_0_0_1_n_n 128 rfl rfl).symm k) = ix2 n k :=
    funext fun a => Fin.ext (by
      match a with
      | ⟨0, _⟩ => exact lin_lhs_0 _ _
      | ⟨1, _⟩ => exact (dot_S50000x128_S128x128_S50000x128_1_0_0_1_n_n.lhsIdx_val_of_single rfl _ _).trans hk)
  have er : dot_S50000x128_S128x128_S50000x128_1_0_0_1_n_n.rhsIdx (ix2 n j) ((contrEquiv1 dot_S50000x128_S128x128_S50000x128_1_0_0_1_n_n 128 rfl rfl).symm k) = ix2 k j :=
    funext fun a => Fin.ext (by
      match a with
      | ⟨0, _⟩ => exact (dot_S50000x128_S128x128_S50000x128_1_0_0_1_n_n.rhsIdx_val_of_single rfl _ _).trans hk
      | ⟨1, _⟩ => exact lin_rhs_1 _ _)
  rw [el, er]

/-! ## The positive part -/

/-- The zero array reads the real 0 everywhere. -/
theorem zeros_apply (i : S50000x128.Idx) :
    broadcastInDim S50000x128 ![] bcast_S_S50000x128 (constant (F := Ideal) S_ .f32 0x00000000#32) i = 0 :=
  (broadcastInDim_apply _ bcast_S_S50000x128 (constant (F := Ideal) S_ .f32 0x00000000#32) i ix0 (fun a => a.elim0)).trans
    Ideal.ofBits_zero_f32

/-- The positive part at an entry: the maximum of the entry and 0. -/
theorem relu_apply (x : FVec Ideal S50000x128 .f32) (n : Fin 50000) (q : Fin 128) :
    Cert.RefStages.relu x (ix2 n q) = max (x (ix2 n q)) 0 := by
  unfold Cert.RefStages.relu
  rw [maximumf_apply, zeros_apply]

/-! ## The weight of a node's own row, the bias, and one term -/

/-- The squared inverse root degree repeated along the features, at (n, j). -/
theorem selfWide_apply (ei : IVec S2x600000 32) (n : Fin 50000) (j : Fin 128) :
    Cert.RefStages.selfWide ei (ix2 n j) = Cert.RefStages.dinv ei (ix1 n) * Cert.RefStages.dinv ei (ix1 n) := by
  unfold Cert.RefStages.selfWide
  rw [bcast_e1_ed_apply, bcast_e_e1_apply, mulf_apply]

/-- The bias repeated along the nodes, at (n, j). -/
theorem biasWide_apply (b : FVec Ideal S128 .f32) (n : Fin 50000) (j : Fin 128) :
    Cert.RefStages.biasWide b (ix2 n j) = b (ix1 j) := by
  unfold Cert.RefStages.biasWide
  refine (broadcastInDim_apply _ bcast_S1x128_S50000x128_0_1 _ (ix2 n j) (ix2 (0 : Fin 1) j) fun a => ?_).trans
    (broadcastInDim_apply _ bcast_S128_S1x128_1 b (ix2 (0 : Fin 1) j) (ix1 j) fun a => ?_)
  · match a with
    | ⟨0, _⟩ => rfl
    | ⟨1, _⟩ => rfl
  · match a with
    | ⟨0, _⟩ => rfl

/-- One graph-convolution term at (n, j). -/
theorem gcnTerm_apply (h : FVec Ideal S50000x128 .f32) (ei : IVec S2x600000 32) (b : FVec Ideal S128 .f32)
    (n : Fin 50000) (j : Fin 128) :
    Cert.RefStages.gcnTerm h ei b (ix2 n j)
      = Cert.RefStages.agg h ei (ix2 n j) + h (ix2 n j) * (Cert.RefStages.dinv ei (ix1 n) * Cert.RefStages.dinv ei (ix1 n)) + b (ix1 j) := by
  unfold Cert.RefStages.gcnTerm
  rw [addf_apply, addf_apply, mulf_apply, selfWide_apply, biasWide_apply]

/-! ## The same two operands as a column and as a row -/

/-- The squared inverse root degrees as a column [50000, 1], at (n, 0). -/
theorem dsq_apply (ei : IVec S2x600000 32) (n : Fin 50000) :
    shapeCast Cert.KernelIdeal.S50000x1 (mulf (Cert.RefStages.dinv ei) (Cert.RefStages.dinv ei)) Cert.KernelIdeal.Gen.shapeCasts_S50000_S50000x1
        (ix2 n (0 : Fin 1))
      = Cert.RefStages.dinv ei (ix1 n) * Cert.RefStages.dinv ei (ix1 n) := by
  rw [shapeCast_apply _ Cert.KernelIdeal.Gen.shapeCasts_S50000_S50000x1 (ix2 n (0 : Fin 1)) (ix1 n) (by
    rw [Shape.rowMajor_val_one, Shape.rowMajor_val_two]
    show n.val = n.val * 1 + 0
    omega), mulf_apply]

/-- The bias as a row [1, 128], at (0, j). -/
theorem brow_apply (b : FVec Ideal S128 .f32) (j : Fin 128) :
    shapeCast Cert.KernelIdeal.S1x128 b Cert.KernelIdeal.Gen.shapeCasts_S128_S1x128 (ix2 (0 : Fin 1) j) = b (ix1 j) :=
  shapeCast_apply _ Cert.KernelIdeal.Gen.shapeCasts_S128_S1x128 (ix2 (0 : Fin 1) j) (ix1 j) (by
    rw [Shape.rowMajor_val_one, Shape.rowMajor_val_two]
    show j.val = 0 * 128 + j.val
    omega)

/-! ## The rows asked for -/

/-- The labels wrapped: a negative label counted from the end of the 50000 rows. -/
def wrapLab (lab : IVec S25000 32) : IVec S25000 32 :=
  select (cmpi .slt lab (broadcastInDim S25000 ![] bcast_S_S25000 (constantI S_ 32 0#32)))
    (addi lab (broadcastInDim S25000 ![] bcast_S_S25000 (constantI S_ 32 50000#32))) lab

/-- The gathered rows at (i, k): the row named by the wrapped label, read signed and clamped into the rows, column k. -/
theorem rowGather_apply (p : FVec Ideal S50000x40 .f32) (lab : IVec S25000 32) (i : Fin 25000) (k : Fin 40) :
    Cert.RefStages.rowGather p lab (ix2 i k)
      = p (ix2 (⟨min (wrapLab lab (ix1 i)).toInt.toNat 49999, by omega⟩ : Fin 50000) k) := by
  unfold Cert.RefStages.rowGather
  refine (gather_rows_apply (N := 50000) (D := 40) (E := 25000) (by decide)
    gather_S50000x40_S25000x1_S25000x40_1_0_n_n_0_1_140_wf p _ i k).trans ?_
  refine congrArg p (congrArg (fun r : Fin 50000 => ix2 r k) (Fin.ext ?_))
  show min (broadcastInDim S25000x1 ![0] bcast_S25000_S25000x1_0 (wrapLab lab) (ix2 i (0 : Fin 1))).toInt.toNat (50000 - 1)
    = min (wrapLab lab (ix1 i)).toInt.toNat 49999
  rw [bcast_e_e1_apply]

/-! ## The dense head -/

/-- The left operand's row is the output's row. -/
theorem head_lhs_0 (i : S50000x40.Idx) (q : dot_S50000x128_S128x40_S50000x40_1_0_0_1_n_n.contr.Idx) : (dot_S50000x128_S128x40_S50000x40_1_0_0_1_n_n.lhsIdx i q 0).val = (i 0).val := by
  have hb : ¬(0 : Fin S50000x128.rank) ∈ dot_S50000x128_S128x40_S50000x40_1_0_0_1_n_n.lhsBatch := List.not_mem_nil
  have hn : (0 : Fin S50000x128.rank) ∈ dot_S50000x128_S128x40_S50000x40_1_0_0_1_n_n.lhsNonContracting := List.mem_singleton.mpr rfl
  unfold DotDims.lhsIdx
  rw [dif_neg hb, dif_pos hn]
  rfl

/-- The right operand's column is the output's column. -/
theorem head_rhs_1 (i : S50000x40.Idx) (q : dot_S50000x128_S128x40_S50000x40_1_0_0_1_n_n.contr.Idx) : (dot_S50000x128_S128x40_S50000x40_1_0_0_1_n_n.rhsIdx i q 1).val = (i 1).val := by
  have hb : ¬(1 : Fin S128x40.rank) ∈ dot_S50000x128_S128x40_S50000x40_1_0_0_1_n_n.rhsBatch := List.not_mem_nil
  have hn : (1 : Fin S128x40.rank) ∈ dot_S50000x128_S128x40_S50000x40_1_0_0_1_n_n.rhsNonContracting := List.mem_singleton.mpr rfl
  unfold DotDims.rhsIdx
  rw [dif_neg hb, dif_pos hn]
  rfl

/-- The head at (n, k): the sum over the 128 features of the feature times the weight, plus the bias at k. -/
theorem head_apply (f : FVec Ideal S50000x128 .f32) (Wh : FVec Ideal S128x40 .f32) (bh : FVec Ideal S40 .f32)
    (n : Fin 50000) (j : Fin 40) :
    Cert.RefStages.head f Wh bh (ix2 n j) = (∑ q : Fin 128, f (ix2 n q) * Wh (ix2 q j)) + bh (ix1 j) := by
  unfold Cert.RefStages.head
  rw [addf_apply]
  refine congrArg₂ (· + ·) ?_ ?_
  · show FloatOps.dotGeneral dot_S50000x128_S128x40_S50000x40_1_0_0_1_n_n none .single f Wh (ix2 n j) = _
    rw [Ideal.dotGeneral_apply, ← Equiv.sum_comp (contrEquiv1 dot_S50000x128_S128x40_S50000x40_1_0_0_1_n_n 128 rfl rfl).symm]
    refine Finset.sum_congr rfl fun k _ => ?_
    have hk := contrEquiv1_symm_val dot_S50000x128_S128x40_S50000x40_1_0_0_1_n_n 128 rfl rfl k
    have el : dot_S50000x128_S128x40_S50000x40_1_0_0_1_n_n.lhsIdx (ix2 n j) ((contrEquiv1 dot_S50000x128_S128x40_S50000x40_1_0_0_1_n_n 128 rfl rfl).symm k) = ix2 n k :=
      funext fun a => Fin.ext (by
        match a with
        | ⟨0, _⟩ => exact head_lhs_0 _ _
        | ⟨1, _⟩ => exact (dot_S50000x128_S128x40_S50000x40_1_0_0_1_n_n.lhsIdx_val_of_single rfl _ _).trans hk)
    have er : dot_S50000x128_S128x40_S50000x40_1_0_0_1_n_n.rhsIdx (ix2 n j) ((contrEquiv1 dot_S50000x128_S128x40_S50000x40_1_0_0_1_n_n 128 rfl rfl).symm k) = ix2 k j :=
      funext fun a => Fin.ext (by
        match a with
        | ⟨0, _⟩ => exact (dot_S50000x128_S128x40_S50000x40_1_0_0_1_n_n.rhsIdx_val_of_single rfl _ _).trans hk
        | ⟨1, _⟩ => exact head_rhs_1 _ _)
    rw [el, er]
  · refine (broadcastInDim_apply _ bcast_S1x40_S50000x40_0_1 _ (ix2 n j) (ix2 (0 : Fin 1) j) fun a => ?_).trans
      (broadcastInDim_apply _ bcast_S40_S1x40_1 bh (ix2 (0 : Fin 1) j) (ix1 j) fun a => ?_)
    · match a with
      | ⟨0, _⟩ => rfl
      | ⟨1, _⟩ => rfl
    · match a with
      | ⟨0, _⟩ => rfl

/-! ## The row-wise log-softmax -/

/-- The maximum of row n, folded from the bottom element. -/
def rowMax (c : (⟨2, ![50000, 128]⟩ : Shape).Idx → EReal) (n : Fin 50000) : EReal :=
  (Finset.univ : Finset (Fin 128)).fold max ⊥ fun q => c (ix2 n q)

/-- The entry (n, q) less its row's maximum. -/
def rowShift (c : (⟨2, ![50000, 128]⟩ : Shape).Idx → EReal) (n : Fin 50000) (q : Fin 128) : EReal :=
  c (ix2 n q) - rowMax c n

/-- The logarithm of the row's sum of exponentials of the shifted entries. -/
def rowLogSumExp (c : (⟨2, ![50000, 128]⟩ : Shape).Idx → EReal) (n : Fin 50000) : EReal :=
  Ideal.log (∑ q : Fin 128, Ideal.exp (rowShift c n q))

/-- The row-wise log-softmax at (n, q). -/
def rowLogSoftmax (c : (⟨2, ![50000, 128]⟩ : Shape).Idx → EReal) (n : Fin 50000) (q : Fin 128) : EReal :=
  rowShift c n q - rowLogSumExp c n

/-- The word of minus infinity is the bottom element. -/
theorem ofBits_neg_inf : Ideal.ofBits .f32 0xFF800000#32 = ⊥ := by
  simp [Ideal.ofBits, Ideal.ieee]

/-- The index a reduction along the features reads: row n with the feature coordinate inserted. -/
theorem lift_row (h : S50000x128.Reduces [1] S50000) (n : Fin 50000) (q : Fin 128) : h.lift (ix1 n) q = ix2 n q :=
  funext fun a => Fin.ext (by
    match a with
    | ⟨0, _⟩ => rfl
    | ⟨1, _⟩ => rfl)

/-- The row maximum as the reference takes it: from minus infinity, then once more against minus infinity. -/
theorem refRowMax_apply (c : FVec Ideal S50000x128 .f32) (n : Fin 50000) :
    maximumf (broadcastInDim S50000 ![] bcast_S_S50000 (constant (F := Ideal) S_ .f32 0xFF800000#32))
      (Host.reduce FloatOps.maximumf c (constant (F := Ideal) S_ .f32 0xFF800000#32) reducesTo_S50000x128_S50000_d1 h_S_) (ix1 n)
      = rowMax c n := by
  have h : S50000x128.Reduces [1] S50000 := by decide
  rw [maximumf_apply, Host.reduce_eq_fold_single FloatOps.maximumf c _ reducesTo_S50000x128_S50000_d1 h h_S_]
  show max (Ideal.ofBits .f32 0xFF800000#32)
      ((Finset.univ : Finset (Fin 128)).fold max (Ideal.ofBits .f32 0xFF800000#32) (fun q => c (h.lift (ix1 n) q))) = _
  rw [ofBits_neg_inf, max_eq_right bot_le]
  unfold rowMax
  refine congrArg (fun g : Fin 128 → EReal => (Finset.univ : Finset (Fin 128)).fold max ⊥ g) (funext fun q => ?_)
  exact congrArg c (lift_row h n q)

/-- An entry less its row's maximum, as the reference computes it. -/
theorem shifted_apply (c : FVec Ideal S50000x128 .f32) (n : Fin 50000) (j : Fin 128) :
    Cert.RefStages.shifted c (ix2 n j) = rowShift c n j := by
  unfold Cert.RefStages.shifted Cert.RefStages.rowWide
  rw [subf_apply, bcast_e1_ed_apply, bcast_e_e1_apply, refRowMax_apply]
  rfl

/-- The host's logarithm and exponential at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The reference's log-softmax at (n, j). -/
theorem logSoftmax_apply (c : FVec Ideal S50000x128 .f32) (n : Fin 50000) (j : Fin 128) :
    Cert.RefStages.logSoftmax c (ix2 n j) = rowLogSoftmax c n j := by
  have h : S50000x128.Reduces [1] S50000 := by decide
  unfold Cert.RefStages.logSoftmax
  rw [subf_apply, shifted_apply, bcast_e1_ed_apply, hostLog_apply, bcast_e_e1_apply, hostReduceAdd_apply,
    Ideal.hostReduceAdd_single reducesTo_S50000x128_S50000_d1 h, constant_apply, Ideal.ofBits_zero_f32, zero_add]
  unfold rowLogSoftmax rowLogSumExp
  refine congrArg (fun s => rowShift c n j - Ideal.log s) (Finset.sum_congr rfl fun q _ => ?_)
  rw [hostExp_apply, lift_row h n q]
  exact congrArg Ideal.exp (shifted_apply c n q)

end Cert.StageAt

end
-- ==== Proof.KI.Bridge0.lean ====
/- Stage 0 of the kernel program against the reference's stages: the first region's array is the reference's first
   product x · W0. -/
import proofs.«135915_j24266565222462_2_alg».proof.Proof.KI.Carry2
import proofs.«135915_j24266565222462_2_alg».proof.Proof.KI.Host0
import proofs.«135915_j24266565222462_2_alg».proof.Proof.V.RegAt0
import proofs.«135915_j24266565222462_2_alg».proof.Proof.V.StageAt

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The argument arrays as launched on core `c`. -/
abbrev argA (c : Dev nD) (b : Ref sig .tc) := m ((c.tc : Thread nD τ).loc b)

set_option maxHeartbeats 4000000 in
theorem arr0_eq (c : Dev nD) :
    arr0 m c = (Cert.RefStages.h0 (argA m c main_arg0) (argA m c main_arg3) : FVec Ideal S50000x128 .f32) := by
  unfold arr0
  rw [final0]
  funext i
  obtain ⟨n, j, rfl⟩ : ∃ (n : Fin 50000) (j : Fin 128), i = ix2 n j := ⟨i 0, i 1, eq_ix2 i⟩
  rw [G0_apply]
  have e0 : A0_0 (atRefs (W1 m)) c = argA m c main_arg0 := carry_main_arg0_0_1 m c
  have e1 : A0_1 (atRefs (W1 m)) c = argA m c main_arg3 := carry_main_arg3_0_1 m c
  rw [e0, e1]
  exact (Cert.StageAt.lin_apply _ _ n j).symm

end Cert.KernelIdeal.Hand

end
-- ==== Proof.V.AggTerms.lean ====
/-
  The edge aggregation of one, two and three terms at once, against the aggregation of each term by itself.

  THE STACKS. A matrix h : [50000, 128] becomes a one-member stack [50000, 1, 128] by a broadcast that sends its axes to
  axes 0 and 2; two or three such one-member stacks are concatenated along axis 1. Entry (r, k, d) of the stack is entry
  (r, d) of its k-th member: the concatenation's k-th piece begins at position k along the axis, each piece being one wide.

  THE TERMS. With K members stacked, one gather by the source indices, one multiplication by the edge weights, one
  row-major relayout to [600000, K·128] and one scatter-add by the target indices into zeros give an array [50000, K·128]
  whose columns k·128 … k·128 + 127 are the aggregation of member k alone: gather its rows by the source indices, times
  the edge weights, scatter-add by the target indices into zeros [50000, 128]. Entry by entry both are the zero scalar
  plus the sum, over the edges whose target is the row, of the member's entry at the edge's source row (read signed,
  clamped into the rows) times the edge's weight; an edge whose target is no row contributes to neither.
-/
import proofs.«135915_j24266565222462_2_alg».proof.Proof.Gen.KernelIdeal
import proofs.«135915_j24266565222462_2_alg».proof.Proof.V.RefStages
import proofs.«135915_j24266565222462_2_alg».proof.Proof.V.AggPipeline

noncomputable section

namespace Cert.Agg

open Idealize.ShloMosaic Idealize.ShloMosaic.ValueIdx Idealize.ShloMosaic.AggRows

variable [Cert.KernelIdeal.Facts₀]

/-- The one-member stack at (r, 0, d). -/
theorem stack1_apply (h0 : FVec Ideal Cert.KernelIdeal.S50000x128 .f32) (r : Fin 50000) (d : Fin 128) :
    (broadcastInDim Cert.KernelIdeal.S50000x1x128 ![0, 2] Cert.KernelIdeal.Facts₀.bcast_S50000x128_S50000x1x128_0_2 h0) (ix3 r (0 : Fin 1) d) = h0 (ix2 r d) :=
  bcast_nd_n1d_apply h0 _ r (0 : Fin 1) d

/-- The two-member stack at (r, 0, d): member 0. -/
theorem stack2_apply_0 (h0 h1 : FVec Ideal Cert.KernelIdeal.S50000x128 .f32) (r : Fin 50000) (d : Fin 128) :
    (concatenate Cert.KernelIdeal.S50000x2x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩]
                Cert.KernelIdeal.Facts₀.concatenates_S50000x1x128_S50000x1x128_S50000x2x128_d1) (ix3 r (0 : Fin 2) d) = h0 (ix2 r d) := by
  refine (concatenate_apply_piece _ _ _ (ix3 r (0 : Fin 2) d) 0 (by simp) Cert.KernelIdeal.S50000x1x128
    (broadcastInDim Cert.KernelIdeal.S50000x1x128 ![0, 2] Cert.KernelIdeal.Facts₀.bcast_S50000x128_S50000x1x128_0_2 h0) rfl rfl 0 rfl
    (ix3 r (0 : Fin 1) d) (fun b hb => ?_) rfl).trans (bcast_nd_n1d_apply h0 _ r (0 : Fin 1) d)
  match b with
  | ⟨0, _⟩ => rfl
  | ⟨1, _⟩ => exact absurd rfl hb
  | ⟨2, _⟩ => rfl

/-- The two-member stack at (r, 1, d): member 1. -/
theorem stack2_apply_1 (h0 h1 : FVec Ideal Cert.KernelIdeal.S50000x128 .f32) (r : Fin 50000) (d : Fin 128) :
    (concatenate Cert.KernelIdeal.S50000x2x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩]
                Cert.KernelIdeal.Facts₀.concatenates_S50000x1x128_S50000x1x128_S50000x2x128_d1) (ix3 r (1 : Fin 2) d) = h1 (ix2 r d) := by
  refine (concatenate_apply_piece _ _ _ (ix3 r (1 : Fin 2) d) 1 (by simp) Cert.KernelIdeal.S50000x1x128
    (broadcastInDim Cert.KernelIdeal.S50000x1x128 ![0, 2] Cert.KernelIdeal.Facts₀.bcast_S50000x128_S50000x1x128_0_2 h1) rfl rfl 1 rfl
    (ix3 r (0 : Fin 1) d) (fun b hb => ?_) rfl).trans (bcast_nd_n1d_apply h1 _ r (0 : Fin 1) d)
  match b with
  | ⟨0, _⟩ => rfl
  | ⟨1, _⟩ => exact absurd rfl hb
  | ⟨2, _⟩ => rfl

/-- The three-member stack at (r, 0, d): member 0. -/
theorem stack3_apply_0 (h0 h1 h2 : FVec Ideal Cert.KernelIdeal.S50000x128 .f32) (r : Fin 50000) (d : Fin 128) :
    (concatenate Cert.KernelIdeal.S50000x3x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩,
                ⟨Cert.KernelIdeal.S50000x1x128, (broadcastInDim Cert.KernelIdeal.S50000x1x128 ![0, 2] Cert.KernelIdeal.Facts₀.bcast_S50000x128_S50000x1x128_0_2 h2)⟩]
                Cert.KernelIdeal.Facts₀.concatenates_S50000x1x128_S50000x1x128_S50000x1x128_S50000x3x128_d1) (ix3 r (0 : Fin 3) d) = h0 (ix2 r d) := by
  refine (concatenate_apply_piece _ _ _ (ix3 r (0 : Fin 3) d) 0 (by simp) Cert.KernelIdeal.S50000x1x128
    (broadcastInDim Cert.KernelIdeal.S50000x1x128 ![0, 2] Cert.KernelIdeal.Facts₀.bcast_S50000x128_S50000x1x128_0_2 h0) rfl rfl 0 rfl
    (ix3 r (0 : Fin 1) d) (fun b hb => ?_) rfl).trans (bcast_nd_n1d_apply h0 _ r (0 : Fin 1) d)
  match b with
  | ⟨0, _⟩ => rfl
  | ⟨1, _⟩ => exact absurd rfl hb
  | ⟨2, _⟩ => rfl

/-- The three-member stack at (r, 1, d): member 1. -/
theorem stack3_apply_1 (h0 h1 h2 : FVec Ideal Cert.KernelIdeal.S50000x128 .f32) (r : Fin 50000) (d : Fin 128) :
    (concatenate Cert.KernelIdeal.S50000x3x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩,
                ⟨Cert.KernelIdeal.S50000x1x128, (broadcastInDim Cert.KernelIdeal.S50000x1x128 ![0, 2] Cert.KernelIdeal.Facts₀.bcast_S50000x128_S50000x1x128_0_2 h2)⟩]
                Cert.KernelIdeal.Facts₀.concatenates_S50000x1x128_S50000x1x128_S50000x1x128_S50000x3x128_d1) (ix3 r (1 : Fin 3) d) = h1 (ix2 r d) := by
  refine (concatenate_apply_piece _ _ _ (ix3 r (1 : Fin 3) d) 1 (by simp) Cert.KernelIdeal.S50000x1x128
    (broadcastInDim Cert.KernelIdeal.S50000x1x128 ![0, 2] Cert.KernelIdeal.Facts₀.bcast_S50000x128_S50000x1x128_0_2 h1) rfl rfl 1 rfl
    (ix3 r (0 : Fin 1) d) (fun b hb => ?_) rfl).trans (bcast_nd_n1d_apply h1 _ r (0 : Fin 1) d)
  match b with
  | ⟨0, _⟩ => rfl
  | ⟨1, _⟩ => exact absurd rfl hb
  | ⟨2, _⟩ => rfl

/-- The three-member stack at (r, 2, d): member 2. -/
theorem stack3_apply_2 (h0 h1 h2 : FVec Ideal Cert.KernelIdeal.S50000x128 .f32) (r : Fin 50000) (d : Fin 128) :
    (concatenate Cert.KernelIdeal.S50000x3x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩,
                ⟨Cert.KernelIdeal.S50000x1x128, (broadcastInDim Cert.KernelIdeal.S50000x1x128 ![0, 2] Cert.KernelIdeal.Facts₀.bcast_S50000x128_S50000x1x128_0_2 h2)⟩]
                Cert.KernelIdeal.Facts₀.concatenates_S50000x1x128_S50000x1x128_S50000x1x128_S50000x3x128_d1) (ix3 r (2 : Fin 3) d) = h2 (ix2 r d) := by
  refine (concatenate_apply_piece _ _ _ (ix3 r (2 : Fin 3) d) 2 (by simp) Cert.KernelIdeal.S50000x1x128
    (broadcastInDim Cert.KernelIdeal.S50000x1x128 ![0, 2] Cert.KernelIdeal.Facts₀.bcast_S50000x128_S50000x1x128_0_2 h2) rfl rfl 2 rfl
    (ix3 r (0 : Fin 1) d) (fun b hb => ?_) rfl).trans (bcast_nd_n1d_apply h2 _ r (0 : Fin 1) d)
  match b with
  | ⟨0, _⟩ => rfl
  | ⟨1, _⟩ => exact absurd rfl hb
  | ⟨2, _⟩ => rfl

variable [Cert.ReferenceIdeal.Facts₀]

/-! ## The aggregated terms: a column slice of the stacked pipeline is the per-term pipeline of its member -/

/-- One term (K = 1): the stacked pipeline over the one-member stack is the per-term pipeline. No column slice: the
    scatter's result is already [50000, 128]. -/
theorem agg1 (h0 : FVec Ideal Cert.KernelIdeal.S50000x128 .f32) (srcN dstI : IVec Cert.KernelIdeal.S600000x1 32)
    (nrm : FVec Ideal Cert.KernelIdeal.S600000 .f32) :
    (Host.scatterAdd (F := Ideal) (φ := .f32) Cert.KernelIdeal.scatter_S50000x128_S600000x1_S600000x128_1_0_0_1
        (broadcastInDim Cert.KernelIdeal.S50000x128 ![] Cert.KernelIdeal.Facts₀.bcast_S_S50000x128 (constant (F := Ideal) Cert.KernelIdeal.S_ .f32 0x00000000#32)) dstI
        (shapeCast Cert.KernelIdeal.S600000x128
          (mulf (Host.gather Cert.KernelIdeal.gather_S50000x1x128_S600000x1_S600000x1x128_12_0_n_n_0_1_11128
              (broadcastInDim Cert.KernelIdeal.S50000x1x128 ![0, 2] Cert.KernelIdeal.Facts₀.bcast_S50000x128_S50000x1x128_0_2 h0) srcN)
            (broadcastInDim Cert.KernelIdeal.S600000x1x128 ![0, 1, 2] Cert.KernelIdeal.Facts₀.bcast_S600000x1x1_S600000x1x128_0_1_2
              (broadcastInDim Cert.KernelIdeal.S600000x1x1 ![0] Cert.KernelIdeal.Facts₀.bcast_S600000_S600000x1x1_0 nrm)))
          Cert.KernelIdeal.Facts₀.shapeCasts_S600000x1x128_S600000x128))
      = Host.scatterAdd (F := Ideal) (φ := .f32) Cert.ReferenceIdeal.scatter_S50000x128_S600000x1_S600000x128_1_0_0_1
        (broadcastInDim Cert.ReferenceIdeal.S50000x128 ![] Cert.ReferenceIdeal.Facts₀.bcast_S_S50000x128 (constant (F := Ideal) Cert.ReferenceIdeal.S_ .f32 0x00000000#32)) dstI
        (mulf (Host.gather Cert.ReferenceIdeal.gather_S50000x128_S600000x1_S600000x128_1_0_n_n_0_1_1128 h0 srcN)
          (broadcastInDim Cert.ReferenceIdeal.S600000x128 ![0, 1] Cert.ReferenceIdeal.Facts₀.bcast_S600000x1_S600000x128_0_1
            (broadcastInDim Cert.ReferenceIdeal.S600000x1 ![0] Cert.ReferenceIdeal.Facts₀.bcast_S600000_S600000x1_0 nrm))) := by
  funext j
  obtain ⟨n, d, rfl⟩ : ∃ (n : Fin 50000) (d : Fin 128), j = ix2 n d := ⟨j 0, j 1, eq_ix2 j⟩
  refine (stack_agg_apply (N := 50000) (K := 1) (D := 128) (E := 600000) (C := 128) (by decide) rfl
    Cert.KernelIdeal.Facts₀.gather_S50000x1x128_S600000x1_S600000x1x128_12_0_n_n_0_1_11128_wf
    Cert.KernelIdeal.Facts₀.scatter_S50000x128_S600000x1_S600000x128_1_0_0_1_wf
    Cert.KernelIdeal.Facts₀.bcast_S600000_S600000x1x1_0 Cert.KernelIdeal.Facts₀.bcast_S600000x1x1_S600000x1x128_0_1_2
    Cert.KernelIdeal.Facts₀.shapeCasts_S600000x1x128_S600000x128 Cert.KernelIdeal.Facts₀.bcast_S_S50000x128
    _ srcN dstI nrm (constant (F := Ideal) Cert.KernelIdeal.S_ .f32 0x00000000#32) n (0 : Fin 1) d d
    (show d.val = 0 * 128 + d.val by omega)).trans ?_
  refine Eq.trans ?_ (row_agg_apply (N := 50000) (D := 128) (E := 600000) (by decide)
    Cert.ReferenceIdeal.Facts₀.gather_S50000x128_S600000x1_S600000x128_1_0_n_n_0_1_1128_wf
    Cert.ReferenceIdeal.Facts₀.scatter_S50000x128_S600000x1_S600000x128_1_0_0_1_wf
    Cert.ReferenceIdeal.Facts₀.bcast_S600000_S600000x1_0 Cert.ReferenceIdeal.Facts₀.bcast_S600000x1_S600000x128_0_1 Cert.ReferenceIdeal.Facts₀.bcast_S_S50000x128
    h0 srcN dstI nrm (constant (F := Ideal) Cert.ReferenceIdeal.S_ .f32 0x00000000#32) n d).symm
  exact congrArg (_ + ·) (Finset.sum_congr rfl fun e _ => congrArg (· * _) (stack1_apply h0 _ d))

/-- Two terms (K = 2), columns 0 … 127: the per-term pipeline of member 0. -/
theorem agg2_0 (h0 h1 : FVec Ideal Cert.KernelIdeal.S50000x128 .f32) (srcN dstI : IVec Cert.KernelIdeal.S600000x1 32)
    (nrm : FVec Ideal Cert.KernelIdeal.S600000 .f32) :
    extractStridedSlice Cert.KernelIdeal.S50000x128 ![0, 0]
      (Host.scatterAdd (F := Ideal) (φ := .f32) Cert.KernelIdeal.scatter_S50000x256_S600000x1_S600000x256_1_0_0_1
        (broadcastInDim Cert.KernelIdeal.S50000x256 ![] Cert.KernelIdeal.Facts₀.bcast_S_S50000x256 (constant (F := Ideal) Cert.KernelIdeal.S_ .f32 0x00000000#32)) dstI
        (shapeCast Cert.KernelIdeal.S600000x256
          (mulf (Host.gather Cert.KernelIdeal.gather_S50000x2x128_S600000x1_S600000x2x128_12_0_n_n_0_1_12128
              (concatenate Cert.KernelIdeal.S50000x2x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩]
                Cert.KernelIdeal.Facts₀.concatenates_S50000x1x128_S50000x1x128_S50000x2x128_d1) srcN)
            (broadcastInDim Cert.KernelIdeal.S600000x2x128 ![0, 1, 2] Cert.KernelIdeal.Facts₀.bcast_S600000x1x1_S600000x2x128_0_1_2
              (broadcastInDim Cert.KernelIdeal.S600000x1x1 ![0] Cert.KernelIdeal.Facts₀.bcast_S600000_S600000x1x1_0 nrm)))
          Cert.KernelIdeal.Facts₀.shapeCasts_S600000x2x128_S600000x256))
      Cert.KernelIdeal.Facts₀.slices_S50000x256_S50000x128_0_0
      = Host.scatterAdd (F := Ideal) (φ := .f32) Cert.ReferenceIdeal.scatter_S50000x128_S600000x1_S600000x128_1_0_0_1
        (broadcastInDim Cert.ReferenceIdeal.S50000x128 ![] Cert.ReferenceIdeal.Facts₀.bcast_S_S50000x128 (constant (F := Ideal) Cert.ReferenceIdeal.S_ .f32 0x00000000#32)) dstI
        (mulf (Host.gather Cert.ReferenceIdeal.gather_S50000x128_S600000x1_S600000x128_1_0_n_n_0_1_1128 h0 srcN)
          (broadcastInDim Cert.ReferenceIdeal.S600000x128 ![0, 1] Cert.ReferenceIdeal.Facts₀.bcast_S600000x1_S600000x128_0_1
            (broadcastInDim Cert.ReferenceIdeal.S600000x1 ![0] Cert.ReferenceIdeal.Facts₀.bcast_S600000_S600000x1_0 nrm))) := by
  funext j
  obtain ⟨n, d, rfl⟩ : ∃ (n : Fin 50000) (d : Fin 128), j = ix2 n d := ⟨j 0, j 1, eq_ix2 j⟩
  refine (extractStridedSlice_apply _ _ _ (ix2 n d) (ix2 n (⟨0 + d.val, by omega⟩ : Fin 256)) (fun a => by
    match a with
    | ⟨0, _⟩ => exact (Nat.zero_add _).symm
    | ⟨1, _⟩ => rfl)).trans ?_
  refine (stack_agg_apply (N := 50000) (K := 2) (D := 128) (E := 600000) (C := 256) (by decide) rfl
    Cert.KernelIdeal.Facts₀.gather_S50000x2x128_S600000x1_S600000x2x128_12_0_n_n_0_1_12128_wf
    Cert.KernelIdeal.Facts₀.scatter_S50000x256_S600000x1_S600000x256_1_0_0_1_wf
    Cert.KernelIdeal.Facts₀.bcast_S600000_S600000x1x1_0 Cert.KernelIdeal.Facts₀.bcast_S600000x1x1_S600000x2x128_0_1_2
    Cert.KernelIdeal.Facts₀.shapeCasts_S600000x2x128_S600000x256 Cert.KernelIdeal.Facts₀.bcast_S_S50000x256
    _ srcN dstI nrm (constant (F := Ideal) Cert.KernelIdeal.S_ .f32 0x00000000#32) n (0 : Fin 2) d (⟨0 + d.val, by omega⟩ : Fin 256)
    (show 0 + d.val = 0 * 128 + d.val by omega)).trans ?_
  refine Eq.trans ?_ (row_agg_apply (N := 50000) (D := 128) (E := 600000) (by decide)
    Cert.ReferenceIdeal.Facts₀.gather_S50000x128_S600000x1_S600000x128_1_0_n_n_0_1_1128_wf
    Cert.ReferenceIdeal.Facts₀.scatter_S50000x128_S600000x1_S600000x128_1_0_0_1_wf
    Cert.ReferenceIdeal.Facts₀.bcast_S600000_S600000x1_0 Cert.ReferenceIdeal.Facts₀.bcast_S600000x1_S600000x128_0_1 Cert.ReferenceIdeal.Facts₀.bcast_S_S50000x128
    h0 srcN dstI nrm (constant (F := Ideal) Cert.ReferenceIdeal.S_ .f32 0x00000000#32) n d).symm
  exact congrArg (_ + ·) (Finset.sum_congr rfl fun e _ => congrArg (· * _) (stack2_apply_0 h0 h1 _ d))

/-- Two terms (K = 2), columns 128 … 255: the per-term pipeline of member 1. -/
theorem agg2_1 (h0 h1 : FVec Ideal Cert.KernelIdeal.S50000x128 .f32) (srcN dstI : IVec Cert.KernelIdeal.S600000x1 32)
    (nrm : FVec Ideal Cert.KernelIdeal.S600000 .f32) :
    extractStridedSlice Cert.KernelIdeal.S50000x128 ![0, 128]
      (Host.scatterAdd (F := Ideal) (φ := .f32) Cert.KernelIdeal.scatter_S50000x256_S600000x1_S600000x256_1_0_0_1
        (broadcastInDim Cert.KernelIdeal.S50000x256 ![] Cert.KernelIdeal.Facts₀.bcast_S_S50000x256 (constant (F := Ideal) Cert.KernelIdeal.S_ .f32 0x00000000#32)) dstI
        (shapeCast Cert.KernelIdeal.S600000x256
          (mulf (Host.gather Cert.KernelIdeal.gather_S50000x2x128_S600000x1_S600000x2x128_12_0_n_n_0_1_12128
              (concatenate Cert.KernelIdeal.S50000x2x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩]
                Cert.KernelIdeal.Facts₀.concatenates_S50000x1x128_S50000x1x128_S50000x2x128_d1) srcN)
            (broadcastInDim Cert.KernelIdeal.S600000x2x128 ![0, 1, 2] Cert.KernelIdeal.Facts₀.bcast_S600000x1x1_S600000x2x128_0_1_2
              (broadcastInDim Cert.KernelIdeal.S600000x1x1 ![0] Cert.KernelIdeal.Facts₀.bcast_S600000_S600000x1x1_0 nrm)))
          Cert.KernelIdeal.Facts₀.shapeCasts_S600000x2x128_S600000x256))
      Cert.KernelIdeal.Facts₀.slices_S50000x256_S50000x128_0_128
      = Host.scatterAdd (F := Ideal) (φ := .f32) Cert.ReferenceIdeal.scatter_S50000x128_S600000x1_S600000x128_1_0_0_1
        (broadcastInDim Cert.ReferenceIdeal.S50000x128 ![] Cert.ReferenceIdeal.Facts₀.bcast_S_S50000x128 (constant (F := Ideal) Cert.ReferenceIdeal.S_ .f32 0x00000000#32)) dstI
        (mulf (Host.gather Cert.ReferenceIdeal.gather_S50000x128_S600000x1_S600000x128_1_0_n_n_0_1_1128 h1 srcN)
          (broadcastInDim Cert.ReferenceIdeal.S600000x128 ![0, 1] Cert.ReferenceIdeal.Facts₀.bcast_S600000x1_S600000x128_0_1
            (broadcastInDim Cert.ReferenceIdeal.S600000x1 ![0] Cert.ReferenceIdeal.Facts₀.bcast_S600000_S600000x1_0 nrm))) := by
  funext j
  obtain ⟨n, d, rfl⟩ : ∃ (n : Fin 50000) (d : Fin 128), j = ix2 n d := ⟨j 0, j 1, eq_ix2 j⟩
  refine (extractStridedSlice_apply _ _ _ (ix2 n d) (ix2 n (⟨128 + d.val, by omega⟩ : Fin 256)) (fun a => by
    match a with
    | ⟨0, _⟩ => exact (Nat.zero_add _).symm
    | ⟨1, _⟩ => rfl)).trans ?_
  refine (stack_agg_apply (N := 50000) (K := 2) (D := 128) (E := 600000) (C := 256) (by decide) rfl
    Cert.KernelIdeal.Facts₀.gather_S50000x2x128_S600000x1_S600000x2x128_12_0_n_n_0_1_12128_wf
    Cert.KernelIdeal.Facts₀.scatter_S50000x256_S600000x1_S600000x256_1_0_0_1_wf
    Cert.KernelIdeal.Facts₀.bcast_S600000_S600000x1x1_0 Cert.KernelIdeal.Facts₀.bcast_S600000x1x1_S600000x2x128_0_1_2
    Cert.KernelIdeal.Facts₀.shapeCasts_S600000x2x128_S600000x256 Cert.KernelIdeal.Facts₀.bcast_S_S50000x256
    _ srcN dstI nrm (constant (F := Ideal) Cert.KernelIdeal.S_ .f32 0x00000000#32) n (1 : Fin 2) d (⟨128 + d.val, by omega⟩ : Fin 256)
    (show 128 + d.val = 1 * 128 + d.val by omega)).trans ?_
  refine Eq.trans ?_ (row_agg_apply (N := 50000) (D := 128) (E := 600000) (by decide)
    Cert.ReferenceIdeal.Facts₀.gather_S50000x128_S600000x1_S600000x128_1_0_n_n_0_1_1128_wf
    Cert.ReferenceIdeal.Facts₀.scatter_S50000x128_S600000x1_S600000x128_1_0_0_1_wf
    Cert.ReferenceIdeal.Facts₀.bcast_S600000_S600000x1_0 Cert.ReferenceIdeal.Facts₀.bcast_S600000x1_S600000x128_0_1 Cert.ReferenceIdeal.Facts₀.bcast_S_S50000x128
    h1 srcN dstI nrm (constant (F := Ideal) Cert.ReferenceIdeal.S_ .f32 0x00000000#32) n d).symm
  exact congrArg (_ + ·) (Finset.sum_congr rfl fun e _ => congrArg (· * _) (stack2_apply_1 h0 h1 _ d))

/-- Three terms (K = 3), columns 0 … 127: the per-term pipeline of member 0. -/
theorem agg3_0 (h0 h1 h2 : FVec Ideal Cert.KernelIdeal.S50000x128 .f32) (srcN dstI : IVec Cert.KernelIdeal.S600000x1 32)
    (nrm : FVec Ideal Cert.KernelIdeal.S600000 .f32) :
    extractStridedSlice Cert.KernelIdeal.S50000x128 ![0, 0]
      (Host.scatterAdd (F := Ideal) (φ := .f32) Cert.KernelIdeal.scatter_S50000x384_S600000x1_S600000x384_1_0_0_1
        (broadcastInDim Cert.KernelIdeal.S50000x384 ![] Cert.KernelIdeal.Facts₀.bcast_S_S50000x384 (constant (F := Ideal) Cert.KernelIdeal.S_ .f32 0x00000000#32)) dstI
        (shapeCast Cert.KernelIdeal.S600000x384
          (mulf (Host.gather Cert.KernelIdeal.gather_S50000x3x128_S600000x1_S600000x3x128_12_0_n_n_0_1_13128
              (concatenate Cert.KernelIdeal.S50000x3x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩,
                ⟨Cert.KernelIdeal.S50000x1x128, (broadcastInDim Cert.KernelIdeal.S50000x1x128 ![0, 2] Cert.KernelIdeal.Facts₀.bcast_S50000x128_S50000x1x128_0_2 h2)⟩]
                Cert.KernelIdeal.Facts₀.concatenates_S50000x1x128_S50000x1x128_S50000x1x128_S50000x3x128_d1) srcN)
            (broadcastInDim Cert.KernelIdeal.S600000x3x128 ![0, 1, 2] Cert.KernelIdeal.Facts₀.bcast_S600000x1x1_S600000x3x128_0_1_2
              (broadcastInDim Cert.KernelIdeal.S600000x1x1 ![0] Cert.KernelIdeal.Facts₀.bcast_S600000_S600000x1x1_0 nrm)))
          Cert.KernelIdeal.Facts₀.shapeCasts_S600000x3x128_S600000x384))
      Cert.KernelIdeal.Facts₀.slices_S50000x384_S50000x128_0_0
      = Host.scatterAdd (F := Ideal) (φ := .f32) Cert.ReferenceIdeal.scatter_S50000x128_S600000x1_S600000x128_1_0_0_1
        (broadcastInDim Cert.ReferenceIdeal.S50000x128 ![] Cert.ReferenceIdeal.Facts₀.bcast_S_S50000x128 (constant (F := Ideal) Cert.ReferenceIdeal.S_ .f32 0x00000000#32)) dstI
        (mulf (Host.gather Cert.ReferenceIdeal.gather_S50000x128_S600000x1_S600000x128_1_0_n_n_0_1_1128 h0 srcN)
          (broadcastInDim Cert.ReferenceIdeal.S600000x128 ![0, 1] Cert.ReferenceIdeal.Facts₀.bcast_S600000x1_S600000x128_0_1
            (broadcastInDim Cert.ReferenceIdeal.S600000x1 ![0] Cert.ReferenceIdeal.Facts₀.bcast_S600000_S600000x1_0 nrm))) := by
  funext j
  obtain ⟨n, d, rfl⟩ : ∃ (n : Fin 50000) (d : Fin 128), j = ix2 n d := ⟨j 0, j 1, eq_ix2 j⟩
  refine (extractStridedSlice_apply _ _ _ (ix2 n d) (ix2 n (⟨0 + d.val, by omega⟩ : Fin 384)) (fun a => by
    match a with
    | ⟨0, _⟩ => exact (Nat.zero_add _).symm
    | ⟨1, _⟩ => rfl)).trans ?_
  refine (stack_agg_apply (N := 50000) (K := 3) (D := 128) (E := 600000) (C := 384) (by decide) rfl
    Cert.KernelIdeal.Facts₀.gather_S50000x3x128_S600000x1_S600000x3x128_12_0_n_n_0_1_13128_wf
    Cert.KernelIdeal.Facts₀.scatter_S50000x384_S600000x1_S600000x384_1_0_0_1_wf
    Cert.KernelIdeal.Facts₀.bcast_S600000_S600000x1x1_0 Cert.KernelIdeal.Facts₀.bcast_S600000x1x1_S600000x3x128_0_1_2
    Cert.KernelIdeal.Facts₀.shapeCasts_S600000x3x128_S600000x384 Cert.KernelIdeal.Facts₀.bcast_S_S50000x384
    _ srcN dstI nrm (constant (F := Ideal) Cert.KernelIdeal.S_ .f32 0x00000000#32) n (0 : Fin 3) d (⟨0 + d.val, by omega⟩ : Fin 384)
    (show 0 + d.val = 0 * 128 + d.val by omega)).trans ?_
  refine Eq.trans ?_ (row_agg_apply (N := 50000) (D := 128) (E := 600000) (by decide)
    Cert.ReferenceIdeal.Facts₀.gather_S50000x128_S600000x1_S600000x128_1_0_n_n_0_1_1128_wf
    Cert.ReferenceIdeal.Facts₀.scatter_S50000x128_S600000x1_S600000x128_1_0_0_1_wf
    Cert.ReferenceIdeal.Facts₀.bcast_S600000_S600000x1_0 Cert.ReferenceIdeal.Facts₀.bcast_S600000x1_S600000x128_0_1 Cert.ReferenceIdeal.Facts₀.bcast_S_S50000x128
    h0 srcN dstI nrm (constant (F := Ideal) Cert.ReferenceIdeal.S_ .f32 0x00000000#32) n d).symm
  exact congrArg (_ + ·) (Finset.sum_congr rfl fun e _ => congrArg (· * _) (stack3_apply_0 h0 h1 h2 _ d))

/-- Three terms (K = 3), columns 128 … 255: the per-term pipeline of member 1. -/
theorem agg3_1 (h0 h1 h2 : FVec Ideal Cert.KernelIdeal.S50000x128 .f32) (srcN dstI : IVec Cert.KernelIdeal.S600000x1 32)
    (nrm : FVec Ideal Cert.KernelIdeal.S600000 .f32) :
    extractStridedSlice Cert.KernelIdeal.S50000x128 ![0, 128]
      (Host.scatterAdd (F := Ideal) (φ := .f32) Cert.KernelIdeal.scatter_S50000x384_S600000x1_S600000x384_1_0_0_1
        (broadcastInDim Cert.KernelIdeal.S50000x384 ![] Cert.KernelIdeal.Facts₀.bcast_S_S50000x384 (constant (F := Ideal) Cert.KernelIdeal.S_ .f32 0x00000000#32)) dstI
        (shapeCast Cert.KernelIdeal.S600000x384
          (mulf (Host.gather Cert.KernelIdeal.gather_S50000x3x128_S600000x1_S600000x3x128_12_0_n_n_0_1_13128
              (concatenate Cert.KernelIdeal.S50000x3x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩,
                ⟨Cert.KernelIdeal.S50000x1x128, (broadcastInDim Cert.KernelIdeal.S50000x1x128 ![0, 2] Cert.KernelIdeal.Facts₀.bcast_S50000x128_S50000x1x128_0_2 h2)⟩]
                Cert.KernelIdeal.Facts₀.concatenates_S50000x1x128_S50000x1x128_S50000x1x128_S50000x3x128_d1) srcN)
            (broadcastInDim Cert.KernelIdeal.S600000x3x128 ![0, 1, 2] Cert.KernelIdeal.Facts₀.bcast_S600000x1x1_S600000x3x128_0_1_2
              (broadcastInDim Cert.KernelIdeal.S600000x1x1 ![0] Cert.KernelIdeal.Facts₀.bcast_S600000_S600000x1x1_0 nrm)))
          Cert.KernelIdeal.Facts₀.shapeCasts_S600000x3x128_S600000x384))
      Cert.KernelIdeal.Facts₀.slices_S50000x384_S50000x128_0_128
      = Host.scatterAdd (F := Ideal) (φ := .f32) Cert.ReferenceIdeal.scatter_S50000x128_S600000x1_S600000x128_1_0_0_1
        (broadcastInDim Cert.ReferenceIdeal.S50000x128 ![] Cert.ReferenceIdeal.Facts₀.bcast_S_S50000x128 (constant (F := Ideal) Cert.ReferenceIdeal.S_ .f32 0x00000000#32)) dstI
        (mulf (Host.gather Cert.ReferenceIdeal.gather_S50000x128_S600000x1_S600000x128_1_0_n_n_0_1_1128 h1 srcN)
          (broadcastInDim Cert.ReferenceIdeal.S600000x128 ![0, 1] Cert.ReferenceIdeal.Facts₀.bcast_S600000x1_S600000x128_0_1
            (broadcastInDim Cert.ReferenceIdeal.S600000x1 ![0] Cert.ReferenceIdeal.Facts₀.bcast_S600000_S600000x1_0 nrm))) := by
  funext j
  obtain ⟨n, d, rfl⟩ : ∃ (n : Fin 50000) (d : Fin 128), j = ix2 n d := ⟨j 0, j 1, eq_ix2 j⟩
  refine (extractStridedSlice_apply _ _ _ (ix2 n d) (ix2 n (⟨128 + d.val, by omega⟩ : Fin 384)) (fun a => by
    match a with
    | ⟨0, _⟩ => exact (Nat.zero_add _).symm
    | ⟨1, _⟩ => rfl)).trans ?_
  refine (stack_agg_apply (N := 50000) (K := 3) (D := 128) (E := 600000) (C := 384) (by decide) rfl
    Cert.KernelIdeal.Facts₀.gather_S50000x3x128_S600000x1_S600000x3x128_12_0_n_n_0_1_13128_wf
    Cert.KernelIdeal.Facts₀.scatter_S50000x384_S600000x1_S600000x384_1_0_0_1_wf
    Cert.KernelIdeal.Facts₀.bcast_S600000_S600000x1x1_0 Cert.KernelIdeal.Facts₀.bcast_S600000x1x1_S600000x3x128_0_1_2
    Cert.KernelIdeal.Facts₀.shapeCasts_S600000x3x128_S600000x384 Cert.KernelIdeal.Facts₀.bcast_S_S50000x384
    _ srcN dstI nrm (constant (F := Ideal) Cert.KernelIdeal.S_ .f32 0x00000000#32) n (1 : Fin 3) d (⟨128 + d.val, by omega⟩ : Fin 384)
    (show 128 + d.val = 1 * 128 + d.val by omega)).trans ?_
  refine Eq.trans ?_ (row_agg_apply (N := 50000) (D := 128) (E := 600000) (by decide)
    Cert.ReferenceIdeal.Facts₀.gather_S50000x128_S600000x1_S600000x128_1_0_n_n_0_1_1128_wf
    Cert.ReferenceIdeal.Facts₀.scatter_S50000x128_S600000x1_S600000x128_1_0_0_1_wf
    Cert.ReferenceIdeal.Facts₀.bcast_S600000_S600000x1_0 Cert.ReferenceIdeal.Facts₀.bcast_S600000x1_S600000x128_0_1 Cert.ReferenceIdeal.Facts₀.bcast_S_S50000x128
    h1 srcN dstI nrm (constant (F := Ideal) Cert.ReferenceIdeal.S_ .f32 0x00000000#32) n d).symm
  exact congrArg (_ + ·) (Finset.sum_congr rfl fun e _ => congrArg (· * _) (stack3_apply_1 h0 h1 h2 _ d))

/-- Three terms (K = 3), columns 256 … 383: the per-term pipeline of member 2. -/
theorem agg3_2 (h0 h1 h2 : FVec Ideal Cert.KernelIdeal.S50000x128 .f32) (srcN dstI : IVec Cert.KernelIdeal.S600000x1 32)
    (nrm : FVec Ideal Cert.KernelIdeal.S600000 .f32) :
    extractStridedSlice Cert.KernelIdeal.S50000x128 ![0, 256]
      (Host.scatterAdd (F := Ideal) (φ := .f32) Cert.KernelIdeal.scatter_S50000x384_S600000x1_S600000x384_1_0_0_1
        (broadcastInDim Cert.KernelIdeal.S50000x384 ![] Cert.KernelIdeal.Facts₀.bcast_S_S50000x384 (constant (F := Ideal) Cert.KernelIdeal.S_ .f32 0x00000000#32)) dstI
        (shapeCast Cert.KernelIdeal.S600000x384
          (mulf (Host.gather Cert.KernelIdeal.gather_S50000x3x128_S600000x1_S600000x3x128_12_0_n_n_0_1_13128
              (concatenate Cert.KernelIdeal.S50000x3x128 1 [⟨Cert.KernelIdeal.S50000x1x128, (broadcastInDim Cert.KernelIdeal.S50000x1x128 ![0, 2] Cert.KernelIdeal.Facts₀.bcast_S50000x128_S50000x1x128_0_2 h0)⟩,
                ⟨Cert.KernelIdeal.S50000x1x128, (broadcastInDim Cert.KernelIdeal.S50000x1x128 ![0, 2] Cert.KernelIdeal.Facts₀.bcast_S50000x128_S50000x1x128_0_2 h1)⟩,
                ⟨Cert.KernelIdeal.S50000x1x128, (broadcastInDim Cert.KernelIdeal.S50000x1x128 ![0, 2] Cert.KernelIdeal.Facts₀.bcast_S50000x128_S50000x1x128_0_2 h2)⟩]
                Cert.KernelIdeal.Facts₀.concatenates_S50000x1x128_S50000x1x128_S50000x1x128_S50000x3x128_d1) srcN)
            (broadcastInDim Cert.KernelIdeal.S600000x3x128 ![0, 1, 2] Cert.KernelIdeal.Facts₀.bcast_S600000x1x1_S600000x3x128_0_1_2
              (broadcastInDim Cert.KernelIdeal.S600000x1x1 ![0] Cert.KernelIdeal.Facts₀.bcast_S600000_S600000x1x1_0 nrm)))
          Cert.KernelIdeal.Facts₀.shapeCasts_S600000x3x128_S600000x384))
      Cert.KernelIdeal.Facts₀.slices_S50000x384_S50000x128_0_256
      = Host.scatterAdd (F := Ideal) (φ := .f32) Cert.ReferenceIdeal.scatter_S50000x128_S600000x1_S600000x128_1_0_0_1
        (broadcastInDim Cert.ReferenceIdeal.S50000x128 ![] Cert.ReferenceIdeal.Facts₀.bcast_S_S50000x128 (constant (F := Ideal) Cert.ReferenceIdeal.S_ .f32 0x00000000#32)) dstI
        (mulf (Host.gather Cert.ReferenceIdeal.gather_S50000x128_S600000x1_S600000x128_1_0_n_n_0_1_1128 h2 srcN)
          (broadcastInDim Cert.ReferenceIdeal.S600000x128 ![0, 1] Cert.ReferenceIdeal.Facts₀.bcast_S600000x1_S600000x128_0_1
            (broadcastInDim Cert.ReferenceIdeal.S600000x1 ![0] Cert.ReferenceIdeal.Facts₀.bcast_S600000_S600000x1_0 nrm))) := by
  funext j
  obtain ⟨n, d, rfl⟩ : ∃ (n : Fin 50000) (d : Fin 128), j = ix2 n d := ⟨j 0, j 1, eq_ix2 j⟩
  refine (extractStridedSlice_apply _ _ _ (ix2 n d) (ix2 n (⟨256 + d.val, by omega⟩ : Fin 384)) (fun a => by
    match a with
    | ⟨0, _⟩ => exact (Nat.zero_add _).symm
    | ⟨1, _⟩ => rfl)).trans ?_
  refine (stack_agg_apply (N := 50000) (K := 3) (D := 128) (E := 600000) (C := 384) (by decide) rfl
    Cert.KernelIdeal.Facts₀.gather_S50000x3x128_S600000x1_S600000x3x128_12_0_n_n_0_1_13128_wf
    Cert.KernelIdeal.Facts₀.scatter_S50000x384_S600000x1_S600000x384_1_0_0_1_wf
    Cert.KernelIdeal.Facts₀.bcast_S600000_S600000x1x1_0 Cert.KernelIdeal.Facts₀.bcast_S600000x1x1_S600000x3x128_0_1_2
    Cert.KernelIdeal.Facts₀.shapeCasts_S600000x3x128_S600000x384 Cert.KernelIdeal.Facts₀.bcast_S_S50000x384
    _ srcN dstI nrm (constant (F := Ideal) Cert.KernelIdeal.S_ .f32 0x00000000#32) n (2 : Fin 3) d (⟨256 + d.val, by omega⟩ : Fin 384)
    (show 256 + d.val = 2 * 128 + d.val by omega)).trans ?_
  refine Eq.trans ?_ (row_agg_apply (N := 50000) (D := 128) (E := 600000) (by decide)
    Cert.ReferenceIdeal.Facts₀.gather_S50000x128_S600000x1_S600000x128_1_0_n_n_0_1_1128_wf
    Cert.ReferenceIdeal.Facts₀.scatter_S50000x128_S600000x1_S600000x128_1_0_0_1_wf
    Cert.ReferenceIdeal.Facts₀.bcast_S600000_S600000x1_0 Cert.ReferenceIdeal.Facts₀.bcast_S600000x1_S600000x128_0_1 Cert.ReferenceIdeal.Facts₀.bcast_S_S50000x128
    h2 srcN dstI nrm (constant (F := Ideal) Cert.ReferenceIdeal.S_ .f32 0x00000000#32) n d).symm
  exact congrArg (_ + ·) (Finset.sum_congr rfl fun e _ => congrArg (· * _) (stack3_apply_2 h0 h1 h2 _ d))

end Cert.Agg

/-! ## The same, with the stacked side named

The stacked side as one function of the members, the two rows of the edge list and the edge weights — the source row
wrapped (a negative index counted from the end) and both rows turned into columns of start indices, as the per-term side
does — against the per-term aggregation of one member. -/

namespace Cert.KerAgg

open Cert.KernelIdeal Cert.KernelIdeal.Gen Idealize.ShloMosaic

/-- One member: its aggregation through the one-member stack. -/
def agg1 (h0 : FVec Ideal S50000x128 .f32) (s d : IVec S600000 32) (nrm : FVec Ideal S600000 .f32) : FVec Ideal S50000x128 .f32 :=
    Host.scatterAdd (F := Ideal) (φ := .f32) scatter_S50000x128_S600000x1_S600000x128_1_0_0_1
      (broadcastInDim S50000x128 ![] bcast_S_S50000x128 (constant (F := Ideal) S_ .f32 0x00000000#32))
      (broadcastInDim S600000x1 ![0] bcast_S600000_S600000x1_0 d)
      (shapeCast S600000x128
        (mulf (Host.gather gather_S50000x1x128_S600000x1_S600000x1x128_12_0_n_n_0_1_11128
            (broadcastInDim S50000x1x128 ![0, 2] bcast_S50000x128_S50000x1x128_0_2 h0)
            (broadcastInDim S600000x1 ![0] bcast_S600000_S600000x1_0
              (select (cmpi .slt s (broadcastInDim S600000 ![] bcast_S_S600000 (constantI S_ 32 0#32)))
                (addi s (broadcastInDim S600000 ![] bcast_S_S600000 (constantI S_ 32 50000#32))) s)))
          (broadcastInDim S600000x1x128 ![0, 1, 2] bcast_S600000x1x1_S600000x1x128_0_1_2
            (broadcastInDim S600000x1x1 ![0] bcast_S600000_S600000x1x1_0 nrm)))
        shapeCasts_S600000x1x128_S600000x128)

/-- One member, against the per-term aggregation. -/
theorem agg1_eq (h0 : FVec Ideal S50000x128 .f32) (ei : IVec Cert.ReferenceIdeal.S2x600000 32) :
    agg1 h0 (Cert.RefStages.src ei) (Cert.RefStages.dst ei) (Cert.RefStages.norm ei) = Cert.RefStages.agg h0 ei :=
  Cert.Agg.agg1 h0 _ _ _

/-- Two members stacked: columns 0 … 127 of their joint aggregation. -/
def agg2_0 (h0 h1 : FVec Ideal S50000x128 .f32) (s d : IVec S600000 32) (nrm : FVec Ideal S600000 .f32) : FVec Ideal S50000x128 .f32 :=
  extractStridedSlice S50000x128 ![0, 0]
    (Host.scatterAdd (F := Ideal) (φ := .f32) scatter_S50000x256_S600000x1_S600000x256_1_0_0_1
      (broadcastInDim S50000x256 ![] bcast_S_S50000x256 (constant (F := Ideal) S_ .f32 0x00000000#32))
      (broadcastInDim S600000x1 ![0] bcast_S600000_S600000x1_0 d)
      (shapeCast S600000x256
        (mulf (Host.gather gather_S50000x2x128_S600000x1_S600000x2x128_12_0_n_n_0_1_12128
            (concatenate S50000x2x128 1 [⟨S50000x1x128, (broadcastInDim S50000x1x128 ![0, 2] bcast_S50000x128_S50000x1x128_0_2 h0)⟩,
                ⟨S50000x1x128, (broadcastInDim S50000x1x128 ![0, 2] bcast_S50000x128_S50000x1x128_0_2 h1)⟩]
                concatenates_S50000x1x128_S50000x1x128_S50000x2x128_d1)
            (broadcastInDim S600000x1 ![0] bcast_S600000_S600000x1_0
              (select (cmpi .slt s (broadcastInDim S600000 ![] bcast_S_S600000 (constantI S_ 32 0#32)))
                (addi s (broadcastInDim S600000 ![] bcast_S_S600000 (constantI S_ 32 50000#32))) s)))
          (broadcastInDim S600000x2x128 ![0, 1, 2] bcast_S600000x1x1_S600000x2x128_0_1_2
            (broadcastInDim S600000x1x1 ![0] bcast_S600000_S600000x1x1_0 nrm)))
        shapeCasts_S600000x2x128_S600000x256))
    slices_S50000x256_S50000x128_0_0

/-- … are the per-term aggregation of member 0. -/
theorem agg2_0_eq (h0 h1 : FVec Ideal S50000x128 .f32) (ei : IVec Cert.ReferenceIdeal.S2x600000 32) :
    agg2_0 h0 h1 (Cert.RefStages.src ei) (Cert.RefStages.dst ei) (Cert.RefStages.norm ei) = Cert.RefStages.agg h0 ei :=
  Cert.Agg.agg2_0 h0 h1 _ _ _

/-- Two members stacked: columns 128 … 255 of their joint aggregation. -/
def agg2_1 (h0 h1 : FVec Ideal S50000x128 .f32) (s d : IVec S600000 32) (nrm : FVec Ideal S600000 .f32) : FVec Ideal S50000x128 .f32 :=
  extractStridedSlice S50000x128 ![0, 128]
    (Host.scatterAdd (F := Ideal) (φ := .f32) scatter_S50000x256_S600000x1_S600000x256_1_0_0_1
      (broadcastInDim S50000x256 ![] bcast_S_S50000x256 (constant (F := Ideal) S_ .f32 0x00000000#32))
      (broadcastInDim S600000x1 ![0] bcast_S600000_S600000x1_0 d)
      (shapeCast S600000x256
        (mulf (Host.gather gather_S50000x2x128_S600000x1_S600000x2x128_12_0_n_n_0_1_12128
            (concatenate S50000x2x128 1 [⟨S50000x1x128, (broadcastInDim S50000x1x128 ![0, 2] bcast_S50000x128_S50000x1x128_0_2 h0)⟩,
                ⟨S50000x1x128, (broadcastInDim S50000x1x128 ![0, 2] bcast_S50000x128_S50000x1x128_0_2 h1)⟩]
                concatenates_S50000x1x128_S50000x1x128_S50000x2x128_d1)
            (broadcastInDim S600000x1 ![0] bcast_S600000_S600000x1_0
              (select (cmpi .slt s (broadcastInDim S600000 ![] bcast_S_S600000 (constantI S_ 32 0#32)))
                (addi s (broadcastInDim S600000 ![] bcast_S_S600000 (constantI S_ 32 50000#32))) s)))
          (broadcastInDim S600000x2x128 ![0, 1, 2] bcast_S600000x1x1_S600000x2x128_0_1_2
            (broadcastInDim S600000x1x1 ![0] bcast_S600000_S600000x1x1_0 nrm)))
        shapeCasts_S600000x2x128_S600000x256))
    slices_S50000x256_S50000x128_0_128

/-- … are the per-term aggregation of member 1. -/
theorem agg2_1_eq (h0 h1 : FVec Ideal S50000x128 .f32) (ei : IVec Cert.ReferenceIdeal.S2x600000 32) :
    agg2_1 h0 h1 (Cert.RefStages.src ei) (Cert.RefStages.dst ei) (Cert.RefStages.norm ei) = Cert.RefStages.agg h1 ei :=
  Cert.Agg.agg2_1 h0 h1 _ _ _

/-- Three members stacked: columns 0 … 127 of their joint aggregation. -/
def agg3_0 (h0 h1 h2 : FVec Ideal S50000x128 .f32) (s d : IVec S600000 32) (nrm : FVec Ideal S600000 .f32) : FVec Ideal S50000x128 .f32 :=
  extractStridedSlice S50000x128 ![0, 0]
    (Host.scatterAdd (F := Ideal) (φ := .f32) scatter_S50000x384_S600000x1_S600000x384_1_0_0_1
      (broadcastInDim S50000x384 ![] bcast_S_S50000x384 (constant (F := Ideal) S_ .f32 0x00000000#32))
      (broadcastInDim S600000x1 ![0] bcast_S600000_S600000x1_0 d)
      (shapeCast S600000x384
        (mulf (Host.gather gather_S50000x3x128_S600000x1_S600000x3x128_12_0_n_n_0_1_13128
            (concatenate S50000x3x128 1 [⟨S50000x1x128, (broadcastInDim S50000x1x128 ![0, 2] bcast_S50000x128_S50000x1x128_0_2 h0)⟩,
                ⟨S50000x1x128, (broadcastInDim S50000x1x128 ![0, 2] bcast_S50000x128_S50000x1x128_0_2 h1)⟩,
                ⟨S50000x1x128, (broadcastInDim S50000x1x128 ![0, 2] bcast_S50000x128_S50000x1x128_0_2 h2)⟩]
                concatenates_S50000x1x128_S50000x1x128_S50000x1x128_S50000x3x128_d1)
            (broadcastInDim S600000x1 ![0] bcast_S600000_S600000x1_0
              (select (cmpi .slt s (broadcastInDim S600000 ![] bcast_S_S600000 (constantI S_ 32 0#32)))
                (addi s (broadcastInDim S600000 ![] bcast_S_S600000 (constantI S_ 32 50000#32))) s)))
          (broadcastInDim S600000x3x128 ![0, 1, 2] bcast_S600000x1x1_S600000x3x128_0_1_2
            (broadcastInDim S600000x1x1 ![0] bcast_S600000_S600000x1x1_0 nrm)))
        shapeCasts_S600000x3x128_S600000x384))
    slices_S50000x384_S50000x128_0_0

/-- … are the per-term aggregation of member 0. -/
theorem agg3_0_eq (h0 h1 h2 : FVec Ideal S50000x128 .f32) (ei : IVec Cert.ReferenceIdeal.S2x600000 32) :
    agg3_0 h0 h1 h2 (Cert.RefStages.src ei) (Cert.RefStages.dst ei) (Cert.RefStages.norm ei) = Cert.RefStages.agg h0 ei :=
  Cert.Agg.agg3_0 h0 h1 h2 _ _ _

/-- Three members stacked: columns 128 … 255 of their joint aggregation. -/
def agg3_1 (h0 h1 h2 : FVec Ideal S50000x128 .f32) (s d : IVec S600000 32) (nrm : FVec Ideal S600000 .f32) : FVec Ideal S50000x128 .f32 :=
  extractStridedSlice S50000x128 ![0, 128]
    (Host.scatterAdd (F := Ideal) (φ := .f32) scatter_S50000x384_S600000x1_S600000x384_1_0_0_1
      (broadcastInDim S50000x384 ![] bcast_S_S50000x384 (constant (F := Ideal) S_ .f32 0x00000000#32))
      (broadcastInDim S600000x1 ![0] bcast_S600000_S600000x1_0 d)
      (shapeCast S600000x384
        (mulf (Host.gather gather_S50000x3x128_S600000x1_S600000x3x128_12_0_n_n_0_1_13128
            (concatenate S50000x3x128 1 [⟨S50000x1x128, (broadcastInDim S50000x1x128 ![0, 2] bcast_S50000x128_S50000x1x128_0_2 h0)⟩,
                ⟨S50000x1x128, (broadcastInDim S50000x1x128 ![0, 2] bcast_S50000x128_S50000x1x128_0_2 h1)⟩,
                ⟨S50000x1x128, (broadcastInDim S50000x1x128 ![0, 2] bcast_S50000x128_S50000x1x128_0_2 h2)⟩]
                concatenates_S50000x1x128_S50000x1x128_S50000x1x128_S50000x3x128_d1)
            (broadcastInDim S600000x1 ![0] bcast_S600000_S600000x1_0
              (select (cmpi .slt s (broadcastInDim S600000 ![] bcast_S_S600000 (constantI S_ 32 0#32)))
                (addi s (broadcastInDim S600000 ![] bcast_S_S600000 (constantI S_ 32 50000#32))) s)))
          (broadcastInDim S600000x3x128 ![0, 1, 2] bcast_S600000x1x1_S600000x3x128_0_1_2
            (broadcastInDim S600000x1x1 ![0] bcast_S600000_S600000x1x1_0 nrm)))
        shapeCasts_S600000x3x128_S600000x384))
    slices_S50000x384_S50000x128_0_128

/-- … are the per-term aggregation of member 1. -/
theorem agg3_1_eq (h0 h1 h2 : FVec Ideal S50000x128 .f32) (ei : IVec Cert.ReferenceIdeal.S2x600000 32) :
    agg3_1 h0 h1 h2 (Cert.RefStages.src ei) (Cert.RefStages.dst ei) (Cert.RefStages.norm ei) = Cert.RefStages.agg h1 ei :=
  Cert.Agg.agg3_1 h0 h1 h2 _ _ _

/-- Three members stacked: columns 256 … 383 of their joint aggregation. -/
def agg3_2 (h0 h1 h2 : FVec Ideal S50000x128 .f32) (s d : IVec S600000 32) (nrm : FVec Ideal S600000 .f32) : FVec Ideal S50000x128 .f32 :=
  extractStridedSlice S50000x128 ![0, 256]
    (Host.scatterAdd (F := Ideal) (φ := .f32) scatter_S50000x384_S600000x1_S600000x384_1_0_0_1
      (broadcastInDim S50000x384 ![] bcast_S_S50000x384 (constant (F := Ideal) S_ .f32 0x00000000#32))
      (broadcastInDim S600000x1 ![0] bcast_S600000_S600000x1_0 d)
      (shapeCast S600000x384
        (mulf (Host.gather gather_S50000x3x128_S600000x1_S600000x3x128_12_0_n_n_0_1_13128
            (concatenate S50000x3x128 1 [⟨S50000x1x128, (broadcastInDim S50000x1x128 ![0, 2] bcast_S50000x128_S50000x1x128_0_2 h0)⟩,
                ⟨S50000x1x128, (broadcastInDim S50000x1x128 ![0, 2] bcast_S50000x128_S50000x1x128_0_2 h1)⟩,
                ⟨S50000x1x128, (broadcastInDim S50000x1x128 ![0, 2] bcast_S50000x128_S50000x1x128_0_2 h2)⟩]
                concatenates_S50000x1x128_S50000x1x128_S50000x1x128_S50000x3x128_d1)
            (broadcastInDim S600000x1 ![0] bcast_S600000_S600000x1_0
              (select (cmpi .slt s (broadcastInDim S600000 ![] bcast_S_S600000 (constantI S_ 32 0#32)))
                (addi s (broadcastInDim S600000 ![] bcast_S_S600000 (constantI S_ 32 50000#32))) s)))
          (broadcastInDim S600000x3x128 ![0, 1, 2] bcast_S600000x1x1_S600000x3x128_0_1_2
            (broadcastInDim S600000x1x1 ![0] bcast_S600000_S600000x1x1_0 nrm)))
        shapeCasts_S600000x3x128_S600000x384))
    slices_S50000x384_S50000x128_0_256

/-- … are the per-term aggregation of member 2. -/
theorem agg3_2_eq (h0 h1 h2 : FVec Ideal S50000x128 .f32) (ei : IVec Cert.ReferenceIdeal.S2x600000 32) :
    agg3_2 h0 h1 h2 (Cert.RefStages.src ei) (Cert.RefStages.dst ei) (Cert.RefStages.norm ei) = Cert.RefStages.agg h2 ei :=
  Cert.Agg.agg3_2 h0 h1 h2 _ _ _

end Cert.KerAgg

end
-- ==== Proof.KI.HostAgg1.lean ====
/- The one-term aggregation stretches read over any contents of the buffers they start from: the stacked gather along the edges, weighted, scatter-added by destination, is the named one-term pipeline of the product, the two edge rows and the edge weights. -/
import proofs.«135915_j24266565222462_2_alg».proof.Proof.KI.Chain
import proofs.«135915_j24266565222462_2_alg».proof.Proof.V.AggTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

set_option maxHeartbeats 8000000 in
theorem ops1_v43 (V : Valuation τ sig (Elt Ideal)) :
    StableHlo.after hostOps1 V (Proc.devRef .tc main_v43) = (Cert.KerAgg.agg1 (V (Proc.devRef .tc main_v28)) (V (Proc.devRef .tc main_v1)) (V (Proc.devRef .tc main_v3)) (V (Proc.devRef .tc main_v27)) : FVec Ideal S50000x128 .f32) := by
  after_results_simp
  rfl

set_option maxHeartbeats 8000000 in
theorem ops3_v61 (V : Valuation τ sig (Elt Ideal)) :
    StableHlo.after hostOps3 V (Proc.devRef .tc main_v61) = (Cert.KerAgg.agg1 (V (Proc.devRef .tc main_v46)) (V (Proc.devRef .tc main_v1)) (V (Proc.devRef .tc main_v3)) (V (Proc.devRef .tc main_v27)) : FVec Ideal S50000x128 .f32) := by
  after_results_simp
  rfl

end Cert.KernelIdeal.Hand

end
-- ==== Proof.KI.HostMisc.lean ====
/- What the plain stretches of host operations leave, at the ideal instance: each stage's bias as a 1 x 128 row; the head's
   weight padded with forty-to-128 zero columns and its bias padded likewise, as a row; and the result: the head's rows
   gathered by the (wrapped, clamped) label indices, cut to the first forty columns. -/
import proofs.«135915_j24266565222462_2_alg».proof.Proof.KI.Chain
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- A bias vector as the 1 x 128 row the combine kernels stage. -/
def biasRow (b : FVec Ideal S128 .f32) : FVec Ideal S1x128 .f32 := shapeCast S1x128 b shapeCasts_S128_S1x128
/-- The head's weight with its forty columns padded by zeros to 128. -/
def padW (Wh : FVec Ideal S128x40 .f32) : FVec Ideal S128x128 .f32 :=
  pad S128x128 ![0, 0] ![0, 88] ![0, 0] Wh (sitofp .f32 (constantI S_ 32 0#32)) pads_S128x40_S128x128_000_0880 h_S_
/-- The head's bias padded by zeros to 128. -/
def padB (bh : FVec Ideal S40 .f32) : FVec Ideal S128 .f32 :=
  pad S128 ![0] ![88] ![0] bh (sitofp .f32 (constantI S_ 32 0#32)) pads_S40_S128_0880 h_S_
/-- The rows of a 50000 x 128 array at the label indices (negative ones wrapped by 50000), cut to forty columns. -/
def pickRows (p : FVec Ideal S50000x128 .f32) (lab : IVec S25000 32) : FVec Ideal S25000x40 .f32 :=
  extractStridedSlice S25000x40 ![0, 0]
    (Host.gather gather_S50000x128_S25000x1_S25000x128_1_0_n_n_0_1_1128 p
      (broadcastInDim S25000x1 ![0] bcast_S25000_S25000x1_0
        (select (cmpi .slt lab (broadcastInDim S25000 ![] bcast_S_S25000 (constantI S_ 32 0#32)))
          (addi lab (broadcastInDim S25000 ![] bcast_S_S25000 (constantI S_ 32 50000#32))) lab)))
    slices_S25000x128_S25000x40_0_0

set_option maxHeartbeats 8000000 in
theorem W3_v44 (c : Dev nD) : W3 m c main_v44 = (biasRow (W2 m c main_arg4) : FVec Ideal S1x128 .f32) := by
  show StableHlo.after hostOps1 (W2 m c) (Proc.devRef .tc main_v44) = _
  after_results_simp
  rfl

set_option maxHeartbeats 8000000 in
theorem W6_v62 (c : Dev nD) : W6 m c main_v62 = (biasRow (W5 m c main_arg6) : FVec Ideal S1x128 .f32) := by
  show StableHlo.after hostOps3 (W5 m c) (Proc.devRef .tc main_v62) = _
  after_results_simp
  rfl

set_option maxHeartbeats 8000000 in
theorem W10_v85 (c : Dev nD) : W10 m c main_v85 = (biasRow (W9 m c main_arg8) : FVec Ideal S1x128 .f32) := by
  show StableHlo.after hostOps6 (W9 m c) (Proc.devRef .tc main_v85) = _
  after_results_simp
  rfl

set_option maxHeartbeats 8000000 in
theorem W15_v111 (c : Dev nD) : W15 m c main_v111 = (biasRow (W14 m c main_arg10) : FVec Ideal S1x128 .f32) := by
  show StableHlo.after hostOps10 (W14 m c) (Proc.devRef .tc main_v111) = _
  after_results_simp
  rfl

set_option maxHeartbeats 8000000 in
theorem W18_v113 (c : Dev nD) : W18 m c main_v113 = (padW (W16 m c main_arg11) : FVec Ideal S128x128 .f32) := by
  show StableHlo.after hostOps11_1 (W17 m c) (Proc.devRef .tc main_v113) = _
  after_results_simp
  rfl

set_option maxHeartbeats 8000000 in
theorem W20_v114 (c : Dev nD) : W20 m c main_v114 = (padB (W16 m c main_arg12) : FVec Ideal S128 .f32) := by
  show StableHlo.after hostOps11_3 (W19 m c) (Proc.devRef .tc main_v114) = _
  after_results_simp
  rfl

set_option maxHeartbeats 8000000 in
theorem W21_v115 (c : Dev nD) : W21 m c main_v115 = (biasRow (W20 m c main_v114) : FVec Ideal S1x128 .f32) := by
  show StableHlo.after hostOps11_4 (W20 m c) (Proc.devRef .tc main_v115) = _
  after_results_simp
  rfl

set_option maxHeartbeats 8000000 in
theorem W23_v124 (c : Dev nD) : W23 m c main_v124 = (pickRows (W22 m c main_v116) (W22 m c main_arg2) : FVec Ideal S25000x40 .f32) := by
  show StableHlo.after hostOps12 (W22 m c) (Proc.devRef .tc main_v124) = _
  after_results_simp
  rfl

end Cert.KernelIdeal.Hand

end
-- ==== Proof.KI.Val1.lean ====
/- Region 1's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf1 (i : S50000x128.Idx) : Fin cfg1.N :=
  ⟨(i 0).val / 2000, by have h : (i 0).val < 50000 := (i 0).isLt; show (i 0).val / 2000 < 25; omega⟩
/-- The index inside that block. -/
def locOf1 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 1's output array as one function of the arrays the region finds. -/
def G1 (c : Dev nD) : Vec F S50000x128 .f32 := fun i => out1_4 (iblk1 V c 0 (ptOf1 i)) (iblk1 V c 1 (ptOf1 i)) (iblk1 V c 2 (ptOf1 i)) (iblk1 V c 3 (ptOf1 i)) (locOf1 i)

theorem G1_at (c : Dev nD) (t : Fin cfg1.N) (y : S2000x128.Idx) (i : S50000x128.Idx) (h1 : ptOf1 i = t) (h2 : locOf1 i = y) :
    G1 V c i = out1_4 (iblk1 V c 0 t) (iblk1 V c 1 t) (iblk1 V c 2 t) (iblk1 V c 3 t) y := by
  unfold G1; rw [h1, h2]

/-- The output window's block index at grid point t is (t, 0). -/
theorem idx_facts1 : ∀ t : Fin cfg1.N, win1_4.index t (0 : Fin 2) = t.val ∧ win1_4.index t (1 : Fin 2) = 0 :=
  (by decide +kernel : ∀ t : Fin grid1.N, _)

set_option maxHeartbeats 4000000 in
/-- What grid point t writes back is block t of `G1`. -/
theorem flushed1_eq (c : Dev nD) (t : Fin cfg1.N) :
    (dat1 V c).flushed 4 t = ((cfg1.win 4).blk t).view.read (Elt F) (G1 V c) := by
  show (cfg1.win 4).cut (grid1.coords t) ((dat1 V c).after 4 t) = _
  rw [after1_4]
  funext y
  rw [View.read_apply]
  obtain ⟨e0, e1⟩ := idx_facts1 t
  have hy0 : (y 0).val < 2000 := (y 0).isLt
  have hp : ptOf1 (((cfg1.win 4).blk t).view.emb y) = t := Fin.ext (by
    show (win1_4.index t (0 : Fin 2) * 2000 + 1 * (y 0).val) / 2000 = t.val
    rw [e0]; omega)
  have hl : locOf1 (((cfg1.win 4).blk t).view.emb y) = y := funext fun a => Fin.ext (by
    match a with
    | ⟨0, _⟩ => show (win1_4.index t (0 : Fin 2) * 2000 + 1 * (y 0).val) % 2000 = (y 0).val; rw [e0]; omega
    | ⟨1, _⟩ => show win1_4.index t (1 : Fin 2) * 128 + 1 * (y 1).val = (y 1).val; rw [e1]; omega)
  exact (G1_at V c t y _ hp hl).symm

/-- An index of the array is in grid point t's block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v45).slice (win1_4.rect t)).set ↔ _
  rw [View.set_slice_whole, Rect.mem_set_unit]
  exact Iff.rfl

/-- Every index is in the block of the grid point of its row's quotient, which writes its block back. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  refine ⟨ptOf1 i, flush1_4 _, ?_⟩
  rw [mem_blk1]
  obtain ⟨e0, e1⟩ := idx_facts1 (ptOf1 i)
  intro a
  match a with
  | ⟨0, _⟩ => show win1_4.index (ptOf1 i) (0 : Fin 2) * 2000 ≤ (i 0).val ∧ (i 0).val < win1_4.index (ptOf1 i) (0 : Fin 2) * 2000 + 2000; rw [e0]; show (i 0).val / 2000 * 2000 ≤ _ ∧ _ < (i 0).val / 2000 * 2000 + 2000; omega
  | ⟨1, _⟩ => show win1_4.index (ptOf1 i) (1 : Fin 2) * 128 ≤ (i 1).val ∧ (i 1).val < win1_4.index (ptOf1 i) (1 : Fin 2) * 128 + 128; rw [e1]; omega

/-- The output array after the region's whole grid. -/
theorem final1 (c : Dev nD) : (dat1 V c).arrAt 4 cfg1.N = G1 V c :=
  (dat1 V c).arrAt_eq_of_cover 4 (G1 V c) (fun t _ => flushed1_eq V c t) cover1

end Cert.KernelIdeal.Hand

end
-- ==== Proof.V.PayLayout.lean ====
/-
  Two layout steps of the row-wise bodies read at an index: a [2000, 1] column broadcast to [2000, 128] reads,
  at `(r, j)`, the column at row `r`; a [2000] vector reshaped to a [2000, 1] column reads, at `(r, 0)`, the
  vector at `r`.
-/
import Idealize.ShloMosaic.Lib.ValueLayout
import Idealize.ShloMosaic.Lib.Pipeline.Value

namespace Cert.KernelIdeal.Pay

open Idealize.ShloMosaic Idealize.ShloMosaic.ValueIdx

variable {α : Type}

/-- A [2000, 1] column broadcast along the lanes reads its row. -/
theorem broadcastTo_col_apply (v : (⟨2, ![2000, 1]⟩ : Shape).Idx → α)
    (h : (⟨2, ![2000, 1]⟩ : Shape).Broadcasts ⟨2, ![2000, 128]⟩) (r : Fin 2000) (j : Fin 128) :
    broadcastTo ⟨2, ![2000, 128]⟩ v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- A [2000] vector reshaped to a column reads the vector at the row. -/
theorem shapeCast_col_apply (x : (⟨1, ![2000]⟩ : Shape).Idx → α)
    (h : (⟨1, ![2000]⟩ : Shape).ShapeCasts ⟨2, ![2000, 1]⟩) (r : Fin 2000) (u : Fin 1) :
    shapeCast ⟨2, ![2000, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.KernelIdeal.Pay
-- ==== Proof.V.AlgConsts.lean ====
/-
  The float literals the combine bodies and the row maximum spell, as the extended reals their words denote:
  1.0, 2.0 and 3.0 are the reals 1, 2 and 3, and the word of minus infinity is the bottom element.
-/
import Idealize.ShloMosaic.PureOps.Ideal

noncomputable section

namespace Cert.KernelIdeal.Alg

open Idealize.ShloMosaic

theorem ofBits_one : Ideal.ofBits .f32 0x3F800000#32 = 1 := by
  simp [Ideal.ofBits, Ideal.ieee, -EReal.coe_mul]; norm_num

theorem ofBits_two : Ideal.ofBits .f32 0x40000000#32 = 2 := by
  simp [Ideal.ofBits, Ideal.ieee, -EReal.coe_mul]; norm_num; rfl

theorem ofBits_three : Ideal.ofBits .f32 0x40400000#32 = 3 := by
  simp [Ideal.ofBits, Ideal.ieee, -EReal.coe_mul]; norm_num; rfl

theorem ofBits_neg_inf : Ideal.ofBits .f32 0xFF800000#32 = ⊥ := by
  simp [Ideal.ofBits, Ideal.ieee]

end Cert.KernelIdeal.Alg

end
-- ==== Proof.V.AlgCombine.lean ====
/-
  The algebra that joins the fused combine bodies to the term-by-term reference, over the extended reals with no
  finiteness assumption.

  A fused body adds the K aggregated arrays and the K self-loop products in one chain and then adds K times the
  bias once; the reference adds, for each of the K terms, its aggregate, its self-loop product and the bias, and
  then adds the terms. Addition of extended reals is commutative and associative, and K * b = b + … + b holds for
  every extended real b when K is 1, 2 or 3 (multiplication distributes over a sum of nonnegative factors), so
  the two agree.
-/
import Mathlib.Data.EReal.Operations

namespace Cert.KernelIdeal.Alg

/-- Twice an extended real is its sum with itself, infinite values included. -/
theorem two_mul_ereal (b : EReal) : (2 : EReal) * b = b + b := by
  rw [← one_add_one_eq_two, EReal.right_distrib_of_nonneg zero_le_one zero_le_one, one_mul]

/-- Three times an extended real is the sum of three copies. -/
theorem three_mul_ereal (b : EReal) : (3 : EReal) * b = b + b + b := by
  rw [← two_add_one_eq_three, EReal.right_distrib_of_nonneg zero_le_two zero_le_one, two_mul_ereal, one_mul]

/-- One term: the bias scaled by one is the bias. -/
theorem combine_one (a0 h0 d b : EReal) : (a0 + h0 * d) + 1 * b = a0 + h0 * d + b := by
  rw [one_mul]

/-- Two terms fused: the chain plus twice the bias is the sum of the two terms, each with its own bias. -/
theorem combine_two (a0 h0 a1 h1 d b : EReal) :
    (((a0 + h0 * d) + a1) + h1 * d) + 2 * b = (a0 + h0 * d + b) + (a1 + h1 * d + b) := by
  rw [two_mul_ereal]
  ac_rfl

/-- Three terms fused: the chain plus three times the bias is the sum of the three terms, each with its own bias. -/
theorem combine_three (a0 h0 a1 h1 a2 h2 d b : EReal) :
    (((((a0 + h0 * d) + a1) + h1 * d) + a2) + h2 * d) + 3 * b
      = ((a0 + h0 * d + b) + (a1 + h1 * d + b)) + (a2 + h2 * d + b) := by
  rw [three_mul_ereal]
  ac_rfl

end Cert.KernelIdeal.Alg
-- ==== Proof.V.PayCombine.lean ====
/-
  The combine bodies read at an index.

  With `d` the [2000, 1] column of squared inverse-root degrees and `b` the [1, 128] bias row, the body over K
  terms reads, at `(r, j)`, the chain  a₀ + h₀ · d(r)  (+ a₁ + h₁ · d(r)  (+ a₂ + h₂ · d(r)))  associated to the
  left, plus the literal K times `b(j)` (the `_apply` lemmas, as printed). Since 1.0, 2.0 and 3.0 denote 1, 2 and 3
  and K · b is the K-fold sum of b, that is the sum of the K terms  aₖ + hₖ · d(r) + b(j)  (the `_terms` lemmas).
-/
import proofs.«135915_j24266565222462_2_alg».proof.Proof.Gen.KernelIdeal.Skeleton
import proofs.«135915_j24266565222462_2_alg».proof.Proof.V.PayLayout
import proofs.«135915_j24266565222462_2_alg».proof.Proof.V.AlgConsts
import proofs.«135915_j24266565222462_2_alg».proof.Proof.V.AlgCombine
import Idealize.ShloMosaic.Lib.ValueIdx

noncomputable section

namespace Cert.KernelIdeal.Pay

open Cert.KernelIdeal Cert.KernelIdeal.Gen Idealize.ShloMosaic Idealize.ShloMosaic.ValueIdx

/-- The one-term body, as printed. -/
theorem k1_pay1_apply (v0 : Vec Ideal S2000x1 .f32) (v2 : Vec Ideal S1x128 .f32) (v4 v6 : Vec Ideal S2000x128 .f32)
    (r : Fin 2000) (j : Fin 128) :
    k1_pay1 (F := Ideal) v0 v2 v4 v6 (ix2 r j)
      = (v4 (ix2 r j) + v6 (ix2 r j) * v0 (ix2 r (0 : Fin 1)))
        + Ideal.ofBits .f32 0x3F800000#32 * v2 (ix2 (0 : Fin 1) j) := by
  unfold k1_pay1
  simp only [shapeCast_self]
  rw [addf_apply, addf_apply, mulf_apply, broadcastTo_col_apply, broadcastTo_1b_ab_apply, mulf_apply, broadcast_apply]
  rfl

/-- The second one-term body is the same term. -/
theorem k3_pay1_apply (v0 : Vec Ideal S2000x1 .f32) (v2 : Vec Ideal S1x128 .f32) (v4 v6 : Vec Ideal S2000x128 .f32)
    (r : Fin 2000) (j : Fin 128) :
    k3_pay1 (F := Ideal) v0 v2 v4 v6 (ix2 r j)
      = (v4 (ix2 r j) + v6 (ix2 r j) * v0 (ix2 r (0 : Fin 1)))
        + Ideal.ofBits .f32 0x3F800000#32 * v2 (ix2 (0 : Fin 1) j) :=
  k1_pay1_apply v0 v2 v4 v6 r j

/-- The two-term body, as printed. -/
theorem k6_pay1_apply (v0 : Vec Ideal S2000x1 .f32) (v2 : Vec Ideal S1x128 .f32) (v4 v6 v11 v14 : Vec Ideal S2000x128 .f32)
    (r : Fin 2000) (j : Fin 128) :
    k6_pay1 (F := Ideal) v0 v2 v4 v6 v11 v14 (ix2 r j)
      = (((v4 (ix2 r j) + v6 (ix2 r j) * v0 (ix2 r (0 : Fin 1))) + v11 (ix2 r j))
          + v14 (ix2 r j) * v0 (ix2 r (0 : Fin 1)))
        + Ideal.ofBits .f32 0x40000000#32 * v2 (ix2 (0 : Fin 1) j) := by
  unfold k6_pay1
  simp only [shapeCast_self]
  rw [addf_apply, addf_apply, addf_apply, addf_apply, mulf_apply, mulf_apply, broadcastTo_col_apply,
    broadcastTo_1b_ab_apply, mulf_apply, broadcast_apply]
  rfl

/-- The three-term body, as printed. -/
theorem k10_pay1_apply (v0 : Vec Ideal S2000x1 .f32) (v2 : Vec Ideal S1x128 .f32)
    (v4 v6 v11 v14 v19 v22 : Vec Ideal S2000x128 .f32) (r : Fin 2000) (j : Fin 128) :
    k10_pay1 (F := Ideal) v0 v2 v4 v6 v11 v14 v19 v22 (ix2 r j)
      = (((((v4 (ix2 r j) + v6 (ix2 r j) * v0 (ix2 r (0 : Fin 1))) + v11 (ix2 r j))
            + v14 (ix2 r j) * v0 (ix2 r (0 : Fin 1))) + v19 (ix2 r j))
          + v22 (ix2 r j) * v0 (ix2 r (0 : Fin 1)))
        + Ideal.ofBits .f32 0x40400000#32 * v2 (ix2 (0 : Fin 1) j) := by
  unfold k10_pay1
  simp only [shapeCast_self]
  rw [addf_apply, addf_apply, addf_apply, addf_apply, addf_apply, addf_apply, mulf_apply, mulf_apply, mulf_apply,
    broadcastTo_col_apply, broadcastTo_1b_ab_apply, mulf_apply, broadcast_apply]
  rfl

/-- The one-term body is the term  a + h · d + b. -/
theorem k1_pay1_terms (v0 : Vec Ideal S2000x1 .f32) (v2 : Vec Ideal S1x128 .f32) (v4 v6 : Vec Ideal S2000x128 .f32)
    (r : Fin 2000) (j : Fin 128) :
    k1_pay1 (F := Ideal) v0 v2 v4 v6 (ix2 r j)
      = v4 (ix2 r j) + v6 (ix2 r j) * v0 (ix2 r (0 : Fin 1)) + v2 (ix2 (0 : Fin 1) j) := by
  rw [k1_pay1_apply, Alg.ofBits_one]
  exact Alg.combine_one _ _ _ _

theorem k3_pay1_terms (v0 : Vec Ideal S2000x1 .f32) (v2 : Vec Ideal S1x128 .f32) (v4 v6 : Vec Ideal S2000x128 .f32)
    (r : Fin 2000) (j : Fin 128) :
    k3_pay1 (F := Ideal) v0 v2 v4 v6 (ix2 r j)
      = v4 (ix2 r j) + v6 (ix2 r j) * v0 (ix2 r (0 : Fin 1)) + v2 (ix2 (0 : Fin 1) j) :=
  k1_pay1_terms v0 v2 v4 v6 r j

/-- The two-term body is the sum of its two terms, each with the bias. -/
theorem k6_pay1_terms (v0 : Vec Ideal S2000x1 .f32) (v2 : Vec Ideal S1x128 .f32) (v4 v6 v11 v14 : Vec Ideal S2000x128 .f32)
    (r : Fin 2000) (j : Fin 128) :
    k6_pay1 (F := Ideal) v0 v2 v4 v6 v11 v14 (ix2 r j)
      = (v4 (ix2 r j) + v6 (ix2 r j) * v0 (ix2 r (0 : Fin 1)) + v2 (ix2 (0 : Fin 1) j))
        + (v11 (ix2 r j) + v14 (ix2 r j) * v0 (ix2 r (0 : Fin 1)) + v2 (ix2 (0 : Fin 1) j)) := by
  rw [k6_pay1_apply, Alg.ofBits_two]
  exact Alg.combine_two _ _ _ _ _ _

/-- The three-term body is the sum of its three terms, each with the bias. -/
theorem k10_pay1_terms (v0 : Vec Ideal S2000x1 .f32) (v2 : Vec Ideal S1x128 .f32)
    (v4 v6 v11 v14 v19 v22 : Vec Ideal S2000x128 .f32) (r : Fin 2000) (j : Fin 128) :
    k10_pay1 (F := Ideal) v0 v2 v4 v6 v11 v14 v19 v22 (ix2 r j)
      = ((v4 (ix2 r j) + v6 (ix2 r j) * v0 (ix2 r (0 : Fin 1)) + v2 (ix2 (0 : Fin 1) j))
          + (v11 (ix2 r j) + v14 (ix2 r j) * v0 (ix2 r (0 : Fin 1)) + v2 (ix2 (0 : Fin 1) j)))
        + (v19 (ix2 r j) + v22 (ix2 r j) * v0 (ix2 r (0 : Fin 1)) + v2 (ix2 (0 : Fin 1) j)) := by
  rw [k10_pay1_apply, Alg.ofBits_three]
  exact Alg.combine_three _ _ _ _ _ _ _ _

end Cert.KernelIdeal.Pay

end
-- ==== Proof.V.RegAt1.lean ====
/-
  Region 1's output array at an index, over the arrays the region finds.

  The region combines one graph-convolution term: the aggregated array A₀ and the product array A₁,
  2000 rows at a time, with the [50000, 1] column of squared inverse-root degrees and the [1, 128] bias row staged
  whole. Row `n` lies in block `n / 2000` at row `n % 2000`; the body at that row is the sum of the terms
  agg(n, j) + h(n, j) · d(n) + b(j).
-/
import proofs.«135915_j24266565222462_2_alg».proof.Proof.KI.Val1
import proofs.«135915_j24266565222462_2_alg».proof.Proof.V.PayCombine
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- Aggregated array 0 of region 1. -/
abbrev A1_0 (c : Dev nD) : S50000x128.Idx → EReal := V c (Pipeline.arrRef spec1 0)
/-- Product array 0 of region 1. -/
abbrev A1_1 (c : Dev nD) : S50000x128.Idx → EReal := V c (Pipeline.arrRef spec1 1)
/-- The column of squared inverse-root degrees. -/
abbrev A1_2 (c : Dev nD) : S50000x1.Idx → EReal := V c (Pipeline.arrRef spec1 2)
/-- The bias row. -/
abbrev A1_3 (c : Dev nD) : S1x128.Idx → EReal := V c (Pipeline.arrRef spec1 3)

theorem idx_facts1_0 : ∀ t : Fin cfg1.N, win1_0.index t (0 : Fin 2) = t.val ∧ win1_0.index t (1 : Fin 2) = 0 :=
  (by decide +kernel : ∀ t : Fin grid1.N, _)
theorem idx_facts1_1 : ∀ t : Fin cfg1.N, win1_1.index t (0 : Fin 2) = t.val ∧ win1_1.index t (1 : Fin 2) = 0 :=
  (by decide +kernel : ∀ t : Fin grid1.N, _)
theorem idx_facts1_2 : ∀ t : Fin cfg1.N, win1_2.index t (0 : Fin 2) = t.val ∧ win1_2.index t (1 : Fin 2) = 0 :=
  (by decide +kernel : ∀ t : Fin grid1.N, _)
theorem idx_facts1_3 : ∀ t : Fin cfg1.N, win1_3.index t (0 : Fin 2) = 0 ∧ win1_3.index t (1 : Fin 2) = 0 :=
  (by decide +kernel : ∀ t : Fin grid1.N, _)

/-- Inside its block, row `n` is row `n % 2000`. -/
theorem locOf1_ix2 (n : Fin 50000) (j : Fin 128) :
    locOf1 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk1_0_apply (c : Dev nD) (t : Fin cfg1.N) (r : Fin 2000) (q : Fin 128) (n : Fin 50000)
    (hn : n.val = t.val * 2000 + r.val) :
    (iblk1 V c 0 t : S2000x128.Idx → EReal) (ix2 r q) = A1_0 V c (ix2 n q) := by
  unfold iblk1
  rw [View.read_apply]
  show A1_0 V c (((cfg1.win 0).blk t).view.emb (ix2 r q)) = _
  refine congrArg _ (funext fun a => Fin.ext ?_)
  obtain ⟨e0, e1⟩ := idx_facts1_0 t
  match a with
  | ⟨0, _⟩ => show win1_0.index t (0 : Fin 2) * 2000 + 1 * r.val = n.val; rw [e0]; omega
  | ⟨1, _⟩ => show win1_0.index t (1 : Fin 2) * 128 + 1 * q.val = q.val; rw [e1]; omega

/-- Window 1's block at grid point `t`, at row `r` of the block, is the array at row `t * 2000 + r`. -/
theorem iblk1_1_apply (c : Dev nD) (t : Fin cfg1.N) (r : Fin 2000) (q : Fin 128) (n : Fin 50000)
    (hn : n.val = t.val * 2000 + r.val) :
    (iblk1 V c 1 t : S2000x128.Idx → EReal) (ix2 r q) = A1_1 V c (ix2 n q) := by
  unfold iblk1
  rw [View.read_apply]
  show A1_1 V c (((cfg1.win 1).blk t).view.emb (ix2 r q)) = _
  refine congrArg _ (funext fun a => Fin.ext ?_)
  obtain ⟨e0, e1⟩ := idx_facts1_1 t
  match a with
  | ⟨0, _⟩ => show win1_1.index t (0 : Fin 2) * 2000 + 1 * r.val = n.val; rw [e0]; omega
  | ⟨1, _⟩ => show win1_1.index t (1 : Fin 2) * 128 + 1 * q.val = q.val; rw [e1]; omega

/-- Window 2's block at grid point `t`, at row `r` of the block, is the array at row `t * 2000 + r`. -/
theorem iblk1_2_apply (c : Dev nD) (t : Fin cfg1.N) (r : Fin 2000) (q : Fin 1) (n : Fin 50000)
    (hn : n.val = t.val * 2000 + r.val) :
    (iblk1 V c 2 t : S2000x1.Idx → EReal) (ix2 r q) = A1_2 V c (ix2 n q) := by
  unfold iblk1
  rw [View.read_apply]
  show A1_2 V c (((cfg1.win 2).blk t).view.emb (ix2 r q)) = _
  refine congrArg _ (funext fun a => Fin.ext ?_)
  obtain ⟨e0, e1⟩ := idx_facts1_2 t
  match a with
  | ⟨0, _⟩ => show win1_2.index t (0 : Fin 2) * 2000 + 1 * r.val = n.val; rw [e0]; omega
  | ⟨1, _⟩ => show win1_2.index t (1 : Fin 2) * 1 + 1 * q.val = q.val; rw [e1]; omega

/-- Window 3 is staged whole: its block at every grid point is the array. -/
theorem iblk1_3_apply (c : Dev nD) (t : Fin cfg1.N) (p : Fin 1) (q : Fin 128) :
    (iblk1 V c 3 t : S1x128.Idx → EReal) (ix2 p q) = A1_3 V c (ix2 p q) := by
  unfold iblk1
  rw [View.read_apply]
  show A1_3 V c (((cfg1.win 3).blk t).view.emb (ix2 p q)) = _
  refine congrArg _ (funext fun a => Fin.ext ?_)
  obtain ⟨e0, e1⟩ := idx_facts1_3 t
  match a with
  | ⟨0, _⟩ => show win1_3.index t (0 : Fin 2) * 1 + 1 * p.val = p.val; rw [e0]; omega
  | ⟨1, _⟩ => show win1_3.index t (1 : Fin 2) * 128 + 1 * q.val = q.val; rw [e1]; omega

/-- Region 1's output at `(n, j)`. -/
theorem G1_apply (c : Dev nD) (n : Fin 50000) (j : Fin 128) :
    G1 V c (ix2 n j)
      = A1_0 V c (ix2 n j) + A1_1 V c (ix2 n j) * A1_2 V c (ix2 n (0 : Fin 1)) + A1_3 V c (ix2 (0 : Fin 1) j) := by
  have hz : (![0, 0] : Fin 2 → Nat) = fun _ => 0 := funext fun a => by
    match a with
    | ⟨0, _⟩ => rfl
    | ⟨1, _⟩ => rfl
  unfold G1 out1_4
  rw [View.canon_unit_zero hz]
  simp only [View.ld_unit_zero (S := S2000x128) hz, View.ld_unit_zero (S := S2000x1) hz, View.ld_unit_zero (S := S1x128) hz]
  rw [locOf1_ix2, Pay.k1_pay1_terms]
  rw [iblk1_0_apply V c _ _ j n (by show n.val = n.val / 2000 * 2000 + n.val % 2000; omega),
    iblk1_1_apply V c _ _ j n (by show n.val = n.val / 2000 * 2000 + n.val % 2000; omega),
    iblk1_2_apply V c _ _ (0 : Fin 1) n (by show n.val = n.val / 2000 * 2000 + n.val % 2000; omega),
    iblk1_3_apply]

end Cert.KernelIdeal.Hand

end
-- ==== Proof.KI.Stage0.lean ====
/- Stage 0 against the reference's stages: the first aggregation is the reference's over the first product, and the first combine's array is the reference's first cell. -/
import proofs.«135915_j24266565222462_2_alg».proof.Proof.KI.Bridge0
import proofs.«135915_j24266565222462_2_alg».proof.Proof.KI.HostAgg1
import proofs.«135915_j24266565222462_2_alg».proof.Proof.KI.HostMisc
import proofs.«135915_j24266565222462_2_alg».proof.Proof.V.RegAt1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

theorem src_at2 (c : Dev nD) : W2 m c main_v1 = Cert.RefStages.src (argA m c main_arg1) := (carry_main_v1_1_2 m c).trans (W1_src m c)
theorem dst_at2 (c : Dev nD) : W2 m c main_v3 = Cert.RefStages.dst (argA m c main_arg1) := (carry_main_v3_1_2 m c).trans (W1_dst m c)
theorem norm_at2 (c : Dev nD) : W2 m c main_v27 = Cert.RefStages.norm (argA m c main_arg1) := (carry_main_v27_1_2 m c).trans (W1_norm m c)

/-- The first aggregation. -/
theorem agg_at3 (c : Dev nD) : W3 m c main_v43 = (Cert.RefStages.agg (Cert.RefStages.h0 (argA m c main_arg0) (argA m c main_arg3)) (argA m c main_arg1) : FVec Ideal S50000x128 .f32) := by
  show StableHlo.after hostOps1 (W2 m c) (Proc.devRef .tc main_v43) = _
  rw [ops1_v43]
  have e : W2 m c main_v28 = (Cert.RefStages.h0 (argA m c main_arg0) (argA m c main_arg3)) := (W2_out m c).trans (arr0_eq m c)
  show Cert.KerAgg.agg1 (W2 m c main_v28) (W2 m c main_v1) (W2 m c main_v3) (W2 m c main_v27) = _
  rw [e, src_at2, dst_at2, norm_at2]
  exact Cert.KerAgg.agg1_eq _ _

set_option maxHeartbeats 4000000 in
theorem arr1_eq (c : Dev nD) : arr1 m c = ((Cert.RefStages.cell0 (argA m c main_arg0) (argA m c main_arg1) (argA m c main_arg3) (argA m c main_arg4)) : FVec Ideal S50000x128 .f32) := by
  unfold arr1
  rw [final1]
  funext i
  obtain ⟨n, j, rfl⟩ : ∃ (n : Fin 50000) (j : Fin 128), i = ix2 n j := ⟨i 0, i 1, eq_ix2 i⟩
  rw [G1_apply]
  have e0 : A1_0 (atRefs (W3 m)) c = Cert.RefStages.agg (Cert.RefStages.h0 (argA m c main_arg0) (argA m c main_arg3)) (argA m c main_arg1) := agg_at3 m c
  have e1 : A1_1 (atRefs (W3 m)) c = (Cert.RefStages.h0 (argA m c main_arg0) (argA m c main_arg3)) := (carry_main_v28_2_3 m c).trans ((W2_out m c).trans (arr0_eq m c))
  have e2 : A1_2 (atRefs (W3 m)) c = dsqCol (argA m c main_arg1) := (carry_main_v12_1_3 m c).trans (W1_dsq m c)
  have e3 : A1_3 (atRefs (W3 m)) c = biasRow (argA m c main_arg4) := (W3_v44 m c).trans (congrArg biasRow (carry_main_arg4_0_2 m c))
  rw [e0, e1, e2, e3]
  show _ = Cert.RefStages.gcnTerm (Cert.RefStages.h0 (argA m c main_arg0) (argA m c main_arg3)) (argA m c main_arg1) (argA m c main_arg4) (ix2 n j)
  rw [Cert.StageAt.gcnTerm_apply]
  unfold dsqCol biasRow
  rw [Cert.StageAt.dsq_apply, Cert.StageAt.brow_apply]

end Cert.KernelIdeal.Hand

end
-- ==== Proof.KI.Val2.lean ====
/- Region 2's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf2 (i : S50000x128.Idx) : Fin cfg2.N :=
  ⟨(i 0).val / 2000, by have h : (i 0).val < 50000 := (i 0).isLt; show (i 0).val / 2000 < 25; omega⟩
/-- The index inside that block. -/
def locOf2 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 2's output array as one function of the arrays the region finds. -/
def G2 (c : Dev nD) : Vec F S50000x128 .f32 := fun i => out2_2 (iblk2 V c 0 (ptOf2 i)) (iblk2 V c 1 (ptOf2 i)) (locOf2 i)

theorem G2_at (c : Dev nD) (t : Fin cfg2.N) (y : S2000x128.Idx) (i : S50000x128.Idx) (h1 : ptOf2 i = t) (h2 : locOf2 i = y) :
    G2 V c i = out2_2 (iblk2 V c 0 t) (iblk2 V c 1 t) y := by
  unfold G2; rw [h1, h2]

/-- The output window's block index at grid point t is (t, 0). -/
theorem idx_facts2 : ∀ t : Fin cfg2.N, win2_2.index t (0 : Fin 2) = t.val ∧ win2_2.index t (1 : Fin 2) = 0 :=
  (by decide +kernel : ∀ t : Fin grid2.N, _)

set_option maxHeartbeats 4000000 in
/-- What grid point t writes back is block t of `G2`. -/
theorem flushed2_eq (c : Dev nD) (t : Fin cfg2.N) :
    (dat2 V c).flushed 2 t = ((cfg2.win 2).blk t).view.read (Elt F) (G2 V c) := by
  show (cfg2.win 2).cut (grid2.coords t) ((dat2 V c).after 2 t) = _
  rw [after2_2]
  funext y
  rw [View.read_apply]
  obtain ⟨e0, e1⟩ := idx_facts2 t
  have hy0 : (y 0).val < 2000 := (y 0).isLt
  have hp : ptOf2 (((cfg2.win 2).blk t).view.emb y) = t := Fin.ext (by
    show (win2_2.index t (0 : Fin 2) * 2000 + 1 * (y 0).val) / 2000 = t.val
    rw [e0]; omega)
  have hl : locOf2 (((cfg2.win 2).blk t).view.emb y) = y := funext fun a => Fin.ext (by
    match a with
    | ⟨0, _⟩ => show (win2_2.index t (0 : Fin 2) * 2000 + 1 * (y 0).val) % 2000 = (y 0).val; rw [e0]; omega
    | ⟨1, _⟩ => show win2_2.index t (1 : Fin 2) * 128 + 1 * (y 1).val = (y 1).val; rw [e1]; omega)
  exact (G2_at V c t y _ hp hl).symm

/-- An index of the array is in grid point t's block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every index is in the block of the grid point of its row's quotient, which writes its block back. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  refine ⟨ptOf2 i, flush2_2 _, ?_⟩
  rw [mem_blk2]
  obtain ⟨e0, e1⟩ := idx_facts2 (ptOf2 i)
  intro a
  match a with
  | ⟨0, _⟩ => show win2_2.index (ptOf2 i) (0 : Fin 2) * 2000 ≤ (i 0).val ∧ (i 0).val < win2_2.index (ptOf2 i) (0 : Fin 2) * 2000 + 2000; rw [e0]; show (i 0).val / 2000 * 2000 ≤ _ ∧ _ < (i 0).val / 2000 * 2000 + 2000; omega
  | ⟨1, _⟩ => show win2_2.index (ptOf2 i) (1 : Fin 2) * 128 ≤ (i 1).val ∧ (i 1).val < win2_2.index (ptOf2 i) (1 : Fin 2) * 128 + 128; rw [e1]; omega

/-- The output array after the region's whole grid. -/
theorem final2 (c : Dev nD) : (dat2 V c).arrAt 2 cfg2.N = G2 V c :=
  (dat2 V c).arrAt_eq_of_cover 2 (G2 V c) (fun t _ => flushed2_eq V c t) cover2

end Cert.KernelIdeal.Hand

end
-- ==== Proof.V.RegAt2.lean ====
/-
  Region 2's output array at an index, over the arrays the region finds.

  The region multiplies the [50000, 128] operand, clamped below at zero, by the [128, 128] weight, 2000 rows at a
  time. Row `n` lies in block `n / 2000` at row `n % 2000`, the weight is staged whole, and the body's product at
  that row is the sum over the contracted coordinate; so the output at `(n, j)` is
  ∑ q, max (A₀ (n, q)) 0 · A₁ (q, j).
-/
import proofs.«135915_j24266565222462_2_alg».proof.Proof.KI.Val2
import proofs.«135915_j24266565222462_2_alg».proof.Proof.V.PayMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The [50000, 128] operand region 2 finds. -/
abbrev A2_0 (c : Dev nD) : S50000x128.Idx → EReal := V c (Pipeline.arrRef spec2 0)
/-- The [128, 128] weight region 2 finds. -/
abbrev A2_1 (c : Dev nD) : S128x128.Idx → EReal := V c (Pipeline.arrRef spec2 1)

theorem idx_facts2_0 : ∀ t : Fin cfg2.N, win2_0.index t (0 : Fin 2) = t.val ∧ win2_0.index t (1 : Fin 2) = 0 :=
  (by decide +kernel : ∀ t : Fin grid2.N, _)
theorem idx_facts2_1 : ∀ t : Fin cfg2.N, win2_1.index t (0 : Fin 2) = 0 ∧ win2_1.index t (1 : Fin 2) = 0 :=
  (by decide +kernel : ∀ t : Fin grid2.N, _)

/-- Inside its block, row `n` is row `n % 2000`. -/
theorem locOf2_ix2 (n : Fin 50000) (j : Fin 128) :
    locOf2 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk2_0_apply (c : Dev nD) (t : Fin cfg2.N) (r : Fin 2000) (q : Fin 128) (n : Fin 50000)
    (hn : n.val = t.val * 2000 + r.val) :
    (iblk2 V c 0 t : S2000x128.Idx → EReal) (ix2 r q) = A2_0 V c (ix2 n q) := by
  unfold iblk2
  rw [View.read_apply]
  show A2_0 V c (((cfg2.win 0).blk t).view.emb (ix2 r q)) = _
  refine congrArg _ (funext fun a => Fin.ext ?_)
  obtain ⟨e0, e1⟩ := idx_facts2_0 t
  match a with
  | ⟨0, _⟩ => show win2_0.index t (0 : Fin 2) * 2000 + 1 * r.val = n.val; rw [e0]; omega
  | ⟨1, _⟩ => show win2_0.index t (1 : Fin 2) * 128 + 1 * q.val = q.val; rw [e1]; omega

/-- Window 1 is staged whole: its block at every grid point is the array. -/
theorem iblk2_1_apply (c : Dev nD) (t : Fin cfg2.N) (p : Fin 128) (q : Fin 128) :
    (iblk2 V c 1 t : S128x128.Idx → EReal) (ix2 p q) = A2_1 V c (ix2 p q) := by
  unfold iblk2
  rw [View.read_apply]
  show A2_1 V c (((cfg2.win 1).blk t).view.emb (ix2 p q)) = _
  refine congrArg _ (funext fun a => Fin.ext ?_)
  obtain ⟨e0, e1⟩ := idx_facts2_1 t
  match a with
  | ⟨0, _⟩ => show win2_1.index t (0 : Fin 2) * 128 + 1 * p.val = p.val; rw [e0]; omega
  | ⟨1, _⟩ => show win2_1.index t (1 : Fin 2) * 128 + 1 * q.val = q.val; rw [e1]; omega

/-- Region 2's output at `(n, j)`. -/
theorem G2_apply (c : Dev nD) (n : Fin 50000) (j : Fin 128) :
    G2 V c (ix2 n j) = ∑ q : Fin 128, max (A2_0 V c (ix2 n q)) 0 * A2_1 V c (ix2 q j) := by
  have hz : (![0, 0] : Fin 2 → Nat) = fun _ => 0 := funext fun a => by
    match a with
    | ⟨0, _⟩ => rfl
    | ⟨1, _⟩ => rfl
  unfold G2 out2_2
  rw [View.canon_unit_zero hz, View.ld_unit_zero hz, View.ld_unit_zero hz, locOf2_ix2, Pay.k2_pay1_apply]
  refine Finset.sum_congr rfl fun q _ => ?_
  rw [iblk2_0_apply V c _ _ q n (by show n.val = n.val / 2000 * 2000 + n.val % 2000; omega), iblk2_1_apply]

end Cert.KernelIdeal.Hand

end
-- ==== Proof.KI.Val3.lean ====
/- Region 3's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf3 (i : S50000x128.Idx) : Fin cfg3.N :=
  ⟨(i 0).val / 2000, by have h : (i 0).val < 50000 := (i 0).isLt; show (i 0).val / 2000 < 25; omega⟩
/-- The index inside that block. -/
def locOf3 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 3's output array as one function of the arrays the region finds. -/
def G3 (c : Dev nD) : Vec F S50000x128 .f32 := fun i => out3_4 (iblk3 V c 0 (ptOf3 i)) (iblk3 V c 1 (ptOf3 i)) (iblk3 V c 2 (ptOf3 i)) (iblk3 V c 3 (ptOf3 i)) (locOf3 i)

theorem G3_at (c : Dev nD) (t : Fin cfg3.N) (y : S2000x128.Idx) (i : S50000x128.Idx) (h1 : ptOf3 i = t) (h2 : locOf3 i = y) :
    G3 V c i = out3_4 (iblk3 V c 0 t) (iblk3 V c 1 t) (iblk3 V c 2 t) (iblk3 V c 3 t) y := by
  unfold G3; rw [h1, h2]

/-- The output window's block index at grid point t is (t, 0). -/
theorem idx_facts3 : ∀ t : Fin cfg3.N, win3_4.index t (0 : Fin 2) = t.val ∧ win3_4.index t (1 : Fin 2) = 0 :=
  (by decide +kernel : ∀ t : Fin grid3.N, _)

set_option maxHeartbeats 4000000 in
/-- What grid point t writes back is block t of `G3`. -/
theorem flushed3_eq (c : Dev nD) (t : Fin cfg3.N) :
    (dat3 V c).flushed 4 t = ((cfg3.win 4).blk t).view.read (Elt F) (G3 V c) := by
  show (cfg3.win 4).cut (grid3.coords t) ((dat3 V c).after 4 t) = _
  rw [after3_4]
  funext y
  rw [View.read_apply]
  obtain ⟨e0, e1⟩ := idx_facts3 t
  have hy0 : (y 0).val < 2000 := (y 0).isLt
  have hp : ptOf3 (((cfg3.win 4).blk t).view.emb y) = t := Fin.ext (by
    show (win3_4.index t (0 : Fin 2) * 2000 + 1 * (y 0).val) / 2000 = t.val
    rw [e0]; omega)
  have hl : locOf3 (((cfg3.win 4).blk t).view.emb y) = y := funext fun a => Fin.ext (by
    match a with
    | ⟨0, _⟩ => show (win3_4.index t (0 : Fin 2) * 2000 + 1 * (y 0).val) % 2000 = (y 0).val; rw [e0]; omega
    | ⟨1, _⟩ => show win3_4.index t (1 : Fin 2) * 128 + 1 * (y 1).val = (y 1).val; rw [e1]; omega)
  exact (G3_at V c t y _ hp hl).symm

/-- An index of the array is in grid point t's block iff each coordinate is in the block's range on its axis. -/
theorem mem_blk3 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v63).slice (win3_4.rect t)).set ↔ _
  rw [View.set_slice_whole, Rect.mem_set_unit]
  exact Iff.rfl

/-- Every index is in the block of the grid point of its row's quotient, which writes its block back. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  refine ⟨ptOf3 i, flush3_4 _, ?_⟩
  rw [mem_blk3]
  obtain ⟨e0, e1⟩ := idx_facts3 (ptOf3 i)
  intro a
  match a with
  | ⟨0, _⟩ => show win3_4.index (ptOf3 i) (0 : Fin 2) * 2000 ≤ (i 0).val ∧ (i 0).val < win3_4.index (ptOf3 i) (0 : Fin 2) * 2000 + 2000; rw [e0]; show (i 0).val / 2000 * 2000 ≤ _ ∧ _ < (i 0).val / 2000 * 2000 + 2000; omega
  | ⟨1, _⟩ => show win3_4.index (ptOf3 i) (1 : Fin 2) * 128 ≤ (i 1).val ∧ (i 1).val < win3_4.index (ptOf3 i) (1 : Fin 2) * 128 + 128; rw [e1]; omega

/-- The output array after the region's whole grid. -/
theorem final3 (c : Dev nD) : (dat3 V c).arrAt 4 cfg3.N = G3 V c :=
  (dat3 V c).arrAt_eq_of_cover 4 (G3 V c) (fun t _ => flushed3_eq V c t) cover3

end Cert.KernelIdeal.Hand

end
-- ==== Proof.V.RegAt3.lean ====
/-
  Region 3's output array at an index, over the arrays the region finds.

  The region combines one graph-convolution term: the aggregated array A₀ and the product array A₁,
  2000 rows at a time, with the [50000, 1] column of squared inverse-root degrees and the [1, 128] bias row staged
  whole. Row `n` lies in block `n / 2000` at row `n % 2000`; the body at that row is the sum of the terms
  agg(n, j) + h(n, j) · d(n) + b(j).
-/
import proofs.«135915_j24266565222462_2_alg».proof.Proof.KI.Val3
import proofs.«135915_j24266565222462_2_alg».proof.Proof.V.PayCombine
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- Aggregated array 0 of region 3. -/
abbrev A3_0 (c : Dev nD) : S50000x128.Idx → EReal := V c (Pipeline.arrRef spec3 0)
/-- Product array 0 of region 3. -/
abbrev A3_1 (c : Dev nD) : S50000x128.Idx → EReal := V c (Pipeline.arrRef spec3 1)
/-- The column of squared inverse-root degrees. -/
abbrev A3_2 (c : Dev nD) : S50000x1.Idx → EReal := V c (Pipeline.arrRef spec3 2)
/-- The bias row. -/
abbrev A3_3 (c : Dev nD) : S1x128.Idx → EReal := V c (Pipeline.arrRef spec3 3)

theorem idx_facts3_0 : ∀ t : Fin cfg3.N, win3_0.index t (0 : Fin 2) = t.val ∧ win3_0.index t (1 : Fin 2) = 0 :=
  (by decide +kernel : ∀ t : Fin grid3.N, _)
theorem idx_facts3_1 : ∀ t : Fin cfg3.N, win3_1.index t (0 : Fin 2) = t.val ∧ win3_1.index t (1 : Fin 2) = 0 :=
  (by decide +kernel : ∀ t : Fin grid3.N, _)
theorem idx_facts3_2 : ∀ t : Fin cfg3.N, win3_2.index t (0 : Fin 2) = t.val ∧ win3_2.index t (1 : Fin 2) = 0 :=
  (by decide +kernel : ∀ t : Fin grid3.N, _)
theorem idx_facts3_3 : ∀ t : Fin cfg3.N, win3_3.index t (0 : Fin 2) = 0 ∧ win3_3.index t (1 : Fin 2) = 0 :=
  (by decide +kernel : ∀ t : Fin grid3.N, _)

/-- Inside its block, row `n` is row `n % 2000`. -/
theorem locOf3_ix2 (n : Fin 50000) (j : Fin 128) :
    locOf3 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk3_0_apply (c : Dev nD) (t : Fin cfg3.N) (r : Fin 2000) (q : Fin 128) (n : Fin 50000)
    (hn : n.val = t.val * 2000 + r.val) :
    (iblk3 V c 0 t : S2000x128.Idx → EReal) (ix2 r q) = A3_0 V c (ix2 n q) := by
  unfold iblk3
  rw [View.read_apply]
  show A3_0 V c (((cfg3.win 0).blk t).view.emb (ix2 r q)) = _
  refine congrArg _ (funext fun a => Fin.ext ?_)
  obtain ⟨e0, e1⟩ := idx_facts3_0 t
  match a with
  | ⟨0, _⟩ => show win3_0.index t (0 : Fin 2) * 2000 + 1 * r.val = n.val; rw [e0]; omega
  | ⟨1, _⟩ => show win3_0.index t (1 : Fin 2) * 128 + 1 * q.val = q.val; rw [e1]; omega

/-- Window 1's block at grid point `t`, at row `r` of the block, is the array at row `t * 2000 + r`. -/
theorem iblk3_1_apply (c : Dev nD) (t : Fin cfg3.N) (r : Fin 2000) (q : Fin 128) (n : Fin 50000)
    (hn : n.val = t.val * 2000 + r.val) :
    (iblk3 V c 1 t : S2000x128.Idx → EReal) (ix2 r q) = A3_1 V c (ix2 n q) := by
  unfold iblk3
  rw [View.read_apply]
  show A3_1 V c (((cfg3.win 1).blk t).view.emb (ix2 r q)) = _
  refine congrArg _ (funext fun a => Fin.ext ?_)
  obtain ⟨e0, e1⟩ := idx_facts3_1 t
  match a with
  | ⟨0, _⟩ => show win3_1.index t (0 : Fin 2) * 2000 + 1 * r.val = n.val; rw [e0]; omega
  | ⟨1, _⟩ => show win3_1.index t (1 : Fin 2) * 128 + 1 * q.val = q.val; rw [e1]; omega

/-- Window 2's block at grid point `t`, at row `r` of the block, is the array at row `t * 2000 + r`. -/
theorem iblk3_2_apply (c : Dev nD) (t : Fin cfg3.N) (r : Fin 2000) (q : Fin 1) (n : Fin 50000)
    (hn : n.val = t.val * 2000 + r.val) :
    (iblk3 V c 2 t : S2000x1.Idx → EReal) (ix2 r q) = A3_2 V c (ix2 n q) := by
  unfold iblk3
  rw [View.read_apply]
  show A3_2 V c (((cfg3.win 2).blk t).view.emb (ix2 r q)) = _
  refine congrArg _ (funext fun a => Fin.ext ?_)
  obtain ⟨e0, e1⟩ := idx_facts3_2 t
  match a with
  | ⟨0, _⟩ => show win3_2.index t (0 : Fin 2) * 2000 + 1 * r.val = n.val; rw [e0]; omega
  | ⟨1, _⟩ => show win3_2.index t (1 : Fin 2) * 1 + 1 * q.val = q.val; rw [e1]; omega

/-- Window 3 is staged whole: its block at every grid point is the array. -/
theorem iblk3_3_apply (c : Dev nD) (t : Fin cfg3.N) (p : Fin 1) (q : Fin 128) :
    (iblk3 V c 3 t : S1x128.Idx → EReal) (ix2 p q) = A3_3 V c (ix2 p q) := by
  unfold iblk3
  rw [View.read_apply]
  show A3_3 V c (((cfg3.win 3).blk t).view.emb (ix2 p q)) = _
  refine congrArg _ (funext fun a => Fin.ext ?_)
  obtain ⟨e0, e1⟩ := idx_facts3_3 t
  match a with
  | ⟨0, _⟩ => show win3_3.index t (0 : Fin 2) * 1 + 1 * p.val = p.val; rw [e0]; omega
  | ⟨1, _⟩ => show win3_3.index t (1 : Fin 2) * 128 + 1 * q.val = q.val; rw [e1]; omega

/-- Region 3's output at `(n, j)`. -/
theorem G3_apply (c : Dev nD) (n : Fin 50000) (j : Fin 128) :
    G3 V c (ix2 n j)
      = A3_0 V c (ix2 n j) + A3_1 V c (ix2 n j) * A3_2 V c (ix2 n (0 : Fin 1)) + A3_3 V c (ix2 (0 : Fin 1) j) := by
  have hz : (![0, 0] : Fin 2 → Nat) = fun _ => 0 := funext fun a => by
    match a with
    | ⟨0, _⟩ => rfl
    | ⟨1, _⟩ => rfl
  unfold G3 out3_4
  rw [View.canon_unit_zero hz]
  simp only [View.ld_unit_zero (S := S2000x128) hz, View.ld_unit_zero (S := S2000x1) hz, View.ld_unit_zero (S := S1x128) hz]
  rw [locOf3_ix2, Pay.k3_pay1_terms]
  rw [iblk3_0_apply V c _ _ j n (by show n.val = n.val / 2000 * 2000 + n.val % 2000; omega),
    iblk3_1_apply V c _ _ j n (by show n.val = n.val / 2000 * 2000 + n.val % 2000; omega),
    iblk3_2_apply V c _ _ (0 : Fin 1) n (by show n.val = n.val / 2000 * 2000 + n.val % 2000; omega),
    iblk3_3_apply]

end Cert.KernelIdeal.Hand

end
-- ==== Proof.KI.Stage1.lean ====
/- Stage 1 against the reference's stages: the second product, its aggregation, and the second cell. -/
import proofs.«135915_j24266565222462_2_alg».proof.Proof.KI.Stage0
import proofs.«135915_j24266565222462_2_alg».proof.Proof.V.RegAt2
import proofs.«135915_j24266565222462_2_alg».proof.Proof.V.RegAt3

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

set_option maxHeartbeats 4000000 in
/-- Region 2's array is the reference's product of the rectified cell with the stage's weight. -/
theorem arr2_eq (c : Dev nD) : arr2 m c = ((Cert.RefStages.h1 (argA m c main_arg0) (argA m c main_arg1) (argA m c main_arg3) (argA m c main_arg4) (argA m c main_arg5)) : FVec Ideal S50000x128 .f32) := by
  unfold arr2
  rw [final2]
  funext i
  obtain ⟨n, j, rfl⟩ : ∃ (n : Fin 50000) (j : Fin 128), i = ix2 n j := ⟨i 0, i 1, eq_ix2 i⟩
  rw [G2_apply]
  have e0 : A2_0 (atRefs (W4 m)) c = (Cert.RefStages.cell0 (argA m c main_arg0) (argA m c main_arg1) (argA m c main_arg3) (argA m c main_arg4)) := (W4_out m c).trans (arr1_eq m c)
  have e1 : A2_1 (atRefs (W4 m)) c = argA m c main_arg5 := carry_main_arg5_0_4 m c
  rw [e0, e1]
  show _ = Cert.RefStages.lin (Cert.RefStages.relu (Cert.RefStages.cell0 (argA m c main_arg0) (argA m c main_arg1) (argA m c main_arg3) (argA m c main_arg4))) (argA m c main_arg5) (ix2 n j)
  rw [Cert.StageAt.lin_apply]
  exact Finset.sum_congr rfl (fun q _ => by rw [Cert.StageAt.relu_apply])

theorem src_at5 (c : Dev nD) : W5 m c main_v1 = Cert.RefStages.src (argA m c main_arg1) := (carry_main_v1_1_5 m c).trans (W1_src m c)
theorem dst_at5 (c : Dev nD) : W5 m c main_v3 = Cert.RefStages.dst (argA m c main_arg1) := (carry_main_v3_1_5 m c).trans (W1_dst m c)
theorem norm_at5 (c : Dev nD) : W5 m c main_v27 = Cert.RefStages.norm (argA m c main_arg1) := (carry_main_v27_1_5 m c).trans (W1_norm m c)

/-- The second aggregation. -/
theorem agg_at6 (c : Dev nD) : W6 m c main_v61 = (Cert.RefStages.agg (Cert.RefStages.h1 (argA m c main_arg0) (argA m c main_arg1) (argA m c main_arg3) (argA m c main_arg4) (argA m c main_arg5)) (argA m c main_arg1) : FVec Ideal S50000x128 .f32) := by
  show StableHlo.after hostOps3 (W5 m c) (Proc.devRef .tc main_v61) = _
  rw [ops3_v61]
  have e : W5 m c main_v46 = (Cert.RefStages.h1 (argA m c main_arg0) (argA m c main_arg1) (argA m c main_arg3) (argA m c main_arg4) (argA m c main_arg5)) := (W5_out m c).trans (arr2_eq m c)
  show Cert.KerAgg.agg1 (W5 m c main_v46) (W5 m c main_v1) (W5 m c main_v3) (W5 m c main_v27) = _
  rw [e, src_at5, dst_at5, norm_at5]
  exact Cert.KerAgg.agg1_eq _ _

set_option maxHeartbeats 4000000 in
theorem arr3_eq (c : Dev nD) : arr3 m c = ((Cert.RefStages.cell1 (argA m c main_arg0) (argA m c main_arg1) (argA m c main_arg3) (argA m c main_arg4) (argA m c main_arg5) (argA m c main_arg6)) : FVec Ideal S50000x128 .f32) := by
  unfold arr3
  rw [final3]
  funext i
  obtain ⟨n, j, rfl⟩ : ∃ (n : Fin 50000) (j : Fin 128), i = ix2 n j := ⟨i 0, i 1, eq_ix2 i⟩
  rw [G3_apply]
  have e0 : A3_0 (atRefs (W6 m)) c = Cert.RefStages.agg (Cert.RefStages.h1 (argA m c main_arg0) (argA m c main_arg1) (argA m c main_arg3) (argA m c main_arg4) (argA m c main_arg5)) (argA m c main_arg1) := agg_at6 m c
  have e1 : A3_1 (atRefs (W6 m)) c = (Cert.RefStages.h1 (argA m c main_arg0) (argA m c main_arg1) (argA m c main_arg3) (argA m c main_arg4) (argA m c main_arg5)) := (carry_main_v46_5_6 m c).trans ((W5_out m c).trans (arr2_eq m c))
  have e2 : A3_2 (atRefs (W6 m)) c = dsqCol (argA m c main_arg1) := (carry_main_v12_1_6 m c).trans (W1_dsq m c)
  have e3 : A3_3 (atRefs (W6 m)) c = biasRow (argA m c main_arg6) := (W6_v62 m c).trans (congrArg biasRow (carry_main_arg6_0_5 m c))
  rw [e0, e1, e2, e3]
  show _ = Cert.RefStages.gcnTerm (Cert.RefStages.h1 (argA m c main_arg0) (argA m c main_arg1) (argA m c main_arg3) (argA m c main_arg4) (argA m c main_arg5)) (argA m c main_arg1) (argA m c main_arg6) (ix2 n j)
  rw [Cert.StageAt.gcnTerm_apply]
  unfold dsqCol biasRow
  rw [Cert.StageAt.dsq_apply, Cert.StageAt.brow_apply]

end Cert.KernelIdeal.Hand

end
-- ==== Proof.KI.HostAgg2.lean ====
/- The two-term aggregation stretch read over any contents of the buffers it starts from: each column block of the stacked scatter-add is the named two-term pipeline's slice. -/
import proofs.«135915_j24266565222462_2_alg».proof.Proof.KI.Chain
import proofs.«135915_j24266565222462_2_alg».proof.Proof.V.AggTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

set_option maxHeartbeats 8000000 in
theorem ops6_v83 (V : Valuation τ sig (Elt Ideal)) :
    StableHlo.after hostOps6 V (Proc.devRef .tc main_v83) = (Cert.KerAgg.agg2_0 (V (Proc.devRef .tc main_v64)) (V (Proc.devRef .tc main_v65)) (V (Proc.devRef .tc main_v1)) (V (Proc.devRef .tc main_v3)) (V (Proc.devRef .tc main_v27)) : FVec Ideal S50000x128 .f32) := by
  after_results_simp
  rfl

set_option maxHeartbeats 8000000 in
theorem ops6_v84 (V : Valuation τ sig (Elt Ideal)) :
    StableHlo.after hostOps6 V (Proc.devRef .tc main_v84) = (Cert.KerAgg.agg2_1 (V (Proc.devRef .tc main_v64)) (V (Proc.devRef .tc main_v65)) (V (Proc.devRef .tc main_v1)) (V (Proc.devRef .tc main_v3)) (V (Proc.devRef .tc main_v27)) : FVec Ideal S50000x128 .f32) := by
  after_results_simp
  rfl

end Cert.KernelIdeal.Hand

end
-- ==== Proof.KI.Val4.lean ====
/- Region 4's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R4
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf4 (i : S50000x128.Idx) : Fin cfg4.N :=
  ⟨(i 0).val / 2000, by have h : (i 0).val < 50000 := (i 0).isLt; show (i 0).val / 2000 < 25; omega⟩
/-- The index inside that block. -/
def locOf4 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 4's output array as one function of the arrays the region finds. -/
def G4 (c : Dev nD) : Vec F S50000x128 .f32 := fun i => out4_2 (iblk4 V c 0 (ptOf4 i)) (iblk4 V c 1 (ptOf4 i)) (locOf4 i)

theorem G4_at (c : Dev nD) (t : Fin cfg4.N) (y : S2000x128.Idx) (i : S50000x128.Idx) (h1 : ptOf4 i = t) (h2 : locOf4 i = y) :
    G4 V c i = out4_2 (iblk4 V c 0 t) (iblk4 V c 1 t) y := by
  unfold G4; rw [h1, h2]

/-- The output window's block index at grid point t is (t, 0). -/
theorem idx_facts4 : ∀ t : Fin cfg4.N, win4_2.index t (0 : Fin 2) = t.val ∧ win4_2.index t (1 : Fin 2) = 0 :=
  (by decide +kernel : ∀ t : Fin grid4.N, _)

set_option maxHeartbeats 4000000 in
/-- What grid point t writes back is block t of `G4`. -/
theorem flushed4_eq (c : Dev nD) (t : Fin cfg4.N) :
    (dat4 V c).flushed 2 t = ((cfg4.win 2).blk t).view.read (Elt F) (G4 V c) := by
  show (cfg4.win 2).cut (grid4.coords t) ((dat4 V c).after 2 t) = _
  rw [after4_2]
  funext y
  rw [View.read_apply]
  obtain ⟨e0, e1⟩ := idx_facts4 t
  have hy0 : (y 0).val < 2000 := (y 0).isLt
  have hp : ptOf4 (((cfg4.win 2).blk t).view.emb y) = t := Fin.ext (by
    show (win4_2.index t (0 : Fin 2) * 2000 + 1 * (y 0).val) / 2000 = t.val
    rw [e0]; omega)
  have hl : locOf4 (((cfg4.win 2).blk t).view.emb y) = y := funext fun a => Fin.ext (by
    match a with
    | ⟨0, _⟩ => show (win4_2.index t (0 : Fin 2) * 2000 + 1 * (y 0).val) % 2000 = (y 0).val; rw [e0]; omega
    | ⟨1, _⟩ => show win4_2.index t (1 : Fin 2) * 128 + 1 * (y 1).val = (y 1).val; rw [e1]; omega)
  exact (G4_at V c t y _ hp hl).symm

/-- An index of the array is in grid point t's block iff each coordinate is in the block's range on its axis. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v64).slice (win4_2.rect t)).set ↔ _
  rw [View.set_slice_whole, Rect.mem_set_unit]
  exact Iff.rfl

/-- Every index is in the block of the grid point of its row's quotient, which writes its block back. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  refine ⟨ptOf4 i, flush4_2 _, ?_⟩
  rw [mem_blk4]
  obtain ⟨e0, e1⟩ := idx_facts4 (ptOf4 i)
  intro a
  match a with
  | ⟨0, _⟩ => show win4_2.index (ptOf4 i) (0 : Fin 2) * 2000 ≤ (i 0).val ∧ (i 0).val < win4_2.index (ptOf4 i) (0 : Fin 2) * 2000 + 2000; rw [e0]; show (i 0).val / 2000 * 2000 ≤ _ ∧ _ < (i 0).val / 2000 * 2000 + 2000; omega
  | ⟨1, _⟩ => show win4_2.index (ptOf4 i) (1 : Fin 2) * 128 ≤ (i 1).val ∧ (i 1).val < win4_2.index (ptOf4 i) (1 : Fin 2) * 128 + 128; rw [e1]; omega

/-- The output array after the region's whole grid. -/
theorem final4 (c : Dev nD) : (dat4 V c).arrAt 2 cfg4.N = G4 V c :=
  (dat4 V c).arrAt_eq_of_cover 2 (G4 V c) (fun t _ => flushed4_eq V c t) cover4

end Cert.KernelIdeal.Hand

end
-- ==== Proof.V.RegAt4.lean ====
/-
  Region 4's output array at an index, over the arrays the region finds.

  The region multiplies the [50000, 128] operand, clamped below at zero, by the [128, 128] weight, 2000 rows at a
  time. Row `n` lies in block `n / 2000` at row `n % 2000`, the weight is staged whole, and the body's product at
  that row is the sum over the contracted coordinate; so the output at `(n, j)` is
  ∑ q, max (A₀ (n, q)) 0 · A₁ (q, j).
-/
import proofs.«135915_j24266565222462_2_alg».proof.Proof.KI.Val4
import proofs.«135915_j24266565222462_2_alg».proof.Proof.V.PayMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The [50000, 128] operand region 4 finds. -/
abbrev A4_0 (c : Dev nD) : S50000x128.Idx → EReal := V c (Pipeline.arrRef spec4 0)
/-- The [128, 128] weight region 4 finds. -/
abbrev A4_1 (c : Dev nD) : S128x128.Idx → EReal := V c (Pipeline.arrRef spec4 1)

theorem idx_facts4_0 : ∀ t : Fin cfg4.N, win4_0.index t (0 : Fin 2) = t.val ∧ win4_0.index t (1 : Fin 2) = 0 :=
  (by decide +kernel : ∀ t : Fin grid4.N, _)
theorem idx_facts4_1 : ∀ t : Fin cfg4.N, win4_1.index t (0 : Fin 2) = 0 ∧ win4_1.index t (1 : Fin 2) = 0 :=
  (by decide +kernel : ∀ t : Fin grid4.N, _)

/-- Inside its block, row `n` is row `n % 2000`. -/
theorem locOf4_ix2 (n : Fin 50000) (j : Fin 128) :
    locOf4 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk4_0_apply (c : Dev nD) (t : Fin cfg4.N) (r : Fin 2000) (q : Fin 128) (n : Fin 50000)
    (hn : n.val = t.val * 2000 + r.val) :
    (iblk4 V c 0 t : S2000x128.Idx → EReal) (ix2 r q) = A4_0 V c (ix2 n q) := by
  unfold iblk4
  rw [View.read_apply]
  show A4_0 V c (((cfg4.win 0).blk t).view.emb (ix2 r q)) = _
  refine congrArg _ (funext fun a => Fin.ext ?_)
  obtain ⟨e0, e1⟩ := idx_facts4_0 t
  match a with
  | ⟨0, _⟩ => show win4_0.index t (0 : Fin 2) * 2000 + 1 * r.val = n.val; rw [e0]; omega
  | ⟨1, _⟩ => show win4_0.index t (1 : Fin 2) * 128 + 1 * q.val = q.val; rw [e1]; omega

/-- Window 1 is staged whole: its block at every grid point is the array. -/
theorem iblk4_1_apply (c : Dev nD) (t : Fin cfg4.N) (p : Fin 128) (q : Fin 128) :
    (iblk4 V c 1 t : S128x128.Idx → EReal) (ix2 p q) = A4_1 V c (ix2 p q) := by
  unfold iblk4
  rw [View.read_apply]
  show A4_1 V c (((cfg4.win 1).blk t).view.emb (ix2 p q)) = _
  refine congrArg _ (funext fun a => Fin.ext ?_)
  obtain ⟨e0, e1⟩ := idx_facts4_1 t
  match a with
  | ⟨0, _⟩ => show win4_1.index t (0 : Fin 2) * 128 + 1 * p.val = p.val; rw [e0]; omega
  | ⟨1, _⟩ => show win4_1.index t (1 : Fin 2) * 128 + 1 * q.val = q.val; rw [e1]; omega

/-- Region 4's output at `(n, j)`. -/
theorem G4_apply (c : Dev nD) (n : Fin 50000) (j : Fin 128) :
    G4 V c (ix2 n j) = ∑ q : Fin 128, max (A4_0 V c (ix2 n q)) 0 * A4_1 V c (ix2 q j) := by
  have hz : (![0, 0] : Fin 2 → Nat) = fun _ => 0 := funext fun a => by
    match a with
    | ⟨0, _⟩ => rfl
    | ⟨1, _⟩ => rfl
  unfold G4 out4_2
  rw [View.canon_unit_zero hz, View.ld_unit_zero hz, View.ld_unit_zero hz, locOf4_ix2, Pay.k4_pay1_apply]
  refine Finset.sum_congr rfl fun q _ => ?_
  rw [iblk4_0_apply V c _ _ q n (by show n.val = n.val / 2000 * 2000 + n.val % 2000; omega), iblk4_1_apply]

end Cert.KernelIdeal.Hand

end
-- ==== Proof.KI.Val5.lean ====
/- Region 5's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf5 (i : S50000x128.Idx) : Fin cfg5.N :=
  ⟨(i 0).val / 2000, by have h : (i 0).val < 50000 := (i 0).isLt; show (i 0).val / 2000 < 25; omega⟩
/-- The index inside that block. -/
def locOf5 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 5's output array as one function of the arrays the region finds. -/
def G5 (c : Dev nD) : Vec F S50000x128 .f32 := fun i => out5_2 (iblk5 V c 0 (ptOf5 i)) (iblk5 V c 1 (ptOf5 i)) (locOf5 i)

theorem G5_at (c : Dev nD) (t : Fin cfg5.N) (y : S2000x128.Idx) (i : S50000x128.Idx) (h1 : ptOf5 i = t) (h2 : locOf5 i = y) :
    G5 V c i = out5_2 (iblk5 V c 0 t) (iblk5 V c 1 t) y := by
  unfold G5; rw [h1, h2]

/-- The output window's block index at grid point t is (t, 0). -/
theorem idx_facts5 : ∀ t : Fin cfg5.N, win5_2.index t (0 : Fin 2) = t.val ∧ win5_2.index t (1 : Fin 2) = 0 :=
  (by decide +kernel : ∀ t : Fin grid5.N, _)

set_option maxHeartbeats 4000000 in
/-- What grid point t writes back is block t of `G5`. -/
theorem flushed5_eq (c : Dev nD) (t : Fin cfg5.N) :
    (dat5 V c).flushed 2 t = ((cfg5.win 2).blk t).view.read (Elt F) (G5 V c) := by
  show (cfg5.win 2).cut (grid5.coords t) ((dat5 V c).after 2 t) = _
  rw [after5_2]
  funext y
  rw [View.read_apply]
  obtain ⟨e0, e1⟩ := idx_facts5 t
  have hy0 : (y 0).val < 2000 := (y 0).isLt
  have hp : ptOf5 (((cfg5.win 2).blk t).view.emb y) = t := Fin.ext (by
    show (win5_2.index t (0 : Fin 2) * 2000 + 1 * (y 0).val) / 2000 = t.val
    rw [e0]; omega)
  have hl : locOf5 (((cfg5.win 2).blk t).view.emb y) = y := funext fun a => Fin.ext (by
    match a with
    | ⟨0, _⟩ => show (win5_2.index t (0 : Fin 2) * 2000 + 1 * (y 0).val) % 2000 = (y 0).val; rw [e0]; omega
    | ⟨1, _⟩ => show win5_2.index t (1 : Fin 2) * 128 + 1 * (y 1).val = (y 1).val; rw [e1]; omega)
  exact (G5_at V c t y _ hp hl).symm

/-- An index of the array is in grid point t's block iff each coordinate is in the block's range on its axis. -/
theorem mem_blk5 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v65).slice (win5_2.rect t)).set ↔ _
  rw [View.set_slice_whole, Rect.mem_set_unit]
  exact Iff.rfl

/-- Every index is in the block of the grid point of its row's quotient, which writes its block back. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  refine ⟨ptOf5 i, flush5_2 _, ?_⟩
  rw [mem_blk5]
  obtain ⟨e0, e1⟩ := idx_facts5 (ptOf5 i)
  intro a
  match a with
  | ⟨0, _⟩ => show win5_2.index (ptOf5 i) (0 : Fin 2) * 2000 ≤ (i 0).val ∧ (i 0).val < win5_2.index (ptOf5 i) (0 : Fin 2) * 2000 + 2000; rw [e0]; show (i 0).val / 2000 * 2000 ≤ _ ∧ _ < (i 0).val / 2000 * 2000 + 2000; omega
  | ⟨1, _⟩ => show win5_2.index (ptOf5 i) (1 : Fin 2) * 128 ≤ (i 1).val ∧ (i 1).val < win5_2.index (ptOf5 i) (1 : Fin 2) * 128 + 128; rw [e1]; omega

/-- The output array after the region's whole grid. -/
theorem final5 (c : Dev nD) : (dat5 V c).arrAt 2 cfg5.N = G5 V c :=
  (dat5 V c).arrAt_eq_of_cover 2 (G5 V c) (fun t _ => flushed5_eq V c t) cover5

end Cert.KernelIdeal.Hand

end
-- ==== Proof.V.RegAt5.lean ====
/-
  Region 5's output array at an index, over the arrays the region finds.

  The region multiplies the [50000, 128] operand, clamped below at zero, by the [128, 128] weight, 2000 rows at a
  time. Row `n` lies in block `n / 2000` at row `n % 2000`, the weight is staged whole, and the body's product at
  that row is the sum over the contracted coordinate; so the output at `(n, j)` is
  ∑ q, max (A₀ (n, q)) 0 · A₁ (q, j).
-/
import proofs.«135915_j24266565222462_2_alg».proof.Proof.KI.Val5
import proofs.«135915_j24266565222462_2_alg».proof.Proof.V.PayMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The [50000, 128] operand region 5 finds. -/
abbrev A5_0 (c : Dev nD) : S50000x128.Idx → EReal := V c (Pipeline.arrRef spec5 0)
/-- The [128, 128] weight region 5 finds. -/
abbrev A5_1 (c : Dev nD) : S128x128.Idx → EReal := V c (Pipeline.arrRef spec5 1)

theorem idx_facts5_0 : ∀ t : Fin cfg5.N, win5_0.index t (0 : Fin 2) = t.val ∧ win5_0.index t (1 : Fin 2) = 0 :=
  (by decide +kernel : ∀ t : Fin grid5.N, _)
theorem idx_facts5_1 : ∀ t : Fin cfg5.N, win5_1.index t (0 : Fin 2) = 0 ∧ win5_1.index t (1 : Fin 2) = 0 :=
  (by decide +kernel : ∀ t : Fin grid5.N, _)

/-- Inside its block, row `n` is row `n % 2000`. -/
theorem locOf5_ix2 (n : Fin 50000) (j : Fin 128) :
    locOf5 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk5_0_apply (c : Dev nD) (t : Fin cfg5.N) (r : Fin 2000) (q : Fin 128) (n : Fin 50000)
    (hn : n.val = t.val * 2000 + r.val) :
    (iblk5 V c 0 t : S2000x128.Idx → EReal) (ix2 r q) = A5_0 V c (ix2 n q) := by
  unfold iblk5
  rw [View.read_apply]
  show A5_0 V c (((cfg5.win 0).blk t).view.emb (ix2 r q)) = _
  refine congrArg _ (funext fun a => Fin.ext ?_)
  obtain ⟨e0, e1⟩ := idx_facts5_0 t
  match a with
  | ⟨0, _⟩ => show win5_0.index t (0 : Fin 2) * 2000 + 1 * r.val = n.val; rw [e0]; omega
  | ⟨1, _⟩ => show win5_0.index t (1 : Fin 2) * 128 + 1 * q.val = q.val; rw [e1]; omega

/-- Window 1 is staged whole: its block at every grid point is the array. -/
theorem iblk5_1_apply (c : Dev nD) (t : Fin cfg5.N) (p : Fin 128) (q : Fin 128) :
    (iblk5 V c 1 t : S128x128.Idx → EReal) (ix2 p q) = A5_1 V c (ix2 p q) := by
  unfold iblk5
  rw [View.read_apply]
  show A5_1 V c (((cfg5.win 1).blk t).view.emb (ix2 p q)) = _
  refine congrArg _ (funext fun a => Fin.ext ?_)
  obtain ⟨e0, e1⟩ := idx_facts5_1 t
  match a with
  | ⟨0, _⟩ => show win5_1.index t (0 : Fin 2) * 128 + 1 * p.val = p.val; rw [e0]; omega
  | ⟨1, _⟩ => show win5_1.index t (1 : Fin 2) * 128 + 1 * q.val = q.val; rw [e1]; omega

/-- Region 5's output at `(n, j)`. -/
theorem G5_apply (c : Dev nD) (n : Fin 50000) (j : Fin 128) :
    G5 V c (ix2 n j) = ∑ q : Fin 128, max (A5_0 V c (ix2 n q)) 0 * A5_1 V c (ix2 q j) := by
  have hz : (![0, 0] : Fin 2 → Nat) = fun _ => 0 := funext fun a => by
    match a with
    | ⟨0, _⟩ => rfl
    | ⟨1, _⟩ => rfl
  unfold G5 out5_2
  rw [View.canon_unit_zero hz, View.ld_unit_zero hz, View.ld_unit_zero hz, locOf5_ix2, Pay.k5_pay1_apply]
  refine Finset.sum_congr rfl fun q _ => ?_
  rw [iblk5_0_apply V c _ _ q n (by show n.val = n.val / 2000 * 2000 + n.val % 2000; omega), iblk5_1_apply]

end Cert.KernelIdeal.Hand

end
-- ==== Proof.KI.Val6.lean ====
/- Region 6's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R6
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf6 (i : S50000x128.Idx) : Fin cfg6.N :=
  ⟨(i 0).val / 2000, by have h : (i 0).val < 50000 := (i 0).isLt; show (i 0).val / 2000 < 25; omega⟩
/-- The index inside that block. -/
def locOf6 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 6's output array as one function of the arrays the region finds. -/
def G6 (c : Dev nD) : Vec F S50000x128 .f32 := fun i => out6_6 (iblk6 V c 0 (ptOf6 i)) (iblk6 V c 1 (ptOf6 i)) (iblk6 V c 2 (ptOf6 i)) (iblk6 V c 3 (ptOf6 i)) (iblk6 V c 4 (ptOf6 i)) (iblk6 V c 5 (ptOf6 i)) (locOf6 i)

theorem G6_at (c : Dev nD) (t : Fin cfg6.N) (y : S2000x128.Idx) (i : S50000x128.Idx) (h1 : ptOf6 i = t) (h2 : locOf6 i = y) :
    G6 V c i = out6_6 (iblk6 V c 0 t) (iblk6 V c 1 t) (iblk6 V c 2 t) (iblk6 V c 3 t) (iblk6 V c 4 t) (iblk6 V c 5 t) y := by
  unfold G6; rw [h1, h2]

/-- The output window's block index at grid point t is (t, 0). -/
theorem idx_facts6 : ∀ t : Fin cfg6.N, win6_6.index t (0 : Fin 2) = t.val ∧ win6_6.index t (1 : Fin 2) = 0 :=
  (by decide +kernel : ∀ t : Fin grid6.N, _)

set_option maxHeartbeats 4000000 in
/-- What grid point t writes back is block t of `G6`. -/
theorem flushed6_eq (c : Dev nD) (t : Fin cfg6.N) :
    (dat6 V c).flushed 6 t = ((cfg6.win 6).blk t).view.read (Elt F) (G6 V c) := by
  show (cfg6.win 6).cut (grid6.coords t) ((dat6 V c).after 6 t) = _
  rw [after6_6]
  funext y
  rw [View.read_apply]
  obtain ⟨e0, e1⟩ := idx_facts6 t
  have hy0 : (y 0).val < 2000 := (y 0).isLt
  have hp : ptOf6 (((cfg6.win 6).blk t).view.emb y) = t := Fin.ext (by
    show (win6_6.index t (0 : Fin 2) * 2000 + 1 * (y 0).val) / 2000 = t.val
    rw [e0]; omega)
  have hl : locOf6 (((cfg6.win 6).blk t).view.emb y) = y := funext fun a => Fin.ext (by
    match a with
    | ⟨0, _⟩ => show (win6_6.index t (0 : Fin 2) * 2000 + 1 * (y 0).val) % 2000 = (y 0).val; rw [e0]; omega
    | ⟨1, _⟩ => show win6_6.index t (1 : Fin 2) * 128 + 1 * (y 1).val = (y 1).val; rw [e1]; omega)
  exact (G6_at V c t y _ hp hl).symm

/-- An index of the array is in grid point t's block iff each coordinate is in the block's range on its axis. -/
theorem mem_blk6 (t : Fin cfg6.N) (i : S50000x128.Idx) :
    i ∈ ((cfg6.win 6).blk t).view.set ↔ ∀ a : Fin 2, win6_6.index t a * S2000x128.size a ≤ (i a).val ∧ (i a).val < win6_6.index t a * S2000x128.size a + S2000x128.size a := by
  show i ∈ ((View.whole main_v86).slice (win6_6.rect t)).set ↔ _
  rw [View.set_slice_whole, Rect.mem_set_unit]
  exact Iff.rfl

/-- Every index is in the block of the grid point of its row's quotient, which writes its block back. -/
theorem cover6 (i : S50000x128.Idx) : ∃ t : Fin cfg6.N, (cfg6.win 6).flush t = true ∧ i ∈ ((cfg6.win 6).blk t).view.set := by
  have hi0 : (i 0).val < 50000 := (i 0).isLt
  have hi1 : (i 1).val < 128 := (i 1).isLt
  refine ⟨ptOf6 i, flush6_6 _, ?_⟩
  rw [mem_blk6]
  obtain ⟨e0, e1⟩ := idx_facts6 (ptOf6 i)
  intro a
  match a with
  | ⟨0, _⟩ => show win6_6.index (ptOf6 i) (0 : Fin 2) * 2000 ≤ (i 0).val ∧ (i 0).val < win6_6.index (ptOf6 i) (0 : Fin 2) * 2000 + 2000; rw [e0]; show (i 0).val / 2000 * 2000 ≤ _ ∧ _ < (i 0).val / 2000 * 2000 + 2000; omega
  | ⟨1, _⟩ => show win6_6.index (ptOf6 i) (1 : Fin 2) * 128 ≤ (i 1).val ∧ (i 1).val < win6_6.index (ptOf6 i) (1 : Fin 2) * 128 + 128; rw [e1]; omega

/-- The output array after the region's whole grid. -/
theorem final6 (c : Dev nD) : (dat6 V c).arrAt 6 cfg6.N = G6 V c :=
  (dat6 V c).arrAt_eq_of_cover 6 (G6 V c) (fun t _ => flushed6_eq V c t) cover6

end Cert.KernelIdeal.Hand

end
-- ==== Proof.V.RegAt6.lean ====
/-
  Region 6's output array at an index, over the arrays the region finds.

  The region combines 2 graph-convolution terms: the aggregated arrays and the product arrays,
  2000 rows at a time, with the [50000, 1] column of squared inverse-root degrees and the [1, 128] bias row staged
  whole. Row `n` lies in block `n / 2000` at row `n % 2000`; the body at that row is the sum of the terms
  agg(n, j) + h(n, j) · d(n) + b(j).
-/
import proofs.«135915_j24266565222462_2_alg».proof.Proof.KI.Val6
import proofs.«135915_j24266565222462_2_alg».proof.Proof.V.PayCombine
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- Aggregated array 0 of region 6. -/
abbrev A6_0 (c : Dev nD) : S50000x128.Idx → EReal := V c (Pipeline.arrRef spec6 0)
/-- Aggregated array 1 of region 6. -/
abbrev A6_1 (c : Dev nD) : S50000x128.Idx → EReal := V c (Pipeline.arrRef spec6 1)
/-- Product array 0 of region 6. -/
abbrev A6_2 (c : Dev nD) : S50000x128.Idx → EReal := V c (Pipeline.arrRef spec6 2)
/-- Product array 1 of region 6. -/
abbrev A6_3 (c : Dev nD) : S50000x128.Idx → EReal := V c (Pipeline.arrRef spec6 3)
/-- The column of squared inverse-root degrees. -/
abbrev A6_4 (c : Dev nD) : S50000x1.Idx → EReal := V c (Pipeline.arrRef spec6 4)
/-- The bias row. -/
abbrev A6_5 (c : Dev nD) : S1x128.Idx → EReal := V c (Pipeline.arrRef spec6 5)

theorem idx_facts6_0 : ∀ t : Fin cfg6.N, win6_0.index t (0 : Fin 2) = t.val ∧ win6_0.index t (1 : Fin 2) = 0 :=
  (by decide +kernel : ∀ t : Fin grid6.N, _)
theorem idx_facts6_1 : ∀ t : Fin cfg6.N, win6_1.index t (0 : Fin 2) = t.val ∧ win6_1.index t (1 : Fin 2) = 0 :=
  (by decide +kernel : ∀ t : Fin grid6.N, _)
theorem idx_facts6_2 : ∀ t : Fin cfg6.N, win6_2.index t (0 : Fin 2) = t.val ∧ win6_2.index t (1 : Fin 2) = 0 :=
  (by decide +kernel : ∀ t : Fin grid6.N, _)
theorem idx_facts6_3 : ∀ t : Fin cfg6.N, win6_3.index t (0 : Fin 2) = t.val ∧ win6_3.index t (1 : Fin 2) = 0 :=
  (by decide +kernel : ∀ t : Fin grid6.N, _)
theorem idx_facts6_4 : ∀ t : Fin cfg6.N, win6_4.index t (0 : Fin 2) = t.val ∧ win6_4.index t (1 : Fin 2) = 0 :=
  (by decide +kernel : ∀ t : Fin grid6.N, _)
theorem idx_facts6_5 : ∀ t : Fin cfg6.N, win6_5.index t (0 : Fin 2) = 0 ∧ win6_5.index t (1 : Fin 2) = 0 :=
  (by decide +kernel : ∀ t : Fin grid6.N, _)

/-- Inside its block, row `n` is row `n % 2000`. -/
theorem locOf6_ix2 (n : Fin 50000) (j : Fin 128) :
    locOf6 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk6_0_apply (c : Dev nD) (t : Fin cfg6.N) (r : Fin 2000) (q : Fin 128) (n : Fin 50000)
    (hn : n.val = t.val * 2000 + r.val) :
    (iblk6 V c 0 t : S2000x128.Idx → EReal) (ix2 r q) = A6_0 V c (ix2 n q) := by
  unfold iblk6
  rw [View.read_apply]
  show A6_0 V c (((cfg6.win 0).blk t).view.emb (ix2 r q)) = _
  refine congrArg _ (funext fun a => Fin.ext ?_)
  obtain ⟨e0, e1⟩ := idx_facts6_0 t
  match a with
  | ⟨0, _⟩ => show win6_0.index t (0 : Fin 2) * 2000 + 1 * r.val = n.val; rw [e0]; omega
  | ⟨1, _⟩ => show win6_0.index t (1 : Fin 2) * 128 + 1 * q.val = q.val; rw [e1]; omega

/-- Window 1's block at grid point `t`, at row `r` of the block, is the array at row `t * 2000 + r`. -/
theorem iblk6_1_apply (c : Dev nD) (t : Fin cfg6.N) (r : Fin 2000) (q : Fin 128) (n : Fin 50000)
    (hn : n.val = t.val * 2000 + r.val) :
    (iblk6 V c 1 t : S2000x128.Idx → EReal) (ix2 r q) = A6_1 V c (ix2 n q) := by
  unfold iblk6
  rw [View.read_apply]
  show A6_1 V c (((cfg6.win 1).blk t).view.emb (ix2 r q)) = _
  refine congrArg _ (funext fun a => Fin.ext ?_)
  obtain ⟨e0, e1⟩ := idx_facts6_1 t
  match a with
  | ⟨0, _⟩ => show win6_1.index t (0 : Fin 2) * 2000 + 1 * r.val = n.val; rw [e0]; omega
  | ⟨1, _⟩ => show win6_1.index t (1 : Fin 2) * 128 + 1 * q.val = q.val; rw [e1]; omega

/-- Window 2's block at grid point `t`, at row `r` of the block, is the array at row `t * 2000 + r`. -/
theorem iblk6_2_apply (c : Dev nD) (t : Fin cfg6.N) (r : Fin 2000) (q : Fin 128) (n : Fin 50000)
    (hn : n.val = t.val * 2000 + r.val) :
    (iblk6 V c 2 t : S2000x128.Idx → EReal) (ix2 r q) = A6_2 V c (ix2 n q) := by
  unfold iblk6
  rw [View.read_apply]
  show A6_2 V c (((cfg6.win 2).blk t).view.emb (ix2 r q)) = _
  refine congrArg _ (funext fun a => Fin.ext ?_)
  obtain ⟨e0, e1⟩ := idx_facts6_2 t
  match a with
  | ⟨0, _⟩ => show win6_2.index t (0 : Fin 2) * 2000 + 1 * r.val = n.val; rw [e0]; omega
  | ⟨1, _⟩ => show win6_2.index t (1 : Fin 2) * 128 + 1 * q.val = q.val; rw [e1]; omega

/-- Window 3's block at grid point `t`, at row `r` of the block, is the array at row `t * 2000 + r`. -/
theorem iblk6_3_apply (c : Dev nD) (t : Fin cfg6.N) (r : Fin 2000) (q : Fin 128) (n : Fin 50000)
    (hn : n.val = t.val * 2000 + r.val) :
    (iblk6 V c 3 t : S2000x128.Idx → EReal) (ix2 r q) = A6_3 V c (ix2 n q) := by
  unfold iblk6
  rw [View.read_apply]
  show A6_3 V c (((cfg6.win 3).blk t).view.emb (ix2 r q)) = _
  refine congrArg _ (funext fun a => Fin.ext ?_)
  obtain ⟨e0, e1⟩ := idx_facts6_3 t
  match a with
  | ⟨0, _⟩ => show win6_3.index t (0 : Fin 2) * 2000 + 1 * r.val = n.val; rw [e0]; omega
  | ⟨1, _⟩ => show win6_3.index t (1 : Fin 2) * 128 + 1 * q.val = q.val; rw [e1]; omega

/-- Window 4's block at grid point `t`, at row `r` of the block, is the array at row `t * 2000 + r`. -/
theorem iblk6_4_apply (c : Dev nD) (t : Fin cfg6.N) (r : Fin 2000) (q : Fin 1) (n : Fin 50000)
    (hn : n.val = t.val * 2000 + r.val) :
    (iblk6 V c 4 t : S2000x1.Idx → EReal) (ix2 r q) = A6_4 V c (ix2 n q) := by
  unfold iblk6
  rw [View.read_apply]
  show A6_4 V c (((cfg6.win 4).blk t).view.emb (ix2 r q)) = _
  refine congrArg _ (funext fun a => Fin.ext ?_)
  obtain ⟨e0, e1⟩ := idx_facts6_4 t
  match a with
  | ⟨0, _⟩ => show win6_4.index t (0 : Fin 2) * 2000 + 1 * r.val = n.val; rw [e0]; omega
  | ⟨1, _⟩ => show win6_4.index t (1 : Fin 2) * 1 + 1 * q.val = q.val; rw [e1]; omega

/-- Window 5 is staged whole: its block at every grid point is the array. -/
theorem iblk6_5_apply (c : Dev nD) (t : Fin cfg6.N) (p : Fin 1) (q : Fin 128) :
    (iblk6 V c 5 t : S1x128.Idx → EReal) (ix2 p q) = A6_5 V c (ix2 p q) := by
  unfold iblk6
  rw [View.read_apply]
  show A6_5 V c (((cfg6.win 5).blk t).view.emb (ix2 p q)) = _
  refine congrArg _ (funext fun a => Fin.ext ?_)
  obtain ⟨e0, e1⟩ := idx_facts6_5 t
  match a with
  | ⟨0, _⟩ => show win6_5.index t (0 : Fin 2) * 1 + 1 * p.val = p.val; rw [e0]; omega
  | ⟨1, _⟩ => show win6_5.index t (1 : Fin 2) * 128 + 1 * q.val = q.val; rw [e1]; omega

/-- Region 6's output at `(n, j)`. -/
theorem G6_apply (c : Dev nD) (n : Fin 50000) (j : Fin 128) :
    G6 V c (ix2 n j)
      = (A6_0 V c (ix2 n j) + A6_2 V c (ix2 n j) * A6_4 V c (ix2 n (0 : Fin 1)) + A6_5 V c (ix2 (0 : Fin 1) j))
        + (A6_1 V c (ix2 n j) + A6_3 V c (ix2 n j) * A6_4 V c (ix2 n (0 : Fin 1)) + A6_5 V c (ix2 (0 : Fin 1) j)) := by
  have hz : (![0, 0] : Fin 2 → Nat) = fun _ => 0 := funext fun a => by
    match a with
    | ⟨0, _⟩ => rfl
    | ⟨1, _⟩ => rfl
  unfold G6 out6_6
  rw [View.canon_unit_zero hz]
  simp only [View.ld_unit_zero (S := S2000x128) hz, View.ld_unit_zero (S := S2000x1) hz, View.ld_unit_zero (S := S1x128) hz]
  rw [locOf6_ix2, Pay.k6_pay1_terms]
  rw [iblk6_0_apply V c _ _ j n (by show n.val = n.val / 2000 * 2000 + n.val % 2000; omega),
    iblk6_2_apply V c _ _ j n (by show n.val = n.val / 2000 * 2000 + n.val % 2000; omega),
    iblk6_1_apply V c _ _ j n (by show n.val = n.val / 2000 * 2000 + n.val % 2000; omega),
    iblk6_3_apply V c _ _ j n (by show n.val = n.val / 2000 * 2000 + n.val % 2000; omega),
    iblk6_4_apply V c _ _ (0 : Fin 1) n (by show n.val = n.val / 2000 * 2000 + n.val % 2000; omega),
    iblk6_5_apply]

end Cert.KernelIdeal.Hand

end
-- ==== Proof.KI.Stage2.lean ====
/- Stage 2 against the reference's stages: the two products of the third stage, their aggregations out of one stacked scatter-add, and the third cell as the sum of the reference's two terms. -/
import proofs.«135915_j24266565222462_2_alg».proof.Proof.KI.Stage1
import proofs.«135915_j24266565222462_2_alg».proof.Proof.KI.HostAgg2
import proofs.«135915_j24266565222462_2_alg».proof.Proof.V.RegAt4
import proofs.«135915_j24266565222462_2_alg».proof.Proof.V.RegAt5
import proofs.«135915_j24266565222462_2_alg».proof.Proof.V.RegAt6

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

set_option maxHeartbeats 4000000 in
/-- Region 4's array is the reference's product of the rectified cell with the stage's weight. -/
theorem arr4_eq (c : Dev nD) : arr4 m c = ((Cert.RefStages.h20 (argA m c main_arg0) (argA m c main_arg1) (argA m c main_arg3) (argA m c main_arg4) (argA m c main_arg7)) : FVec Ideal S50000x128 .f32) := by
  unfold arr4
  rw [final4]
  funext i
  obtain ⟨n, j, rfl⟩ : ∃ (n : Fin 50000) (j : Fin 128), i = ix2 n j := ⟨i 0, i 1, eq_ix2 i⟩
  rw [G4_apply]
  have e0 : A4_0 (atRefs (W7 m)) c = (Cert.RefStages.cell0 (argA m c main_arg0) (argA m c main_arg1) (argA m c main_arg3) (argA m c main_arg4)) := (carry_main_v45_4_7 m c).trans ((W4_out m c).trans (arr1_eq m c))
  have e1 : A4_1 (atRefs (W7 m)) c = argA m c main_arg7 := carry_main_arg7_0_7 m c
  rw [e0, e1]
  show _ = Cert.RefStages.lin (Cert.RefStages.relu (Cert.RefStages.cell0 (argA m c main_arg0) (argA m c main_arg1) (argA m c main_arg3) (argA m c main_arg4))) (argA m c main_arg7) (ix2 n j)
  rw [Cert.StageAt.lin_apply]
  exact Finset.sum_congr rfl (fun q _ => by rw [Cert.StageAt.relu_apply])

set_option maxHeartbeats 4000000 in
/-- Region 5's array is the reference's product of the rectified cell with the stage's weight. -/
theorem arr5_eq (c : Dev nD) : arr5 m c = ((Cert.RefStages.h21 (argA m c main_arg0) (argA m c main_arg1) (argA m c main_arg3) (argA m c main_arg4) (argA m c main_arg5) (argA m c main_arg6) (argA m c main_arg7)) : FVec Ideal S50000x128 .f32) := by
  unfold arr5
  rw [final5]
  funext i
  obtain ⟨n, j, rfl⟩ : ∃ (n : Fin 50000) (j : Fin 128), i = ix2 n j := ⟨i 0, i 1, eq_ix2 i⟩
  rw [G5_apply]
  have e0 : A5_0 (atRefs (W8 m)) c = (Cert.RefStages.cell1 (argA m c main_arg0) (argA m c main_arg1) (argA m c main_arg3) (argA m c main_arg4) (argA m c main_arg5) (argA m c main_arg6)) := (carry_main_v63_7_8 m c).trans ((W7_out m c).trans (arr3_eq m c))
  have e1 : A5_1 (atRefs (W8 m)) c = argA m c main_arg7 := carry_main_arg7_0_8 m c
  rw [e0, e1]
  show _ = Cert.RefStages.lin (Cert.RefStages.relu (Cert.RefStages.cell1 (argA m c main_arg0) (argA m c main_arg1) (argA m c main_arg3) (argA m c main_arg4) (argA m c main_arg5) (argA m c main_arg6))) (argA m c main_arg7) (ix2 n j)
  rw [Cert.StageAt.lin_apply]
  exact Finset.sum_congr rfl (fun q _ => by rw [Cert.StageAt.relu_apply])

theorem src_at9 (c : Dev nD) : W9 m c main_v1 = Cert.RefStages.src (argA m c main_arg1) := (carry_main_v1_1_9 m c).trans (W1_src m c)
theorem dst_at9 (c : Dev nD) : W9 m c main_v3 = Cert.RefStages.dst (argA m c main_arg1) := (carry_main_v3_1_9 m c).trans (W1_dst m c)
theorem norm_at9 (c : Dev nD) : W9 m c main_v27 = Cert.RefStages.norm (argA m c main_arg1) := (carry_main_v27_1_9 m c).trans (W1_norm m c)

/-- An aggregation of this stage. -/
theorem agg_at10_0 (c : Dev nD) : W10 m c main_v83 = (Cert.RefStages.agg (Cert.RefStages.h20 (argA m c main_arg0) (argA m c main_arg1) (argA m c main_arg3) (argA m c main_arg4) (argA m c main_arg7)) (argA m c main_arg1) : FVec Ideal S50000x128 .f32) := by
  show StableHlo.after hostOps6 (W9 m c) (Proc.devRef .tc main_v83) = _
  rw [ops6_v83]
  have h0 : W9 m c main_v64 = (Cert.RefStages.h20 (argA m c main_arg0) (argA m c main_arg1) (argA m c main_arg3) (argA m c main_arg4) (argA m c main_arg7)) := (carry_main_v64_8_9 m c).trans ((W8_out m c).trans (arr4_eq m c))
  have h1 : W9 m c main_v65 = (Cert.RefStages.h21 (argA m c main_arg0) (argA m c main_arg1) (argA m c main_arg3) (argA m c main_arg4) (argA m c main_arg5) (argA m c main_arg6) (argA m c main_arg7)) := (W9_out m c).trans (arr5_eq m c)
  show Cert.KerAgg.agg2_0 (W9 m c main_v64) (W9 m c main_v65) (W9 m c main_v1) (W9 m c main_v3) (W9 m c main_v27) = _
  rw [h0, h1, src_at9, dst_at9, norm_at9]
  exact Cert.KerAgg.agg2_0_eq _ _ _

/-- An aggregation of this stage. -/
theorem agg_at10_1 (c : Dev nD) : W10 m c main_v84 = (Cert.RefStages.agg (Cert.RefStages.h21 (argA m c main_arg0) (argA m c main_arg1) (argA m c main_arg3) (argA m c main_arg4) (argA m c main_arg5) (argA m c main_arg6) (argA m c main_arg7)) (argA m c main_arg1) : FVec Ideal S50000x128 .f32) := by
  show StableHlo.after hostOps6 (W9 m c) (Proc.devRef .tc main_v84) = _
  rw [ops6_v84]
  have h0 : W9 m c main_v64 = (Cert.RefStages.h20 (argA m c main_arg0) (argA m c main_arg1) (argA m c main_arg3) (argA m c main_arg4) (argA m c main_arg7)) := (carry_main_v64_8_9 m c).trans ((W8_out m c).trans (arr4_eq m c))
  have h1 : W9 m c main_v65 = (Cert.RefStages.h21 (argA m c main_arg0) (argA m c main_arg1) (argA m c main_arg3) (argA m c main_arg4) (argA m c main_arg5) (argA m c main_arg6) (argA m c main_arg7)) := (W9_out m c).trans (arr5_eq m c)
  show Cert.KerAgg.agg2_1 (W9 m c main_v64) (W9 m c main_v65) (W9 m c main_v1) (W9 m c main_v3) (W9 m c main_v27) = _
  rw [h0, h1, src_at9, dst_at9, norm_at9]
  exact Cert.KerAgg.agg2_1_eq _ _ _

set_option maxHeartbeats 8000000 in
/-- The combine's array is the sum of the reference's 2 terms. -/
theorem arr6_eq (c : Dev nD) : arr6 m c = ((Cert.RefStages.cell2 (argA m c main_arg0) (argA m c main_arg1) (argA m c main_arg3) (argA m c main_arg4) (argA m c main_arg5) (argA m c main_arg6) (argA m c main_arg7) (argA m c main_arg8)) : FVec Ideal S50000x128 .f32) := by
  unfold arr6
  rw [final6]
  funext i
  obtain ⟨n, j, rfl⟩ : ∃ (n : Fin 50000) (j : Fin 128), i = ix2 n j := ⟨i 0, i 1, eq_ix2 i⟩
  rw [G6_apply]
  have ea0 : A6_0 (atRefs (W10 m)) c = Cert.RefStages.agg (Cert.RefStages.h20 (argA m c main_arg0) (argA m c main_arg1) (argA m c main_arg3) (argA m c main_arg4) (argA m c main_arg7)) (argA m c main_arg1) := agg_at10_0 m c
  have ea1 : A6_1 (atRefs (W10 m)) c = Cert.RefStages.agg (Cert.RefStages.h21 (argA m c main_arg0) (argA m c main_arg1) (argA m c main_arg3) (argA m c main_arg4) (argA m c main_arg5) (argA m c main_arg6) (argA m c main_arg7)) (argA m c main_arg1) := agg_at10_1 m c
  have eh0 : A6_2 (atRefs (W10 m)) c = (Cert.RefStages.h20 (argA m c main_arg0) (argA m c main_arg1) (argA m c main_arg3) (argA m c main_arg4) (argA m c main_arg7)) := (carry_main_v64_8_10 m c).trans ((W8_out m c).trans (arr4_eq m c))
  have eh1 : A6_3 (atRefs (W10 m)) c = (Cert.RefStages.h21 (argA m c main_arg0) (argA m c main_arg1) (argA m c main_arg3) (argA m c main_arg4) (argA m c main_arg5) (argA m c main_arg6) (argA m c main_arg7)) := (carry_main_v65_9_10 m c).trans ((W9_out m c).trans (arr5_eq m c))
  have ed : A6_4 (atRefs (W10 m)) c = dsqCol (argA m c main_arg1) := (carry_main_v12_1_10 m c).trans (W1_dsq m c)
  have eb : A6_5 (atRefs (W10 m)) c = biasRow (argA m c main_arg8) := (W10_v85 m c).trans (congrArg biasRow (carry_main_arg8_0_9 m c))
  rw [ea0, ea1, eh0, eh1, ed, eb]
  show _ = Cert.RefStages.gcnTerm (Cert.RefStages.h20 (argA m c main_arg0) (argA m c main_arg1) (argA m c main_arg3) (argA m c main_arg4) (argA m c main_arg7)) (argA m c main_arg1) (argA m c main_arg8) (ix2 n j) + Cert.RefStages.gcnTerm (Cert.RefStages.h21 (argA m c main_arg0) (argA m c main_arg1) (argA m c main_arg3) (argA m c main_arg4) (argA m c main_arg5) (argA m c main_arg6) (argA m c main_arg7)) (argA m c main_arg1) (argA m c main_arg8) (ix2 n j)
  rw [Cert.StageAt.gcnTerm_apply, Cert.StageAt.gcnTerm_apply]
  unfold dsqCol biasRow
  rw [Cert.StageAt.dsq_apply, Cert.StageAt.brow_apply]

end Cert.KernelIdeal.Hand

end
-- ==== Proof.KI.HostAgg3a.lean ====
/- The three-term aggregation stretch read over any contents of the buffers it starts from: column block 0 of the stacked scatter-add is the named three-term pipeline's slice 0. -/
import proofs.«135915_j24266565222462_2_alg».proof.Proof.KI.Chain
import proofs.«135915_j24266565222462_2_alg».proof.Proof.V.AggTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

set_option maxHeartbeats 8000000 in
theorem ops10_v108 (V : Valuation τ sig (Elt Ideal)) :
    StableHlo.after hostOps10 V (Proc.devRef .tc main_v108) = (Cert.KerAgg.agg3_0 (V (Proc.devRef .tc main_v87)) (V (Proc.devRef .tc main_v88)) (V (Proc.devRef .tc main_v89)) (V (Proc.devRef .tc main_v1)) (V (Proc.devRef .tc main_v3)) (V (Proc.devRef .tc main_v27)) : FVec Ideal S50000x128 .f32) := by
  after_results_simp
  rfl

end Cert.KernelIdeal.Hand

end
-- ==== Proof.KI.HostAgg3b.lean ====
/- The three-term aggregation stretch read over any contents of the buffers it starts from: column block 1 of the stacked scatter-add is the named three-term pipeline's slice 1. -/
import proofs.«135915_j24266565222462_2_alg».proof.Proof.KI.Chain
import proofs.«135915_j24266565222462_2_alg».proof.Proof.V.AggTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

set_option maxHeartbeats 8000000 in
theorem ops10_v109 (V : Valuation τ sig (Elt Ideal)) :
    StableHlo.after hostOps10 V (Proc.devRef .tc main_v109) = (Cert.KerAgg.agg3_1 (V (Proc.devRef .tc main_v87)) (V (Proc.devRef .tc main_v88)) (V (Proc.devRef .tc main_v89)) (V (Proc.devRef .tc main_v1)) (V (Proc.devRef .tc main_v3)) (V (Proc.devRef .tc main_v27)) : FVec Ideal S50000x128 .f32) := by
  after_results_simp
  rfl

end Cert.KernelIdeal.Hand

end
-- ==== Proof.KI.HostAgg3c.lean ====
/- The three-term aggregation stretch read over any contents of the buffers it starts from: column block 2 of the stacked scatter-add is the named three-term pipeline's slice 2. -/
import proofs.«135915_j24266565222462_2_alg».proof.Proof.KI.Chain
import proofs.«135915_j24266565222462_2_alg».proof.Proof.V.AggTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

set_option maxHeartbeats 8000000 in
theorem ops10_v110 (V : Valuation τ sig (Elt Ideal)) :
    StableHlo.after hostOps10 V (Proc.devRef .tc main_v110) = (Cert.KerAgg.agg3_2 (V (Proc.devRef .tc main_v87)) (V (Proc.devRef .tc main_v88)) (V (Proc.devRef .tc main_v89)) (V (Proc.devRef .tc main_v1)) (V (Proc.devRef .tc main_v3)) (V (Proc.devRef .tc main_v27)) : FVec Ideal S50000x128 .f32) := by
  after_results_simp
  rfl

end Cert.KernelIdeal.Hand

end
-- ==== Proof.KI.Val7.lean ====
/- Region 7's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R7
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf7 (i : S50000x128.Idx) : Fin cfg7.N :=
  ⟨(i 0).val / 2000, by have h : (i 0).val < 50000 := (i 0).isLt; show (i 0).val / 2000 < 25; omega⟩
/-- The index inside that block. -/
def locOf7 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 7's output array as one function of the arrays the region finds. -/
def G7 (c : Dev nD) : Vec F S50000x128 .f32 := fun i => out7_2 (iblk7 V c 0 (ptOf7 i)) (iblk7 V c 1 (ptOf7 i)) (locOf7 i)

theorem G7_at (c : Dev nD) (t : Fin cfg7.N) (y : S2000x128.Idx) (i : S50000x128.Idx) (h1 : ptOf7 i = t) (h2 : locOf7 i = y) :
    G7 V c i = out7_2 (iblk7 V c 0 t) (iblk7 V c 1 t) y := by
  unfold G7; rw [h1, h2]

/-- The output window's block index at grid point t is (t, 0). -/
theorem idx_facts7 : ∀ t : Fin cfg7.N, win7_2.index t (0 : Fin 2) = t.val ∧ win7_2.index t (1 : Fin 2) = 0 :=
  (by decide +kernel : ∀ t : Fin grid7.N, _)

set_option maxHeartbeats 4000000 in
/-- What grid point t writes back is block t of `G7`. -/
theorem flushed7_eq (c : Dev nD) (t : Fin cfg7.N) :
    (dat7 V c).flushed 2 t = ((cfg7.win 2).blk t).view.read (Elt F) (G7 V c) := by
  show (cfg7.win 2).cut (grid7.coords t) ((dat7 V c).after 2 t) = _
  rw [after7_2]
  funext y
  rw [View.read_apply]
  obtain ⟨e0, e1⟩ := idx_facts7 t
  have hy0 : (y 0).val < 2000 := (y 0).isLt
  have hp : ptOf7 (((cfg7.win 2).blk t).view.emb y) = t := Fin.ext (by
    show (win7_2.index t (0 : Fin 2) * 2000 + 1 * (y 0).val) / 2000 = t.val
    rw [e0]; omega)
  have hl : locOf7 (((cfg7.win 2).blk t).view.emb y) = y := funext fun a => Fin.ext (by
    match a with
    | ⟨0, _⟩ => show (win7_2.index t (0 : Fin 2) * 2000 + 1 * (y 0).val) % 2000 = (y 0).val; rw [e0]; omega
    | ⟨1, _⟩ => show win7_2.index t (1 : Fin 2) * 128 + 1 * (y 1).val = (y 1).val; rw [e1]; omega)
  exact (G7_at V c t y _ hp hl).symm

/-- An index of the array is in grid point t's block iff each coordinate is in the block's range on its axis. -/
theorem mem_blk7 (t : Fin cfg7.N) (i : S50000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole main_v87).slice (win7_2.rect t)).set ↔ _
  rw [View.set_slice_whole, Rect.mem_set_unit]
  exact Iff.rfl

/-- Every index is in the block of the grid point of its row's quotient, which writes its block back. -/
theorem cover7 (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  refine ⟨ptOf7 i, flush7_2 _, ?_⟩
  rw [mem_blk7]
  obtain ⟨e0, e1⟩ := idx_facts7 (ptOf7 i)
  intro a
  match a with
  | ⟨0, _⟩ => show win7_2.index (ptOf7 i) (0 : Fin 2) * 2000 ≤ (i 0).val ∧ (i 0).val < win7_2.index (ptOf7 i) (0 : Fin 2) * 2000 + 2000; rw [e0]; show (i 0).val / 2000 * 2000 ≤ _ ∧ _ < (i 0).val / 2000 * 2000 + 2000; omega
  | ⟨1, _⟩ => show win7_2.index (ptOf7 i) (1 : Fin 2) * 128 ≤ (i 1).val ∧ (i 1).val < win7_2.index (ptOf7 i) (1 : Fin 2) * 128 + 128; rw [e1]; omega

/-- The output array after the region's whole grid. -/
theorem final7 (c : Dev nD) : (dat7 V c).arrAt 2 cfg7.N = G7 V c :=
  (dat7 V c).arrAt_eq_of_cover 2 (G7 V c) (fun t _ => flushed7_eq V c t) cover7

end Cert.KernelIdeal.Hand

end
-- ==== Proof.V.RegAt7.lean ====
/-
  Region 7's output array at an index, over the arrays the region finds.

  The region multiplies the [50000, 128] operand, clamped below at zero, by the [128, 128] weight, 2000 rows at a
  time. Row `n` lies in block `n / 2000` at row `n % 2000`, the weight is staged whole, and the body's product at
  that row is the sum over the contracted coordinate; so the output at `(n, j)` is
  ∑ q, max (A₀ (n, q)) 0 · A₁ (q, j).
-/
import proofs.«135915_j24266565222462_2_alg».proof.Proof.KI.Val7
import proofs.«135915_j24266565222462_2_alg».proof.Proof.V.PayMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The [50000, 128] operand region 7 finds. -/
abbrev A7_0 (c : Dev nD) : S50000x128.Idx → EReal := V c (Pipeline.arrRef spec7 0)
/-- The [128, 128] weight region 7 finds. -/
abbrev A7_1 (c : Dev nD) : S128x128.Idx → EReal := V c (Pipeline.arrRef spec7 1)

theorem idx_facts7_0 : ∀ t : Fin cfg7.N, win7_0.index t (0 : Fin 2) = t.val ∧ win7_0.index t (1 : Fin 2) = 0 :=
  (by decide +kernel : ∀ t : Fin grid7.N, _)
theorem idx_facts7_1 : ∀ t : Fin cfg7.N, win7_1.index t (0 : Fin 2) = 0 ∧ win7_1.index t (1 : Fin 2) = 0 :=
  (by decide +kernel : ∀ t : Fin grid7.N, _)

/-- Inside its block, row `n` is row `n % 2000`. -/
theorem locOf7_ix2 (n : Fin 50000) (j : Fin 128) :
    locOf7 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk7_0_apply (c : Dev nD) (t : Fin cfg7.N) (r : Fin 2000) (q : Fin 128) (n : Fin 50000)
    (hn : n.val = t.val * 2000 + r.val) :
    (iblk7 V c 0 t : S2000x128.Idx → EReal) (ix2 r q) = A7_0 V c (ix2 n q) := by
  unfold iblk7
  rw [View.read_apply]
  show A7_0 V c (((cfg7.win 0).blk t).view.emb (ix2 r q)) = _
  refine congrArg _ (funext fun a => Fin.ext ?_)
  obtain ⟨e0, e1⟩ := idx_facts7_0 t
  match a with
  | ⟨0, _⟩ => show win7_0.index t (0 : Fin 2) * 2000 + 1 * r.val = n.val; rw [e0]; omega
  | ⟨1, _⟩ => show win7_0.index t (1 : Fin 2) * 128 + 1 * q.val = q.val; rw [e1]; omega

/-- Window 1 is staged whole: its block at every grid point is the array. -/
theorem iblk7_1_apply (c : Dev nD) (t : Fin cfg7.N) (p : Fin 128) (q : Fin 128) :
    (iblk7 V c 1 t : S128x128.Idx → EReal) (ix2 p q) = A7_1 V c (ix2 p q) := by
  unfold iblk7
  rw [View.read_apply]
  show A7_1 V c (((cfg7.win 1).blk t).view.emb (ix2 p q)) = _
  refine congrArg _ (funext fun a => Fin.ext ?_)
  obtain ⟨e0, e1⟩ := idx_facts7_1 t
  match a with
  | ⟨0, _⟩ => show win7_1.index t (0 : Fin 2) * 128 + 1 * p.val = p.val; rw [e0]; omega
  | ⟨1, _⟩ => show win7_1.index t (1 : Fin 2) * 128 + 1 * q.val = q.val; rw [e1]; omega

/-- Region 7's output at `(n, j)`. -/
theorem G7_apply (c : Dev nD) (n : Fin 50000) (j : Fin 128) :
    G7 V c (ix2 n j) = ∑ q : Fin 128, max (A7_0 V c (ix2 n q)) 0 * A7_1 V c (ix2 q j) := by
  have hz : (![0, 0] : Fin 2 → Nat) = fun _ => 0 := funext fun a => by
    match a with
    | ⟨0, _⟩ => rfl
    | ⟨1, _⟩ => rfl
  unfold G7 out7_2
  rw [View.canon_unit_zero hz, View.ld_unit_zero hz, View.ld_unit_zero hz, locOf7_ix2, Pay.k7_pay1_apply]
  refine Finset.sum_congr rfl fun q _ => ?_
  rw [iblk7_0_apply V c _ _ q n (by show n.val = n.val / 2000 * 2000 + n.val % 2000; omega), iblk7_1_apply]

end Cert.KernelIdeal.Hand

end
-- ==== Proof.KI.Val8.lean ====
/- Region 8's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R8
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf8 (i : S50000x128.Idx) : Fin cfg8.N :=
  ⟨(i 0).val / 2000, by have h : (i 0).val < 50000 := (i 0).isLt; show (i 0).val / 2000 < 25; omega⟩
/-- The index inside that block. -/
def locOf8 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 8's output array as one function of the arrays the region finds. -/
def G8 (c : Dev nD) : Vec F S50000x128 .f32 := fun i => out8_2 (iblk8 V c 0 (ptOf8 i)) (iblk8 V c 1 (ptOf8 i)) (locOf8 i)

theorem G8_at (c : Dev nD) (t : Fin cfg8.N) (y : S2000x128.Idx) (i : S50000x128.Idx) (h1 : ptOf8 i = t) (h2 : locOf8 i = y) :
    G8 V c i = out8_2 (iblk8 V c 0 t) (iblk8 V c 1 t) y := by
  unfold G8; rw [h1, h2]

/-- The output window's block index at grid point t is (t, 0). -/
theorem idx_facts8 : ∀ t : Fin cfg8.N, win8_2.index t (0 : Fin 2) = t.val ∧ win8_2.index t (1 : Fin 2) = 0 :=
  (by decide +kernel : ∀ t : Fin grid8.N, _)

set_option maxHeartbeats 4000000 in
/-- What grid point t writes back is block t of `G8`. -/
theorem flushed8_eq (c : Dev nD) (t : Fin cfg8.N) :
    (dat8 V c).flushed 2 t = ((cfg8.win 2).blk t).view.read (Elt F) (G8 V c) := by
  show (cfg8.win 2).cut (grid8.coords t) ((dat8 V c).after 2 t) = _
  rw [after8_2]
  funext y
  rw [View.read_apply]
  obtain ⟨e0, e1⟩ := idx_facts8 t
  have hy0 : (y 0).val < 2000 := (y 0).isLt
  have hp : ptOf8 (((cfg8.win 2).blk t).view.emb y) = t := Fin.ext (by
    show (win8_2.index t (0 : Fin 2) * 2000 + 1 * (y 0).val) / 2000 = t.val
    rw [e0]; omega)
  have hl : locOf8 (((cfg8.win 2).blk t).view.emb y) = y := funext fun a => Fin.ext (by
    match a with
    | ⟨0, _⟩ => show (win8_2.index t (0 : Fin 2) * 2000 + 1 * (y 0).val) % 2000 = (y 0).val; rw [e0]; omega
    | ⟨1, _⟩ => show win8_2.index t (1 : Fin 2) * 128 + 1 * (y 1).val = (y 1).val; rw [e1]; omega)
  exact (G8_at V c t y _ hp hl).symm

/-- An index of the array is in grid point t's block iff each coordinate is in the block's range on its axis. -/
theorem mem_blk8 (t : Fin cfg8.N) (i : S50000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole main_v88).slice (win8_2.rect t)).set ↔ _
  rw [View.set_slice_whole, Rect.mem_set_unit]
  exact Iff.rfl

/-- Every index is in the block of the grid point of its row's quotient, which writes its block back. -/
theorem cover8 (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  refine ⟨ptOf8 i, flush8_2 _, ?_⟩
  rw [mem_blk8]
  obtain ⟨e0, e1⟩ := idx_facts8 (ptOf8 i)
  intro a
  match a with
  | ⟨0, _⟩ => show win8_2.index (ptOf8 i) (0 : Fin 2) * 2000 ≤ (i 0).val ∧ (i 0).val < win8_2.index (ptOf8 i) (0 : Fin 2) * 2000 + 2000; rw [e0]; show (i 0).val / 2000 * 2000 ≤ _ ∧ _ < (i 0).val / 2000 * 2000 + 2000; omega
  | ⟨1, _⟩ => show win8_2.index (ptOf8 i) (1 : Fin 2) * 128 ≤ (i 1).val ∧ (i 1).val < win8_2.index (ptOf8 i) (1 : Fin 2) * 128 + 128; rw [e1]; omega

/-- The output array after the region's whole grid. -/
theorem final8 (c : Dev nD) : (dat8 V c).arrAt 2 cfg8.N = G8 V c :=
  (dat8 V c).arrAt_eq_of_cover 2 (G8 V c) (fun t _ => flushed8_eq V c t) cover8

end Cert.KernelIdeal.Hand

end
-- ==== Proof.V.RegAt8.lean ====
/-
  Region 8's output array at an index, over the arrays the region finds.

  The region multiplies the [50000, 128] operand, clamped below at zero, by the [128, 128] weight, 2000 rows at a
  time. Row `n` lies in block `n / 2000` at row `n % 2000`, the weight is staged whole, and the body's product at
  that row is the sum over the contracted coordinate; so the output at `(n, j)` is
  ∑ q, max (A₀ (n, q)) 0 · A₁ (q, j).
-/
import proofs.«135915_j24266565222462_2_alg».proof.Proof.KI.Val8
import proofs.«135915_j24266565222462_2_alg».proof.Proof.V.PayMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The [50000, 128] operand region 8 finds. -/
abbrev A8_0 (c : Dev nD) : S50000x128.Idx → EReal := V c (Pipeline.arrRef spec8 0)
/-- The [128, 128] weight region 8 finds. -/
abbrev A8_1 (c : Dev nD) : S128x128.Idx → EReal := V c (Pipeline.arrRef spec8 1)

theorem idx_facts8_0 : ∀ t : Fin cfg8.N, win8_0.index t (0 : Fin 2) = t.val ∧ win8_0.index t (1 : Fin 2) = 0 :=
  (by decide +kernel : ∀ t : Fin grid8.N, _)
theorem idx_facts8_1 : ∀ t : Fin cfg8.N, win8_1.index t (0 : Fin 2) = 0 ∧ win8_1.index t (1 : Fin 2) = 0 :=
  (by decide +kernel : ∀ t : Fin grid8.N, _)

/-- Inside its block, row `n` is row `n % 2000`. -/
theorem locOf8_ix2 (n : Fin 50000) (j : Fin 128) :
    locOf8 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk8_0_apply (c : Dev nD) (t : Fin cfg8.N) (r : Fin 2000) (q : Fin 128) (n : Fin 50000)
    (hn : n.val = t.val * 2000 + r.val) :
    (iblk8 V c 0 t : S2000x128.Idx → EReal) (ix2 r q) = A8_0 V c (ix2 n q) := by
  unfold iblk8
  rw [View.read_apply]
  show A8_0 V c (((cfg8.win 0).blk t).view.emb (ix2 r q)) = _
  refine congrArg _ (funext fun a => Fin.ext ?_)
  obtain ⟨e0, e1⟩ := idx_facts8_0 t
  match a with
  | ⟨0, _⟩ => show win8_0.index t (0 : Fin 2) * 2000 + 1 * r.val = n.val; rw [e0]; omega
  | ⟨1, _⟩ => show win8_0.index t (1 : Fin 2) * 128 + 1 * q.val = q.val; rw [e1]; omega

/-- Window 1 is staged whole: its block at every grid point is the array. -/
theorem iblk8_1_apply (c : Dev nD) (t : Fin cfg8.N) (p : Fin 128) (q : Fin 128) :
    (iblk8 V c 1 t : S128x128.Idx → EReal) (ix2 p q) = A8_1 V c (ix2 p q) := by
  unfold iblk8
  rw [View.read_apply]
  show A8_1 V c (((cfg8.win 1).blk t).view.emb (ix2 p q)) = _
  refine congrArg _ (funext fun a => Fin.ext ?_)
  obtain ⟨e0, e1⟩ := idx_facts8_1 t
  match a with
  | ⟨0, _⟩ => show win8_1.index t (0 : Fin 2) * 128 + 1 * p.val = p.val; rw [e0]; omega
  | ⟨1, _⟩ => show win8_1.index t (1 : Fin 2) * 128 + 1 * q.val = q.val; rw [e1]; omega

/-- Region 8's output at `(n, j)`. -/
theorem G8_apply (c : Dev nD) (n : Fin 50000) (j : Fin 128) :
    G8 V c (ix2 n j) = ∑ q : Fin 128, max (A8_0 V c (ix2 n q)) 0 * A8_1 V c (ix2 q j) := by
  have hz : (![0, 0] : Fin 2 → Nat) = fun _ => 0 := funext fun a => by
    match a with
    | ⟨0, _⟩ => rfl
    | ⟨1, _⟩ => rfl
  unfold G8 out8_2
  rw [View.canon_unit_zero hz, View.ld_unit_zero hz, View.ld_unit_zero hz, locOf8_ix2, Pay.k8_pay1_apply]
  refine Finset.sum_congr rfl fun q _ => ?_
  rw [iblk8_0_apply V c _ _ q n (by show n.val = n.val / 2000 * 2000 + n.val % 2000; omega), iblk8_1_apply]

end Cert.KernelIdeal.Hand

end
-- ==== Proof.KI.Val9.lean ====
/- Region 9's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R9
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf9 (i : S50000x128.Idx) : Fin cfg9.N :=
  ⟨(i 0).val / 2000, by have h : (i 0).val < 50000 := (i 0).isLt; show (i 0).val / 2000 < 25; omega⟩
/-- The index inside that block. -/
def locOf9 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 9's output array as one function of the arrays the region finds. -/
def G9 (c : Dev nD) : Vec F S50000x128 .f32 := fun i => out9_2 (iblk9 V c 0 (ptOf9 i)) (iblk9 V c 1 (ptOf9 i)) (locOf9 i)

theorem G9_at (c : Dev nD) (t : Fin cfg9.N) (y : S2000x128.Idx) (i : S50000x128.Idx) (h1 : ptOf9 i = t) (h2 : locOf9 i = y) :
    G9 V c i = out9_2 (iblk9 V c 0 t) (iblk9 V c 1 t) y := by
  unfold G9; rw [h1, h2]

/-- The output window's block index at grid point t is (t, 0). -/
theorem idx_facts9 : ∀ t : Fin cfg9.N, win9_2.index t (0 : Fin 2) = t.val ∧ win9_2.index t (1 : Fin 2) = 0 :=
  (by decide +kernel : ∀ t : Fin grid9.N, _)

set_option maxHeartbeats 4000000 in
/-- What grid point t writes back is block t of `G9`. -/
theorem flushed9_eq (c : Dev nD) (t : Fin cfg9.N) :
    (dat9 V c).flushed 2 t = ((cfg9.win 2).blk t).view.read (Elt F) (G9 V c) := by
  show (cfg9.win 2).cut (grid9.coords t) ((dat9 V c).after 2 t) = _
  rw [after9_2]
  funext y
  rw [View.read_apply]
  obtain ⟨e0, e1⟩ := idx_facts9 t
  have hy0 : (y 0).val < 2000 := (y 0).isLt
  have hp : ptOf9 (((cfg9.win 2).blk t).view.emb y) = t := Fin.ext (by
    show (win9_2.index t (0 : Fin 2) * 2000 + 1 * (y 0).val) / 2000 = t.val
    rw [e0]; omega)
  have hl : locOf9 (((cfg9.win 2).blk t).view.emb y) = y := funext fun a => Fin.ext (by
    match a with
    | ⟨0, _⟩ => show (win9_2.index t (0 : Fin 2) * 2000 + 1 * (y 0).val) % 2000 = (y 0).val; rw [e0]; omega
    | ⟨1, _⟩ => show win9_2.index t (1 : Fin 2) * 128 + 1 * (y 1).val = (y 1).val; rw [e1]; omega)
  exact (G9_at V c t y _ hp hl).symm

/-- An index of the array is in grid point t's block iff each coordinate is in the block's range on its axis. -/
theorem mem_blk9 (t : Fin cfg9.N) (i : S50000x128.Idx) :
    i ∈ ((cfg9.win 2).blk t).view.set ↔ ∀ a : Fin 2, win9_2.index t a * S2000x128.size a ≤ (i a).val ∧ (i a).val < win9_2.index t a * S2000x128.size a + S2000x128.size a := by
  show i ∈ ((View.whole main_v89).slice (win9_2.rect t)).set ↔ _
  rw [View.set_slice_whole, Rect.mem_set_unit]
  exact Iff.rfl

/-- Every index is in the block of the grid point of its row's quotient, which writes its block back. -/
theorem cover9 (i : S50000x128.Idx) : ∃ t : Fin cfg9.N, (cfg9.win 2).flush t = true ∧ i ∈ ((cfg9.win 2).blk t).view.set := by
  have hi0 : (i 0).val < 50000 := (i 0).isLt
  have hi1 : (i 1).val < 128 := (i 1).isLt
  refine ⟨ptOf9 i, flush9_2 _, ?_⟩
  rw [mem_blk9]
  obtain ⟨e0, e1⟩ := idx_facts9 (ptOf9 i)
  intro a
  match a with
  | ⟨0, _⟩ => show win9_2.index (ptOf9 i) (0 : Fin 2) * 2000 ≤ (i 0).val ∧ (i 0).val < win9_2.index (ptOf9 i) (0 : Fin 2) * 2000 + 2000; rw [e0]; show (i 0).val / 2000 * 2000 ≤ _ ∧ _ < (i 0).val / 2000 * 2000 + 2000; omega
  | ⟨1, _⟩ => show win9_2.index (ptOf9 i) (1 : Fin 2) * 128 ≤ (i 1).val ∧ (i 1).val < win9_2.index (ptOf9 i) (1 : Fin 2) * 128 + 128; rw [e1]; omega

/-- The output array after the region's whole grid. -/
theorem final9 (c : Dev nD) : (dat9 V c).arrAt 2 cfg9.N = G9 V c :=
  (dat9 V c).arrAt_eq_of_cover 2 (G9 V c) (fun t _ => flushed9_eq V c t) cover9

end Cert.KernelIdeal.Hand

end
-- ==== Proof.V.RegAt9.lean ====
/-
  Region 9's output array at an index, over the arrays the region finds.

  The region multiplies the [50000, 128] operand, clamped below at zero, by the [128, 128] weight, 2000 rows at a
  time. Row `n` lies in block `n / 2000` at row `n % 2000`, the weight is staged whole, and the body's product at
  that row is the sum over the contracted coordinate; so the output at `(n, j)` is
  ∑ q, max (A₀ (n, q)) 0 · A₁ (q, j).
-/
import proofs.«135915_j24266565222462_2_alg».proof.Proof.KI.Val9
import proofs.«135915_j24266565222462_2_alg».proof.Proof.V.PayMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The [50000, 128] operand region 9 finds. -/
abbrev A9_0 (c : Dev nD) : S50000x128.Idx → EReal := V c (Pipeline.arrRef spec9 0)
/-- The [128, 128] weight region 9 finds. -/
abbrev A9_1 (c : Dev nD) : S128x128.Idx → EReal := V c (Pipeline.arrRef spec9 1)

theorem idx_facts9_0 : ∀ t : Fin cfg9.N, win9_0.index t (0 : Fin 2) = t.val ∧ win9_0.index t (1 : Fin 2) = 0 :=
  (by decide +kernel : ∀ t : Fin grid9.N, _)
theorem idx_facts9_1 : ∀ t : Fin cfg9.N, win9_1.index t (0 : Fin 2) = 0 ∧ win9_1.index t (1 : Fin 2) = 0 :=
  (by decide +kernel : ∀ t : Fin grid9.N, _)

/-- Inside its block, row `n` is row `n % 2000`. -/
theorem locOf9_ix2 (n : Fin 50000) (j : Fin 128) :
    locOf9 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk9_0_apply (c : Dev nD) (t : Fin cfg9.N) (r : Fin 2000) (q : Fin 128) (n : Fin 50000)
    (hn : n.val = t.val * 2000 + r.val) :
    (iblk9 V c 0 t : S2000x128.Idx → EReal) (ix2 r q) = A9_0 V c (ix2 n q) := by
  unfold iblk9
  rw [View.read_apply]
  show A9_0 V c (((cfg9.win 0).blk t).view.emb (ix2 r q)) = _
  refine congrArg _ (funext fun a => Fin.ext ?_)
  obtain ⟨e0, e1⟩ := idx_facts9_0 t
  match a with
  | ⟨0, _⟩ => show win9_0.index t (0 : Fin 2) * 2000 + 1 * r.val = n.val; rw [e0]; omega
  | ⟨1, _⟩ => show win9_0.index t (1 : Fin 2) * 128 + 1 * q.val = q.val; rw [e1]; omega

/-- Window 1 is staged whole: its block at every grid point is the array. -/
theorem iblk9_1_apply (c : Dev nD) (t : Fin cfg9.N) (p : Fin 128) (q : Fin 128) :
    (iblk9 V c 1 t : S128x128.Idx → EReal) (ix2 p q) = A9_1 V c (ix2 p q) := by
  unfold iblk9
  rw [View.read_apply]
  show A9_1 V c (((cfg9.win 1).blk t).view.emb (ix2 p q)) = _
  refine congrArg _ (funext fun a => Fin.ext ?_)
  obtain ⟨e0, e1⟩ := idx_facts9_1 t
  match a with
  | ⟨0, _⟩ => show win9_1.index t (0 : Fin 2) * 128 + 1 * p.val = p.val; rw [e0]; omega
  | ⟨1, _⟩ => show win9_1.index t (1 : Fin 2) * 128 + 1 * q.val = q.val; rw [e1]; omega

/-- Region 9's output at `(n, j)`. -/
theorem G9_apply (c : Dev nD) (n : Fin 50000) (j : Fin 128) :
    G9 V c (ix2 n j) = ∑ q : Fin 128, max (A9_0 V c (ix2 n q)) 0 * A9_1 V c (ix2 q j) := by
  have hz : (![0, 0] : Fin 2 → Nat) = fun _ => 0 := funext fun a => by
    match a with
    | ⟨0, _⟩ => rfl
    | ⟨1, _⟩ => rfl
  unfold G9 out9_2
  rw [View.canon_unit_zero hz, View.ld_unit_zero hz, View.ld_unit_zero hz, locOf9_ix2, Pay.k9_pay1_apply]
  refine Finset.sum_congr rfl fun q _ => ?_
  rw [iblk9_0_apply V c _ _ q n (by show n.val = n.val / 2000 * 2000 + n.val % 2000; omega), iblk9_1_apply]

end Cert.KernelIdeal.Hand

end
-- ==== Proof.KI.Val10.lean ====
/- Region 10's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R10
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf10 (i : S50000x128.Idx) : Fin cfg10.N :=
  ⟨(i 0).val / 2000, by have h : (i 0).val < 50000 := (i 0).isLt; show (i 0).val / 2000 < 25; omega⟩
/-- The index inside that block. -/
def locOf10 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 10's output array as one function of the arrays the region finds. -/
def G10 (c : Dev nD) : Vec F S50000x128 .f32 := fun i => out10_8 (iblk10 V c 0 (ptOf10 i)) (iblk10 V c 1 (ptOf10 i)) (iblk10 V c 2 (ptOf10 i)) (iblk10 V c 3 (ptOf10 i)) (iblk10 V c 4 (ptOf10 i)) (iblk10 V c 5 (ptOf10 i)) (iblk10 V c 6 (ptOf10 i)) (iblk10 V c 7 (ptOf10 i)) (locOf10 i)

theorem G10_at (c : Dev nD) (t : Fin cfg10.N) (y : S2000x128.Idx) (i : S50000x128.Idx) (h1 : ptOf10 i = t) (h2 : locOf10 i = y) :
    G10 V c i = out10_8 (iblk10 V c 0 t) (iblk10 V c 1 t) (iblk10 V c 2 t) (iblk10 V c 3 t) (iblk10 V c 4 t) (iblk10 V c 5 t) (iblk10 V c 6 t) (iblk10 V c 7 t) y := by
  unfold G10; rw [h1, h2]

/-- The output window's block index at grid point t is (t, 0). -/
theorem idx_facts10 : ∀ t : Fin cfg10.N, win10_8.index t (0 : Fin 2) = t.val ∧ win10_8.index t (1 : Fin 2) = 0 :=
  (by decide +kernel : ∀ t : Fin grid10.N, _)

set_option maxHeartbeats 4000000 in
/-- What grid point t writes back is block t of `G10`. -/
theorem flushed10_eq (c : Dev nD) (t : Fin cfg10.N) :
    (dat10 V c).flushed 8 t = ((cfg10.win 8).blk t).view.read (Elt F) (G10 V c) := by
  show (cfg10.win 8).cut (grid10.coords t) ((dat10 V c).after 8 t) = _
  rw [after10_8]
  funext y
  rw [View.read_apply]
  obtain ⟨e0, e1⟩ := idx_facts10 t
  have hy0 : (y 0).val < 2000 := (y 0).isLt
  have hp : ptOf10 (((cfg10.win 8).blk t).view.emb y) = t := Fin.ext (by
    show (win10_8.index t (0 : Fin 2) * 2000 + 1 * (y 0).val) / 2000 = t.val
    rw [e0]; omega)
  have hl : locOf10 (((cfg10.win 8).blk t).view.emb y) = y := funext fun a => Fin.ext (by
    match a with
    | ⟨0, _⟩ => show (win10_8.index t (0 : Fin 2) * 2000 + 1 * (y 0).val) % 2000 = (y 0).val; rw [e0]; omega
    | ⟨1, _⟩ => show win10_8.index t (1 : Fin 2) * 128 + 1 * (y 1).val = (y 1).val; rw [e1]; omega)
  exact (G10_at V c t y _ hp hl).symm

/-- An index of the array is in grid point t's block iff each coordinate is in the block's range on its axis. -/
theorem mem_blk10 (t : Fin cfg10.N) (i : S50000x128.Idx) :
    i ∈ ((cfg10.win 8).blk t).view.set ↔ ∀ a : Fin 2, win10_8.index t a * S2000x128.size a ≤ (i a).val ∧ (i a).val < win10_8.index t a * S2000x128.size a + S2000x128.size a := by
  show i ∈ ((View.whole main_v112).slice (win10_8.rect t)).set ↔ _
  rw [View.set_slice_whole, Rect.mem_set_unit]
  exact Iff.rfl

/-- Every index is in the block of the grid point of its row's quotient, which writes its block back. -/
theorem cover10 (i : S50000x128.Idx) : ∃ t : Fin cfg10.N, (cfg10.win 8).flush t = true ∧ i ∈ ((cfg10.win 8).blk t).view.set := by
  have hi0 : (i 0).val < 50000 := (i 0).isLt
  have hi1 : (i 1).val < 128 := (i 1).isLt
  refine ⟨ptOf10 i, flush10_8 _, ?_⟩
  rw [mem_blk10]
  obtain ⟨e0, e1⟩ := idx_facts10 (ptOf10 i)
  intro a
  match a with
  | ⟨0, _⟩ => show win10_8.index (ptOf10 i) (0 : Fin 2) * 2000 ≤ (i 0).val ∧ (i 0).val < win10_8.index (ptOf10 i) (0 : Fin 2) * 2000 + 2000; rw [e0]; show (i 0).val / 2000 * 2000 ≤ _ ∧ _ < (i 0).val / 2000 * 2000 + 2000; omega
  | ⟨1, _⟩ => show win10_8.index (ptOf10 i) (1 : Fin 2) * 128 ≤ (i 1).val ∧ (i 1).val < win10_8.index (ptOf10 i) (1 : Fin 2) * 128 + 128; rw [e1]; omega

/-- The output array after the region's whole grid. -/
theorem final10 (c : Dev nD) : (dat10 V c).arrAt 8 cfg10.N = G10 V c :=
  (dat10 V c).arrAt_eq_of_cover 8 (G10 V c) (fun t _ => flushed10_eq V c t) cover10

end Cert.KernelIdeal.Hand

end
-- ==== Proof.V.RegAt10.lean ====
/-
  Region 10's output array at an index, over the arrays the region finds.

  The region combines 3 graph-convolution terms: the aggregated arrays and the product arrays,
  2000 rows at a time, with the [50000, 1] column of squared inverse-root degrees and the [1, 128] bias row staged
  whole. Row `n` lies in block `n / 2000` at row `n % 2000`; the body at that row is the sum of the terms
  agg(n, j) + h(n, j) · d(n) + b(j).
-/
import proofs.«135915_j24266565222462_2_alg».proof.Proof.KI.Val10
import proofs.«135915_j24266565222462_2_alg».proof.Proof.V.PayCombine
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- Aggregated array 0 of region 10. -/
abbrev A10_0 (c : Dev nD) : S50000x128.Idx → EReal := V c (Pipeline.arrRef spec10 0)
/-- Aggregated array 1 of region 10. -/
abbrev A10_1 (c : Dev nD) : S50000x128.Idx → EReal := V c (Pipeline.arrRef spec10 1)
/-- Aggregated array 2 of region 10. -/
abbrev A10_2 (c : Dev nD) : S50000x128.Idx → EReal := V c (Pipeline.arrRef spec10 2)
/-- Product array 0 of region 10. -/
abbrev A10_3 (c : Dev nD) : S50000x128.Idx → EReal := V c (Pipeline.arrRef spec10 3)
/-- Product array 1 of region 10. -/
abbrev A10_4 (c : Dev nD) : S50000x128.Idx → EReal := V c (Pipeline.arrRef spec10 4)
/-- Product array 2 of region 10. -/
abbrev A10_5 (c : Dev nD) : S50000x128.Idx → EReal := V c (Pipeline.arrRef spec10 5)
/-- The column of squared inverse-root degrees. -/
abbrev A10_6 (c : Dev nD) : S50000x1.Idx → EReal := V c (Pipeline.arrRef spec10 6)
/-- The bias row. -/
abbrev A10_7 (c : Dev nD) : S1x128.Idx → EReal := V c (Pipeline.arrRef spec10 7)

theorem idx_facts10_0 : ∀ t : Fin cfg10.N, win10_0.index t (0 : Fin 2) = t.val ∧ win10_0.index t (1 : Fin 2) = 0 :=
  (by decide +kernel : ∀ t : Fin grid10.N, _)
theorem idx_facts10_1 : ∀ t : Fin cfg10.N, win10_1.index t (0 : Fin 2) = t.val ∧ win10_1.index t (1 : Fin 2) = 0 :=
  (by decide +kernel : ∀ t : Fin grid10.N, _)
theorem idx_facts10_2 : ∀ t : Fin cfg10.N, win10_2.index t (0 : Fin 2) = t.val ∧ win10_2.index t (1 : Fin 2) = 0 :=
  (by decide +kernel : ∀ t : Fin grid10.N, _)
theorem idx_facts10_3 : ∀ t : Fin cfg10.N, win10_3.index t (0 : Fin 2) = t.val ∧ win10_3.index t (1 : Fin 2) = 0 :=
  (by decide +kernel : ∀ t : Fin grid10.N, _)
theorem idx_facts10_4 : ∀ t : Fin cfg10.N, win10_4.index t (0 : Fin 2) = t.val ∧ win10_4.index t (1 : Fin 2) = 0 :=
  (by decide +kernel : ∀ t : Fin grid10.N, _)
theorem idx_facts10_5 : ∀ t : Fin cfg10.N, win10_5.index t (0 : Fin 2) = t.val ∧ win10_5.index t (1 : Fin 2) = 0 :=
  (by decide +kernel : ∀ t : Fin grid10.N, _)
theorem idx_facts10_6 : ∀ t : Fin cfg10.N, win10_6.index t (0 : Fin 2) = t.val ∧ win10_6.index t (1 : Fin 2) = 0 :=
  (by decide +kernel : ∀ t : Fin grid10.N, _)
theorem idx_facts10_7 : ∀ t : Fin cfg10.N, win10_7.index t (0 : Fin 2) = 0 ∧ win10_7.index t (1 : Fin 2) = 0 :=
  (by decide +kernel : ∀ t : Fin grid10.N, _)

/-- Inside its block, row `n` is row `n % 2000`. -/
theorem locOf10_ix2 (n : Fin 50000) (j : Fin 128) :
    locOf10 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk10_0_apply (c : Dev nD) (t : Fin cfg10.N) (r : Fin 2000) (q : Fin 128) (n : Fin 50000)
    (hn : n.val = t.val * 2000 + r.val) :
    (iblk10 V c 0 t : S2000x128.Idx → EReal) (ix2 r q) = A10_0 V c (ix2 n q) := by
  unfold iblk10
  rw [View.read_apply]
  show A10_0 V c (((cfg10.win 0).blk t).view.emb (ix2 r q)) = _
  refine congrArg _ (funext fun a => Fin.ext ?_)
  obtain ⟨e0, e1⟩ := idx_facts10_0 t
  match a with
  | ⟨0, _⟩ => show win10_0.index t (0 : Fin 2) * 2000 + 1 * r.val = n.val; rw [e0]; omega
  | ⟨1, _⟩ => show win10_0.index t (1 : Fin 2) * 128 + 1 * q.val = q.val; rw [e1]; omega

/-- Window 1's block at grid point `t`, at row `r` of the block, is the array at row `t * 2000 + r`. -/
theorem iblk10_1_apply (c : Dev nD) (t : Fin cfg10.N) (r : Fin 2000) (q : Fin 128) (n : Fin 50000)
    (hn : n.val = t.val * 2000 + r.val) :
    (iblk10 V c 1 t : S2000x128.Idx → EReal) (ix2 r q) = A10_1 V c (ix2 n q) := by
  unfold iblk10
  rw [View.read_apply]
  show A10_1 V c (((cfg10.win 1).blk t).view.emb (ix2 r q)) = _
  refine congrArg _ (funext fun a => Fin.ext ?_)
  obtain ⟨e0, e1⟩ := idx_facts10_1 t
  match a with
  | ⟨0, _⟩ => show win10_1.index t (0 : Fin 2) * 2000 + 1 * r.val = n.val; rw [e0]; omega
  | ⟨1, _⟩ => show win10_1.index t (1 : Fin 2) * 128 + 1 * q.val = q.val; rw [e1]; omega

/-- Window 2's block at grid point `t`, at row `r` of the block, is the array at row `t * 2000 + r`. -/
theorem iblk10_2_apply (c : Dev nD) (t : Fin cfg10.N) (r : Fin 2000) (q : Fin 128) (n : Fin 50000)
    (hn : n.val = t.val * 2000 + r.val) :
    (iblk10 V c 2 t : S2000x128.Idx → EReal) (ix2 r q) = A10_2 V c (ix2 n q) := by
  unfold iblk10
  rw [View.read_apply]
  show A10_2 V c (((cfg10.win 2).blk t).view.emb (ix2 r q)) = _
  refine congrArg _ (funext fun a => Fin.ext ?_)
  obtain ⟨e0, e1⟩ := idx_facts10_2 t
  match a with
  | ⟨0, _⟩ => show win10_2.index t (0 : Fin 2) * 2000 + 1 * r.val = n.val; rw [e0]; omega
  | ⟨1, _⟩ => show win10_2.index t (1 : Fin 2) * 128 + 1 * q.val = q.val; rw [e1]; omega

/-- Window 3's block at grid point `t`, at row `r` of the block, is the array at row `t * 2000 + r`. -/
theorem iblk10_3_apply (c : Dev nD) (t : Fin cfg10.N) (r : Fin 2000) (q : Fin 128) (n : Fin 50000)
    (hn : n.val = t.val * 2000 + r.val) :
    (iblk10 V c 3 t : S2000x128.Idx → EReal) (ix2 r q) = A10_3 V c (ix2 n q) := by
  unfold iblk10
  rw [View.read_apply]
  show A10_3 V c (((cfg10.win 3).blk t).view.emb (ix2 r q)) = _
  refine congrArg _ (funext fun a => Fin.ext ?_)
  obtain ⟨e0, e1⟩ := idx_facts10_3 t
  match a with
  | ⟨0, _⟩ => show win10_3.index t (0 : Fin 2) * 2000 + 1 * r.val = n.val; rw [e0]; omega
  | ⟨1, _⟩ => show win10_3.index t (1 : Fin 2) * 128 + 1 * q.val = q.val; rw [e1]; omega

/-- Window 4's block at grid point `t`, at row `r` of the block, is the array at row `t * 2000 + r`. -/
theorem iblk10_4_apply (c : Dev nD) (t : Fin cfg10.N) (r : Fin 2000) (q : Fin 128) (n : Fin 50000)
    (hn : n.val = t.val * 2000 + r.val) :
    (iblk10 V c 4 t : S2000x128.Idx → EReal) (ix2 r q) = A10_4 V c (ix2 n q) := by
  unfold iblk10
  rw [View.read_apply]
  show A10_4 V c (((cfg10.win 4).blk t).view.emb (ix2 r q)) = _
  refine congrArg _ (funext fun a => Fin.ext ?_)
  obtain ⟨e0, e1⟩ := idx_facts10_4 t
  match a with
  | ⟨0, _⟩ => show win10_4.index t (0 : Fin 2) * 2000 + 1 * r.val = n.val; rw [e0]; omega
  | ⟨1, _⟩ => show win10_4.index t (1 : Fin 2) * 128 + 1 * q.val = q.val; rw [e1]; omega

/-- Window 5's block at grid point `t`, at row `r` of the block, is the array at row `t * 2000 + r`. -/
theorem iblk10_5_apply (c : Dev nD) (t : Fin cfg10.N) (r : Fin 2000) (q : Fin 128) (n : Fin 50000)
    (hn : n.val = t.val * 2000 + r.val) :
    (iblk10 V c 5 t : S2000x128.Idx → EReal) (ix2 r q) = A10_5 V c (ix2 n q) := by
  unfold iblk10
  rw [View.read_apply]
  show A10_5 V c (((cfg10.win 5).blk t).view.emb (ix2 r q)) = _
  refine congrArg _ (funext fun a => Fin.ext ?_)
  obtain ⟨e0, e1⟩ := idx_facts10_5 t
  match a with
  | ⟨0, _⟩ => show win10_5.index t (0 : Fin 2) * 2000 + 1 * r.val = n.val; rw [e0]; omega
  | ⟨1, _⟩ => show win10_5.index t (1 : Fin 2) * 128 + 1 * q.val = q.val; rw [e1]; omega

/-- Window 6's block at grid point `t`, at row `r` of the block, is the array at row `t * 2000 + r`. -/
theorem iblk10_6_apply (c : Dev nD) (t : Fin cfg10.N) (r : Fin 2000) (q : Fin 1) (n : Fin 50000)
    (hn : n.val = t.val * 2000 + r.val) :
    (iblk10 V c 6 t : S2000x1.Idx → EReal) (ix2 r q) = A10_6 V c (ix2 n q) := by
  unfold iblk10
  rw [View.read_apply]
  show A10_6 V c (((cfg10.win 6).blk t).view.emb (ix2 r q)) = _
  refine congrArg _ (funext fun a => Fin.ext ?_)
  obtain ⟨e0, e1⟩ := idx_facts10_6 t
  match a with
  | ⟨0, _⟩ => show win10_6.index t (0 : Fin 2) * 2000 + 1 * r.val = n.val; rw [e0]; omega
  | ⟨1, _⟩ => show win10_6.index t (1 : Fin 2) * 1 + 1 * q.val = q.val; rw [e1]; omega

/-- Window 7 is staged whole: its block at every grid point is the array. -/
theorem iblk10_7_apply (c : Dev nD) (t : Fin cfg10.N) (p : Fin 1) (q : Fin 128) :
    (iblk10 V c 7 t : S1x128.Idx → EReal) (ix2 p q) = A10_7 V c (ix2 p q) := by
  unfold iblk10
  rw [View.read_apply]
  show A10_7 V c (((cfg10.win 7).blk t).view.emb (ix2 p q)) = _
  refine congrArg _ (funext fun a => Fin.ext ?_)
  obtain ⟨e0, e1⟩ := idx_facts10_7 t
  match a with
  | ⟨0, _⟩ => show win10_7.index t (0 : Fin 2) * 1 + 1 * p.val = p.val; rw [e0]; omega
  | ⟨1, _⟩ => show win10_7.index t (1 : Fin 2) * 128 + 1 * q.val = q.val; rw [e1]; omega

/-- Region 10's output at `(n, j)`. -/
theorem G10_apply (c : Dev nD) (n : Fin 50000) (j : Fin 128) :
    G10 V c (ix2 n j)
      = ((A10_0 V c (ix2 n j) + A10_3 V c (ix2 n j) * A10_6 V c (ix2 n (0 : Fin 1)) + A10_7 V c (ix2 (0 : Fin 1) j))
          + (A10_1 V c (ix2 n j) + A10_4 V c (ix2 n j) * A10_6 V c (ix2 n (0 : Fin 1)) + A10_7 V c (ix2 (0 : Fin 1) j)))
        + (A10_2 V c (ix2 n j) + A10_5 V c (ix2 n j) * A10_6 V c (ix2 n (0 : Fin 1)) + A10_7 V c (ix2 (0 : Fin 1) j)) := by
  have hz : (![0, 0] : Fin 2 → Nat) = fun _ => 0 := funext fun a => by
    match a with
    | ⟨0, _⟩ => rfl
    | ⟨1, _⟩ => rfl
  unfold G10 out10_8
  rw [View.canon_unit_zero hz]
  simp only [View.ld_unit_zero (S := S2000x128) hz, View.ld_unit_zero (S := S2000x1) hz, View.ld_unit_zero (S := S1x128) hz]
  rw [locOf10_ix2, Pay.k10_pay1_terms]
  rw [iblk10_0_apply V c _ _ j n (by show n.val = n.val / 2000 * 2000 + n.val % 2000; omega),
    iblk10_3_apply V c _ _ j n (by show n.val = n.val / 2000 * 2000 + n.val % 2000; omega),
    iblk10_1_apply V c _ _ j n (by show n.val = n.val / 2000 * 2000 + n.val % 2000; omega),
    iblk10_4_apply V c _ _ j n (by show n.val = n.val / 2000 * 2000 + n.val % 2000; omega),
    iblk10_2_apply V c _ _ j n (by show n.val = n.val / 2000 * 2000 + n.val % 2000; omega),
    iblk10_5_apply V c _ _ j n (by show n.val = n.val / 2000 * 2000 + n.val % 2000; omega),
    iblk10_6_apply V c _ _ (0 : Fin 1) n (by show n.val = n.val / 2000 * 2000 + n.val % 2000; omega),
    iblk10_7_apply]

end Cert.KernelIdeal.Hand

end
-- ==== Proof.KI.Stage3.lean ====
/- Stage 3 against the reference's stages: the three products of the fourth stage, their aggregations out of one stacked scatter-add, and the fourth cell as the sum of the reference's three terms. -/
import proofs.«135915_j24266565222462_2_alg».proof.Proof.KI.Stage2
import proofs.«135915_j24266565222462_2_alg».proof.Proof.KI.HostAgg3a
import proofs.«135915_j24266565222462_2_alg».proof.Proof.KI.HostAgg3b
import proofs.«135915_j24266565222462_2_alg».proof.Proof.KI.HostAgg3c
import proofs.«135915_j24266565222462_2_alg».proof.Proof.V.RegAt7
import proofs.«135915_j24266565222462_2_alg».proof.Proof.V.RegAt8
import proofs.«135915_j24266565222462_2_alg».proof.Proof.V.RegAt9
import proofs.«135915_j24266565222462_2_alg».proof.Proof.V.RegAt10

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

set_option maxHeartbeats 4000000 in
/-- Region 7's array is the reference's product of the rectified cell with the stage's weight. -/
theorem arr7_eq (c : Dev nD) : arr7 m c = ((Cert.RefStages.h30 (argA m c main_arg0) (argA m c main_arg1) (argA m c main_arg3) (argA m c main_arg4) (argA m c main_arg9)) : FVec Ideal S50000x128 .f32) := by
  unfold arr7
  rw [final7]
  funext i
  obtain ⟨n, j, rfl⟩ : ∃ (n : Fin 50000) (j : Fin 128), i = ix2 n j := ⟨i 0, i 1, eq_ix2 i⟩
  rw [G7_apply]
  have e0 : A7_0 (atRefs (W11 m)) c = (Cert.RefStages.cell0 (argA m c main_arg0) (argA m c main_arg1) (argA m c main_arg3) (argA m c main_arg4)) := (carry_main_v45_4_11 m c).trans ((W4_out m c).trans (arr1_eq m c))
  have e1 : A7_1 (atRefs (W11 m)) c = argA m c main_arg9 := carry_main_arg9_0_11 m c
  rw [e0, e1]
  show _ = Cert.RefStages.lin (Cert.RefStages.relu (Cert.RefStages.cell0 (argA m c main_arg0) (argA m c main_arg1) (argA m c main_arg3) (argA m c main_arg4))) (argA m c main_arg9) (ix2 n j)
  rw [Cert.StageAt.lin_apply]
  exact Finset.sum_congr rfl (fun q _ => by rw [Cert.StageAt.relu_apply])

set_option maxHeartbeats 4000000 in
/-- Region 8's array is the reference's product of the rectified cell with the stage's weight. -/
theorem arr8_eq (c : Dev nD) : arr8 m c = ((Cert.RefStages.h31 (argA m c main_arg0) (argA m c main_arg1) (argA m c main_arg3) (argA m c main_arg4) (argA m c main_arg5) (argA m c main_arg6) (argA m c main_arg9)) : FVec Ideal S50000x128 .f32) := by
  unfold arr8
  rw [final8]
  funext i
  obtain ⟨n, j, rfl⟩ : ∃ (n : Fin 50000) (j : Fin 128), i = ix2 n j := ⟨i 0, i 1, eq_ix2 i⟩
  rw [G8_apply]
  have e0 : A8_0 (atRefs (W12 m)) c = (Cert.RefStages.cell1 (argA m c main_arg0) (argA m c main_arg1) (argA m c main_arg3) (argA m c main_arg4) (argA m c main_arg5) (argA m c main_arg6)) := (carry_main_v63_7_12 m c).trans ((W7_out m c).trans (arr3_eq m c))
  have e1 : A8_1 (atRefs (W12 m)) c = argA m c main_arg9 := carry_main_arg9_0_12 m c
  rw [e0, e1]
  show _ = Cert.RefStages.lin (Cert.RefStages.relu (Cert.RefStages.cell1 (argA m c main_arg0) (argA m c main_arg1) (argA m c main_arg3) (argA m c main_arg4) (argA m c main_arg5) (argA m c main_arg6))) (argA m c main_arg9) (ix2 n j)
  rw [Cert.StageAt.lin_apply]
  exact Finset.sum_congr rfl (fun q _ => by rw [Cert.StageAt.relu_apply])

set_option maxHeartbeats 4000000 in
/-- Region 9's array is the reference's product of the rectified cell with the stage's weight. -/
theorem arr9_eq (c : Dev nD) : arr9 m c = ((Cert.RefStages.h32 (argA m c main_arg0) (argA m c main_arg1) (argA m c main_arg3) (argA m c main_arg4) (argA m c main_arg5) (argA m c main_arg6) (argA m c main_arg7) (argA m c main_arg8) (argA m c main_arg9)) : FVec Ideal S50000x128 .f32) := by
  unfold arr9
  rw [final9]
  funext i
  obtain ⟨n, j, rfl⟩ : ∃ (n : Fin 50000) (j : Fin 128), i = ix2 n j := ⟨i 0, i 1, eq_ix2 i⟩
  rw [G9_apply]
  have e0 : A9_0 (atRefs (W13 m)) c = (Cert.RefStages.cell2 (argA m c main_arg0) (argA m c main_arg1) (argA m c main_arg3) (argA m c main_arg4) (argA m c main_arg5) (argA m c main_arg6) (argA m c main_arg7) (argA m c main_arg8)) := (carry_main_v86_11_13 m c).trans ((W11_out m c).trans (arr6_eq m c))
  have e1 : A9_1 (atRefs (W13 m)) c = argA m c main_arg9 := carry_main_arg9_0_13 m c
  rw [e0, e1]
  show _ = Cert.RefStages.lin (Cert.RefStages.relu (Cert.RefStages.cell2 (argA m c main_arg0) (argA m c main_arg1) (argA m c main_arg3) (argA m c main_arg4) (argA m c main_arg5) (argA m c main_arg6) (argA m c main_arg7) (argA m c main_arg8))) (argA m c main_arg9) (ix2 n j)
  rw [Cert.StageAt.lin_apply]
  exact Finset.sum_congr rfl (fun q _ => by rw [Cert.StageAt.relu_apply])

theorem src_at14 (c : Dev nD) : W14 m c main_v1 = Cert.RefStages.src (argA m c main_arg1) := (carry_main_v1_1_14 m c).trans (W1_src m c)
theorem dst_at14 (c : Dev nD) : W14 m c main_v3 = Cert.RefStages.dst (argA m c main_arg1) := (carry_main_v3_1_14 m c).trans (W1_dst m c)
theorem norm_at14 (c : Dev nD) : W14 m c main_v27 = Cert.RefStages.norm (argA m c main_arg1) := (carry_main_v27_1_14 m c).trans (W1_norm m c)

/-- An aggregation of this stage. -/
theorem agg_at15_0 (c : Dev nD) : W15 m c main_v108 = (Cert.RefStages.agg (Cert.RefStages.h30 (argA m c main_arg0) (argA m c main_arg1) (argA m c main_arg3) (argA m c main_arg4) (argA m c main_arg9)) (argA m c main_arg1) : FVec Ideal S50000x128 .f32) := by
  show StableHlo.after hostOps10 (W14 m c) (Proc.devRef .tc main_v108) = _
  rw [ops10_v108]
  have h0 : W14 m c main_v87 = (Cert.RefStages.h30 (argA m c main_arg0) (argA m c main_arg1) (argA m c main_arg3) (argA m c main_arg4) (argA m c main_arg9)) := (carry_main_v87_12_14 m c).trans ((W12_out m c).trans (arr7_eq m c))
  have h1 : W14 m c main_v88 = (Cert.RefStages.h31 (argA m c main_arg0) (argA m c main_arg1) (argA m c main_arg3) (argA m c main_arg4) (argA m c main_arg5) (argA m c main_arg6) (argA m c main_arg9)) := (carry_main_v88_13_14 m c).trans ((W13_out m c).trans (arr8_eq m c))
  have h2 : W14 m c main_v89 = (Cert.RefStages.h32 (argA m c main_arg0) (argA m c main_arg1) (argA m c main_arg3) (argA m c main_arg4) (argA m c main_arg5) (argA m c main_arg6) (argA m c main_arg7) (argA m c main_arg8) (argA m c main_arg9)) := (W14_out m c).trans (arr9_eq m c)
  show Cert.KerAgg.agg3_0 (W14 m c main_v87) (W14 m c main_v88) (W14 m c main_v89) (W14 m c main_v1) (W14 m c main_v3) (W14 m c main_v27) = _
  rw [h0, h1, h2, src_at14, dst_at14, norm_at14]
  exact Cert.KerAgg.agg3_0_eq _ _ _ _

/-- An aggregation of this stage. -/
theorem agg_at15_1 (c : Dev nD) : W15 m c main_v109 = (Cert.RefStages.agg (Cert.RefStages.h31 (argA m c main_arg0) (argA m c main_arg1) (argA m c main_arg3) (argA m c main_arg4) (argA m c main_arg5) (argA m c main_arg6) (argA m c main_arg9)) (argA m c main_arg1) : FVec Ideal S50000x128 .f32) := by
  show StableHlo.after hostOps10 (W14 m c) (Proc.devRef .tc main_v109) = _
  rw [ops10_v109]
  have h0 : W14 m c main_v87 = (Cert.RefStages.h30 (argA m c main_arg0) (argA m c main_arg1) (argA m c main_arg3) (argA m c main_arg4) (argA m c main_arg9)) := (carry_main_v87_12_14 m c).trans ((W12_out m c).trans (arr7_eq m c))
  have h1 : W14 m c main_v88 = (Cert.RefStages.h31 (argA m c main_arg0) (argA m c main_arg1) (argA m c main_arg3) (argA m c main_arg4) (argA m c main_arg5) (argA m c main_arg6) (argA m c main_arg9)) := (carry_main_v88_13_14 m c).trans ((W13_out m c).trans (arr8_eq m c))
  have h2 : W14 m c main_v89 = (Cert.RefStages.h32 (argA m c main_arg0) (argA m c main_arg1) (argA m c main_arg3) (argA m c main_arg4) (argA m c main_arg5) (argA m c main_arg6) (argA m c main_arg7) (argA m c main_arg8) (argA m c main_arg9)) := (W14_out m c).trans (arr9_eq m c)
  show Cert.KerAgg.agg3_1 (W14 m c main_v87) (W14 m c main_v88) (W14 m c main_v89) (W14 m c main_v1) (W14 m c main_v3) (W14 m c main_v27) = _
  rw [h0, h1, h2, src_at14, dst_at14, norm_at14]
  exact Cert.KerAgg.agg3_1_eq _ _ _ _

/-- An aggregation of this stage. -/
theorem agg_at15_2 (c : Dev nD) : W15 m c main_v110 = (Cert.RefStages.agg (Cert.RefStages.h32 (argA m c main_arg0) (argA m c main_arg1) (argA m c main_arg3) (argA m c main_arg4) (argA m c main_arg5) (argA m c main_arg6) (argA m c main_arg7) (argA m c main_arg8) (argA m c main_arg9)) (argA m c main_arg1) : FVec Ideal S50000x128 .f32) := by
  show StableHlo.after hostOps10 (W14 m c) (Proc.devRef .tc main_v110) = _
  rw [ops10_v110]
  have h0 : W14 m c main_v87 = (Cert.RefStages.h30 (argA m c main_arg0) (argA m c main_arg1) (argA m c main_arg3) (argA m c main_arg4) (argA m c main_arg9)) := (carry_main_v87_12_14 m c).trans ((W12_out m c).trans (arr7_eq m c))
  have h1 : W14 m c main_v88 = (Cert.RefStages.h31 (argA m c main_arg0) (argA m c main_arg1) (argA m c main_arg3) (argA m c main_arg4) (argA m c main_arg5) (argA m c main_arg6) (argA m c main_arg9)) := (carry_main_v88_13_14 m c).trans ((W13_out m c).trans (arr8_eq m c))
  have h2 : W14 m c main_v89 = (Cert.RefStages.h32 (argA m c main_arg0) (argA m c main_arg1) (argA m c main_arg3) (argA m c main_arg4) (argA m c main_arg5) (argA m c main_arg6) (argA m c main_arg7) (argA m c main_arg8) (argA m c main_arg9)) := (W14_out m c).trans (arr9_eq m c)
  show Cert.KerAgg.agg3_2 (W14 m c main_v87) (W14 m c main_v88) (W14 m c main_v89) (W14 m c main_v1) (W14 m c main_v3) (W14 m c main_v27) = _
  rw [h0, h1, h2, src_at14, dst_at14, norm_at14]
  exact Cert.KerAgg.agg3_2_eq _ _ _ _

set_option maxHeartbeats 8000000 in
/-- The combine's array is the sum of the reference's 3 terms. -/
theorem arr10_eq (c : Dev nD) : arr10 m c = ((Cert.RefStages.cell3 (argA m c main_arg0) (argA m c main_arg1) (argA m c main_arg3) (argA m c main_arg4) (argA m c main_arg5) (argA m c main_arg6) (argA m c main_arg7) (argA m c main_arg8) (argA m c main_arg9) (argA m c main_arg10)) : FVec Ideal S50000x128 .f32) := by
  unfold arr10
  rw [final10]
  funext i
  obtain ⟨n, j, rfl⟩ : ∃ (n : Fin 50000) (j : Fin 128), i = ix2 n j := ⟨i 0, i 1, eq_ix2 i⟩
  rw [G10_apply]
  have ea0 : A10_0 (atRefs (W15 m)) c = Cert.RefStages.agg (Cert.RefStages.h30 (argA m c main_arg0) (argA m c main_arg1) (argA m c main_arg3) (argA m c main_arg4) (argA m c main_arg9)) (argA m c main_arg1) := agg_at15_0 m c
  have ea1 : A10_1 (atRefs (W15 m)) c = Cert.RefStages.agg (Cert.RefStages.h31 (argA m c main_arg0) (argA m c main_arg1) (argA m c main_arg3) (argA m c main_arg4) (argA m c main_arg5) (argA m c main_arg6) (argA m c main_arg9)) (argA m c main_arg1) := agg_at15_1 m c
  have ea2 : A10_2 (atRefs (W15 m)) c = Cert.RefStages.agg (Cert.RefStages.h32 (argA m c main_arg0) (argA m c main_arg1) (argA m c main_arg3) (argA m c main_arg4) (argA m c main_arg5) (argA m c main_arg6) (argA m c main_arg7) (argA m c main_arg8) (argA m c main_arg9)) (argA m c main_arg1) := agg_at15_2 m c
  have eh0 : A10_3 (atRefs (W15 m)) c = (Cert.RefStages.h30 (argA m c main_arg0) (argA m c main_arg1) (argA m c main_arg3) (argA m c main_arg4) (argA m c main_arg9)) := (carry_main_v87_12_15 m c).trans ((W12_out m c).trans (arr7_eq m c))
  have eh1 : A10_4 (atRefs (W15 m)) c = (Cert.RefStages.h31 (argA m c main_arg0) (argA m c main_arg1) (argA m c main_arg3) (argA m c main_arg4) (argA m c main_arg5) (argA m c main_arg6) (argA m c main_arg9)) := (carry_main_v88_13_15 m c).trans ((W13_out m c).trans (arr8_eq m c))
  have eh2 : A10_5 (atRefs (W15 m)) c = (Cert.RefStages.h32 (argA m c main_arg0) (argA m c main_arg1) (argA m c main_arg3) (argA m c main_arg4) (argA m c main_arg5) (argA m c main_arg6) (argA m c main_arg7) (argA m c main_arg8) (argA m c main_arg9)) := (carry_main_v89_14_15 m c).trans ((W14_out m c).trans (arr9_eq m c))
  have ed : A10_6 (atRefs (W15 m)) c = dsqCol (argA m c main_arg1) := (carry_main_v12_1_15 m c).trans (W1_dsq m c)
  have eb : A10_7 (atRefs (W15 m)) c = biasRow (argA m c main_arg10) := (W15_v111 m c).trans (congrArg biasRow (carry_main_arg10_0_14 m c))
  rw [ea0, ea1, ea2, eh0, eh1, eh2, ed, eb]
  show _ = (Cert.RefStages.gcnTerm (Cert.RefStages.h30 (argA m c main_arg0) (argA m c main_arg1) (argA m c main_arg3) (argA m c main_arg4) (argA m c main_arg9)) (argA m c main_arg1) (argA m c main_arg10) (ix2 n j) + Cert.RefStages.gcnTerm (Cert.RefStages.h31 (argA m c main_arg0) (argA m c main_arg1) (argA m c main_arg3) (argA m c main_arg4) (argA m c main_arg5) (argA m c main_arg6) (argA m c main_arg9)) (argA m c main_arg1) (argA m c main_arg10) (ix2 n j)) + Cert.RefStages.gcnTerm (Cert.RefStages.h32 (argA m c main_arg0) (argA m c main_arg1) (argA m c main_arg3) (argA m c main_arg4) (argA m c main_arg5) (argA m c main_arg6) (argA m c main_arg7) (argA m c main_arg8) (argA m c main_arg9)) (argA m c main_arg1) (argA m c main_arg10) (ix2 n j)
  rw [Cert.StageAt.gcnTerm_apply, Cert.StageAt.gcnTerm_apply, Cert.StageAt.gcnTerm_apply]
  unfold dsqCol biasRow
  rw [Cert.StageAt.dsq_apply, Cert.StageAt.brow_apply]

end Cert.KernelIdeal.Hand

end
-- ==== Proof.KI.Carry3.lean ====
/- Two more references carried unchanged: the head's weight and bias from launch to the pads. -/
import proofs.«135915_j24266565222462_2_alg».proof.Proof.KI.Carry

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem carry_main_arg11_0_16 (c : Dev nD) : W16 m c main_arg11 = W0 m c main_arg11 :=
  ((W16_keep m c main_arg11 (by decide)).trans ((W15_keep m c main_arg11 (by decide)).trans ((W14_keep m c main_arg11 (by decide)).trans ((W13_keep m c main_arg11 (by decide)).trans ((W12_keep m c main_arg11 (by decide)).trans ((W11_keep m c main_arg11 (by decide)).trans ((W10_keep m c main_arg11 (by decide)).trans ((W9_keep m c main_arg11 (by decide)).trans ((W8_keep m c main_arg11 (by decide)).trans ((W7_keep m c main_arg11 (by decide)).trans ((W6_keep m c main_arg11 (by decide)).trans ((W5_keep m c main_arg11 (by decide)).trans ((W4_keep m c main_arg11 (by decide)).trans ((W3_keep m c main_arg11 (by decide)).trans ((W2_keep m c main_arg11 (by decide)).trans (W1_keep m c main_arg11 (by decide)))))))))))))))))
theorem carry_main_arg12_0_16 (c : Dev nD) : W16 m c main_arg12 = W0 m c main_arg12 :=
  ((W16_keep m c main_arg12 (by decide)).trans ((W15_keep m c main_arg12 (by decide)).trans ((W14_keep m c main_arg12 (by decide)).trans ((W13_keep m c main_arg12 (by decide)).trans ((W12_keep m c main_arg12 (by decide)).trans ((W11_keep m c main_arg12 (by decide)).trans ((W10_keep m c main_arg12 (by decide)).trans ((W9_keep m c main_arg12 (by decide)).trans ((W8_keep m c main_arg12 (by decide)).trans ((W7_keep m c main_arg12 (by decide)).trans ((W6_keep m c main_arg12 (by decide)).trans ((W5_keep m c main_arg12 (by decide)).trans ((W4_keep m c main_arg12 (by decide)).trans ((W3_keep m c main_arg12 (by decide)).trans ((W2_keep m c main_arg12 (by decide)).trans (W1_keep m c main_arg12 (by decide)))))))))))))))))

end Cert.KernelIdeal.Hand

end
-- ==== Proof.KI.PadAt.lean ====
/- The padded head operands read at an index: on the first forty columns the padded weight is the weight and the padded
   bias row is the bias. -/
import proofs.«135915_j24266565222462_2_alg».proof.Proof.KI.HostMisc
import Idealize.ShloMosaic.Lib.KernelVsHost
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-- A column below forty, as a column of the padded 128. -/
def col128 (k : Fin 40) : Fin 128 := ⟨k.val, by have := k.isLt; omega⟩

theorem padW_apply (Wh : FVec Ideal S128x40 .f32) (q : Fin 128) (k : Fin 40) :
    padW Wh (ix2 q (col128 k)) = Wh (ix2 q k) := by
  unfold padW
  refine pad_apply_of_inside _ _ _ _ _ _ _ (ix2 q (col128 k)) (ix2 q k) (fun a => ?_)
  match a with
  | ⟨0, _⟩ => show q.val = 0 + q.val * (0 + 1); omega
  | ⟨1, _⟩ => show k.val = 0 + k.val * (0 + 1); omega

theorem padB_apply (bh : FVec Ideal S40 .f32) (k : Fin 40) :
    padB bh (ix1 (col128 k)) = bh (ix1 k) := by
  unfold padB
  refine pad_apply_of_inside _ _ _ _ _ _ _ (ix1 (col128 k)) (ix1 k) (fun a => ?_)
  match a with
  | ⟨0, _⟩ => show k.val = 0 + k.val * (0 + 1); omega

end Cert.KernelIdeal.Hand

end
-- ==== Proof.KI.Val11.lean ====
/- Region 11's output array after the region, as ONE function of the arrays the region finds: at row n, column j it is
   the body's arithmetic on the blocks of rows [2000 q, 2000 q + 2000), q = n / 2000 (and on the operands staged whole), read
   at row n % 2000, column j. Every row lies in the block of its quotient, and every grid point writes its block back. -/
import proofs.«135915_j24266565222462_2_alg».proof.Proof.KI.R11
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The grid point whose block holds the index's row. -/
def ptOf11 (i : S50000x128.Idx) : Fin cfg11.N :=
  ⟨(i 0).val / 2000, by have h : (i 0).val < 50000 := (i 0).isLt; show (i 0).val / 2000 < 25; omega⟩
/-- The index inside that block. -/
def locOf11 (i : S50000x128.Idx) : S2000x128.Idx := fun a => match a with
  | ⟨0, _⟩ => ⟨(i 0).val % 2000, Nat.mod_lt _ (by decide)⟩
  | ⟨1, _⟩ => ⟨(i 1).val, (i 1).isLt⟩

/-- Region 11's output array as one function of the arrays the region finds. -/
def G11 (c : Dev nD) : Vec F S50000x128 .f32 := fun i => out11_3 (iblk11 V c 0 (ptOf11 i)) (iblk11 V c 1 (ptOf11 i)) (iblk11 V c 2 (ptOf11 i)) (locOf11 i)

theorem G11_at (c : Dev nD) (t : Fin cfg11.N) (y : S2000x128.Idx) (i : S50000x128.Idx) (h1 : ptOf11 i = t) (h2 : locOf11 i = y) :
    G11 V c i = out11_3 (iblk11 V c 0 t) (iblk11 V c 1 t) (iblk11 V c 2 t) y := by
  unfold G11; rw [h1, h2]

/-- The output window's block index at grid point t is (t, 0). -/
theorem idx_facts11 : ∀ t : Fin cfg11.N, win11_3.index t (0 : Fin 2) = t.val ∧ win11_3.index t (1 : Fin 2) = 0 :=
  (by decide +kernel : ∀ t : Fin grid11.N, _)

set_option maxHeartbeats 4000000 in
/-- What grid point t writes back is block t of `G11`. -/
theorem flushed11_eq (c : Dev nD) (t : Fin cfg11.N) :
    (dat11 V c).flushed 3 t = ((cfg11.win 3).blk t).view.read (Elt F) (G11 V c) := by
  show (cfg11.win 3).cut (grid11.coords t) ((dat11 V c).after 3 t) = _
  rw [after11_3]
  funext y
  rw [View.read_apply]
  obtain ⟨e0, e1⟩ := idx_facts11 t
  have hy0 : (y 0).val < 2000 := (y 0).isLt
  have hp : ptOf11 (((cfg11.win 3).blk t).view.emb y) = t := Fin.ext (by
    show (win11_3.index t (0 : Fin 2) * 2000 + 1 * (y 0).val) / 2000 = t.val
    rw [e0]; omega)
  have hl : locOf11 (((cfg11.win 3).blk t).view.emb y) = y := funext fun a => Fin.ext (by
    match a with
    | ⟨0, _⟩ => show (win11_3.index t (0 : Fin 2) * 2000 + 1 * (y 0).val) % 2000 = (y 0).val; rw [e0]; omega
    | ⟨1, _⟩ => show win11_3.index t (1 : Fin 2) * 128 + 1 * (y 1).val = (y 1).val; rw [e1]; omega)
  exact (G11_at V c t y _ hp hl).symm

/-- An index of the array is in grid point t's block iff each coordinate is in the block's range on its axis. -/
theorem mem_blk11 (t : Fin cfg11.N) (i : S50000x128.Idx) :
    i ∈ ((cfg11.win 3).blk t).view.set ↔ ∀ a : Fin 2, win11_3.index t a * S2000x128.size a ≤ (i a).val ∧ (i a).val < win11_3.index t a * S2000x128.size a + S2000x128.size a := by
  show i ∈ ((View.whole main_v116).slice (win11_3.rect t)).set ↔ _
  rw [View.set_slice_whole, Rect.mem_set_unit]
  exact Iff.rfl

/-- Every index is in the block of the grid point of its row's quotient, which writes its block back. -/
theorem cover11 (i : S50000x128.Idx) : ∃ t : Fin cfg11.N, (cfg11.win 3).flush t = true ∧ i ∈ ((cfg11.win 3).blk t).view.set := by
  have hi0 : (i 0).val < 50000 := (i 0).isLt
  have hi1 : (i 1).val < 128 := (i 1).isLt
  refine ⟨ptOf11 i, flush11_3 _, ?_⟩
  rw [mem_blk11]
  obtain ⟨e0, e1⟩ := idx_facts11 (ptOf11 i)
  intro a
  match a with
  | ⟨0, _⟩ => show win11_3.index (ptOf11 i) (0 : Fin 2) * 2000 ≤ (i 0).val ∧ (i 0).val < win11_3.index (ptOf11 i) (0 : Fin 2) * 2000 + 2000; rw [e0]; show (i 0).val / 2000 * 2000 ≤ _ ∧ _ < (i 0).val / 2000 * 2000 + 2000; omega
  | ⟨1, _⟩ => show win11_3.index (ptOf11 i) (1 : Fin 2) * 128 ≤ (i 1).val ∧ (i 1).val < win11_3.index (ptOf11 i) (1 : Fin 2) * 128 + 128; rw [e1]; omega

/-- The output array after the region's whole grid. -/
theorem final11 (c : Dev nD) : (dat11 V c).arrAt 3 cfg11.N = G11 V c :=
  (dat11 V c).arrAt_eq_of_cover 3 (G11 V c) (fun t _ => flushed11_eq V c t) cover11

end Cert.KernelIdeal.Hand

end
-- ==== Proof.V.PayRowReduce.lean ====
/-
  The two row reductions of the log-softmax body read at an index, and the row-wise log-softmax they build.

  Over a [2000, 128] block, the lane maximum taken from minus infinity is, at row `r`, the fold of `max` from the
  bottom element over the 128 entries of the row; the lane sum taken from zero is the sum of the row's entries.
  The row-wise log-softmax of an array `x` of any number of rows, at `(r, k)`, is  (x(r,k) − m(r)) − log (∑ k', exp (x(r,k') − m(r)))  with `m(r)`
  that row maximum.
-/
import proofs.«135915_j24266565222462_2_alg».proof.Proof.V.AlgConsts
import Idealize.ShloMosaic.Lib.ValueIdx
import Idealize.ShloMosaic.PureOps.Ideal.Laws

noncomputable section

namespace Cert.KernelIdeal.Pay

open Idealize.ShloMosaic Idealize.ShloMosaic.ValueIdx

variable {R : Nat}

/-- The maximum of row `r`, folded from the bottom element. -/
def rowMax (x : (⟨2, ![R, 128]⟩ : Shape).Idx → EReal) (r : Fin R) : EReal :=
  (Finset.univ : Finset (Fin 128)).fold max ⊥ fun k => x (ix2 r k)

/-- The entry `(r, k)` less its row's maximum. -/
def rowShift (x : (⟨2, ![R, 128]⟩ : Shape).Idx → EReal) (r : Fin R) (k : Fin 128) : EReal :=
  x (ix2 r k) - rowMax x r

/-- The logarithm of the row's sum of exponentials of the shifted entries. -/
def rowLogSumExp (x : (⟨2, ![R, 128]⟩ : Shape).Idx → EReal) (r : Fin R) : EReal :=
  Ideal.log (∑ k : Fin 128, Ideal.exp (rowShift x r k))

/-- The row-wise log-softmax at `(r, k)`. -/
def rowLogSoftmax (x : (⟨2, ![R, 128]⟩ : Shape).Idx → EReal) (r : Fin R) (k : Fin 128) : EReal :=
  rowShift x r k - rowLogSumExp x r

/-- The row maximum is the supremum of the row's entries. -/
theorem rowMax_eq_sup (x : (⟨2, ![R, 128]⟩ : Shape).Idx → EReal) (r : Fin R) :
    rowMax x r = (Finset.univ : Finset (Fin 128)).sup fun k => x (ix2 r k) := rfl

/-- The row-wise log-softmax of a row depends only on that row's entries: two arrays, of any numbers of rows, that
    agree on a row of each have the same log-softmax there. -/
theorem rowLogSoftmax_congr {R' : Nat} (x : (⟨2, ![R, 128]⟩ : Shape).Idx → EReal)
    (y : (⟨2, ![R', 128]⟩ : Shape).Idx → EReal) (r : Fin R) (r' : Fin R')
    (h : ∀ k : Fin 128, x (ix2 r k) = y (ix2 r' k)) (k : Fin 128) :
    rowLogSoftmax x r k = rowLogSoftmax y r' k := by
  unfold rowLogSoftmax rowLogSumExp rowShift rowMax
  simp only [h]

/-- The index a lane reduction reads: row `r` with the lane coordinate inserted. -/
theorem lift_row (h : Shape.Reduces ⟨2, ![2000, 128]⟩ [1] ⟨1, ![2000]⟩) (r : Fin 2000) (k : Fin 128) :
    h.lift (ix1 r) k = ix2 r k :=
  funext fun a => Fin.ext (by
    match a with
    | ⟨0, _⟩ => rfl
    | ⟨1, _⟩ => rfl)

/-- The lane maximum from minus infinity, at row `r`. -/
theorem multiReduction_rowMax (src : FVec Ideal ⟨2, ![2000, 128]⟩ .f32)
    (h : Shape.Reduces ⟨2, ![2000, 128]⟩ [1] ⟨1, ![2000]⟩) (hφ : FKind.Formats .f32)
    (hacc : (0xFF800000#32 : BitVec 32) = 0xFF800000#32) (r : Fin 2000) :
    multiReduction .maximumf [1] ⟨1, ![2000]⟩ src 0xFF800000#32 h hφ hacc (ix1 r) = rowMax src r := by
  refine (Ideal.multiReduction_maximumf_single src _ h hφ hacc (ix1 r)).trans ?_
  show (Finset.univ : Finset (Fin 128)).fold max (Ideal.ofBits .f32 0xFF800000#32) (fun k => src (h.lift (ix1 r) k)) = _
  rw [Alg.ofBits_neg_inf]
  unfold rowMax
  refine congrArg (fun f : Fin 128 → EReal => (Finset.univ : Finset (Fin 128)).fold max ⊥ f) (funext fun k => ?_)
  exact congrArg src (lift_row h r k)

/-- The lane sum from zero, at row `r`. -/
theorem multiReduction_rowSum (src : FVec Ideal ⟨2, ![2000, 128]⟩ .f32)
    (h : Shape.Reduces ⟨2, ![2000, 128]⟩ [1] ⟨1, ![2000]⟩) (hφ : FKind.Formats .f32)
    (hacc : (0x00000000#32 : BitVec 32) = 0x00000000#32) (r : Fin 2000) :
    multiReduction .add [1] ⟨1, ![2000]⟩ src 0x00000000#32 h hφ hacc (ix1 r) = ∑ k : Fin 128, src (ix2 r k) := by
  refine (Ideal.multiReduction_add_single src _ h hφ hacc (ix1 r)).trans ?_
  show ∑ k : Fin 128, src (h.lift (ix1 r) k) = _
  refine Finset.sum_congr rfl fun k _ => ?_
  exact congrArg src (lift_row h r k)

end Cert.KernelIdeal.Pay

end
-- ==== Proof.V.PayHead.lean ====
/-
  The log-softmax head body read at an index.

  The body takes each row's maximum (from minus infinity), subtracts it, exponentiates, sums the row (from zero),
  takes the logarithm and subtracts it: the row-wise log-softmax of the block. It then multiplies by the
  [128, 128] weight block into a zero accumulator and adds the [1, 128] bias row. At the exact values the format
  changes are the identity, so the body at `(r, j)` is the sum over `k` of the log-softmax at `(r, k)` times the
  weight at `(k, j)`, plus the bias at `j`.
-/
import proofs.«135915_j24266565222462_2_alg».proof.Proof.Gen.KernelIdeal.Skeleton
import proofs.«135915_j24266565222462_2_alg».proof.Proof.V.PayLayout
import proofs.«135915_j24266565222462_2_alg».proof.Proof.V.PayDot
import proofs.«135915_j24266565222462_2_alg».proof.Proof.V.PayRowReduce
import Idealize.ShloMosaic.Lib.ValueIdx

noncomputable section

namespace Cert.KernelIdeal.Pay

open Cert.KernelIdeal Cert.KernelIdeal.Gen Idealize.ShloMosaic Idealize.ShloMosaic.ValueIdx

/-- An entry less its row's maximum, as the body computes it. -/
theorem shift_apply (x : FVec Ideal S2000x128 .f32) (r : Fin 2000) (k : Fin 128) :
    subf x (broadcastTo S2000x128 (shapeCast S2000x1
        (multiReduction .maximumf [1] S2000 x 0xFF800000#32 reduces_S2000x128_S2000 (.inl rfl) rfl)
        shapeCasts_S2000_S2000x1) broadcasts_S2000x1_S2000x128) (ix2 r k) = rowShift x r k := by
  rw [subf_apply, broadcastTo_col_apply, shapeCast_col_apply, multiReduction_rowMax]
  rfl

/-- The head body at `(r, j)`. -/
theorem k11_pay1_apply (v0 : Vec Ideal S2000x128 .f32) (v13 : Vec Ideal S128x128 .f32) (v17 : Vec Ideal S1x128 .f32)
    (r : Fin 2000) (j : Fin 128) :
    k11_pay1 (F := Ideal) v0 v13 v17 (ix2 r j)
      = (∑ k : Fin 128, rowLogSoftmax v0 r k * v13 (ix2 k j)) + v17 (ix2 (0 : Fin 1) j) := by
  unfold k11_pay1
  simp only [shapeCast_self]
  rw [addf_apply, matmul_zero_apply, broadcastTo_1b_ab_apply]
  refine congrArg (· + v17 (ix2 (0 : Fin 1) j)) (Finset.sum_congr rfl fun k _ => ?_)
  rw [truncf_apply, truncf_apply]
  refine congrArg (· * v13 (ix2 k j)) ?_
  rw [subf_apply, shift_apply, broadcastTo_col_apply]
  show rowShift v0 r k - Ideal.log (shapeCast S2000x1 _ shapeCasts_S2000_S2000x1 (ix2 r (0 : Fin 1))) = _
  rw [shapeCast_col_apply, multiReduction_rowSum]
  unfold rowLogSoftmax rowLogSumExp
  refine congrArg (fun s => rowShift v0 r k - Ideal.log s) (Finset.sum_congr rfl fun k' _ => ?_)
  exact congrArg Ideal.exp (shift_apply v0 r k')

end Cert.KernelIdeal.Pay

end
-- ==== Proof.V.RegAt11.lean ====
/-
  Region 11's output array at an index, over the arrays the region finds.

  The region takes the row-wise log-softmax of the [50000, 128] array, 2000 rows at a time, multiplies it by the
  padded [128, 128] head weight and adds the padded [1, 128] bias row, both staged whole. Row `n` lies in block
  `n / 2000` at row `n % 2000`, and a row's log-softmax depends only on that row; so the output at `(n, j)` is
  ∑ q, logsoftmax(A₀)(n, q) · A₁ (q, j) + A₂ (0, j).
-/
import proofs.«135915_j24266565222462_2_alg».proof.Proof.KI.Val11
import proofs.«135915_j24266565222462_2_alg».proof.Proof.V.PayHead
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The [50000, 128] array whose rows' log-softmax the region takes. -/
abbrev A11_0 (c : Dev nD) : S50000x128.Idx → EReal := V c (Pipeline.arrRef spec11 0)
/-- The padded [128, 128] head weight. -/
abbrev A11_1 (c : Dev nD) : S128x128.Idx → EReal := V c (Pipeline.arrRef spec11 1)
/-- The padded [1, 128] bias row. -/
abbrev A11_2 (c : Dev nD) : S1x128.Idx → EReal := V c (Pipeline.arrRef spec11 2)

theorem idx_facts11_0 : ∀ t : Fin cfg11.N, win11_0.index t (0 : Fin 2) = t.val ∧ win11_0.index t (1 : Fin 2) = 0 :=
  (by decide +kernel : ∀ t : Fin grid11.N, _)
theorem idx_facts11_1 : ∀ t : Fin cfg11.N, win11_1.index t (0 : Fin 2) = 0 ∧ win11_1.index t (1 : Fin 2) = 0 :=
  (by decide +kernel : ∀ t : Fin grid11.N, _)
theorem idx_facts11_2 : ∀ t : Fin cfg11.N, win11_2.index t (0 : Fin 2) = 0 ∧ win11_2.index t (1 : Fin 2) = 0 :=
  (by decide +kernel : ∀ t : Fin grid11.N, _)

/-- Inside its block, row `n` is row `n % 2000`. -/
theorem locOf11_ix2 (n : Fin 50000) (j : Fin 128) :
    locOf11 (ix2 n j) = ix2 (⟨n.val % 2000, Nat.mod_lt _ (by decide)⟩ : Fin 2000) j :=
  funext fun a => Fin.ext (by
    match a with
    | ⟨0, _⟩ => rfl
    | ⟨1, _⟩ => rfl)

/-- Window 0's block at grid point `t`, at row `r` of the block, is the array at row `t * 2000 + r`. -/
theorem iblk11_0_apply (c : Dev nD) (t : Fin cfg11.N) (r : Fin 2000) (q : Fin 128) (n : Fin 50000)
    (hn : n.val = t.val * 2000 + r.val) :
    (iblk11 V c 0 t : S2000x128.Idx → EReal) (ix2 r q) = A11_0 V c (ix2 n q) := by
  unfold iblk11
  rw [View.read_apply]
  show A11_0 V c (((cfg11.win 0).blk t).view.emb (ix2 r q)) = _
  refine congrArg _ (funext fun a => Fin.ext ?_)
  obtain ⟨e0, e1⟩ := idx_facts11_0 t
  match a with
  | ⟨0, _⟩ => show win11_0.index t (0 : Fin 2) * 2000 + 1 * r.val = n.val; rw [e0]; omega
  | ⟨1, _⟩ => show win11_0.index t (1 : Fin 2) * 128 + 1 * q.val = q.val; rw [e1]; omega

/-- Window 1 is staged whole: its block at every grid point is the array. -/
theorem iblk11_1_apply (c : Dev nD) (t : Fin cfg11.N) (p : Fin 128) (q : Fin 128) :
    (iblk11 V c 1 t : S128x128.Idx → EReal) (ix2 p q) = A11_1 V c (ix2 p q) := by
  unfold iblk11
  rw [View.read_apply]
  show A11_1 V c (((cfg11.win 1).blk t).view.emb (ix2 p q)) = _
  refine congrArg _ (funext fun a => Fin.ext ?_)
  obtain ⟨e0, e1⟩ := idx_facts11_1 t
  match a with
  | ⟨0, _⟩ => show win11_1.index t (0 : Fin 2) * 128 + 1 * p.val = p.val; rw [e0]; omega
  | ⟨1, _⟩ => show win11_1.index t (1 : Fin 2) * 128 + 1 * q.val = q.val; rw [e1]; omega

/-- Window 2 is staged whole: its block at every grid point is the array. -/
theorem iblk11_2_apply (c : Dev nD) (t : Fin cfg11.N) (p : Fin 1) (q : Fin 128) :
    (iblk11 V c 2 t : S1x128.Idx → EReal) (ix2 p q) = A11_2 V c (ix2 p q) := by
  unfold iblk11
  rw [View.read_apply]
  show A11_2 V c (((cfg11.win 2).blk t).view.emb (ix2 p q)) = _
  refine congrArg _ (funext fun a => Fin.ext ?_)
  obtain ⟨e0, e1⟩ := idx_facts11_2 t
  match a with
  | ⟨0, _⟩ => show win11_2.index t (0 : Fin 2) * 1 + 1 * p.val = p.val; rw [e0]; omega
  | ⟨1, _⟩ => show win11_2.index t (1 : Fin 2) * 128 + 1 * q.val = q.val; rw [e1]; omega

/-- Region 11's output at `(n, j)`. -/
theorem G11_apply (c : Dev nD) (n : Fin 50000) (j : Fin 128) :
    G11 V c (ix2 n j)
      = (∑ q : Fin 128, Pay.rowLogSoftmax (A11_0 V c) n q * A11_1 V c (ix2 q j)) + A11_2 V c (ix2 (0 : Fin 1) j) := by
  have hz : (![0, 0] : Fin 2 → Nat) = fun _ => 0 := funext fun a => by
    match a with
    | ⟨0, _⟩ => rfl
    | ⟨1, _⟩ => rfl
  unfold G11 out11_3
  rw [View.canon_unit_zero hz]
  simp only [View.ld_unit_zero (S := S2000x128) hz, View.ld_unit_zero (S := S128x128) hz, View.ld_unit_zero (S := S1x128) hz]
  rw [locOf11_ix2, Pay.k11_pay1_apply, iblk11_2_apply]
  refine congrArg (· + A11_2 V c (ix2 (0 : Fin 1) j)) (Finset.sum_congr rfl fun q _ => ?_)
  rw [iblk11_1_apply]
  refine congrArg (· * A11_1 V c (ix2 q j)) ?_
  exact Pay.rowLogSoftmax_congr _ (A11_0 V c) _ n
    (fun k => iblk11_0_apply V c _ _ k n (by show n.val = n.val / 2000 * 2000 + n.val % 2000; omega)) q

end Cert.KernelIdeal.Hand

end
-- ==== Proof.V.HeadBridge.lean ====
/-
  The head, padded and picked, against the head, picked.

  One side multiplies the row-wise log-softmax of the last cell by the head weight padded with zero columns from 40 to
  128, adds the bias padded with zeros likewise, gathers the rows at the (wrapped, clamped) labels and keeps the first
  forty columns. The other multiplies by the unpadded weight, adds the unpadded bias and gathers the same rows. At a kept
  column the padded weight's column is the weight's and the padded bias's entry is the bias's, so the two agree entry by
  entry: the same sum over the 128 features plus the same bias, at the same row.
-/
import proofs.«135915_j24266565222462_2_alg».proof.Proof.V.StageAt
import proofs.«135915_j24266565222462_2_alg».proof.Proof.V.PayRowReduce
import proofs.«135915_j24266565222462_2_alg».proof.Proof.KI.PadAt

noncomputable section

namespace Cert.HeadBridge

open Idealize.ShloMosaic Idealize.ShloMosaic.ValueIdx Idealize.ShloMosaic.AggRows
open Cert.KernelIdeal.Hand

/-- The picked rows at (i, k): the array's row named by the wrapped label (read signed, clamped into the rows), at the
    padded column k. -/
theorem pickRows_apply (G : FVec Ideal Cert.KernelIdeal.S50000x128 .f32) (lab : IVec Cert.KernelIdeal.S25000 32) (i : Fin 25000) (k : Fin 40) :
    pickRows G lab (ix2 i k)
      = G (ix2 (⟨min (Cert.StageAt.wrapLab lab (ix1 i)).toInt.toNat 49999, by omega⟩ : Fin 50000) (col128 k)) := by
  unfold pickRows
  refine (extractStridedSlice_apply _ _ _ (ix2 i k) (ix2 i (col128 k)) (fun a => by
    match a with
    | ⟨0, _⟩ => exact (Nat.zero_add _).symm
    | ⟨1, _⟩ => exact (Nat.zero_add _).symm)).trans ?_
  refine (gather_rows_apply (N := 50000) (D := 128) (E := 25000) (by decide)
    Cert.KernelIdeal.Gen.gather_S50000x128_S25000x1_S25000x128_1_0_n_n_0_1_1128_wf G _ i (col128 k)).trans ?_
  refine congrArg G (congrArg (fun r : Fin 50000 => ix2 r (col128 k)) (Fin.ext ?_))
  show min (broadcastInDim Cert.KernelIdeal.S25000x1 ![0] Cert.KernelIdeal.Gen.bcast_S25000_S25000x1_0 (Cert.StageAt.wrapLab lab) (ix2 i (0 : Fin 1))).toInt.toNat (50000 - 1)
    = min (Cert.StageAt.wrapLab lab (ix1 i)).toInt.toNat 49999
  rw [bcast_e_e1_apply]

/-- **The head, padded and picked, is the head, picked.** If an array G is, entry by entry, the row-wise log-softmax of
    the last cell times the zero-padded head weight plus the zero-padded bias, then its rows at the labels, cut to the
    first forty columns, are the rows at the labels of the unpadded head of the log-softmax: a kept column of the padded
    weight and of the padded bias is the unpadded one. -/
theorem head_bridge (G cell : FVec Ideal Cert.KernelIdeal.S50000x128 .f32) (Wh : FVec Ideal Cert.KernelIdeal.S128x40 .f32)
    (bh : FVec Ideal Cert.KernelIdeal.S40 .f32) (lab : IVec Cert.KernelIdeal.S25000 32)
    (hG : ∀ (n : Fin 50000) (j : Fin 128), G (ix2 n j)
      = (∑ q : Fin 128, Cert.KernelIdeal.Pay.rowLogSoftmax cell n q * padW Wh (ix2 q j))
          + biasRow (padB bh) (ix2 (0 : Fin 1) j)) :
    pickRows G lab = Cert.RefStages.rowGather (Cert.RefStages.head (Cert.RefStages.logSoftmax cell) Wh bh) lab := by
  funext jj
  obtain ⟨i, k, rfl⟩ : ∃ (i : Fin 25000) (k : Fin 40), jj = ix2 i k := ⟨jj 0, jj 1, eq_ix2 jj⟩
  rw [pickRows_apply, hG, Cert.StageAt.rowGather_apply, Cert.StageAt.head_apply]
  refine congrArg₂ (· + ·) (Finset.sum_congr rfl fun q _ => ?_) ?_
  · rw [padW_apply, Cert.StageAt.logSoftmax_apply]
    rfl
  · unfold biasRow
    rw [Cert.StageAt.brow_apply, padB_apply]

end Cert.HeadBridge

end
-- ==== Proof.KI.Stage4.lean ====
/- The head against the reference's: the last region's array is, on the first forty columns, the reference's head of the row-wise log-softmax of the fourth cell (the padded weight and bias agree with the unpadded ones there), and the result picks its rows by the label indices as the reference does. -/
import proofs.«135915_j24266565222462_2_alg».proof.Proof.KI.Stage3
import proofs.«135915_j24266565222462_2_alg».proof.Proof.KI.Carry3
import proofs.«135915_j24266565222462_2_alg».proof.Proof.KI.PadAt
import proofs.«135915_j24266565222462_2_alg».proof.Proof.V.RegAt11
import proofs.«135915_j24266565222462_2_alg».proof.Proof.V.HeadBridge

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

set_option maxHeartbeats 8000000 in
theorem result_eq (c : Dev nD) : W23 m c main_v124 = ((Cert.RefStages.result (argA m c main_arg0) (argA m c main_arg1) (argA m c main_arg2) (argA m c main_arg3) (argA m c main_arg4) (argA m c main_arg5) (argA m c main_arg6) (argA m c main_arg7) (argA m c main_arg8) (argA m c main_arg9) (argA m c main_arg10) (argA m c main_arg11) (argA m c main_arg12)) : FVec Ideal S25000x40 .f32) := by
  rw [W23_v124, W22_out, carry_main_arg2_0_22]
  show pickRows (arr11 m c) (argA m c main_arg2) = Cert.RefStages.rowGather (Cert.RefStages.head (Cert.RefStages.logSoftmax (Cert.RefStages.cell3 (argA m c main_arg0) (argA m c main_arg1) (argA m c main_arg3) (argA m c main_arg4) (argA m c main_arg5) (argA m c main_arg6) (argA m c main_arg7) (argA m c main_arg8) (argA m c main_arg9) (argA m c main_arg10))) (argA m c main_arg11) (argA m c main_arg12)) (argA m c main_arg2)
  refine Cert.HeadBridge.head_bridge (arr11 m c) (Cert.RefStages.cell3 (argA m c main_arg0) (argA m c main_arg1) (argA m c main_arg3) (argA m c main_arg4) (argA m c main_arg5) (argA m c main_arg6) (argA m c main_arg7) (argA m c main_arg8) (argA m c main_arg9) (argA m c main_arg10)) (argA m c main_arg11) (argA m c main_arg12) (argA m c main_arg2) (fun n j => ?_)
  unfold arr11
  rw [final11, G11_apply]
  have e0 : A11_0 (atRefs (W21 m)) c = (Cert.RefStages.cell3 (argA m c main_arg0) (argA m c main_arg1) (argA m c main_arg3) (argA m c main_arg4) (argA m c main_arg5) (argA m c main_arg6) (argA m c main_arg7) (argA m c main_arg8) (argA m c main_arg9) (argA m c main_arg10)) := (carry_main_v112_16_21 m c).trans ((W16_out m c).trans (arr10_eq m c))
  have e1 : A11_1 (atRefs (W21 m)) c = padW (argA m c main_arg11) :=
    (carry_main_v113_18_21 m c).trans ((W18_v113 m c).trans (congrArg padW (carry_main_arg11_0_16 m c)))
  have e2 : A11_2 (atRefs (W21 m)) c = biasRow (padB (argA m c main_arg12)) :=
    (W21_v115 m c).trans (congrArg biasRow ((W20_v114 m c).trans (congrArg padB (carry_main_arg12_0_16 m c))))
  rw [e0, e1, e2]

end Cert.KernelIdeal.Hand

end
-- ==== Proof.V.RefOpsCut.lean ====
/-
  The reference's 371 operations in eight consecutive stretches, one per cell.

  The reference's program is a line of 371 operations. The operations that write the four cells and the partial sums of
  the third and fourth cell cut it into eight stretches: the edge list's rows, the degrees and the first cell; the second
  cell; the two terms of the third cell; the three terms of the fourth cell; and the log-softmax, the head and the row
  gather. Each stretch below lists its operations as the line has them, in the line's order; nothing is proved here.
-/
import proofs.«135915_j24266565222462_2_alg».proof.Proof.RefOps

noncomputable section

namespace Cert.ReferenceIdeal.OpsP

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 … 58: the edge list's rows, the degrees, and the first cell. -/
def opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v8 main_v7 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    binary main_arg0 main_arg3 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v12 (broadcastInDim S600000 ![] bcast_S_S600000 : (⟨S_, .i32⟩ : BufTy).Contents (Elt F) → (⟨S600000, .i32⟩ : BufTy).Contents (Elt F)),
    binary main_v1 main_v12 main_v13 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v14 (broadcastInDim S600000 ![] bcast_S_S600000 : (⟨S_, .i32⟩ : BufTy).Contents (Elt F) → (⟨S600000, .i32⟩ : BufTy).Contents (Elt F)),
    binary main_v1 main_v14 main_v15 (addi : (⟨S600000, .i32⟩ : BufTy).Contents (Elt F) → (⟨S600000, .i32⟩ : BufTy).Contents (Elt F) → (⟨S600000, .i32⟩ : BufTy).Contents (Elt F)),
    ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v16 main_v17 (broadcastInDim S600000x1 ![0] bcast_S600000_S600000x1_0 : (⟨S600000, .i32⟩ : BufTy).Contents (Elt F) → (⟨S600000x1, .i32⟩ : BufTy).Contents (Elt F)),
    binary main_v10 main_v17 main_v18 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_3 (constantI S_ 32 0#32),
    unary main_c_3 main_v19 (broadcastInDim S600000 ![] bcast_S_S600000 : (⟨S_, .i32⟩ : BufTy).Contents (Elt F) → (⟨S600000, .i32⟩ : BufTy).Contents (Elt F)),
    binary main_v3 main_v19 main_v20 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v21 (broadcastInDim S600000 ![] bcast_S_S600000 : (⟨S_, .i32⟩ : BufTy).Contents (Elt F) → (⟨S600000, .i32⟩ : BufTy).Contents (Elt F)),
    binary main_v3 main_v21 main_v22 (addi : (⟨S600000, .i32⟩ : BufTy).Contents (Elt F) → (⟨S600000, .i32⟩ : BufTy).Contents (Elt F) → (⟨S600000, .i32⟩ : BufTy).Contents (Elt F)),
    ternary main_v20 main_v22 main_v3 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v23 main_v24 (broadcastInDim S600000x1 ![0] bcast_S600000_S600000x1_0 : (⟨S600000, .i32⟩ : BufTy).Contents (Elt F) → (⟨S600000x1, .i32⟩ : BufTy).Contents (Elt F)),
    binary main_v10 main_v24 main_v25 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v18 main_v25 main_v26 (mulf : (⟨S600000, .f32⟩ : BufTy).Contents (Elt F) → (⟨S600000, .f32⟩ : BufTy).Contents (Elt F) → (⟨S600000, .f32⟩ : BufTy).Contents (Elt F)),
    unary main_v26 main_v27 (broadcastInDim S600000x1 ![0] bcast_S600000_S600000x1_0 : (⟨S600000, .f32⟩ : BufTy).Contents (Elt F) → (⟨S600000x1, .f32⟩ : BufTy).Contents (Elt F)),
    nullary main_c_5 (constantI S_ 32 0#32),
    unary main_c_5 main_v28 (broadcastInDim S600000 ![] bcast_S_S600000 : (⟨S_, .i32⟩ : BufTy).Contents (Elt F) → (⟨S600000, .i32⟩ : BufTy).Contents (Elt F)),
    binary main_v1 main_v28 main_v29 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v30 (broadcastInDim S600000 ![] bcast_S_S600000 : (⟨S_, .i32⟩ : BufTy).Contents (Elt F) → (⟨S600000, .i32⟩ : BufTy).Contents (Elt F)),
    binary main_v1 main_v30 main_v31 (addi : (⟨S600000, .i32⟩ : BufTy).Contents (Elt F) → (⟨S600000, .i32⟩ : BufTy).Contents (Elt F) → (⟨S600000, .i32⟩ : BufTy).Contents (Elt F)),
    ternary main_v29 main_v31 main_v1 main_v32 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v32 main_v33 (broadcastInDim S600000x1 ![0] bcast_S600000_S600000x1_0 : (⟨S600000, .i32⟩ : BufTy).Contents (Elt F) → (⟨S600000x1, .i32⟩ : BufTy).Contents (Elt F)),
    binary main_v11 main_v33 main_v34 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v27 main_v35 (broadcastInDim S600000x128 ![0, 1] bcast_S600000x1_S600000x128_0_1 : (⟨S600000x1, .f32⟩ : BufTy).Contents (Elt F) → (⟨S600000x128, .f32⟩ : BufTy).Contents (Elt F)),
    binary main_v34 main_v35 main_v36 (mulf : (⟨S600000x128, .f32⟩ : BufTy).Contents (Elt F) → (⟨S600000x128, .f32⟩ : BufTy).Contents (Elt F) → (⟨S600000x128, .f32⟩ : BufTy).Contents (Elt F)),
    nullary main_cst_7 (constant S_ .f32 0x00000000#32),
    unary main_cst_7 main_v37 (broadcastInDim S50000x128 ![] bcast_S_S50000x128 : (⟨S_, .f32⟩ : BufTy).Contents (Elt F) → (⟨S50000x128, .f32⟩ : BufTy).Contents (Elt F)),
    unary main_v3 main_v38 (broadcastInDim S600000x1 ![0] bcast_S600000_S600000x1_0 : (⟨S600000, .i32⟩ : BufTy).Contents (Elt F) → (⟨S600000x1, .i32⟩ : BufTy).Contents (Elt F)),
    ternary main_v37 main_v38 main_v36 main_v39 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v10 main_v10 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v11 main_v42 main_v43 (mulf : (⟨S50000x128, .f32⟩ : BufTy).Contents (Elt F) → (⟨S50000x128, .f32⟩ : BufTy).Contents (Elt F) → (⟨S50000x128, .f32⟩ : BufTy).Contents (Elt F)),
    binary main_v39 main_v43 main_v44 (addf : (⟨S50000x128, .f32⟩ : BufTy).Contents (Elt F) → (⟨S50000x128, .f32⟩ : BufTy).Contents (Elt F) → (⟨S50000x128, .f32⟩ : BufTy).Contents (Elt F)),
    unary main_arg4 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Operations 59 … 105: the second cell. -/
def opsB : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v47) (TRef.of (T := ⟨S50000x128, .f32⟩) main_call0_v0) (TRef.of (T := ⟨S50000x128, .f32⟩) main_v48) maximumf,
    binary main_v48 main_arg5 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_8 (constantI S_ 32 0#32),
    unary main_c_8 main_v50 (broadcastInDim S600000 ![] bcast_S_S600000 : (⟨S_, .i32⟩ : BufTy).Contents (Elt F) → (⟨S600000, .i32⟩ : BufTy).Contents (Elt F)),
    binary main_v1 main_v50 main_v51 (cmpi .slt : (⟨S600000, .i32⟩ : BufTy).Contents (Elt F) → (⟨S600000, .i32⟩ : BufTy).Contents (Elt F) → (⟨S600000, .i1⟩ : BufTy).Contents (Elt F)),
    nullary main_c_9 (constantI S_ 32 50000#32),
    unary main_c_9 main_v52 (broadcastInDim S600000 ![] bcast_S_S600000 : (⟨S_, .i32⟩ : BufTy).Contents (Elt F) → (⟨S600000, .i32⟩ : BufTy).Contents (Elt F)),
    binary main_v1 main_v52 main_v53 (addi : (⟨S600000, .i32⟩ : BufTy).Contents (Elt F) → (⟨S600000, .i32⟩ : BufTy).Contents (Elt F) → (⟨S600000, .i32⟩ : BufTy).Contents (Elt F)),
    ternary main_v51 main_v53 main_v1 main_v54 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v54 main_v55 (broadcastInDim S600000x1 ![0] bcast_S600000_S600000x1_0 : (⟨S600000, .i32⟩ : BufTy).Contents (Elt F) → (⟨S600000x1, .i32⟩ : BufTy).Contents (Elt F)),
    binary main_v10 main_v55 main_v56 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_10 (constantI S_ 32 0#32),
    unary main_c_10 main_v57 (broadcastInDim S600000 ![] bcast_S_S600000 : (⟨S_, .i32⟩ : BufTy).Contents (Elt F) → (⟨S600000, .i32⟩ : BufTy).Contents (Elt F)),
    binary main_v3 main_v57 main_v58 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v59 (broadcastInDim S600000 ![] bcast_S_S600000 : (⟨S_, .i32⟩ : BufTy).Contents (Elt F) → (⟨S600000, .i32⟩ : BufTy).Contents (Elt F)),
    binary main_v3 main_v59 main_v60 (addi : (⟨S600000, .i32⟩ : BufTy).Contents (Elt F) → (⟨S600000, .i32⟩ : BufTy).Contents (Elt F) → (⟨S600000, .i32⟩ : BufTy).Contents (Elt F)),
    ternary main_v58 main_v60 main_v3 main_v61 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v61 main_v62 (broadcastInDim S600000x1 ![0] bcast_S600000_S600000x1_0 : (⟨S600000, .i32⟩ : BufTy).Contents (Elt F) → (⟨S600000x1, .i32⟩ : BufTy).Contents (Elt F)),
    binary main_v10 main_v62 main_v63 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v56 main_v63 main_v64 (mulf : (⟨S600000, .f32⟩ : BufTy).Contents (Elt F) → (⟨S600000, .f32⟩ : BufTy).Contents (Elt F) → (⟨S600000, .f32⟩ : BufTy).Contents (Elt F)),
    unary main_v64 main_v65 (broadcastInDim S600000x1 ![0] bcast_S600000_S600000x1_0 : (⟨S600000, .f32⟩ : BufTy).Contents (Elt F) → (⟨S600000x1, .f32⟩ : BufTy).Contents (Elt F)),
    nullary main_c_12 (constantI S_ 32 0#32),
    unary main_c_12 main_v66 (broadcastInDim S600000 ![] bcast_S_S600000 : (⟨S_, .i32⟩ : BufTy).Contents (Elt F) → (⟨S600000, .i32⟩ : BufTy).Contents (Elt F)),
    binary main_v1 main_v66 main_v67 (cmpi .slt : (⟨S600000, .i32⟩ : BufTy).Contents (Elt F) → (⟨S600000, .i32⟩ : BufTy).Contents (Elt F) → (⟨S600000, .i1⟩ : BufTy).Contents (Elt F)),
    nullary main_c_13 (constantI S_ 32 50000#32),
    unary main_c_13 main_v68 (broadcastInDim S600000 ![] bcast_S_S600000 : (⟨S_, .i32⟩ : BufTy).Contents (Elt F) → (⟨S600000, .i32⟩ : BufTy).Contents (Elt F)),
    binary main_v1 main_v68 main_v69 (addi : (⟨S600000, .i32⟩ : BufTy).Contents (Elt F) → (⟨S600000, .i32⟩ : BufTy).Contents (Elt F) → (⟨S600000, .i32⟩ : BufTy).Contents (Elt F)),
    ternary main_v67 main_v69 main_v1 main_v70 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v70 main_v71 (broadcastInDim S600000x1 ![0] bcast_S600000_S600000x1_0 : (⟨S600000, .i32⟩ : BufTy).Contents (Elt F) → (⟨S600000x1, .i32⟩ : BufTy).Contents (Elt F)),
    binary main_v49 main_v71 main_v72 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v65 main_v73 (broadcastInDim S600000x128 ![0, 1] bcast_S600000x1_S600000x128_0_1 : (⟨S600000x1, .f32⟩ : BufTy).Contents (Elt F) → (⟨S600000x128, .f32⟩ : BufTy).Contents (Elt F)),
    binary main_v72 main_v73 main_v74 (mulf : (⟨S600000x128, .f32⟩ : BufTy).Contents (Elt F) → (⟨S600000x128, .f32⟩ : BufTy).Contents (Elt F) → (⟨S600000x128, .f32⟩ : BufTy).Contents (Elt F)),
    nullary main_cst_14 (constant S_ .f32 0x00000000#32),
    unary main_cst_14 main_v75 (broadcastInDim S50000x128 ![] bcast_S_S50000x128 : (⟨S_, .f32⟩ : BufTy).Contents (Elt F) → (⟨S50000x128, .f32⟩ : BufTy).Contents (Elt F)),
    unary main_v3 main_v76 (broadcastInDim S600000x1 ![0] bcast_S600000_S600000x1_0 : (⟨S600000, .i32⟩ : BufTy).Contents (Elt F) → (⟨S600000x1, .i32⟩ : BufTy).Contents (Elt F)),
    ternary main_v75 main_v76 main_v74 main_v77 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v10 main_v10 main_v78 (mulf : (⟨S50000, .f32⟩ : BufTy).Contents (Elt F) → (⟨S50000, .f32⟩ : BufTy).Contents (Elt F) → (⟨S50000, .f32⟩ : BufTy).Contents (Elt F)),
    unary main_v78 main_v79 (broadcastInDim S50000x1 ![0] bcast_S50000_S50000x1_0 : (⟨S50000, .f32⟩ : BufTy).Contents (Elt F) → (⟨S50000x1, .f32⟩ : BufTy).Contents (Elt F)),
    unary main_v79 main_v80 (broadcastInDim S50000x128 ![0, 1] bcast_S50000x1_S50000x128_0_1 : (⟨S50000x1, .f32⟩ : BufTy).Contents (Elt F) → (⟨S50000x128, .f32⟩ : BufTy).Contents (Elt F)),
    binary main_v49 main_v80 main_v81 (mulf : (⟨S50000x128, .f32⟩ : BufTy).Contents (Elt F) → (⟨S50000x128, .f32⟩ : BufTy).Contents (Elt F) → (⟨S50000x128, .f32⟩ : BufTy).Contents (Elt F)),
    binary main_v77 main_v81 main_v82 (addf : (⟨S50000x128, .f32⟩ : BufTy).Contents (Elt F) → (⟨S50000x128, .f32⟩ : BufTy).Contents (Elt F) → (⟨S50000x128, .f32⟩ : BufTy).Contents (Elt F)),
    unary main_arg6 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v82 main_v84 main_v85 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Operations 106 … 152: the third cell's first term. -/
def opsC1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v47) (TRef.of (T := ⟨S50000x128, .f32⟩) main_call1_v0) (TRef.of (T := ⟨S50000x128, .f32⟩) main_v86) maximumf,
    binary main_v86 main_arg7 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_15 (constantI S_ 32 0#32),
    unary main_c_15 main_v88 (broadcastInDim S600000 ![] bcast_S_S600000 : (⟨S_, .i32⟩ : BufTy).Contents (Elt F) → (⟨S600000, .i32⟩ : BufTy).Contents (Elt F)),
    binary main_v1 main_v88 main_v89 (cmpi .slt : (⟨S600000, .i32⟩ : BufTy).Contents (Elt F) → (⟨S600000, .i32⟩ : BufTy).Contents (Elt F) → (⟨S600000, .i1⟩ : BufTy).Contents (Elt F)),
    nullary main_c_16 (constantI S_ 32 50000#32),
    unary main_c_16 main_v90 (broadcastInDim S600000 ![] bcast_S_S600000 : (⟨S_, .i32⟩ : BufTy).Contents (Elt F) → (⟨S600000, .i32⟩ : BufTy).Contents (Elt F)),
    binary main_v1 main_v90 main_v91 (addi : (⟨S600000, .i32⟩ : BufTy).Contents (Elt F) → (⟨S600000, .i32⟩ : BufTy).Contents (Elt F) → (⟨S600000, .i32⟩ : BufTy).Contents (Elt F)),
    ternary main_v89 main_v91 main_v1 main_v92 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v92 main_v93 (broadcastInDim S600000x1 ![0] bcast_S600000_S600000x1_0 : (⟨S600000, .i32⟩ : BufTy).Contents (Elt F) → (⟨S600000x1, .i32⟩ : BufTy).Contents (Elt F)),
    binary main_v10 main_v93 main_v94 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_17 (constantI S_ 32 0#32),
    unary main_c_17 main_v95 (broadcastInDim S600000 ![] bcast_S_S600000 : (⟨S_, .i32⟩ : BufTy).Contents (Elt F) → (⟨S600000, .i32⟩ : BufTy).Contents (Elt F)),
    binary main_v3 main_v95 main_v96 (cmpi .slt : (⟨S600000, .i32⟩ : BufTy).Contents (Elt F) → (⟨S600000, .i32⟩ : BufTy).Contents (Elt F) → (⟨S600000, .i1⟩ : BufTy).Contents (Elt F)),
    nullary main_c_18 (constantI S_ 32 50000#32),
    unary main_c_18 main_v97 (broadcastInDim S600000 ![] bcast_S_S600000 : (⟨S_, .i32⟩ : BufTy).Contents (Elt F) → (⟨S600000, .i32⟩ : BufTy).Contents (Elt F)),
    binary main_v3 main_v97 main_v98 (addi : (⟨S600000, .i32⟩ : BufTy).Contents (Elt F) → (⟨S600000, .i32⟩ : BufTy).Contents (Elt F) → (⟨S600000, .i32⟩ : BufTy).Contents (Elt F)),
    ternary main_v96 main_v98 main_v3 main_v99 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v99 main_v100 (broadcastInDim S600000x1 ![0] bcast_S600000_S600000x1_0 : (⟨S600000, .i32⟩ : BufTy).Contents (Elt F) → (⟨S600000x1, .i32⟩ : BufTy).Contents (Elt F)),
    binary main_v10 main_v100 main_v101 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v94 main_v101 main_v102 (mulf : (⟨S600000, .f32⟩ : BufTy).Contents (Elt F) → (⟨S600000, .f32⟩ : BufTy).Contents (Elt F) → (⟨S600000, .f32⟩ : BufTy).Contents (Elt F)),
    unary main_v102 main_v103 (broadcastInDim S600000x1 ![0] bcast_S600000_S600000x1_0 : (⟨S600000, .f32⟩ : BufTy).Contents (Elt F) → (⟨S600000x1, .f32⟩ : BufTy).Contents (Elt F)),
    nullary main_c_19 (constantI S_ 32 0#32),
    unary main_c_19 main_v104 (broadcastInDim S600000 ![] bcast_S_S600000 : (⟨S_, .i32⟩ : BufTy).Contents (Elt F) → (⟨S600000, .i32⟩ : BufTy).Contents (Elt F)),
    binary main_v1 main_v104 main_v105 (cmpi .slt : (⟨S600000, .i32⟩ : BufTy).Contents (Elt F) → (⟨S600000, .i32⟩ : BufTy).Contents (Elt F) → (⟨S600000, .i1⟩ : BufTy).Contents (Elt F)),
    nullary main_c_20 (constantI S_ 32 50000#32),
    unary main_c_20 main_v106 (broadcastInDim S600000 ![] bcast_S_S600000 : (⟨S_, .i32⟩ : BufTy).Contents (Elt F) → (⟨S600000, .i32⟩ : BufTy).Contents (Elt F)),
    binary main_v1 main_v106 main_v107 (addi : (⟨S600000, .i32⟩ : BufTy).Contents (Elt F) → (⟨S600000, .i32⟩ : BufTy).Contents (Elt F) → (⟨S600000, .i32⟩ : BufTy).Contents (Elt F)),
    ternary main_v105 main_v107 main_v1 main_v108 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v108 main_v109 (broadcastInDim S600000x1 ![0] bcast_S600000_S600000x1_0 : (⟨S600000, .i32⟩ : BufTy).Contents (Elt F) → (⟨S600000x1, .i32⟩ : BufTy).Contents (Elt F)),
    binary main_v87 main_v109 main_v110 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v103 main_v111 (broadcastInDim S600000x128 ![0, 1] bcast_S600000x1_S600000x128_0_1 : (⟨S600000x1, .f32⟩ : BufTy).Contents (Elt F) → (⟨S600000x128, .f32⟩ : BufTy).Contents (Elt F)),
    binary main_v110 main_v111 main_v112 (mulf : (⟨S600000x128, .f32⟩ : BufTy).Contents (Elt F) → (⟨S600000x128, .f32⟩ : BufTy).Contents (Elt F) → (⟨S600000x128, .f32⟩ : BufTy).Contents (Elt F)),
    nullary main_cst_21 (constant S_ .f32 0x00000000#32),
    unary main_cst_21 main_v113 (broadcastInDim S50000x128 ![] bcast_S_S50000x128 : (⟨S_, .f32⟩ : BufTy).Contents (Elt F) → (⟨S50000x128, .f32⟩ : BufTy).Contents (Elt F)),
    unary main_v3 main_v114 (broadcastInDim S600000x1 ![0] bcast_S600000_S600000x1_0 : (⟨S600000, .i32⟩ : BufTy).Contents (Elt F) → (⟨S600000x1, .i32⟩ : BufTy).Contents (Elt F)),
    ternary main_v113 main_v114 main_v112 main_v115 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v10 main_v10 main_v116 (mulf : (⟨S50000, .f32⟩ : BufTy).Contents (Elt F) → (⟨S50000, .f32⟩ : BufTy).Contents (Elt F) → (⟨S50000, .f32⟩ : BufTy).Contents (Elt F)),
    unary main_v116 main_v117 (broadcastInDim S50000x1 ![0] bcast_S50000_S50000x1_0 : (⟨S50000, .f32⟩ : BufTy).Contents (Elt F) → (⟨S50000x1, .f32⟩ : BufTy).Contents (Elt F)),
    unary main_v117 main_v118 (broadcastInDim S50000x128 ![0, 1] bcast_S50000x1_S50000x128_0_1 : (⟨S50000x1, .f32⟩ : BufTy).Contents (Elt F) → (⟨S50000x128, .f32⟩ : BufTy).Contents (Elt F)),
    binary main_v87 main_v118 main_v119 (mulf : (⟨S50000x128, .f32⟩ : BufTy).Contents (Elt F) → (⟨S50000x128, .f32⟩ : BufTy).Contents (Elt F) → (⟨S50000x128, .f32⟩ : BufTy).Contents (Elt F)),
    binary main_v115 main_v119 main_v120 (addf : (⟨S50000x128, .f32⟩ : BufTy).Contents (Elt F) → (⟨S50000x128, .f32⟩ : BufTy).Contents (Elt F) → (⟨S50000x128, .f32⟩ : BufTy).Contents (Elt F)),
    unary main_arg8 main_v121 (broadcastInDim S1x128 ![1] bcast_S128_S1x128_1 : (⟨S128, .f32⟩ : BufTy).Contents (Elt F) → (⟨S1x128, .f32⟩ : BufTy).Contents (Elt F)),
    unary main_v121 main_v122 (broadcastInDim S50000x128 ![0, 1] bcast_S1x128_S50000x128_0_1 : (⟨S1x128, .f32⟩ : BufTy).Contents (Elt F) → (⟨S50000x128, .f32⟩ : BufTy).Contents (Elt F)),
    binary main_v120 main_v122 main_v123 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Operations 153 … 200: the third cell's second term and the third cell. -/
def opsC2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v85) (TRef.of (T := ⟨S50000x128, .f32⟩) main_call2_v0) (TRef.of (T := ⟨S50000x128, .f32⟩) main_v124) maximumf,
    binary main_v124 main_arg7 main_v125 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_22 (constantI S_ 32 0#32),
    unary main_c_22 main_v126 (broadcastInDim S600000 ![] bcast_S_S600000 : (⟨S_, .i32⟩ : BufTy).Contents (Elt F) → (⟨S600000, .i32⟩ : BufTy).Contents (Elt F)),
    binary main_v1 main_v126 main_v127 (cmpi .slt : (⟨S600000, .i32⟩ : BufTy).Contents (Elt F) → (⟨S600000, .i32⟩ : BufTy).Contents (Elt F) → (⟨S600000, .i1⟩ : BufTy).Contents (Elt F)),
    nullary main_c_23 (constantI S_ 32 50000#32),
    unary main_c_23 main_v128 (broadcastInDim S600000 ![] bcast_S_S600000 : (⟨S_, .i32⟩ : BufTy).Contents (Elt F) → (⟨S600000, .i32⟩ : BufTy).Contents (Elt F)),
    binary main_v1 main_v128 main_v129 (addi : (⟨S600000, .i32⟩ : BufTy).Contents (Elt F) → (⟨S600000, .i32⟩ : BufTy).Contents (Elt F) → (⟨S600000, .i32⟩ : BufTy).Contents (Elt F)),
    ternary main_v127 main_v129 main_v1 main_v130 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v130 main_v131 (broadcastInDim S600000x1 ![0] bcast_S600000_S600000x1_0 : (⟨S600000, .i32⟩ : BufTy).Contents (Elt F) → (⟨S600000x1, .i32⟩ : BufTy).Contents (Elt F)),
    binary main_v10 main_v131 main_v132 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_24 (constantI S_ 32 0#32),
    unary main_c_24 main_v133 (broadcastInDim S600000 ![] bcast_S_S600000 : (⟨S_, .i32⟩ : BufTy).Contents (Elt F) → (⟨S600000, .i32⟩ : BufTy).Contents (Elt F)),
    binary main_v3 main_v133 main_v134 (cmpi .slt : (⟨S600000, .i32⟩ : BufTy).Contents (Elt F) → (⟨S600000, .i32⟩ : BufTy).Contents (Elt F) → (⟨S600000, .i1⟩ : BufTy).Contents (Elt F)),
    nullary main_c_25 (constantI S_ 32 50000#32),
    unary main_c_25 main_v135 (broadcastInDim S600000 ![] bcast_S_S600000 : (⟨S_, .i32⟩ : BufTy).Contents (Elt F) → (⟨S600000, .i32⟩ : BufTy).Contents (Elt F)),
    binary main_v3 main_v135 main_v136 (addi : (⟨S600000, .i32⟩ : BufTy).Contents (Elt F) → (⟨S600000, .i32⟩ : BufTy).Contents (Elt F) → (⟨S600000, .i32⟩ : BufTy).Contents (Elt F)),
    ternary main_v134 main_v136 main_v3 main_v137 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v137 main_v138 (broadcastInDim S600000x1 ![0] bcast_S600000_S600000x1_0 : (⟨S600000, .i32⟩ : BufTy).Contents (Elt F) → (⟨S600000x1, .i32⟩ : BufTy).Contents (Elt F)),
    binary main_v10 main_v138 main_v139 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v132 main_v139 main_v140 (mulf : (⟨S600000, .f32⟩ : BufTy).Contents (Elt F) → (⟨S600000, .f32⟩ : BufTy).Contents (Elt F) → (⟨S600000, .f32⟩ : BufTy).Contents (Elt F)),
    unary main_v140 main_v141 (broadcastInDim S600000x1 ![0] bcast_S600000_S600000x1_0 : (⟨S600000, .f32⟩ : BufTy).Contents (Elt F) → (⟨S600000x1, .f32⟩ : BufTy).Contents (Elt F)),
    nullary main_c_26 (constantI S_ 32 0#32),
    unary main_c_26 main_v142 (broadcastInDim S600000 ![] bcast_S_S600000 : (⟨S_, .i32⟩ : BufTy).Contents (Elt F) → (⟨S600000, .i32⟩ : BufTy).Contents (Elt F)),
    binary main_v1 main_v142 main_v143 (cmpi .slt : (⟨S600000, .i32⟩ : BufTy).Contents (Elt F) → (⟨S600000, .i32⟩ : BufTy).Contents (Elt F) → (⟨S600000, .i1⟩ : BufTy).Contents (Elt F)),
    nullary main_c_27 (constantI S_ 32 50000#32),
    unary main_c_27 main_v144 (broadcastInDim S600000 ![] bcast_S_S600000 : (⟨S_, .i32⟩ : BufTy).Contents (Elt F) → (⟨S600000, .i32⟩ : BufTy).Contents (Elt F)),
    binary main_v1 main_v144 main_v145 (addi : (⟨S600000, .i32⟩ : BufTy).Contents (Elt F) → (⟨S600000, .i32⟩ : BufTy).Contents (Elt F) → (⟨S600000, .i32⟩ : BufTy).Contents (Elt F)),
    ternary main_v143 main_v145 main_v1 main_v146 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v146 main_v147 (broadcastInDim S600000x1 ![0] bcast_S600000_S600000x1_0 : (⟨S600000, .i32⟩ : BufTy).Contents (Elt F) → (⟨S600000x1, .i32⟩ : BufTy).Contents (Elt F)),
    binary main_v125 main_v147 main_v148 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v141 main_v149 (broadcastInDim S600000x128 ![0, 1] bcast_S600000x1_S600000x128_0_1 : (⟨S600000x1, .f32⟩ : BufTy).Contents (Elt F) → (⟨S600000x128, .f32⟩ : BufTy).Contents (Elt F)),
    binary main_v148 main_v149 main_v150 (mulf : (⟨S600000x128, .f32⟩ : BufTy).Contents (Elt F) → (⟨S600000x128, .f32⟩ : BufTy).Contents (Elt F) → (⟨S600000x128, .f32⟩ : BufTy).Contents (Elt F)),
    nullary main_cst_28 (constant S_ .f32 0x00000000#32),
    unary main_cst_28 main_v151 (broadcastInDim S50000x128 ![] bcast_S_S50000x128 : (⟨S_, .f32⟩ : BufTy).Contents (Elt F) → (⟨S50000x128, .f32⟩ : BufTy).Contents (Elt F)),
    unary main_v3 main_v152 (broadcastInDim S600000x1 ![0] bcast_S600000_S600000x1_0 : (⟨S600000, .i32⟩ : BufTy).Contents (Elt F) → (⟨S600000x1, .i32⟩ : BufTy).Contents (Elt F)),
    ternary main_v151 main_v152 main_v150 main_v153 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v10 main_v10 main_v154 (mulf : (⟨S50000, .f32⟩ : BufTy).Contents (Elt F) → (⟨S50000, .f32⟩ : BufTy).Contents (Elt F) → (⟨S50000, .f32⟩ : BufTy).Contents (Elt F)),
    unary main_v154 main_v155 (broadcastInDim S50000x1 ![0] bcast_S50000_S50000x1_0 : (⟨S50000, .f32⟩ : BufTy).Contents (Elt F) → (⟨S50000x1, .f32⟩ : BufTy).Contents (Elt F)),
    unary main_v155 main_v156 (broadcastInDim S50000x128 ![0, 1] bcast_S50000x1_S50000x128_0_1 : (⟨S50000x1, .f32⟩ : BufTy).Contents (Elt F) → (⟨S50000x128, .f32⟩ : BufTy).Contents (Elt F)),
    binary main_v125 main_v156 main_v157 (mulf : (⟨S50000x128, .f32⟩ : BufTy).Contents (Elt F) → (⟨S50000x128, .f32⟩ : BufTy).Contents (Elt F) → (⟨S50000x128, .f32⟩ : BufTy).Contents (Elt F)),
    binary main_v153 main_v157 main_v158 (addf : (⟨S50000x128, .f32⟩ : BufTy).Contents (Elt F) → (⟨S50000x128, .f32⟩ : BufTy).Contents (Elt F) → (⟨S50000x128, .f32⟩ : BufTy).Contents (Elt F)),
    unary main_arg8 main_v159 (broadcastInDim S1x128 ![1] bcast_S128_S1x128_1 : (⟨S128, .f32⟩ : BufTy).Contents (Elt F) → (⟨S1x128, .f32⟩ : BufTy).Contents (Elt F)),
    unary main_v159 main_v160 (broadcastInDim S50000x128 ![0, 1] bcast_S1x128_S50000x128_0_1 : (⟨S1x128, .f32⟩ : BufTy).Contents (Elt F) → (⟨S50000x128, .f32⟩ : BufTy).Contents (Elt F)),
    binary main_v158 main_v160 main_v161 (addf : (⟨S50000x128, .f32⟩ : BufTy).Contents (Elt F) → (⟨S50000x128, .f32⟩ : BufTy).Contents (Elt F) → (⟨S50000x128, .f32⟩ : BufTy).Contents (Elt F)),
    binary main_v123 main_v161 main_v162 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Operations 201 … 247: the fourth cell's first term. -/
def opsD1 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v47) (TRef.of (T := ⟨S50000x128, .f32⟩) main_call3_v0) (TRef.of (T := ⟨S50000x128, .f32⟩) main_v163) maximumf,
    binary main_v163 main_arg9 main_v164 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_29 (constantI S_ 32 0#32),
    unary main_c_29 main_v165 (broadcastInDim S600000 ![] bcast_S_S600000 : (⟨S_, .i32⟩ : BufTy).Contents (Elt F) → (⟨S600000, .i32⟩ : BufTy).Contents (Elt F)),
    binary main_v1 main_v165 main_v166 (cmpi .slt : (⟨S600000, .i32⟩ : BufTy).Contents (Elt F) → (⟨S600000, .i32⟩ : BufTy).Contents (Elt F) → (⟨S600000, .i1⟩ : BufTy).Contents (Elt F)),
    nullary main_c_30 (constantI S_ 32 50000#32),
    unary main_c_30 main_v167 (broadcastInDim S600000 ![] bcast_S_S600000 : (⟨S_, .i32⟩ : BufTy).Contents (Elt F) → (⟨S600000, .i32⟩ : BufTy).Contents (Elt F)),
    binary main_v1 main_v167 main_v168 (addi : (⟨S600000, .i32⟩ : BufTy).Contents (Elt F) → (⟨S600000, .i32⟩ : BufTy).Contents (Elt F) → (⟨S600000, .i32⟩ : BufTy).Contents (Elt F)),
    ternary main_v166 main_v168 main_v1 main_v169 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v169 main_v170 (broadcastInDim S600000x1 ![0] bcast_S600000_S600000x1_0 : (⟨S600000, .i32⟩ : BufTy).Contents (Elt F) → (⟨S600000x1, .i32⟩ : BufTy).Contents (Elt F)),
    binary main_v10 main_v170 main_v171 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_31 (constantI S_ 32 0#32),
    unary main_c_31 main_v172 (broadcastInDim S600000 ![] bcast_S_S600000 : (⟨S_, .i32⟩ : BufTy).Contents (Elt F) → (⟨S600000, .i32⟩ : BufTy).Contents (Elt F)),
    binary main_v3 main_v172 main_v173 (cmpi .slt : (⟨S600000, .i32⟩ : BufTy).Contents (Elt F) → (⟨S600000, .i32⟩ : BufTy).Contents (Elt F) → (⟨S600000, .i1⟩ : BufTy).Contents (Elt F)),
    nullary main_c_32 (constantI S_ 32 50000#32),
    unary main_c_32 main_v174 (broadcastInDim S600000 ![] bcast_S_S600000 : (⟨S_, .i32⟩ : BufTy).Contents (Elt F) → (⟨S600000, .i32⟩ : BufTy).Contents (Elt F)),
    binary main_v3 main_v174 main_v175 (addi : (⟨S600000, .i32⟩ : BufTy).Contents (Elt F) → (⟨S600000, .i32⟩ : BufTy).Contents (Elt F) → (⟨S600000, .i32⟩ : BufTy).Contents (Elt F)),
    ternary main_v173 main_v175 main_v3 main_v176 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v176 main_v177 (broadcastInDim S600000x1 ![0] bcast_S600000_S600000x1_0 : (⟨S600000, .i32⟩ : BufTy).Contents (Elt F) → (⟨S600000x1, .i32⟩ : BufTy).Contents (Elt F)),
    binary main_v10 main_v177 main_v178 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v171 main_v178 main_v179 (mulf : (⟨S600000, .f32⟩ : BufTy).Contents (Elt F) → (⟨S600000, .f32⟩ : BufTy).Contents (Elt F) → (⟨S600000, .f32⟩ : BufTy).Contents (Elt F)),
    unary main_v179 main_v180 (broadcastInDim S600000x1 ![0] bcast_S600000_S600000x1_0 : (⟨S600000, .f32⟩ : BufTy).Contents (Elt F) → (⟨S600000x1, .f32⟩ : BufTy).Contents (Elt F)),
    nullary main_c_33 (constantI S_ 32 0#32),
    unary main_c_33 main_v181 (broadcastInDim S600000 ![] bcast_S_S600000 : (⟨S_, .i32⟩ : BufTy).Contents (Elt F) → (⟨S600000, .i32⟩ : BufTy).Contents (Elt F)),
    binary main_v1 main_v181 main_v182 (cmpi .slt : (⟨S600000, .i32⟩ : BufTy).Contents (Elt F) → (⟨S600000, .i32⟩ : BufTy).Contents (Elt F) → (⟨S600000, .i1⟩ : BufTy).Contents (Elt F)),
    nullary main_c_34 (constantI S_ 32 50000#32),
    unary main_c_34 main_v183 (broadcastInDim S600000 ![] bcast_S_S600000 : (⟨S_, .i32⟩ : BufTy).Contents (Elt F) → (⟨S600000, .i32⟩ : BufTy).Contents (Elt F)),
    binary main_v1 main_v183 main_v184 (addi : (⟨S600000, .i32⟩ : BufTy).Contents (Elt F) → (⟨S600000, .i32⟩ : BufTy).Contents (Elt F) → (⟨S600000, .i32⟩ : BufTy).Contents (Elt F)),
    ternary main_v182 main_v184 main_v1 main_v185 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v185 main_v186 (broadcastInDim S600000x1 ![0] bcast_S600000_S600000x1_0 : (⟨S600000, .i32⟩ : BufTy).Contents (Elt F) → (⟨S600000x1, .i32⟩ : BufTy).Contents (Elt F)),
    binary main_v164 main_v186 main_v187 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v180 main_v188 (broadcastInDim S600000x128 ![0, 1] bcast_S600000x1_S600000x128_0_1 : (⟨S600000x1, .f32⟩ : BufTy).Contents (Elt F) → (⟨S600000x128, .f32⟩ : BufTy).Contents (Elt F)),
    binary main_v187 main_v188 main_v189 (mulf : (⟨S600000x128, .f32⟩ : BufTy).Contents (Elt F) → (⟨S600000x128, .f32⟩ : BufTy).Contents (Elt F) → (⟨S600000x128, .f32⟩ : BufTy).Contents (Elt F)),
    nullary main_cst_35 (constant S_ .f32 0x00000000#32),
    unary main_cst_35 main_v190 (broadcastInDim S50000x128 ![] bcast_S_S50000x128 : (⟨S_, .f32⟩ : BufTy).Contents (Elt F) → (⟨S50000x128, .f32⟩ : BufTy).Contents (Elt F)),
    unary main_v3 main_v191 (broadcastInDim S600000x1 ![0] bcast_S600000_S600000x1_0 : (⟨S600000, .i32⟩ : BufTy).Contents (Elt F) → (⟨S600000x1, .i32⟩ : BufTy).Contents (Elt F)),
    ternary main_v190 main_v191 main_v189 main_v192 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v10 main_v10 main_v193 (mulf : (⟨S50000, .f32⟩ : BufTy).Contents (Elt F) → (⟨S50000, .f32⟩ : BufTy).Contents (Elt F) → (⟨S50000, .f32⟩ : BufTy).Contents (Elt F)),
    unary main_v193 main_v194 (broadcastInDim S50000x1 ![0] bcast_S50000_S50000x1_0 : (⟨S50000, .f32⟩ : BufTy).Contents (Elt F) → (⟨S50000x1, .f32⟩ : BufTy).Contents (Elt F)),
    unary main_v194 main_v195 (broadcastInDim S50000x128 ![0, 1] bcast_S50000x1_S50000x128_0_1 : (⟨S50000x1, .f32⟩ : BufTy).Contents (Elt F) → (⟨S50000x128, .f32⟩ : BufTy).Contents (Elt F)),
    binary main_v164 main_v195 main_v196 (mulf : (⟨S50000x128, .f32⟩ : BufTy).Contents (Elt F) → (⟨S50000x128, .f32⟩ : BufTy).Contents (Elt F) → (⟨S50000x128, .f32⟩ : BufTy).Contents (Elt F)),
    binary main_v192 main_v196 main_v197 (addf : (⟨S50000x128, .f32⟩ : BufTy).Contents (Elt F) → (⟨S50000x128, .f32⟩ : BufTy).Contents (Elt F) → (⟨S50000x128, .f32⟩ : BufTy).Contents (Elt F)),
    unary main_arg10 main_v198 (broadcastInDim S1x128 ![1] bcast_S128_S1x128_1 : (⟨S128, .f32⟩ : BufTy).Contents (Elt F) → (⟨S1x128, .f32⟩ : BufTy).Contents (Elt F)),
    unary main_v198 main_v199 (broadcastInDim S50000x128 ![0, 1] bcast_S1x128_S50000x128_0_1 : (⟨S1x128, .f32⟩ : BufTy).Contents (Elt F) → (⟨S50000x128, .f32⟩ : BufTy).Contents (Elt F)),
    binary main_v197 main_v199 main_v200 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Operations 248 … 295: the fourth cell's second term and the sum of the first two. -/
def opsD2 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v85) (TRef.of (T := ⟨S50000x128, .f32⟩) main_call4_v0) (TRef.of (T := ⟨S50000x128, .f32⟩) main_v201) maximumf,
    binary main_v201 main_arg9 main_v202 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_36 (constantI S_ 32 0#32),
    unary main_c_36 main_v203 (broadcastInDim S600000 ![] bcast_S_S600000 : (⟨S_, .i32⟩ : BufTy).Contents (Elt F) → (⟨S600000, .i32⟩ : BufTy).Contents (Elt F)),
    binary main_v1 main_v203 main_v204 (cmpi .slt : (⟨S600000, .i32⟩ : BufTy).Contents (Elt F) → (⟨S600000, .i32⟩ : BufTy).Contents (Elt F) → (⟨S600000, .i1⟩ : BufTy).Contents (Elt F)),
    nullary main_c_37 (constantI S_ 32 50000#32),
    unary main_c_37 main_v205 (broadcastInDim S600000 ![] bcast_S_S600000 : (⟨S_, .i32⟩ : BufTy).Contents (Elt F) → (⟨S600000, .i32⟩ : BufTy).Contents (Elt F)),
    binary main_v1 main_v205 main_v206 (addi : (⟨S600000, .i32⟩ : BufTy).Contents (Elt F) → (⟨S600000, .i32⟩ : BufTy).Contents (Elt F) → (⟨S600000, .i32⟩ : BufTy).Contents (Elt F)),
    ternary main_v204 main_v206 main_v1 main_v207 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v207 main_v208 (broadcastInDim S600000x1 ![0] bcast_S600000_S600000x1_0 : (⟨S600000, .i32⟩ : BufTy).Contents (Elt F) → (⟨S600000x1, .i32⟩ : BufTy).Contents (Elt F)),
    binary main_v10 main_v208 main_v209 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_38 (constantI S_ 32 0#32),
    unary main_c_38 main_v210 (broadcastInDim S600000 ![] bcast_S_S600000 : (⟨S_, .i32⟩ : BufTy).Contents (Elt F) → (⟨S600000, .i32⟩ : BufTy).Contents (Elt F)),
    binary main_v3 main_v210 main_v211 (cmpi .slt : (⟨S600000, .i32⟩ : BufTy).Contents (Elt F) → (⟨S600000, .i32⟩ : BufTy).Contents (Elt F) → (⟨S600000, .i1⟩ : BufTy).Contents (Elt F)),
    nullary main_c_39 (constantI S_ 32 50000#32),
    unary main_c_39 main_v212 (broadcastInDim S600000 ![] bcast_S_S600000 : (⟨S_, .i32⟩ : BufTy).Contents (Elt F) → (⟨S600000, .i32⟩ : BufTy).Contents (Elt F)),
    binary main_v3 main_v212 main_v213 (addi : (⟨S600000, .i32⟩ : BufTy).Contents (Elt F) → (⟨S600000, .i32⟩ : BufTy).Contents (Elt F) → (⟨S600000, .i32⟩ : BufTy).Contents (Elt F)),
    ternary main_v211 main_v213 main_v3 main_v214 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v214 main_v215 (broadcastInDim S600000x1 ![0] bcast_S600000_S600000x1_0 : (⟨S600000, .i32⟩ : BufTy).Contents (Elt F) → (⟨S600000x1, .i32⟩ : BufTy).Contents (Elt F)),
    binary main_v10 main_v215 main_v216 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v209 main_v216 main_v217 (mulf : (⟨S600000, .f32⟩ : BufTy).Contents (Elt F) → (⟨S600000, .f32⟩ : BufTy).Contents (Elt F) → (⟨S600000, .f32⟩ : BufTy).Contents (Elt F)),
    unary main_v217 main_v218 (broadcastInDim S600000x1 ![0] bcast_S600000_S600000x1_0 : (⟨S600000, .f32⟩ : BufTy).Contents (Elt F) → (⟨S600000x1, .f32⟩ : BufTy).Contents (Elt F)),
    nullary main_c_40 (constantI S_ 32 0#32),
    unary main_c_40 main_v219 (broadcastInDim S600000 ![] bcast_S_S600000 : (⟨S_, .i32⟩ : BufTy).Contents (Elt F) → (⟨S600000, .i32⟩ : BufTy).Contents (Elt F)),
    binary main_v1 main_v219 main_v220 (cmpi .slt : (⟨S600000, .i32⟩ : BufTy).Contents (Elt F) → (⟨S600000, .i32⟩ : BufTy).Contents (Elt F) → (⟨S600000, .i1⟩ : BufTy).Contents (Elt F)),
    nullary main_c_41 (constantI S_ 32 50000#32),
    unary main_c_41 main_v221 (broadcastInDim S600000 ![] bcast_S_S600000 : (⟨S_, .i32⟩ : BufTy).Contents (Elt F) → (⟨S600000, .i32⟩ : BufTy).Contents (Elt F)),
    binary main_v1 main_v221 main_v222 (addi : (⟨S600000, .i32⟩ : BufTy).Contents (Elt F) → (⟨S600000, .i32⟩ : BufTy).Contents (Elt F) → (⟨S600000, .i32⟩ : BufTy).Contents (Elt F)),
    ternary main_v220 main_v222 main_v1 main_v223 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v223 main_v224 (broadcastInDim S600000x1 ![0] bcast_S600000_S600000x1_0 : (⟨S600000, .i32⟩ : BufTy).Contents (Elt F) → (⟨S600000x1, .i32⟩ : BufTy).Contents (Elt F)),
    binary main_v202 main_v224 main_v225 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v218 main_v226 (broadcastInDim S600000x128 ![0, 1] bcast_S600000x1_S600000x128_0_1 : (⟨S600000x1, .f32⟩ : BufTy).Contents (Elt F) → (⟨S600000x128, .f32⟩ : BufTy).Contents (Elt F)),
    binary main_v225 main_v226 main_v227 (mulf : (⟨S600000x128, .f32⟩ : BufTy).Contents (Elt F) → (⟨S600000x128, .f32⟩ : BufTy).Contents (Elt F) → (⟨S600000x128, .f32⟩ : BufTy).Contents (Elt F)),
    nullary main_cst_42 (constant S_ .f32 0x00000000#32),
    unary main_cst_42 main_v228 (broadcastInDim S50000x128 ![] bcast_S_S50000x128 : (⟨S_, .f32⟩ : BufTy).Contents (Elt F) → (⟨S50000x128, .f32⟩ : BufTy).Contents (Elt F)),
    unary main_v3 main_v229 (broadcastInDim S600000x1 ![0] bcast_S600000_S600000x1_0 : (⟨S600000, .i32⟩ : BufTy).Contents (Elt F) → (⟨S600000x1, .i32⟩ : BufTy).Contents (Elt F)),
    ternary main_v228 main_v229 main_v227 main_v230 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v10 main_v10 main_v231 (mulf : (⟨S50000, .f32⟩ : BufTy).Contents (Elt F) → (⟨S50000, .f32⟩ : BufTy).Contents (Elt F) → (⟨S50000, .f32⟩ : BufTy).Contents (Elt F)),
    unary main_v231 main_v232 (broadcastInDim S50000x1 ![0] bcast_S50000_S50000x1_0 : (⟨S50000, .f32⟩ : BufTy).Contents (Elt F) → (⟨S50000x1, .f32⟩ : BufTy).Contents (Elt F)),
    unary main_v232 main_v233 (broadcastInDim S50000x128 ![0, 1] bcast_S50000x1_S50000x128_0_1 : (⟨S50000x1, .f32⟩ : BufTy).Contents (Elt F) → (⟨S50000x128, .f32⟩ : BufTy).Contents (Elt F)),
    binary main_v202 main_v233 main_v234 (mulf : (⟨S50000x128, .f32⟩ : BufTy).Contents (Elt F) → (⟨S50000x128, .f32⟩ : BufTy).Contents (Elt F) → (⟨S50000x128, .f32⟩ : BufTy).Contents (Elt F)),
    binary main_v230 main_v234 main_v235 (addf : (⟨S50000x128, .f32⟩ : BufTy).Contents (Elt F) → (⟨S50000x128, .f32⟩ : BufTy).Contents (Elt F) → (⟨S50000x128, .f32⟩ : BufTy).Contents (Elt F)),
    unary main_arg10 main_v236 (broadcastInDim S1x128 ![1] bcast_S128_S1x128_1 : (⟨S128, .f32⟩ : BufTy).Contents (Elt F) → (⟨S1x128, .f32⟩ : BufTy).Contents (Elt F)),
    unary main_v236 main_v237 (broadcastInDim S50000x128 ![0, 1] bcast_S1x128_S50000x128_0_1 : (⟨S1x128, .f32⟩ : BufTy).Contents (Elt F) → (⟨S50000x128, .f32⟩ : BufTy).Contents (Elt F)),
    binary main_v235 main_v237 main_v238 (addf : (⟨S50000x128, .f32⟩ : BufTy).Contents (Elt F) → (⟨S50000x128, .f32⟩ : BufTy).Contents (Elt F) → (⟨S50000x128, .f32⟩ : BufTy).Contents (Elt F)),
    binary main_v200 main_v238 main_v239 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Operations 296 … 343: the fourth cell's third term and the fourth cell. -/
def opsD3 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v162) (TRef.of (T := ⟨S50000x128, .f32⟩) main_call5_v0) (TRef.of (T := ⟨S50000x128, .f32⟩) main_v240) maximumf,
    binary main_v240 main_arg9 main_v241 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_43 (constantI S_ 32 0#32),
    unary main_c_43 main_v242 (broadcastInDim S600000 ![] bcast_S_S600000 : (⟨S_, .i32⟩ : BufTy).Contents (Elt F) → (⟨S600000, .i32⟩ : BufTy).Contents (Elt F)),
    binary main_v1 main_v242 main_v243 (cmpi .slt : (⟨S600000, .i32⟩ : BufTy).Contents (Elt F) → (⟨S600000, .i32⟩ : BufTy).Contents (Elt F) → (⟨S600000, .i1⟩ : BufTy).Contents (Elt F)),
    nullary main_c_44 (constantI S_ 32 50000#32),
    unary main_c_44 main_v244 (broadcastInDim S600000 ![] bcast_S_S600000 : (⟨S_, .i32⟩ : BufTy).Contents (Elt F) → (⟨S600000, .i32⟩ : BufTy).Contents (Elt F)),
    binary main_v1 main_v244 main_v245 (addi : (⟨S600000, .i32⟩ : BufTy).Contents (Elt F) → (⟨S600000, .i32⟩ : BufTy).Contents (Elt F) → (⟨S600000, .i32⟩ : BufTy).Contents (Elt F)),
    ternary main_v243 main_v245 main_v1 main_v246 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v246 main_v247 (broadcastInDim S600000x1 ![0] bcast_S600000_S600000x1_0 : (⟨S600000, .i32⟩ : BufTy).Contents (Elt F) → (⟨S600000x1, .i32⟩ : BufTy).Contents (Elt F)),
    binary main_v10 main_v247 main_v248 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_45 (constantI S_ 32 0#32),
    unary main_c_45 main_v249 (broadcastInDim S600000 ![] bcast_S_S600000 : (⟨S_, .i32⟩ : BufTy).Contents (Elt F) → (⟨S600000, .i32⟩ : BufTy).Contents (Elt F)),
    binary main_v3 main_v249 main_v250 (cmpi .slt : (⟨S600000, .i32⟩ : BufTy).Contents (Elt F) → (⟨S600000, .i32⟩ : BufTy).Contents (Elt F) → (⟨S600000, .i1⟩ : BufTy).Contents (Elt F)),
    nullary main_c_46 (constantI S_ 32 50000#32),
    unary main_c_46 main_v251 (broadcastInDim S600000 ![] bcast_S_S600000 : (⟨S_, .i32⟩ : BufTy).Contents (Elt F) → (⟨S600000, .i32⟩ : BufTy).Contents (Elt F)),
    binary main_v3 main_v251 main_v252 (addi : (⟨S600000, .i32⟩ : BufTy).Contents (Elt F) → (⟨S600000, .i32⟩ : BufTy).Contents (Elt F) → (⟨S600000, .i32⟩ : BufTy).Contents (Elt F)),
    ternary main_v250 main_v252 main_v3 main_v253 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v253 main_v254 (broadcastInDim S600000x1 ![0] bcast_S600000_S600000x1_0 : (⟨S600000, .i32⟩ : BufTy).Contents (Elt F) → (⟨S600000x1, .i32⟩ : BufTy).Contents (Elt F)),
    binary main_v10 main_v254 main_v255 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v248 main_v255 main_v256 (mulf : (⟨S600000, .f32⟩ : BufTy).Contents (Elt F) → (⟨S600000, .f32⟩ : BufTy).Contents (Elt F) → (⟨S600000, .f32⟩ : BufTy).Contents (Elt F)),
    unary main_v256 main_v257 (broadcastInDim S600000x1 ![0] bcast_S600000_S600000x1_0 : (⟨S600000, .f32⟩ : BufTy).Contents (Elt F) → (⟨S600000x1, .f32⟩ : BufTy).Contents (Elt F)),
    nullary main_c_47 (constantI S_ 32 0#32),
    unary main_c_47 main_v258 (broadcastInDim S600000 ![] bcast_S_S600000 : (⟨S_, .i32⟩ : BufTy).Contents (Elt F) → (⟨S600000, .i32⟩ : BufTy).Contents (Elt F)),
    binary main_v1 main_v258 main_v259 (cmpi .slt : (⟨S600000, .i32⟩ : BufTy).Contents (Elt F) → (⟨S600000, .i32⟩ : BufTy).Contents (Elt F) → (⟨S600000, .i1⟩ : BufTy).Contents (Elt F)),
    nullary main_c_48 (constantI S_ 32 50000#32),
    unary main_c_48 main_v260 (broadcastInDim S600000 ![] bcast_S_S600000 : (⟨S_, .i32⟩ : BufTy).Contents (Elt F) → (⟨S600000, .i32⟩ : BufTy).Contents (Elt F)),
    binary main_v1 main_v260 main_v261 (addi : (⟨S600000, .i32⟩ : BufTy).Contents (Elt F) → (⟨S600000, .i32⟩ : BufTy).Contents (Elt F) → (⟨S600000, .i32⟩ : BufTy).Contents (Elt F)),
    ternary main_v259 main_v261 main_v1 main_v262 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v262 main_v263 (broadcastInDim S600000x1 ![0] bcast_S600000_S600000x1_0 : (⟨S600000, .i32⟩ : BufTy).Contents (Elt F) → (⟨S600000x1, .i32⟩ : BufTy).Contents (Elt F)),
    binary main_v241 main_v263 main_v264 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v257 main_v265 (broadcastInDim S600000x128 ![0, 1] bcast_S600000x1_S600000x128_0_1 : (⟨S600000x1, .f32⟩ : BufTy).Contents (Elt F) → (⟨S600000x128, .f32⟩ : BufTy).Contents (Elt F)),
    binary main_v264 main_v265 main_v266 (mulf : (⟨S600000x128, .f32⟩ : BufTy).Contents (Elt F) → (⟨S600000x128, .f32⟩ : BufTy).Contents (Elt F) → (⟨S600000x128, .f32⟩ : BufTy).Contents (Elt F)),
    nullary main_cst_49 (constant S_ .f32 0x00000000#32),
    unary main_cst_49 main_v267 (broadcastInDim S50000x128 ![] bcast_S_S50000x128 : (⟨S_, .f32⟩ : BufTy).Contents (Elt F) → (⟨S50000x128, .f32⟩ : BufTy).Contents (Elt F)),
    unary main_v3 main_v268 (broadcastInDim S600000x1 ![0] bcast_S600000_S600000x1_0 : (⟨S600000, .i32⟩ : BufTy).Contents (Elt F) → (⟨S600000x1, .i32⟩ : BufTy).Contents (Elt F)),
    ternary main_v267 main_v268 main_v266 main_v269 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v10 main_v10 main_v270 (mulf : (⟨S50000, .f32⟩ : BufTy).Contents (Elt F) → (⟨S50000, .f32⟩ : BufTy).Contents (Elt F) → (⟨S50000, .f32⟩ : BufTy).Contents (Elt F)),
    unary main_v270 main_v271 (broadcastInDim S50000x1 ![0] bcast_S50000_S50000x1_0 : (⟨S50000, .f32⟩ : BufTy).Contents (Elt F) → (⟨S50000x1, .f32⟩ : BufTy).Contents (Elt F)),
    unary main_v271 main_v272 (broadcastInDim S50000x128 ![0, 1] bcast_S50000x1_S50000x128_0_1 : (⟨S50000x1, .f32⟩ : BufTy).Contents (Elt F) → (⟨S50000x128, .f32⟩ : BufTy).Contents (Elt F)),
    binary main_v241 main_v272 main_v273 (mulf : (⟨S50000x128, .f32⟩ : BufTy).Contents (Elt F) → (⟨S50000x128, .f32⟩ : BufTy).Contents (Elt F) → (⟨S50000x128, .f32⟩ : BufTy).Contents (Elt F)),
    binary main_v269 main_v273 main_v274 (addf : (⟨S50000x128, .f32⟩ : BufTy).Contents (Elt F) → (⟨S50000x128, .f32⟩ : BufTy).Contents (Elt F) → (⟨S50000x128, .f32⟩ : BufTy).Contents (Elt F)),
    unary main_arg10 main_v275 (broadcastInDim S1x128 ![1] bcast_S128_S1x128_1 : (⟨S128, .f32⟩ : BufTy).Contents (Elt F) → (⟨S1x128, .f32⟩ : BufTy).Contents (Elt F)),
    unary main_v275 main_v276 (broadcastInDim S50000x128 ![0, 1] bcast_S1x128_S50000x128_0_1 : (⟨S1x128, .f32⟩ : BufTy).Contents (Elt F) → (⟨S50000x128, .f32⟩ : BufTy).Contents (Elt F)),
    binary main_v274 main_v276 main_v277 (addf : (⟨S50000x128, .f32⟩ : BufTy).Contents (Elt F) → (⟨S50000x128, .f32⟩ : BufTy).Contents (Elt F) → (⟨S50000x128, .f32⟩ : BufTy).Contents (Elt F)),
    binary main_v239 main_v277 main_v278 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Operations 344 … 371: the log-softmax, the head and the row gather. -/
def opsE : List (HloOp τ sig (Elt F)) :=
  [ TRef.nullary (TRef.of (T := ⟨S_, .f32⟩) main_call6_cst) (constant S_ .f32 0xFF800000#32),
    TRef.binary (TRef.of (T := ⟨S50000x128, .f32⟩) main_v278) (TRef.of (T := ⟨S_, .f32⟩) main_call6_cst) (TRef.of (T := ⟨S50000, .f32⟩) main_call6_v0) (fun x v => Host.reduce FloatOps.maximumf x v reducesTo_S50000x128_S50000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_call6_v0) (TRef.of (T := ⟨S50000, .f32⟩) main_call6_v2) maximumf,
    TRef.unary (TRef.of (T := ⟨S50000, .f32⟩) main_call6_v2) (TRef.of (T := ⟨S50000x1, .f32⟩) main_call6_v3) (broadcastInDim S50000x1 ![0] bcast_S50000_S50000x1_0),
    TRef.unary (TRef.of (T := ⟨S50000x1, .f32⟩) main_call6_v3) (TRef.of (T := ⟨S50000x128, .f32⟩) main_call6_v4) (broadcastInDim S50000x128 ![0, 1] bcast_S50000x1_S50000x128_0_1),
    TRef.binary (TRef.of (T := ⟨S50000x128, .f32⟩) main_v278) (TRef.of (T := ⟨S50000x128, .f32⟩) main_call6_v4) (TRef.of (T := ⟨S50000x128, .f32⟩) main_call6_v5) subf,
    TRef.unary (TRef.of (T := ⟨S50000x128, .f32⟩) main_call6_v5) (TRef.of (T := ⟨S50000x128, .f32⟩) main_call6_v6) Host.exp,
    TRef.nullary (TRef.of (T := ⟨S_, .f32⟩) main_call6_cst_1) (constant S_ .f32 0x00000000#32),
    TRef.binary (TRef.of (T := ⟨S50000x128, .f32⟩) main_call6_v6) (TRef.of (T := ⟨S_, .f32⟩) main_call6_cst_1) (TRef.of (T := ⟨S50000, .f32⟩) main_call6_v7) (fun x v => Host.reduceAdd x v reducesTo_S50000x128_S50000_d1 h_S_),
    TRef.unary (TRef.of (T := ⟨S50000, .f32⟩) main_call6_v7) (TRef.of (T := ⟨S50000x1, .f32⟩) main_call6_v8) (broadcastInDim S50000x1 ![0] bcast_S50000_S50000x1_0),
    TRef.unary (TRef.of (T := ⟨S50000x1, .f32⟩) main_call6_v8) (TRef.of (T := ⟨S50000x1, .f32⟩) main_call6_v9) Host.log,
    TRef.unary (TRef.of (T := ⟨S50000x1, .f32⟩) main_call6_v9) (TRef.of (T := ⟨S50000x128, .f32⟩) main_call6_v10) (broadcastInDim S50000x128 ![0, 1] bcast_S50000x1_S50000x128_0_1),
    TRef.binary (TRef.of (T := ⟨S50000x128, .f32⟩) main_call6_v5) (TRef.of (T := ⟨S50000x128, .f32⟩) main_call6_v10) (TRef.of (T := ⟨S50000x128, .f32⟩) main_v279) subf,
    binary main_v279 main_arg11 main_v280 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg12 main_v281 (broadcastInDim S1x40 ![1] bcast_S40_S1x40_1 : (⟨S40, .f32⟩ : BufTy).Contents (Elt F) → (⟨S1x40, .f32⟩ : BufTy).Contents (Elt F)),
    unary main_v281 main_v282 (broadcastInDim S50000x40 ![0, 1] bcast_S1x40_S50000x40_0_1 : (⟨S1x40, .f32⟩ : BufTy).Contents (Elt F) → (⟨S50000x40, .f32⟩ : BufTy).Contents (Elt F)),
    binary main_v280 main_v282 main_v283 (addf : (⟨S50000x40, .f32⟩ : BufTy).Contents (Elt F) → (⟨S50000x40, .f32⟩ : BufTy).Contents (Elt F) → (⟨S50000x40, .f32⟩ : BufTy).Contents (Elt F)),
    nullary main_c_50 (constantI S_ 32 0#32),
    unary main_c_50 main_v284 (broadcastInDim S25000 ![] bcast_S_S25000 : (⟨S_, .i32⟩ : BufTy).Contents (Elt F) → (⟨S25000, .i32⟩ : BufTy).Contents (Elt F)),
    binary main_arg2 main_v284 main_v285 (cmpi .slt : (⟨S25000, .i32⟩ : BufTy).Contents (Elt F) → (⟨S25000, .i32⟩ : BufTy).Contents (Elt F) → (⟨S25000, .i1⟩ : BufTy).Contents (Elt F)),
    nullary main_c_51 (constantI S_ 32 50000#32),
    unary main_c_51 main_v286 (broadcastInDim S25000 ![] bcast_S_S25000 : (⟨S_, .i32⟩ : BufTy).Contents (Elt F) → (⟨S25000, .i32⟩ : BufTy).Contents (Elt F)),
    binary main_arg2 main_v286 main_v287 (addi : (⟨S25000, .i32⟩ : BufTy).Contents (Elt F) → (⟨S25000, .i32⟩ : BufTy).Contents (Elt F) → (⟨S25000, .i32⟩ : BufTy).Contents (Elt F)),
    ternary main_v285 main_v287 main_arg2 main_v288 (select : (⟨S25000, .i1⟩ : BufTy).Contents (Elt F) → (⟨S25000, .i32⟩ : BufTy).Contents (Elt F) → (⟨S25000, .i32⟩ : BufTy).Contents (Elt F) → (⟨S25000, .i32⟩ : BufTy).Contents (Elt F)),
    unary main_v288 main_v289 (broadcastInDim S25000x1 ![0] bcast_S25000_S25000x1_0 : (⟨S25000, .i32⟩ : BufTy).Contents (Elt F) → (⟨S25000x1, .i32⟩ : BufTy).Contents (Elt F)),
    binary main_v283 main_v289 main_v290 ((fun x i => Host.gather gather_S50000x40_S25000x1_S25000x40_1_0_n_n_0_1_140 x i) : (⟨S50000x40, .f32⟩ : BufTy).Contents (Elt F) → (⟨S25000x1, .i32⟩ : BufTy).Contents (Elt F) → (⟨S25000x40, .f32⟩ : BufTy).Contents (Elt F)) ]

end Cert.ReferenceIdeal.OpsP

end
-- ==== Proof.V.RefRunE2.lean ====
/-
  The reference's last stretch: the log-softmax, the head and the row gather.

  The stretch's twenty-eight operations read the fourth cell, the head's weight and bias and the labels. The fifteen
  operations of the log-softmax keep their values in buffers whose types they carry with them; a value carried to such a
  buffer and read back is the value, and the cell read as an array of its own type is the cell. With those passages
  removed, the buffer of the result holds, operation by operation, the rows at the wrapped labels of the head of the
  row-wise log-softmax of the cell.
-/
import proofs.«135915_j24266565222462_2_alg».proof.Proof.V.RefOpsCut
import proofs.«135915_j24266565222462_2_alg».proof.Proof.V.RefStages
import Idealize.ShloMosaic.Lib.Pipeline.Frame

noncomputable section

namespace Cert.RefRunStages

open Cert.ReferenceIdeal Cert.ReferenceIdeal.Gen Idealize.ShloMosaic Idealize.ShloMosaic.TcCoe Idealize.SL.Sem Idealize.ShloMosaic.StableHlo
  Cert.ReferenceIdeal.OpsP Cert.RefStages

namespace StepE

/-- Contents carried to a typed reference's buffer and back are the contents. -/
theorem ofBuf_toBuf {T : BufTy} (x : TRef sig T) (v : T.Contents (Elt Ideal)) : x.ofBuf (x.toBuf v) = v := by
  obtain ⟨r, h, _, _⟩ := x
  subst h
  rfl

/-- The fourth cell's buffer read at the cell's own type is its contents. -/
theorem cell_read (V : Valuation τ sig (Elt Ideal)) :
    (TRef.of (T := ⟨S50000x128, .f32⟩) main_v278).ofBuf (V (Proc.devRef .tc main_v278)) = V (Proc.devRef .tc main_v278) := rfl

/-- An array carried to the log-softmax's result buffer is the array. -/
theorem logSoftmax_write (X : (⟨S50000x128, .f32⟩ : BufTy).Contents (Elt Ideal)) :
    (TRef.of (T := ⟨S50000x128, .f32⟩) main_v279).toBuf X = X := rfl

end StepE

set_option maxHeartbeats 4000000 in
/-- After the last stretch the result buffer holds the rows, at the wrapped labels, of the head of the log-softmax of what
    the fourth cell's buffer held. -/
theorem stepE_v290 (V : Valuation τ sig (Elt Ideal)) :
    after (opsE (F := Ideal)) V (Proc.devRef .tc main_v290) = rowGather (head (logSoftmax (V (Proc.devRef .tc main_v278))) (V (Proc.devRef .tc main_arg11)) (V (Proc.devRef .tc main_arg12))) (V (Proc.devRef .tc main_arg2)) := by
  unfold opsE
  after_results_simp
  simp only [StepE.ofBuf_toBuf, StepE.cell_read, StepE.logSoftmax_write]
  rfl

end Cert.RefRunStages

end
-- ==== Proof.V.RefRunStages.lean ====
/-
  The reference's run, stretch by stretch.

  The reference's program is a line of 371 operations. From any contents of the buffers every execution of the line
  terminates, and each buffer ends at the fold of the operations' results over the launch contents. This module reads that
  fold off in eight stretches (one per cell, `Cert.ReferenceIdeal.OpsP.opsA … opsE`): after a stretch, from ANY contents `V`,
  the buffer the stretch is named for holds the stage's function (`Cert.RefStages`) of what `V` holds in the buffers the
  stretch reads, and a buffer the stretch does not write holds what `V` holds. The eight facts in a row give the result buffer
  as `Cert.RefStages.result` of the thirteen launch arrays, and the arguments unchanged; the reference's frame is the same run
  with the result dropped.
-/
import proofs.«135915_j24266565222462_2_alg».proof.Defs
import proofs.«135915_j24266565222462_2_alg».proof.Proof.Gen.Pre_finite_inputs
import proofs.«135915_j24266565222462_2_alg».proof.Proof.V.RefOpsCut
import proofs.«135915_j24266565222462_2_alg».proof.Proof.V.RefStages
import proofs.«135915_j24266565222462_2_alg».proof.Proof.V.RefRunE2
import Idealize.ShloMosaic.Lib.Pipeline.Frame

noncomputable section

namespace Cert.RefRunStages

open Cert.ReferenceIdeal Cert.ReferenceIdeal.Gen Idealize.ShloMosaic Idealize.ShloMosaic.TcCoe Idealize.SL.Sem
  Idealize.ShloMosaic.StableHlo Cert.ReferenceIdeal.OpsP Cert.RefStages

/-- The line is the eight stretches, in order. -/
theorem ops_cut : (ops (F := Ideal)) = opsA ++ (opsB ++ (opsC1 ++ (opsC2 ++ (opsD1 ++ (opsD2 ++ (opsD3 ++ opsE)))))) := rfl

/-! ## A graph-convolution term over the edge ends and the inverse square roots as given arrays -/

/-- The aggregation with the edges' starts `s`, ends `d` and the nodes' weights `dv` as arrays of their own. -/
def aggR (h : FVec Ideal S50000x128 .f32) (s d : IVec S600000 32) (dv : FVec Ideal S50000 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (col d)
    (mulf (Host.gather gather_S50000x128_S600000x1_S600000x128_1_0_n_n_0_1_1128 h (col (wrap s)))
      (broadcastInDim S600000x128 ![0, 1] bcast_S600000x1_S600000x128_0_1
        (broadcastInDim S600000x1 ![0] bcast_S600000_S600000x1_0 (mulf (atEdges dv s) (atEdges dv d)))))

/-- One graph-convolution term over those arrays. -/
def gcnTermR (h : FVec Ideal S50000x128 .f32) (s d : IVec S600000 32) (dv : FVec Ideal S50000 .f32) (b : FVec Ideal S128 .f32) :
    FVec Ideal S50000x128 .f32 :=
  addf (addf (aggR h s d dv) (mulf h (broadcastInDim S50000x128 ![0, 1] bcast_S50000x1_S50000x128_0_1
    (broadcastInDim S50000x1 ![0] bcast_S50000_S50000x1_0 (mulf dv dv))))) (biasWide b)

/-- At the edge list's rows and its inverse square roots it is the term of `Cert.RefStages`. -/
theorem gcnTermR_eq (h : FVec Ideal S50000x128 .f32) (ei : IVec S2x600000 32) (b : FVec Ideal S128 .f32) :
    gcnTermR h (src ei) (dst ei) (dinv ei) b = gcnTerm h ei b := rfl

/-! ## The eight stretches, each from ANY contents `V` of the buffers

After a stretch has run from contents `V`, the buffer it is named for holds the stage's function of what `V` holds in the
buffers the stretch reads (one pass of the library's result lemmas over the stretch's operations, then unfolding names), and a
buffer the stretch does not write holds what `V` holds: every operation writes only its result buffer, and the stretch's result
buffers are listed. -/

/-- An operation that writes the one buffer `y`, a member of the list `W`, writes inside `W`. -/
theorem writes_sub_of_mem {W : List (Ref sig .tc)} {op : HloOp τ sig (Elt Ideal)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The buffers stretch A writes. -/
noncomputable def writesA : List (Ref sig .tc) :=
  [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26, main_v27, main_c_5, main_v28, main_v29, main_c_6, main_v30, main_v31, main_v32, main_v33, main_v34, main_v35, main_v36, main_cst_7, main_v37, main_v38, main_v39, main_v40, main_v41, main_v42, main_v43, main_v44, main_v45, main_v46, main_v47]

set_option maxHeartbeats 4000000 in
theorem writesA_sub : (opsA (F := Ideal)).Forall fun op => op.writes ⊆ (writesA.map (Proc.devRef (τ := τ) .tc)).toFinset := by
  unfold opsA
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer stretch A does not write keeps its contents. -/
theorem keepA (V : Valuation τ sig (Elt Ideal)) {r : Ref sig .tc} (hr : r ∉ writesA) :
    after (opsA (F := Ideal)) V (Proc.devRef .tc r) = V (Proc.devRef .tc r) :=
  after_of_writes_sub _ V writesA_sub hr

set_option maxHeartbeats 4000000 in
theorem stepA_v1 (V : Valuation τ sig (Elt Ideal)) :
    after (opsA (F := Ideal)) V (Proc.devRef .tc main_v1) = src (V (Proc.devRef .tc main_arg1)) := by
  unfold opsA
  after_results_simp
  rfl

set_option maxHeartbeats 4000000 in
theorem stepA_v3 (V : Valuation τ sig (Elt Ideal)) :
    after (opsA (F := Ideal)) V (Proc.devRef .tc main_v3) = dst (V (Proc.devRef .tc main_arg1)) := by
  unfold opsA
  after_results_simp
  rfl

set_option maxHeartbeats 4000000 in
theorem stepA_v10 (V : Valuation τ sig (Elt Ideal)) :
    after (opsA (F := Ideal)) V (Proc.devRef .tc main_v10) = dinv (V (Proc.devRef .tc main_arg1)) := by
  unfold opsA
  after_results_simp
  rfl

set_option maxHeartbeats 4000000 in
theorem stepA_v47 (V : Valuation τ sig (Elt Ideal)) :
    after (opsA (F := Ideal)) V (Proc.devRef .tc main_v47) = cell0 (V (Proc.devRef .tc main_arg0)) (V (Proc.devRef .tc main_arg1)) (V (Proc.devRef .tc main_arg3)) (V (Proc.devRef .tc main_arg4)) := by
  unfold opsA
  after_results_simp
  rfl

/-- The buffers stretch B writes. -/
noncomputable def writesB : List (Ref sig .tc) :=
  [main_call0_cst, main_call0_v0, main_v48, main_v49, main_c_8, main_v50, main_v51, main_c_9, main_v52, main_v53, main_v54, main_v55, main_v56, main_c_10, main_v57, main_v58, main_c_11, main_v59, main_v60, main_v61, main_v62, main_v63, main_v64, main_v65, main_c_12, main_v66, main_v67, main_c_13, main_v68, main_v69, main_v70, main_v71, main_v72, main_v73, main_v74, main_cst_14, main_v75, main_v76, main_v77, main_v78, main_v79, main_v80, main_v81, main_v82, main_v83, main_v84, main_v85]

set_option maxHeartbeats 4000000 in
theorem writesB_sub : (opsB (F := Ideal)).Forall fun op => op.writes ⊆ (writesB.map (Proc.devRef (τ := τ) .tc)).toFinset := by
  unfold opsB
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer stretch B does not write keeps its contents. -/
theorem keepB (V : Valuation τ sig (Elt Ideal)) {r : Ref sig .tc} (hr : r ∉ writesB) :
    after (opsB (F := Ideal)) V (Proc.devRef .tc r) = V (Proc.devRef .tc r) :=
  after_of_writes_sub _ V writesB_sub hr

set_option maxHeartbeats 4000000 in
theorem stepB_v85 (V : Valuation τ sig (Elt Ideal)) :
    after (opsB (F := Ideal)) V (Proc.devRef .tc main_v85) = gcnTermR (lin (relu (V (Proc.devRef .tc main_v47))) (V (Proc.devRef .tc main_arg5))) (V (Proc.devRef .tc main_v1)) (V (Proc.devRef .tc main_v3)) (V (Proc.devRef .tc main_v10)) (V (Proc.devRef .tc main_arg6)) := by
  unfold opsB
  after_results_simp
  rfl

/-- The buffers stretch C1 writes. -/
noncomputable def writesC1 : List (Ref sig .tc) :=
  [main_call1_cst, main_call1_v0, main_v86, main_v87, main_c_15, main_v88, main_v89, main_c_16, main_v90, main_v91, main_v92, main_v93, main_v94, main_c_17, main_v95, main_v96, main_c_18, main_v97, main_v98, main_v99, main_v100, main_v101, main_v102, main_v103, main_c_19, main_v104, main_v105, main_c_20, main_v106, main_v107, main_v108, main_v109, main_v110, main_v111, main_v112, main_cst_21, main_v113, main_v114, main_v115, main_v116, main_v117, main_v118, main_v119, main_v120, main_v121, main_v122, main_v123]

set_option maxHeartbeats 4000000 in
theorem writesC1_sub : (opsC1 (F := Ideal)).Forall fun op => op.writes ⊆ (writesC1.map (Proc.devRef (τ := τ) .tc)).toFinset := by
  unfold opsC1
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer stretch C1 does not write keeps its contents. -/
theorem keepC1 (V : Valuation τ sig (Elt Ideal)) {r : Ref sig .tc} (hr : r ∉ writesC1) :
    after (opsC1 (F := Ideal)) V (Proc.devRef .tc r) = V (Proc.devRef .tc r) :=
  after_of_writes_sub _ V writesC1_sub hr

set_option maxHeartbeats 4000000 in
theorem stepC1_v123 (V : Valuation τ sig (Elt Ideal)) :
    after (opsC1 (F := Ideal)) V (Proc.devRef .tc main_v123) = gcnTermR (lin (relu (V (Proc.devRef .tc main_v47))) (V (Proc.devRef .tc main_arg7))) (V (Proc.devRef .tc main_v1)) (V (Proc.devRef .tc main_v3)) (V (Proc.devRef .tc main_v10)) (V (Proc.devRef .tc main_arg8)) := by
  unfold opsC1
  after_results_simp
  rfl

/-- The buffers stretch C2 writes. -/
noncomputable def writesC2 : List (Ref sig .tc) :=
  [main_call2_cst, main_call2_v0, main_v124, main_v125, main_c_22, main_v126, main_v127, main_c_23, main_v128, main_v129, main_v130, main_v131, main_v132, main_c_24, main_v133, main_v134, main_c_25, main_v135, main_v136, main_v137, main_v138, main_v139, main_v140, main_v141, main_c_26, main_v142, main_v143, main_c_27, main_v144, main_v145, main_v146, main_v147, main_v148, main_v149, main_v150, main_cst_28, main_v151, main_v152, main_v153, main_v154, main_v155, main_v156, main_v157, main_v158, main_v159, main_v160, main_v161, main_v162]

set_option maxHeartbeats 4000000 in
theorem writesC2_sub : (opsC2 (F := Ideal)).Forall fun op => op.writes ⊆ (writesC2.map (Proc.devRef (τ := τ) .tc)).toFinset := by
  unfold opsC2
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer stretch C2 does not write keeps its contents. -/
theorem keepC2 (V : Valuation τ sig (Elt Ideal)) {r : Ref sig .tc} (hr : r ∉ writesC2) :
    after (opsC2 (F := Ideal)) V (Proc.devRef .tc r) = V (Proc.devRef .tc r) :=
  after_of_writes_sub _ V writesC2_sub hr

set_option maxHeartbeats 4000000 in
theorem stepC2_v162 (V : Valuation τ sig (Elt Ideal)) :
    after (opsC2 (F := Ideal)) V (Proc.devRef .tc main_v162) = addf (V (Proc.devRef .tc main_v123)) (gcnTermR (lin (relu (V (Proc.devRef .tc main_v85))) (V (Proc.devRef .tc main_arg7))) (V (Proc.devRef .tc main_v1)) (V (Proc.devRef .tc main_v3)) (V (Proc.devRef .tc main_v10)) (V (Proc.devRef .tc main_arg8))) := by
  unfold opsC2
  after_results_simp
  rfl

/-- The buffers stretch D1 writes. -/
noncomputable def writesD1 : List (Ref sig .tc) :=
  [main_call3_cst, main_call3_v0, main_v163, main_v164, main_c_29, main_v165, main_v166, main_c_30, main_v167, main_v168, main_v169, main_v170, main_v171, main_c_31, main_v172, main_v173, main_c_32, main_v174, main_v175, main_v176, main_v177, main_v178, main_v179, main_v180, main_c_33, main_v181, main_v182, main_c_34, main_v183, main_v184, main_v185, main_v186, main_v187, main_v188, main_v189, main_cst_35, main_v190, main_v191, main_v192, main_v193, main_v194, main_v195, main_v196, main_v197, main_v198, main_v199, main_v200]

set_option maxHeartbeats 4000000 in
theorem writesD1_sub : (opsD1 (F := Ideal)).Forall fun op => op.writes ⊆ (writesD1.map (Proc.devRef (τ := τ) .tc)).toFinset := by
  unfold opsD1
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer stretch D1 does not write keeps its contents. -/
theorem keepD1 (V : Valuation τ sig (Elt Ideal)) {r : Ref sig .tc} (hr : r ∉ writesD1) :
    after (opsD1 (F := Ideal)) V (Proc.devRef .tc r) = V (Proc.devRef .tc r) :=
  after_of_writes_sub _ V writesD1_sub hr

set_option maxHeartbeats 4000000 in
theorem stepD1_v200 (V : Valuation τ sig (Elt Ideal)) :
    after (opsD1 (F := Ideal)) V (Proc.devRef .tc main_v200) = gcnTermR (lin (relu (V (Proc.devRef .tc main_v47))) (V (Proc.devRef .tc main_arg9))) (V (Proc.devRef .tc main_v1)) (V (Proc.devRef .tc main_v3)) (V (Proc.devRef .tc main_v10)) (V (Proc.devRef .tc main_arg10)) := by
  unfold opsD1
  after_results_simp
  rfl

/-- The buffers stretch D2 writes. -/
noncomputable def writesD2 : List (Ref sig .tc) :=
  [main_call4_cst, main_call4_v0, main_v201, main_v202, main_c_36, main_v203, main_v204, main_c_37, main_v205, main_v206, main_v207, main_v208, main_v209, main_c_38, main_v210, main_v211, main_c_39, main_v212, main_v213, main_v214, main_v215, main_v216, main_v217, main_v218, main_c_40, main_v219, main_v220, main_c_41, main_v221, main_v222, main_v223, main_v224, main_v225, main_v226, main_v227, main_cst_42, main_v228, main_v229, main_v230, main_v231, main_v232, main_v233, main_v234, main_v235, main_v236, main_v237, main_v238, main_v239]

set_option maxHeartbeats 4000000 in
theorem writesD2_sub : (opsD2 (F := Ideal)).Forall fun op => op.writes ⊆ (writesD2.map (Proc.devRef (τ := τ) .tc)).toFinset := by
  unfold opsD2
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer stretch D2 does not write keeps its contents. -/
theorem keepD2 (V : Valuation τ sig (Elt Ideal)) {r : Ref sig .tc} (hr : r ∉ writesD2) :
    after (opsD2 (F := Ideal)) V (Proc.devRef .tc r) = V (Proc.devRef .tc r) :=
  after_of_writes_sub _ V writesD2_sub hr

set_option maxHeartbeats 4000000 in
theorem stepD2_v239 (V : Valuation τ sig (Elt Ideal)) :
    after (opsD2 (F := Ideal)) V (Proc.devRef .tc main_v239) = addf (V (Proc.devRef .tc main_v200)) (gcnTermR (lin (relu (V (Proc.devRef .tc main_v85))) (V (Proc.devRef .tc main_arg9))) (V (Proc.devRef .tc main_v1)) (V (Proc.devRef .tc main_v3)) (V (Proc.devRef .tc main_v10)) (V (Proc.devRef .tc main_arg10))) := by
  unfold opsD2
  after_results_simp
  rfl

/-- The buffers stretch D3 writes. -/
noncomputable def writesD3 : List (Ref sig .tc) :=
  [main_call5_cst, main_call5_v0, main_v240, main_v241, main_c_43, main_v242, main_v243, main_c_44, main_v244, main_v245, main_v246, main_v247, main_v248, main_c_45, main_v249, main_v250, main_c_46, main_v251, main_v252, main_v253, main_v254, main_v255, main_v256, main_v257, main_c_47, main_v258, main_v259, main_c_48, main_v260, main_v261, main_v262, main_v263, main_v264, main_v265, main_v266, main_cst_49, main_v267, main_v268, main_v269, main_v270, main_v271, main_v272, main_v273, main_v274, main_v275, main_v276, main_v277, main_v278]

set_option maxHeartbeats 4000000 in
theorem writesD3_sub : (opsD3 (F := Ideal)).Forall fun op => op.writes ⊆ (writesD3.map (Proc.devRef (τ := τ) .tc)).toFinset := by
  unfold opsD3
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer stretch D3 does not write keeps its contents. -/
theorem keepD3 (V : Valuation τ sig (Elt Ideal)) {r : Ref sig .tc} (hr : r ∉ writesD3) :
    after (opsD3 (F := Ideal)) V (Proc.devRef .tc r) = V (Proc.devRef .tc r) :=
  after_of_writes_sub _ V writesD3_sub hr

set_option maxHeartbeats 4000000 in
theorem stepD3_v278 (V : Valuation τ sig (Elt Ideal)) :
    after (opsD3 (F := Ideal)) V (Proc.devRef .tc main_v278) = addf (V (Proc.devRef .tc main_v239)) (gcnTermR (lin (relu (V (Proc.devRef .tc main_v162))) (V (Proc.devRef .tc main_arg9))) (V (Proc.devRef .tc main_v1)) (V (Proc.devRef .tc main_v3)) (V (Proc.devRef .tc main_v10)) (V (Proc.devRef .tc main_arg10))) := by
  unfold opsD3
  after_results_simp
  rfl

/-- The buffers stretch E writes. -/
noncomputable def writesE : List (Ref sig .tc) :=
  [main_call6_cst, main_call6_v0, main_call6_cst_0, main_call6_v1, main_call6_v2, main_call6_v3, main_call6_v4, main_call6_v5, main_call6_v6, main_call6_cst_1, main_call6_v7, main_call6_v8, main_call6_v9, main_call6_v10, main_v279, main_v280, main_v281, main_v282, main_v283, main_c_50, main_v284, main_v285, main_c_51, main_v286, main_v287, main_v288, main_v289, main_v290]

set_option maxHeartbeats 4000000 in
theorem writesE_sub : (opsE (F := Ideal)).Forall fun op => op.writes ⊆ (writesE.map (Proc.devRef (τ := τ) .tc)).toFinset := by
  unfold opsE
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer stretch E does not write keeps its contents. -/
theorem keepE (V : Valuation τ sig (Elt Ideal)) {r : Ref sig .tc} (hr : r ∉ writesE) :
    after (opsE (F := Ideal)) V (Proc.devRef .tc r) = V (Proc.devRef .tc r) :=
  after_of_writes_sub _ V writesE_sub hr

/-! ## The stretches in a row

What each stretch leaves, as one record per stretch; then the eight records in a row give the result buffer and the thirteen
arguments after the whole line, by rewriting. -/

/-- What stretch A leaves in `V'`, run from contents `V`. -/
structure AfterA (V V' : Valuation τ sig (Elt Ideal)) : Prop where
  v1 : V' (Proc.devRef .tc main_v1) = src (V (Proc.devRef .tc main_arg1))
  v3 : V' (Proc.devRef .tc main_v3) = dst (V (Proc.devRef .tc main_arg1))
  v10 : V' (Proc.devRef .tc main_v10) = dinv (V (Proc.devRef .tc main_arg1))
  v47 : V' (Proc.devRef .tc main_v47) = cell0 (V (Proc.devRef .tc main_arg0)) (V (Proc.devRef .tc main_arg1)) (V (Proc.devRef .tc main_arg3)) (V (Proc.devRef .tc main_arg4))
  arg0 : V' (Proc.devRef .tc main_arg0) = V (Proc.devRef .tc main_arg0)
  arg1 : V' (Proc.devRef .tc main_arg1) = V (Proc.devRef .tc main_arg1)
  arg2 : V' (Proc.devRef .tc main_arg2) = V (Proc.devRef .tc main_arg2)
  arg3 : V' (Proc.devRef .tc main_arg3) = V (Proc.devRef .tc main_arg3)
  arg4 : V' (Proc.devRef .tc main_arg4) = V (Proc.devRef .tc main_arg4)
  arg5 : V' (Proc.devRef .tc main_arg5) = V (Proc.devRef .tc main_arg5)
  arg6 : V' (Proc.devRef .tc main_arg6) = V (Proc.devRef .tc main_arg6)
  arg7 : V' (Proc.devRef .tc main_arg7) = V (Proc.devRef .tc main_arg7)
  arg8 : V' (Proc.devRef .tc main_arg8) = V (Proc.devRef .tc main_arg8)
  arg9 : V' (Proc.devRef .tc main_arg9) = V (Proc.devRef .tc main_arg9)
  arg10 : V' (Proc.devRef .tc main_arg10) = V (Proc.devRef .tc main_arg10)
  arg11 : V' (Proc.devRef .tc main_arg11) = V (Proc.devRef .tc main_arg11)
  arg12 : V' (Proc.devRef .tc main_arg12) = V (Proc.devRef .tc main_arg12)

theorem afterA (V : Valuation τ sig (Elt Ideal)) : AfterA V (after (opsA (F := Ideal)) V) :=
  ⟨stepA_v1 V, stepA_v3 V, stepA_v10 V, stepA_v47 V, keepA V (by decide), keepA V (by decide), keepA V (by decide), keepA V (by decide), keepA V (by decide), keepA V (by decide), keepA V (by decide), keepA V (by decide), keepA V (by decide), keepA V (by decide), keepA V (by decide), keepA V (by decide), keepA V (by decide)⟩

/-- What stretch B leaves in `V'`, run from contents `V`. -/
structure AfterB (V V' : Valuation τ sig (Elt Ideal)) : Prop where
  v85 : V' (Proc.devRef .tc main_v85) = gcnTermR (lin (relu (V (Proc.devRef .tc main_v47))) (V (Proc.devRef .tc main_arg5))) (V (Proc.devRef .tc main_v1)) (V (Proc.devRef .tc main_v3)) (V (Proc.devRef .tc main_v10)) (V (Proc.devRef .tc main_arg6))
  v1 : V' (Proc.devRef .tc main_v1) = V (Proc.devRef .tc main_v1)
  v3 : V' (Proc.devRef .tc main_v3) = V (Proc.devRef .tc main_v3)
  v10 : V' (Proc.devRef .tc main_v10) = V (Proc.devRef .tc main_v10)
  v47 : V' (Proc.devRef .tc main_v47) = V (Proc.devRef .tc main_v47)
  arg0 : V' (Proc.devRef .tc main_arg0) = V (Proc.devRef .tc main_arg0)
  arg1 : V' (Proc.devRef .tc main_arg1) = V (Proc.devRef .tc main_arg1)
  arg2 : V' (Proc.devRef .tc main_arg2) = V (Proc.devRef .tc main_arg2)
  arg3 : V' (Proc.devRef .tc main_arg3) = V (Proc.devRef .tc main_arg3)
  arg4 : V' (Proc.devRef .tc main_arg4) = V (Proc.devRef .tc main_arg4)
  arg5 : V' (Proc.devRef .tc main_arg5) = V (Proc.devRef .tc main_arg5)
  arg6 : V' (Proc.devRef .tc main_arg6) = V (Proc.devRef .tc main_arg6)
  arg7 : V' (Proc.devRef .tc main_arg7) = V (Proc.devRef .tc main_arg7)
  arg8 : V' (Proc.devRef .tc main_arg8) = V (Proc.devRef .tc main_arg8)
  arg9 : V' (Proc.devRef .tc main_arg9) = V (Proc.devRef .tc main_arg9)
  arg10 : V' (Proc.devRef .tc main_arg10) = V (Proc.devRef .tc main_arg10)
  arg11 : V' (Proc.devRef .tc main_arg11) = V (Proc.devRef .tc main_arg11)
  arg12 : V' (Proc.devRef .tc main_arg12) = V (Proc.devRef .tc main_arg12)

theorem afterB (V : Valuation τ sig (Elt Ideal)) : AfterB V (after (opsB (F := Ideal)) V) :=
  ⟨stepB_v85 V, keepB V (by decide), keepB V (by decide), keepB V (by decide), keepB V (by decide), keepB V (by decide), keepB V (by decide), keepB V (by decide), keepB V (by decide), keepB V (by decide), keepB V (by decide), keepB V (by decide), keepB V (by decide), keepB V (by decide), keepB V (by decide), keepB V (by decide), keepB V (by decide), keepB V (by decide)⟩

/-- What stretch C1 leaves in `V'`, run from contents `V`. -/
structure AfterC1 (V V' : Valuation τ sig (Elt Ideal)) : Prop where
  v123 : V' (Proc.devRef .tc main_v123) = gcnTermR (lin (relu (V (Proc.devRef .tc main_v47))) (V (Proc.devRef .tc main_arg7))) (V (Proc.devRef .tc main_v1)) (V (Proc.devRef .tc main_v3)) (V (Proc.devRef .tc main_v10)) (V (Proc.devRef .tc main_arg8))
  v1 : V' (Proc.devRef .tc main_v1) = V (Proc.devRef .tc main_v1)
  v3 : V' (Proc.devRef .tc main_v3) = V (Proc.devRef .tc main_v3)
  v10 : V' (Proc.devRef .tc main_v10) = V (Proc.devRef .tc main_v10)
  v47 : V' (Proc.devRef .tc main_v47) = V (Proc.devRef .tc main_v47)
  v85 : V' (Proc.devRef .tc main_v85) = V (Proc.devRef .tc main_v85)
  arg0 : V' (Proc.devRef .tc main_arg0) = V (Proc.devRef .tc main_arg0)
  arg1 : V' (Proc.devRef .tc main_arg1) = V (Proc.devRef .tc main_arg1)
  arg2 : V' (Proc.devRef .tc main_arg2) = V (Proc.devRef .tc main_arg2)
  arg3 : V' (Proc.devRef .tc main_arg3) = V (Proc.devRef .tc main_arg3)
  arg4 : V' (Proc.devRef .tc main_arg4) = V (Proc.devRef .tc main_arg4)
  arg5 : V' (Proc.devRef .tc main_arg5) = V (Proc.devRef .tc main_arg5)
  arg6 : V' (Proc.devRef .tc main_arg6) = V (Proc.devRef .tc main_arg6)
  arg7 : V' (Proc.devRef .tc main_arg7) = V (Proc.devRef .tc main_arg7)
  arg8 : V' (Proc.devRef .tc main_arg8) = V (Proc.devRef .tc main_arg8)
  arg9 : V' (Proc.devRef .tc main_arg9) = V (Proc.devRef .tc main_arg9)
  arg10 : V' (Proc.devRef .tc main_arg10) = V (Proc.devRef .tc main_arg10)
  arg11 : V' (Proc.devRef .tc main_arg11) = V (Proc.devRef .tc main_arg11)
  arg12 : V' (Proc.devRef .tc main_arg12) = V (Proc.devRef .tc main_arg12)

theorem afterC1 (V : Valuation τ sig (Elt Ideal)) : AfterC1 V (after (opsC1 (F := Ideal)) V) :=
  ⟨stepC1_v123 V, keepC1 V (by decide), keepC1 V (by decide), keepC1 V (by decide), keepC1 V (by decide), keepC1 V (by decide), keepC1 V (by decide), keepC1 V (by decide), keepC1 V (by decide), keepC1 V (by decide), keepC1 V (by decide), keepC1 V (by decide), keepC1 V (by decide), keepC1 V (by decide), keepC1 V (by decide), keepC1 V (by decide), keepC1 V (by decide), keepC1 V (by decide), keepC1 V (by decide)⟩

/-- What stretch C2 leaves in `V'`, run from contents `V`. -/
structure AfterC2 (V V' : Valuation τ sig (Elt Ideal)) : Prop where
  v162 : V' (Proc.devRef .tc main_v162) = addf (V (Proc.devRef .tc main_v123)) (gcnTermR (lin (relu (V (Proc.devRef .tc main_v85))) (V (Proc.devRef .tc main_arg7))) (V (Proc.devRef .tc main_v1)) (V (Proc.devRef .tc main_v3)) (V (Proc.devRef .tc main_v10)) (V (Proc.devRef .tc main_arg8)))
  v1 : V' (Proc.devRef .tc main_v1) = V (Proc.devRef .tc main_v1)
  v3 : V' (Proc.devRef .tc main_v3) = V (Proc.devRef .tc main_v3)
  v10 : V' (Proc.devRef .tc main_v10) = V (Proc.devRef .tc main_v10)
  v47 : V' (Proc.devRef .tc main_v47) = V (Proc.devRef .tc main_v47)
  v85 : V' (Proc.devRef .tc main_v85) = V (Proc.devRef .tc main_v85)
  arg0 : V' (Proc.devRef .tc main_arg0) = V (Proc.devRef .tc main_arg0)
  arg1 : V' (Proc.devRef .tc main_arg1) = V (Proc.devRef .tc main_arg1)
  arg2 : V' (Proc.devRef .tc main_arg2) = V (Proc.devRef .tc main_arg2)
  arg3 : V' (Proc.devRef .tc main_arg3) = V (Proc.devRef .tc main_arg3)
  arg4 : V' (Proc.devRef .tc main_arg4) = V (Proc.devRef .tc main_arg4)
  arg5 : V' (Proc.devRef .tc main_arg5) = V (Proc.devRef .tc main_arg5)
  arg6 : V' (Proc.devRef .tc main_arg6) = V (Proc.devRef .tc main_arg6)
  arg7 : V' (Proc.devRef .tc main_arg7) = V (Proc.devRef .tc main_arg7)
  arg8 : V' (Proc.devRef .tc main_arg8) = V (Proc.devRef .tc main_arg8)
  arg9 : V' (Proc.devRef .tc main_arg9) = V (Proc.devRef .tc main_arg9)
  arg10 : V' (Proc.devRef .tc main_arg10) = V (Proc.devRef .tc main_arg10)
  arg11 : V' (Proc.devRef .tc main_arg11) = V (Proc.devRef .tc main_arg11)
  arg12 : V' (Proc.devRef .tc main_arg12) = V (Proc.devRef .tc main_arg12)

theorem afterC2 (V : Valuation τ sig (Elt Ideal)) : AfterC2 V (after (opsC2 (F := Ideal)) V) :=
  ⟨stepC2_v162 V, keepC2 V (by decide), keepC2 V (by decide), keepC2 V (by decide), keepC2 V (by decide), keepC2 V (by decide), keepC2 V (by decide), keepC2 V (by decide), keepC2 V (by decide), keepC2 V (by decide), keepC2 V (by decide), keepC2 V (by decide), keepC2 V (by decide), keepC2 V (by decide), keepC2 V (by decide), keepC2 V (by decide), keepC2 V (by decide), keepC2 V (by decide), keepC2 V (by decide)⟩

/-- What stretch D1 leaves in `V'`, run from contents `V`. -/
structure AfterD1 (V V' : Valuation τ sig (Elt Ideal)) : Prop where
  v200 : V' (Proc.devRef .tc main_v200) = gcnTermR (lin (relu (V (Proc.devRef .tc main_v47))) (V (Proc.devRef .tc main_arg9))) (V (Proc.devRef .tc main_v1)) (V (Proc.devRef .tc main_v3)) (V (Proc.devRef .tc main_v10)) (V (Proc.devRef .tc main_arg10))
  v1 : V' (Proc.devRef .tc main_v1) = V (Proc.devRef .tc main_v1)
  v3 : V' (Proc.devRef .tc main_v3) = V (Proc.devRef .tc main_v3)
  v10 : V' (Proc.devRef .tc main_v10) = V (Proc.devRef .tc main_v10)
  v85 : V' (Proc.devRef .tc main_v85) = V (Proc.devRef .tc main_v85)
  v162 : V' (Proc.devRef .tc main_v162) = V (Proc.devRef .tc main_v162)
  arg0 : V' (Proc.devRef .tc main_arg0) = V (Proc.devRef .tc main_arg0)
  arg1 : V' (Proc.devRef .tc main_arg1) = V (Proc.devRef .tc main_arg1)
  arg2 : V' (Proc.devRef .tc main_arg2) = V (Proc.devRef .tc main_arg2)
  arg3 : V' (Proc.devRef .tc main_arg3) = V (Proc.devRef .tc main_arg3)
  arg4 : V' (Proc.devRef .tc main_arg4) = V (Proc.devRef .tc main_arg4)
  arg5 : V' (Proc.devRef .tc main_arg5) = V (Proc.devRef .tc main_arg5)
  arg6 : V' (Proc.devRef .tc main_arg6) = V (Proc.devRef .tc main_arg6)
  arg7 : V' (Proc.devRef .tc main_arg7) = V (Proc.devRef .tc main_arg7)
  arg8 : V' (Proc.devRef .tc main_arg8) = V (Proc.devRef .tc main_arg8)
  arg9 : V' (Proc.devRef .tc main_arg9) = V (Proc.devRef .tc main_arg9)
  arg10 : V' (Proc.devRef .tc main_arg10) = V (Proc.devRef .tc main_arg10)
  arg11 : V' (Proc.devRef .tc main_arg11) = V (Proc.devRef .tc main_arg11)
  arg12 : V' (Proc.devRef .tc main_arg12) = V (Proc.devRef .tc main_arg12)

theorem afterD1 (V : Valuation τ sig (Elt Ideal)) : AfterD1 V (after (opsD1 (F := Ideal)) V) :=
  ⟨stepD1_v200 V, keepD1 V (by decide), keepD1 V (by decide), keepD1 V (by decide), keepD1 V (by decide), keepD1 V (by decide), keepD1 V (by decide), keepD1 V (by decide), keepD1 V (by decide), keepD1 V (by decide), keepD1 V (by decide), keepD1 V (by decide), keepD1 V (by decide), keepD1 V (by decide), keepD1 V (by decide), keepD1 V (by decide), keepD1 V (by decide), keepD1 V (by decide), keepD1 V (by decide)⟩

/-- What stretch D2 leaves in `V'`, run from contents `V`. -/
structure AfterD2 (V V' : Valuation τ sig (Elt Ideal)) : Prop where
  v239 : V' (Proc.devRef .tc main_v239) = addf (V (Proc.devRef .tc main_v200)) (gcnTermR (lin (relu (V (Proc.devRef .tc main_v85))) (V (Proc.devRef .tc main_arg9))) (V (Proc.devRef .tc main_v1)) (V (Proc.devRef .tc main_v3)) (V (Proc.devRef .tc main_v10)) (V (Proc.devRef .tc main_arg10)))
  v1 : V' (Proc.devRef .tc main_v1) = V (Proc.devRef .tc main_v1)
  v3 : V' (Proc.devRef .tc main_v3) = V (Proc.devRef .tc main_v3)
  v10 : V' (Proc.devRef .tc main_v10) = V (Proc.devRef .tc main_v10)
  v162 : V' (Proc.devRef .tc main_v162) = V (Proc.devRef .tc main_v162)
  arg0 : V' (Proc.devRef .tc main_arg0) = V (Proc.devRef .tc main_arg0)
  arg1 : V' (Proc.devRef .tc main_arg1) = V (Proc.devRef .tc main_arg1)
  arg2 : V' (Proc.devRef .tc main_arg2) = V (Proc.devRef .tc main_arg2)
  arg3 : V' (Proc.devRef .tc main_arg3) = V (Proc.devRef .tc main_arg3)
  arg4 : V' (Proc.devRef .tc main_arg4) = V (Proc.devRef .tc main_arg4)
  arg5 : V' (Proc.devRef .tc main_arg5) = V (Proc.devRef .tc main_arg5)
  arg6 : V' (Proc.devRef .tc main_arg6) = V (Proc.devRef .tc main_arg6)
  arg7 : V' (Proc.devRef .tc main_arg7) = V (Proc.devRef .tc main_arg7)
  arg8 : V' (Proc.devRef .tc main_arg8) = V (Proc.devRef .tc main_arg8)
  arg9 : V' (Proc.devRef .tc main_arg9) = V (Proc.devRef .tc main_arg9)
  arg10 : V' (Proc.devRef .tc main_arg10) = V (Proc.devRef .tc main_arg10)
  arg11 : V' (Proc.devRef .tc main_arg11) = V (Proc.devRef .tc main_arg11)
  arg12 : V' (Proc.devRef .tc main_arg12) = V (Proc.devRef .tc main_arg12)

theorem afterD2 (V : Valuation τ sig (Elt Ideal)) : AfterD2 V (after (opsD2 (F := Ideal)) V) :=
  ⟨stepD2_v239 V, keepD2 V (by decide), keepD2 V (by decide), keepD2 V (by decide), keepD2 V (by decide), keepD2 V (by decide), keepD2 V (by decide), keepD2 V (by decide), keepD2 V (by decide), keepD2 V (by decide), keepD2 V (by decide), keepD2 V (by decide), keepD2 V (by decide), keepD2 V (by decide), keepD2 V (by decide), keepD2 V (by decide), keepD2 V (by decide), keepD2 V (by decide)⟩

/-- What stretch D3 leaves in `V'`, run from contents `V`. -/
structure AfterD3 (V V' : Valuation τ sig (Elt Ideal)) : Prop where
  v278 : V' (Proc.devRef .tc main_v278) = addf (V (Proc.devRef .tc main_v239)) (gcnTermR (lin (relu (V (Proc.devRef .tc main_v162))) (V (Proc.devRef .tc main_arg9))) (V (Proc.devRef .tc main_v1)) (V (Proc.devRef .tc main_v3)) (V (Proc.devRef .tc main_v10)) (V (Proc.devRef .tc main_arg10)))
  arg0 : V' (Proc.devRef .tc main_arg0) = V (Proc.devRef .tc main_arg0)
  arg1 : V' (Proc.devRef .tc main_arg1) = V (Proc.devRef .tc main_arg1)
  arg2 : V' (Proc.devRef .tc main_arg2) = V (Proc.devRef .tc main_arg2)
  arg3 : V' (Proc.devRef .tc main_arg3) = V (Proc.devRef .tc main_arg3)
  arg4 : V' (Proc.devRef .tc main_arg4) = V (Proc.devRef .tc main_arg4)
  arg5 : V' (Proc.devRef .tc main_arg5) = V (Proc.devRef .tc main_arg5)
  arg6 : V' (Proc.devRef .tc main_arg6) = V (Proc.devRef .tc main_arg6)
  arg7 : V' (Proc.devRef .tc main_arg7) = V (Proc.devRef .tc main_arg7)
  arg8 : V' (Proc.devRef .tc main_arg8) = V (Proc.devRef .tc main_arg8)
  arg9 : V' (Proc.devRef .tc main_arg9) = V (Proc.devRef .tc main_arg9)
  arg10 : V' (Proc.devRef .tc main_arg10) = V (Proc.devRef .tc main_arg10)
  arg11 : V' (Proc.devRef .tc main_arg11) = V (Proc.devRef .tc main_arg11)
  arg12 : V' (Proc.devRef .tc main_arg12) = V (Proc.devRef .tc main_arg12)

theorem afterD3 (V : Valuation τ sig (Elt Ideal)) : AfterD3 V (after (opsD3 (F := Ideal)) V) :=
  ⟨stepD3_v278 V, keepD3 V (by decide), keepD3 V (by decide), keepD3 V (by decide), keepD3 V (by decide), keepD3 V (by decide), keepD3 V (by decide), keepD3 V (by decide), keepD3 V (by decide), keepD3 V (by decide), keepD3 V (by decide), keepD3 V (by decide), keepD3 V (by decide), keepD3 V (by decide)⟩

/-- What stretch E leaves in `V'`, run from contents `V`. -/
structure AfterE (V V' : Valuation τ sig (Elt Ideal)) : Prop where
  v290 : V' (Proc.devRef .tc main_v290) = rowGather (head (logSoftmax (V (Proc.devRef .tc main_v278))) (V (Proc.devRef .tc main_arg11)) (V (Proc.devRef .tc main_arg12))) (V (Proc.devRef .tc main_arg2))
  arg0 : V' (Proc.devRef .tc main_arg0) = V (Proc.devRef .tc main_arg0)
  arg1 : V' (Proc.devRef .tc main_arg1) = V (Proc.devRef .tc main_arg1)
  arg2 : V' (Proc.devRef .tc main_arg2) = V (Proc.devRef .tc main_arg2)
  arg3 : V' (Proc.devRef .tc main_arg3) = V (Proc.devRef .tc main_arg3)
  arg4 : V' (Proc.devRef .tc main_arg4) = V (Proc.devRef .tc main_arg4)
  arg5 : V' (Proc.devRef .tc main_arg5) = V (Proc.devRef .tc main_arg5)
  arg6 : V' (Proc.devRef .tc main_arg6) = V (Proc.devRef .tc main_arg6)
  arg7 : V' (Proc.devRef .tc main_arg7) = V (Proc.devRef .tc main_arg7)
  arg8 : V' (Proc.devRef .tc main_arg8) = V (Proc.devRef .tc main_arg8)
  arg9 : V' (Proc.devRef .tc main_arg9) = V (Proc.devRef .tc main_arg9)
  arg10 : V' (Proc.devRef .tc main_arg10) = V (Proc.devRef .tc main_arg10)
  arg11 : V' (Proc.devRef .tc main_arg11) = V (Proc.devRef .tc main_arg11)
  arg12 : V' (Proc.devRef .tc main_arg12) = V (Proc.devRef .tc main_arg12)

theorem afterE (V : Valuation τ sig (Elt Ideal)) : AfterE V (after (opsE (F := Ideal)) V) :=
  ⟨stepE_v290 V, keepE V (by decide), keepE V (by decide), keepE V (by decide), keepE V (by decide), keepE V (by decide), keepE V (by decide), keepE V (by decide), keepE V (by decide), keepE V (by decide), keepE V (by decide), keepE V (by decide), keepE V (by decide), keepE V (by decide)⟩

section Row
variable {W VA VB VC1 VC2 VD1 VD2 VD3 VE : Valuation τ sig (Elt Ideal)}

/-- The result buffer after the eight stretches in a row. -/
theorem row_result (hA : AfterA W VA) (hB : AfterB VA VB) (hC1 : AfterC1 VB VC1) (hC2 : AfterC2 VC1 VC2) (hD1 : AfterD1 VC2 VD1) (hD2 : AfterD2 VD1 VD2) (hD3 : AfterD3 VD2 VD3) (hE : AfterE VD3 VE) :
    VE (Proc.devRef .tc main_v290) = result (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  simp only [hA.v1, hA.v3, hA.v10, hA.v47, hA.arg0, hA.arg1, hA.arg2, hA.arg3, hA.arg4, hA.arg5, hA.arg6, hA.arg7, hA.arg8, hA.arg9, hA.arg10, hA.arg11, hA.arg12, hB.v85, hB.v1, hB.v3, hB.v10, hB.v47, hB.arg0, hB.arg1, hB.arg2, hB.arg3, hB.arg4, hB.arg5, hB.arg6, hB.arg7, hB.arg8, hB.arg9, hB.arg10, hB.arg11, hB.arg12, hC1.v123, hC1.v1, hC1.v3, hC1.v10, hC1.v47, hC1.v85, hC1.arg0, hC1.arg1, hC1.arg2, hC1.arg3, hC1.arg4, hC1.arg5, hC1.arg6, hC1.arg7, hC1.arg8, hC1.arg9, hC1.arg10, hC1.arg11, hC1.arg12, hC2.v162, hC2.v1, hC2.v3, hC2.v10, hC2.v47, hC2.v85, hC2.arg0, hC2.arg1, hC2.arg2, hC2.arg3, hC2.arg4, hC2.arg5, hC2.arg6, hC2.arg7, hC2.arg8, hC2.arg9, hC2.arg10, hC2.arg11, hC2.arg12, hD1.v200, hD1.v1, hD1.v3, hD1.v10, hD1.v85, hD1.v162, hD1.arg0, hD1.arg1, hD1.arg2, hD1.arg3, hD1.arg4, hD1.arg5, hD1.arg6, hD1.arg7, hD1.arg8, hD1.arg9, hD1.arg10, hD1.arg11, hD1.arg12, hD2.v239, hD2.v1, hD2.v3, hD2.v10, hD2.v162, hD2.arg0, hD2.arg1, hD2.arg2, hD2.arg3, hD2.arg4, hD2.arg5, hD2.arg6, hD2.arg7, hD2.arg8, hD2.arg9, hD2.arg10, hD2.arg11, hD2.arg12, hD3.v278, hD3.arg0, hD3.arg1, hD3.arg2, hD3.arg3, hD3.arg4, hD3.arg5, hD3.arg6, hD3.arg7, hD3.arg8, hD3.arg9, hD3.arg10, hD3.arg11, hD3.arg12, hE.v290, hE.arg0, hE.arg1, hE.arg2, hE.arg3, hE.arg4, hE.arg5, hE.arg6, hE.arg7, hE.arg8, hE.arg9, hE.arg10, hE.arg11, hE.arg12, gcnTermR_eq]
  rfl

/-- An argument buffer after the eight stretches in a row is as it was. -/
theorem row_args (hA : AfterA W VA) (hB : AfterB VA VB) (hC1 : AfterC1 VB VC1) (hC2 : AfterC2 VC1 VC2) (hD1 : AfterD1 VC2 VD1) (hD2 : AfterD2 VD1 VD2) (hD3 : AfterD3 VD2 VD3) (hE : AfterE VD3 VE) :
    VE (Proc.devRef .tc main_arg0) = W (Proc.devRef .tc main_arg0) ∧ VE (Proc.devRef .tc main_arg1) = W (Proc.devRef .tc main_arg1) ∧ VE (Proc.devRef .tc main_arg2) = W (Proc.devRef .tc main_arg2) ∧ VE (Proc.devRef .tc main_arg3) = W (Proc.devRef .tc main_arg3) ∧ VE (Proc.devRef .tc main_arg4) = W (Proc.devRef .tc main_arg4) ∧ VE (Proc.devRef .tc main_arg5) = W (Proc.devRef .tc main_arg5) ∧ VE (Proc.devRef .tc main_arg6) = W (Proc.devRef .tc main_arg6) ∧ VE (Proc.devRef .tc main_arg7) = W (Proc.devRef .tc main_arg7) ∧ VE (Proc.devRef .tc main_arg8) = W (Proc.devRef .tc main_arg8) ∧ VE (Proc.devRef .tc main_arg9) = W (Proc.devRef .tc main_arg9) ∧ VE (Proc.devRef .tc main_arg10) = W (Proc.devRef .tc main_arg10) ∧ VE (Proc.devRef .tc main_arg11) = W (Proc.devRef .tc main_arg11) ∧ VE (Proc.devRef .tc main_arg12) = W (Proc.devRef .tc main_arg12) := by
  refine ⟨?_, ?_, ?_, ?_, ?_, ?_, ?_, ?_, ?_, ?_, ?_, ?_, ?_⟩ <;> simp only [hA.arg0, hA.arg1, hA.arg2, hA.arg3, hA.arg4, hA.arg5, hA.arg6, hA.arg7, hA.arg8, hA.arg9, hA.arg10, hA.arg11, hA.arg12, hB.arg0, hB.arg1, hB.arg2, hB.arg3, hB.arg4, hB.arg5, hB.arg6, hB.arg7, hB.arg8, hB.arg9, hB.arg10, hB.arg11, hB.arg12, hC1.arg0, hC1.arg1, hC1.arg2, hC1.arg3, hC1.arg4, hC1.arg5, hC1.arg6, hC1.arg7, hC1.arg8, hC1.arg9, hC1.arg10, hC1.arg11, hC1.arg12, hC2.arg0, hC2.arg1, hC2.arg2, hC2.arg3, hC2.arg4, hC2.arg5, hC2.arg6, hC2.arg7, hC2.arg8, hC2.arg9, hC2.arg10, hC2.arg11, hC2.arg12, hD1.arg0, hD1.arg1, hD1.arg2, hD1.arg3, hD1.arg4, hD1.arg5, hD1.arg6, hD1.arg7, hD1.arg8, hD1.arg9, hD1.arg10, hD1.arg11, hD1.arg12, hD2.arg0, hD2.arg1, hD2.arg2, hD2.arg3, hD2.arg4, hD2.arg5, hD2.arg6, hD2.arg7, hD2.arg8, hD2.arg9, hD2.arg10, hD2.arg11, hD2.arg12, hD3.arg0, hD3.arg1, hD3.arg2, hD3.arg3, hD3.arg4, hD3.arg5, hD3.arg6, hD3.arg7, hD3.arg8, hD3.arg9, hD3.arg10, hD3.arg11, hD3.arg12, hE.arg0, hE.arg1, hE.arg2, hE.arg3, hE.arg4, hE.arg5, hE.arg6, hE.arg7, hE.arg8, hE.arg9, hE.arg10, hE.arg11, hE.arg12]
end Row

/-! ## The whole line -/

/-- After the whole line, from contents `W`: the result buffer. -/
theorem after_result (W : Valuation τ sig (Elt Ideal)) :
    after (ops (F := Ideal)) W (Proc.devRef .tc main_v290) = result (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  rw [ops_cut]
  simp only [after_append]
  exact row_result (afterA _) (afterB _) (afterC1 _) (afterC2 _) (afterD1 _) (afterD2 _) (afterD3 _) (afterE _)

/-- After the whole line, from contents `W`: the arguments. -/
theorem after_args (W : Valuation τ sig (Elt Ideal)) :
    after (ops (F := Ideal)) W (Proc.devRef .tc main_arg0) = W (Proc.devRef .tc main_arg0) ∧ after (ops (F := Ideal)) W (Proc.devRef .tc main_arg1) = W (Proc.devRef .tc main_arg1) ∧ after (ops (F := Ideal)) W (Proc.devRef .tc main_arg2) = W (Proc.devRef .tc main_arg2) ∧ after (ops (F := Ideal)) W (Proc.devRef .tc main_arg3) = W (Proc.devRef .tc main_arg3) ∧ after (ops (F := Ideal)) W (Proc.devRef .tc main_arg4) = W (Proc.devRef .tc main_arg4) ∧ after (ops (F := Ideal)) W (Proc.devRef .tc main_arg5) = W (Proc.devRef .tc main_arg5) ∧ after (ops (F := Ideal)) W (Proc.devRef .tc main_arg6) = W (Proc.devRef .tc main_arg6) ∧ after (ops (F := Ideal)) W (Proc.devRef .tc main_arg7) = W (Proc.devRef .tc main_arg7) ∧ after (ops (F := Ideal)) W (Proc.devRef .tc main_arg8) = W (Proc.devRef .tc main_arg8) ∧ after (ops (F := Ideal)) W (Proc.devRef .tc main_arg9) = W (Proc.devRef .tc main_arg9) ∧ after (ops (F := Ideal)) W (Proc.devRef .tc main_arg10) = W (Proc.devRef .tc main_arg10) ∧ after (ops (F := Ideal)) W (Proc.devRef .tc main_arg11) = W (Proc.devRef .tc main_arg11) ∧ after (ops (F := Ideal)) W (Proc.devRef .tc main_arg12) = W (Proc.devRef .tc main_arg12) := by
  rw [ops_cut]
  simp only [after_append]
  exact row_args (afterA _) (afterB _) (afterC1 _) (afterC2 _) (afterD1 _) (afterD2 _) (afterD3 _) (afterE _)

/-- The reference's run: on every device, from any launch memory with zero counters, every weakly fair execution
    terminates with the result array at `Cert.RefStages.result` of the thirteen launch arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v290) = result
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c => ⟨(h c main_v290).trans (after_result (launchContents m c)),
      (h c main_arg0).trans (after_args (launchContents m c)).1,
      (h c main_arg1).trans (after_args (launchContents m c)).2.1,
      (h c main_arg2).trans (after_args (launchContents m c)).2.2.1,
      (h c main_arg3).trans (after_args (launchContents m c)).2.2.2.1,
      (h c main_arg4).trans (after_args (launchContents m c)).2.2.2.2.1,
      (h c main_arg5).trans (after_args (launchContents m c)).2.2.2.2.2.1,
      (h c main_arg6).trans (after_args (launchContents m c)).2.2.2.2.2.2.1,
      (h c main_arg7).trans (after_args (launchContents m c)).2.2.2.2.2.2.2.1,
      (h c main_arg8).trans (after_args (launchContents m c)).2.2.2.2.2.2.2.2.1,
      (h c main_arg9).trans (after_args (launchContents m c)).2.2.2.2.2.2.2.2.2.1,
      (h c main_arg10).trans (after_args (launchContents m c)).2.2.2.2.2.2.2.2.2.2.1,
      (h c main_arg11).trans (after_args (launchContents m c)).2.2.2.2.2.2.2.2.2.2.2.1,
      (h c main_arg12).trans (after_args (launchContents m c)).2.2.2.2.2.2.2.2.2.2.2.2⟩)
    (run_seq scopedRefs_eq scopedSems_eq defs main (fun _ => ops) main_eq (fun _ => ops_sub) m ρ)

/-- The reference's frame: it terminates on every device with its arguments unchanged. -/
theorem frame : Cert.frame_ReferenceIdeal :=
  fun m ρ _ => (θ_run Cert.ReferenceIdeal.defs _ _).mono (fun _ h c => (h c).2) (run m ρ)

end Cert.RefRunStages

end
-- ==== Proof.lean ====
/- The claim of this certificate: the twelve-region graph-convolution program, its idealization and its reference.
   The three frames: the two kernel programs' through one record per kernel region over the chain of buffer contents
   between the items of the main function; the reference's from its run. The idealization rewrote nothing, so it preserves
   the program trivially. At the ideal instance the two programs' results agree: stage by stage the kernel's stacked
   gather / scatter-add is the reference's per-term one, its combine is the sum of the reference's terms (addition on the
   extended reals is commutative and associative, and K times a bias is the bias added K times), and its padded head agrees
   with the reference's on the first forty columns; no finiteness of the inputs is used. -/
import proofs.«135915_j24266565222462_2_alg».proof.Defs
import proofs.«135915_j24266565222462_2_alg».proof.Proof.Gen.Kernel
import proofs.«135915_j24266565222462_2_alg».proof.Proof.Gen.KernelIdeal
import proofs.«135915_j24266565222462_2_alg».proof.Proof.Gen.ReferenceIdeal
import proofs.«135915_j24266565222462_2_alg».proof.Proof.Gen.Pre_finite_inputs
import proofs.«135915_j24266565222462_2_alg».proof.Proof.K.Frame
import proofs.«135915_j24266565222462_2_alg».proof.Proof.KI.Frame
import proofs.«135915_j24266565222462_2_alg».proof.Proof.KI.RunValue
import proofs.«135915_j24266565222462_2_alg».proof.Proof.KI.Stage4
import proofs.«135915_j24266565222462_2_alg».proof.Proof.V.RefRunStages
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Hand.frame m ρ

theorem frame_pi : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  Cert.RefRunStages.frame

theorem preserves : Cert.preserves_Kernel_KernelIdeal := trivial

set_option maxHeartbeats 8000000 in
/-- Both programs run; the kernel's result is the last boundary's contents of its result buffer, which is the reference's
    composition of stages at the kernel's launch arrays; the reference's run ends at the same composition at its own
    launch arrays, which are the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W23 m c Cert.KernelIdeal.main_v124, Cert.KernelIdeal.Hand.run_value m ρ, ?_⟩
  refine (θ_run Cert.ReferenceIdeal.defs _ _).mono (fun r h c => ⟨(h c).1.trans ?_, (h c).2⟩) (Cert.RefRunStages.run m' ρ')
  obtain ⟨h0, h1, h2, h3, h4, h5, h6, h7, h8, h9, h10, h11, h12⟩ := hagree c
  rw [h0, h1, h2, h3, h4, h5, h6, h7, h8, h9, h10, h11, h12]
  exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
